-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S681472x256 : Shape := ⟨2, ![681472, 256]⟩
abbrev S619520 : Shape := ⟨1, ![619520]⟩
abbrev S61952 : Shape := ⟨1, ![61952]⟩
abbrev S56320 : Shape := ⟨1, ![56320]⟩
abbrev S5632 : Shape := ⟨1, ![5632]⟩
abbrev S5120 : Shape := ⟨1, ![5120]⟩
abbrev S512 : Shape := ⟨1, ![512]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S681472x256 : S_.BroadcastsInDim S681472x256 (![] : Fin 0 → Fin S681472x256.rank)
  reducesTo_S681472x256_S_d0_1 : S681472x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part5 {F : FTy → Type} [FloatOps F] (main_v83 : IVec S_ 1) (main_v84 : FVec F S47 .f32) (main_cst_32 : FVec F S_ .f32) : IVec S_ 1 :=
  let main_v85 : FVec F S47 .f32 := broadcastInDim S47 ![] bcast_S_S47 main_cst_32
  let main_v86 : IVec S47 1 := cmpf .olt main_v84 main_v85
  let main_c_33 : IVec S_ 1 := constantI S_ 1 1#1
  let main_v87 : IVec S_ 1 := (fun x v => Host.reduce IntOp.andi x v reducesTo_S47_S_d0 h_S_) main_v86 main_c_33
  let main_v88 : IVec S_ 1 := andi main_v83 main_v87
  main_v88

def fn_part4 {F : FTy → Type} [FloatOps F] (main_arg23 : FVec F S256 .f32) (main_arg24 : FVec F S256 .f32) (main_arg25 : FVec F S256x47 .f32) (main_arg26 : FVec F S47 .f32) (main_v63 : IVec S_ 1) (main_v67 : IVec S_ 1) : IVec S_ 1 :=
  let main_v68 : IVec S_ 1 := andi main_v63 main_v67
  let main_v69 : FVec F S256 .f32 := Host.absf main_arg23
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg24
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x47 .f32 := Host.absf main_arg25
  let main_cst_30 : FVec F S_ .f32 := constant S_ .f32 0x7F800000#32
  let main_v80 : FVec F S256x47 .f32 := broadcastInDim S256x47 ![] bcast_S_S256x47 main_cst_30
  let main_v81 : IVec S256x47 1 := cmpf .olt main_v79 main_v80
  let main_c_31 : IVec S_ 1 := constantI S_ 1 1#1
  let main_v82 : IVec S_ 1 := (fun x v => Host.reduce IntOp.andi x v reducesTo_S256x47_S_d0_1 h_S_) main_v81 main_c_31
  let main_v83 : IVec S_ 1 := andi main_v78 main_v82
  let main_v84 : FVec F S47 .f32 := Host.absf main_arg26
  let main_cst_32 : FVec F S_ .f32 := constant S_ .f32 0x7F800000#32
  fn_part5 (F := F) main_v83 main_v84 main_cst_32

def fn_part3 {F : FTy → Type} [FloatOps F] (main_arg20 : FVec F S256x256 .f32) (main_arg21 : FVec F S256x256 .f32) (main_arg22 : FVec F S256 .f32) (main_arg23 : FVec F S256 .f32) (main_arg24 : FVec F S256 .f32) (main_arg25 : FVec F S256x47 .f32) (main_arg26 : FVec F S47 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg20
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg21
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg22
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg23 main_arg24 main_arg25 main_arg26 main_v63 main_v67

def fn_part2 {F : FTy → Type} [FloatOps F] (main_arg16 : FVec F S256x256 .f32) (main_arg17 : FVec F S256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256 .f32) (main_arg25 : FVec F S256x47 .f32) (main_arg26 : FVec F S47 .f32) (main_v33 : IVec S_ 1) : IVec S_ 1 :=
  let main_v34 : FVec F S256x256 .f32 := Host.absf main_arg16
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg17
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg18
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg19
  let main_cst_18 : FVec F S_ .f32 := constant S_ .f32 0x7F800000#32
  let main_v50 : FVec F S256 .f32 := broadcastInDim S256 ![] bcast_S_S256 main_cst_18
  fn_part3 (F := F) main_arg20 main_arg21 main_arg22 main_arg23 main_arg24 main_arg25 main_arg26 main_v48 main_v49 main_v50

def fn_part1 {F : FTy → Type} [FloatOps F] (main_arg13 : FVec F S256 .f32) (main_arg14 : FVec F S256 .f32) (main_arg15 : FVec F S256x256 .f32) (main_arg16 : FVec F S256x256 .f32) (main_arg17 : FVec F S256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256 .f32) (main_arg25 : FVec F S256x47 .f32) (main_arg26 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg13
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg14
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg15
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg16 main_arg17 main_arg18 main_arg19 main_arg20 main_arg21 main_arg22 main_arg23 main_arg24 main_arg25 main_arg26 main_v33

def fn {F : FTy → Type} [FloatOps F] (main_arg0 : FVec F S681472x256 .f32) (main_arg1 : IVec S619520 32) (main_arg2 : IVec S619520 32) (main_arg3 : IVec S61952 32) (main_arg4 : IVec S56320 32) (main_arg5 : IVec S56320 32) (main_arg6 : IVec S5632 32) (main_arg7 : IVec S5120 32) (main_arg8 : IVec S5120 32) (main_arg9 : IVec S512 32) (main_arg10 : FVec F S256x256 .f32) (main_arg11 : FVec F S256x256 .f32) (main_arg12 : FVec F S256 .f32) (main_arg13 : FVec F S256 .f32) (main_arg14 : FVec F S256 .f32) (main_arg15 : FVec F S256x256 .f32) (main_arg16 : FVec F S256x256 .f32) (main_arg17 : FVec F S256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256 .f32) (main_arg25 : FVec F S256x47 .f32) (main_arg26 : FVec F S47 .f32) : IVec S_ 1 :=
  let main_v0 : FVec F S681472x256 .f32 := Host.absf main_arg0
  let main_cst : FVec F S_ .f32 := constant S_ .f32 0x7F800000#32
  let main_v1 : FVec F S681472x256 .f32 := broadcastInDim S681472x256 ![] bcast_S_S681472x256 main_cst
  let main_v2 : IVec S681472x256 1 := cmpf .olt main_v0 main_v1
  let main_c : IVec S_ 1 := constantI S_ 1 1#1
  let main_v3 : IVec S_ 1 := (fun x v => Host.reduce IntOp.andi x v reducesTo_S681472x256_S_d0_1 h_S_) main_v2 main_c
  let main_v4 : FVec F S256x256 .f32 := Host.absf main_arg10
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg11
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg12
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg13 main_arg14 main_arg15 main_arg16 main_arg17 main_arg18 main_arg19 main_arg20 main_arg21 main_arg22 main_arg23 main_arg24 main_arg25 main_arg26 main_v13 main_v16
-- ==== Kernel.lean ====
abbrev S681472x256 : Shape := ⟨2, ![681472, 256]⟩
abbrev S619520 : Shape := ⟨1, ![619520]⟩
abbrev S61952 : Shape := ⟨1, ![61952]⟩
abbrev S56320 : Shape := ⟨1, ![56320]⟩
abbrev S5632 : Shape := ⟨1, ![5632]⟩
abbrev S5120 : Shape := ⟨1, ![5120]⟩
abbrev S512 : Shape := ⟨1, ![512]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩
abbrev S619520x1 : Shape := ⟨2, ![619520, 1]⟩
abbrev S619520x256 : Shape := ⟨2, ![619520, 256]⟩
abbrev S61952x256 : Shape := ⟨2, ![61952, 256]⟩
abbrev S61952x1 : Shape := ⟨2, ![61952, 1]⟩
abbrev S1x256 : Shape := ⟨2, ![1, 256]⟩
abbrev S512x256 : Shape := ⟨2, ![512, 256]⟩
abbrev S56320x1 : Shape := ⟨2, ![56320, 1]⟩
abbrev S56320x256 : Shape := ⟨2, ![56320, 256]⟩
abbrev S5632x256 : Shape := ⟨2, ![5632, 256]⟩
abbrev S5632x1 : Shape := ⟨2, ![5632, 1]⟩
abbrev S5120x1 : Shape := ⟨2, ![5120, 1]⟩
abbrev S5120x256 : Shape := ⟨2, ![5120, 256]⟩
abbrev S512x1 : Shape := ⟨2, ![512, 1]⟩
abbrev S1x47 : Shape := ⟨2, ![1, 47]⟩
abbrev S512x47 : Shape := ⟨2, ![512, 47]⟩

abbrev nBuf : Space → Nat
  | .hbm => 176
  | .vmem => 56
  | .smem => 0
  | _ => 0

abbrev hbmTy0_0 (i : Nat) : BufTy := match i % 128 with
  | 0 => ⟨S681472x256, .f32⟩
  | 1 => ⟨S619520, .i32⟩
  | 2 => ⟨S619520, .i32⟩
  | 3 => ⟨S61952, .i32⟩
  | 4 => ⟨S56320, .i32⟩
  | 5 => ⟨S56320, .i32⟩
  | 6 => ⟨S5632, .i32⟩
  | 7 => ⟨S5120, .i32⟩
  | 8 => ⟨S5120, .i32⟩
  | 9 => ⟨S512, .i32⟩
  | 10 => ⟨S256x256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256x256, .f32⟩
  | 22 => ⟨S256, .f32⟩
  | 23 => ⟨S256, .f32⟩
  | 24 => ⟨S256, .f32⟩
  | 25 => ⟨S256x47, .f32⟩
  | 26 => ⟨S47, .f32⟩
  | 27 => ⟨S_, .i32⟩
  | 28 => ⟨S619520, .i32⟩
  | 29 => ⟨S619520, .i1⟩
  | 30 => ⟨S_, .i32⟩
  | 31 => ⟨S619520, .i32⟩
  | 32 => ⟨S619520, .i32⟩
  | 33 => ⟨S619520, .i32⟩
  | 34 => ⟨S619520x1, .i32⟩
  | 35 => ⟨S619520x256, .f32⟩
  | 36 => ⟨S_, .f32⟩
  | 37 => ⟨S61952x256, .f32⟩
  | 38 => ⟨S619520x1, .i32⟩
  | 39 => ⟨S61952x256, .f32⟩
  | 40 => ⟨S_, .f32⟩
  | 41 => ⟨S619520, .f32⟩
  | 42 => ⟨S_, .f32⟩
  | 43 => ⟨S61952, .f32⟩
  | 44 => ⟨S619520x1, .i32⟩
  | 45 => ⟨S61952, .f32⟩
  | 46 => ⟨S_, .f32⟩
  | 47 => ⟨S61952, .f32⟩
  | 48 => ⟨S61952, .f32⟩
  | 49 => ⟨S61952x1, .f32⟩
  | 50 => ⟨S61952x256, .f32⟩
  | 51 => ⟨S61952x256, .f32⟩
  | 52 => ⟨S_, .i32⟩
  | 53 => ⟨S61952, .i32⟩
  | 54 => ⟨S61952, .i1⟩
  | 55 => ⟨S_, .i32⟩
  | 56 => ⟨S61952, .i32⟩
  | 57 => ⟨S61952, .i32⟩
  | 58 => ⟨S61952, .i32⟩
  | 59 => ⟨S61952x1, .i32⟩
  | 60 => ⟨S61952x256, .f32⟩
  | 61 => ⟨S1x256, .f32⟩
  | 62 => ⟨S61952x256, .f32⟩
  | 63 => ⟨S1x256, .f32⟩
  | 64 => ⟨S1x256, .f32⟩
  | 65 => ⟨S_, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S61952x256, .f32⟩
  | 76 => ⟨S_, .i32⟩
  | 77 => ⟨S56320, .i32⟩
  | 78 => ⟨S56320, .i1⟩
  | 79 => ⟨S_, .i32⟩
  | 80 => ⟨S56320, .i32⟩
  | 81 => ⟨S56320, .i32⟩
  | 82 => ⟨S56320, .i32⟩
  | 83 => ⟨S56320x1, .i32⟩
  | 84 => ⟨S56320x256, .f32⟩
  | 85 => ⟨S_, .f32⟩
  | 86 => ⟨S5632x256, .f32⟩
  | 87 => ⟨S56320x1, .i32⟩
  | 88 => ⟨S5632x256, .f32⟩
  | 89 => ⟨S_, .f32⟩
  | 90 => ⟨S56320, .f32⟩
  | 91 => ⟨S_, .f32⟩
  | 92 => ⟨S5632, .f32⟩
  | 93 => ⟨S56320x1, .i32⟩
  | 94 => ⟨S5632, .f32⟩
  | 95 => ⟨S_, .f32⟩
  | 96 => ⟨S5632, .f32⟩
  | 97 => ⟨S5632, .f32⟩
  | 98 => ⟨S5632x1, .f32⟩
  | 99 => ⟨S5632x256, .f32⟩
  | 100 => ⟨S5632x256, .f32⟩
  | 101 => ⟨S_, .i32⟩
  | 102 => ⟨S5632, .i32⟩
  | 103 => ⟨S5632, .i1⟩
  | 104 => ⟨S_, .i32⟩
  | 105 => ⟨S5632, .i32⟩
  | 106 => ⟨S5632, .i32⟩
  | 107 => ⟨S5632, .i32⟩
  | 108 => ⟨S5632x1, .i32⟩
  | 109 => ⟨S5632x256, .f32⟩
  | 110 => ⟨S1x256, .f32⟩
  | 111 => ⟨S5632x256, .f32⟩
  | 112 => ⟨S1x256, .f32⟩
  | 113 => ⟨S1x256, .f32⟩
  | 114 => ⟨S_, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S1x256, .f32⟩
  | 124 => ⟨S5632x256, .f32⟩
  | 125 => ⟨S_, .i32⟩
  | 126 => ⟨S5120, .i32⟩
  | 127 => ⟨S5120, .i1⟩
  | _ => ⟨S681472x256, .f32⟩

abbrev hbmTy0_1 (i : Nat) : BufTy := match i % 128 with
  | 0 => ⟨S_, .i32⟩
  | 1 => ⟨S5120, .i32⟩
  | 2 => ⟨S5120, .i32⟩
  | 3 => ⟨S5120, .i32⟩
  | 4 => ⟨S5120x1, .i32⟩
  | 5 => ⟨S5120x256, .f32⟩
  | 6 => ⟨S_, .f32⟩
  | 7 => ⟨S512x256, .f32⟩
  | 8 => ⟨S5120x1, .i32⟩
  | 9 => ⟨S512x256, .f32⟩
  | 10 => ⟨S_, .f32⟩
  | 11 => ⟨S5120, .f32⟩
  | 12 => ⟨S_, .f32⟩
  | 13 => ⟨S512, .f32⟩
  | 14 => ⟨S5120x1, .i32⟩
  | 15 => ⟨S512, .f32⟩
  | 16 => ⟨S_, .f32⟩
  | 17 => ⟨S512, .f32⟩
  | 18 => ⟨S512, .f32⟩
  | 19 => ⟨S512x1, .f32⟩
  | 20 => ⟨S512x256, .f32⟩
  | 21 => ⟨S512x256, .f32⟩
  | 22 => ⟨S_, .i32⟩
  | 23 => ⟨S512, .i32⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S512x256, .f32⟩
  | 31 => ⟨S1x256, .f32⟩
  | 32 => ⟨S512x256, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S1x256, .f32⟩
  | 42 => ⟨S1x256, .f32⟩
  | 43 => ⟨S1x256, .f32⟩
  | 44 => ⟨S1x256, .f32⟩
  | 45 => ⟨S512x256, .f32⟩
  | 46 => ⟨S1x47, .f32⟩
  | 47 => ⟨S512x47, .f32⟩
  | _ => ⟨S681472x256, .f32⟩

abbrev hbmTy (i : Nat) : BufTy := match i / 128 with
  | 0 => hbmTy0_0 i
  | 1 => hbmTy0_1 i
  | _ => ⟨S681472x256, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S256x256, .f32⟩
  | .local _ .vmem, ⟨24, _⟩ => ⟨S256x256, .f32⟩
  | .local _ .vmem, ⟨25, _⟩ => ⟨S1x256, .f32⟩
  | .local _ .vmem, ⟨26, _⟩ => ⟨S512x256, .f32⟩
  | .local _ .vmem, ⟨27, _⟩ => ⟨S512x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S256x256, .f32⟩
  | .local _ .vmem, ⟨41, _⟩ => ⟨S256x256, .f32⟩
  | .local _ .vmem, ⟨42, _⟩ => ⟨S1x256, .f32⟩
  | .local _ .vmem, ⟨43, _⟩ => ⟨S512x256, .f32⟩
  | .local _ .vmem, ⟨44, _⟩ => ⟨S1x256, .f32⟩
  | .local _ .vmem, ⟨45, _⟩ => ⟨S1x256, .f32⟩
  | .local _ .vmem, ⟨46, _⟩ => ⟨S512x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S512x256, .f32⟩
  | .local _ .vmem, ⟨52, _⟩ => ⟨S512x256, .f32⟩
  | .local _ .vmem, ⟨53, _⟩ => ⟨S256x47, .f32⟩
  | .local _ .vmem, ⟨54, _⟩ => ⟨S1x47, .f32⟩
  | .local _ .vmem, ⟨55, _⟩ => ⟨S512x47, .f32⟩
  | _, _ => ⟨S681472x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27_0 : Ref sig .tc := ⟨.hbm, 62, rfl⟩
abbrev main_v27_1 : Ref sig .tc := ⟨.hbm, 63, rfl⟩
abbrev main_v27_2 : Ref sig .tc := ⟨.hbm, 64, rfl⟩
abbrev main_cst_6 : Ref sig .tc := ⟨.hbm, 65, rfl⟩
abbrev main_v28 : Ref sig .tc := ⟨.hbm, 66, rfl⟩
abbrev main_v29 : Ref sig .tc := ⟨.hbm, 67, rfl⟩
abbrev main_cst_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_8 : Ref sig .tc := ⟨.hbm, 76, rfl⟩
abbrev main_v37 : Ref sig .tc := ⟨.hbm, 77, rfl⟩
abbrev main_v38 : Ref sig .tc := ⟨.hbm, 78, rfl⟩
abbrev main_c_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_10 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_11 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_14 : Ref sig .tc := ⟨.hbm, 101, rfl⟩
abbrev main_v56 : Ref sig .tc := ⟨.hbm, 102, rfl⟩
abbrev main_v57 : Ref sig .tc := ⟨.hbm, 103, rfl⟩
abbrev main_c_15 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64_0 : Ref sig .tc := ⟨.hbm, 111, rfl⟩
abbrev main_v64_1 : Ref sig .tc := ⟨.hbm, 112, rfl⟩
abbrev main_v64_2 : Ref sig .tc := ⟨.hbm, 113, rfl⟩
abbrev main_cst_16 : Ref sig .tc := ⟨.hbm, 114, rfl⟩
abbrev main_v65 : Ref sig .tc := ⟨.hbm, 115, rfl⟩
abbrev main_v66 : Ref sig .tc := ⟨.hbm, 116, rfl⟩
abbrev main_cst_17 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_18 : Ref sig .tc := ⟨.hbm, 125, rfl⟩
abbrev main_v74 : Ref sig .tc := ⟨.hbm, 126, rfl⟩
abbrev main_v75 : Ref sig .tc := ⟨.hbm, 127, rfl⟩
abbrev main_c_19 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_20 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_21 : Ref sig .tc := ⟨.hbm, 138, rfl⟩
abbrev main_v84 : Ref sig .tc := ⟨.hbm, 139, rfl⟩
abbrev main_cst_22 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_23 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_c_24 : Ref sig .tc := ⟨.hbm, 150, rfl⟩
abbrev main_v93 : Ref sig .tc := ⟨.hbm, 151, rfl⟩
abbrev main_v94 : Ref sig .tc := ⟨.hbm, 152, rfl⟩
abbrev main_c_25 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101_0 : Ref sig .tc := ⟨.hbm, 160, rfl⟩
abbrev main_v101_1 : Ref sig .tc := ⟨.hbm, 161, rfl⟩
abbrev main_v101_2 : Ref sig .tc := ⟨.hbm, 162, rfl⟩
abbrev main_cst_26 : Ref sig .tc := ⟨.hbm, 163, rfl⟩
abbrev main_v102 : Ref sig .tc := ⟨.hbm, 164, rfl⟩
abbrev main_v103 : Ref sig .tc := ⟨.hbm, 165, rfl⟩
abbrev main_cst_27 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc5_sem0_0 : DmaSem sig := 46
abbrev cc5_sem1_0 : DmaSem sig := 47
abbrev cc5_sem2_0 : DmaSem sig := 48
abbrev cc5_sem3_0 : DmaSem sig := 49
abbrev cc5_sem4_0 : DmaSem sig := 50
abbrev cc5_sem5_0 : DmaSem sig := 51
abbrev cc6_sem0_0 : DmaSem sig := 52
abbrev cc6_sem1_0 : DmaSem sig := 53
abbrev cc6_sem2_0 : DmaSem sig := 54
abbrev cc6_sem3_0 : DmaSem sig := 55

abbrev nD : Nat := 1
abbrev τ : Topo := Topo.v7x

variable {F : FTy → Type} [FloatOps F]

abbrev grid0 : Pipeline.Grid := ⟨1, ![121], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![121], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x47 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x47 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x47 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  bcast_S_S619520 : S_.BroadcastsInDim S619520 (![] : Fin 0 → Fin S619520.rank)
  bcast_S619520_S619520x1_0 : S619520.BroadcastsInDim S619520x1 (![0] : Fin 1 → Fin S619520x1.rank)
  bcast_S_S61952x256 : S_.BroadcastsInDim S61952x256 (![] : Fin 0 → Fin S61952x256.rank)
  bcast_S_S61952 : S_.BroadcastsInDim S61952 (![] : Fin 0 → Fin S61952.rank)
  bcast_S61952_S61952x1_0 : S61952.BroadcastsInDim S61952x1 (![0] : Fin 1 → Fin S61952x1.rank)
  bcast_S61952x1_S61952x256_0_1 : S61952x1.BroadcastsInDim S61952x256 (![0, 1] : Fin 2 → Fin S61952x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S1x256_S1x256 : S1x256.ShapeCasts S1x256
  broadcasts_S1x256_S512x256 : S1x256.Broadcasts S512x256
  reduces_S512x256_S256 : S512x256.Reduces [0] S256
  bcast_S_S1x256 : S_.BroadcastsInDim S1x256 (![] : Fin 0 → Fin S1x256.rank)
  bcast_S_S56320 : S_.BroadcastsInDim S56320 (![] : Fin 0 → Fin S56320.rank)
  bcast_S56320_S56320x1_0 : S56320.BroadcastsInDim S56320x1 (![0] : Fin 1 → Fin S56320x1.rank)
  bcast_S_S5632x256 : S_.BroadcastsInDim S5632x256 (![] : Fin 0 → Fin S5632x256.rank)
  bcast_S_S5632 : S_.BroadcastsInDim S5632 (![] : Fin 0 → Fin S5632.rank)
  bcast_S5632_S5632x1_0 : S5632.BroadcastsInDim S5632x1 (![0] : Fin 1 → Fin S5632x1.rank)
  bcast_S5632x1_S5632x256_0_1 : S5632x1.BroadcastsInDim S5632x256 (![0, 1] : Fin 2 → Fin S5632x256.rank)
  bcast_S_S5120 : S_.BroadcastsInDim S5120 (![] : Fin 0 → Fin S5120.rank)
  bcast_S5120_S5120x1_0 : S5120.BroadcastsInDim S5120x1 (![0] : Fin 1 → Fin S5120x1.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  shapeCasts_S47_S1x47 : S47.ShapeCasts S1x47
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S512x47 : S1x47.Broadcasts S512x47
  inb_S512x47_S512x47_0_0 : ∀ a, (![0, 0] : Fin 2 → Nat) a + S512x47.size a ≤ S512x47.size a
  h_S512x47 : 0 < S512x47.numel
  gather_S681472x256_S619520x1_S619520x256_1_0_n_n_0_1_1256_wf : GatherDims.WF S681472x256 S619520x1 S619520x256 [1] [0] [] [0] [] 1 ![1, 256]
  scatter_S61952x256_S619520x1_S619520x256_1_0_0_1_wf : ScatterDims.WF S61952x256 S619520x1 S619520x256 [1] [0] [0] 1
  scatter_S61952_S619520x1_S619520_n_0_0_1_wf : ScatterDims.WF S61952 S619520x1 S619520 [] [0] [0] 1
  gather_S681472x256_S61952x1_S61952x256_1_0_n_n_0_1_1256_wf : GatherDims.WF S681472x256 S61952x1 S61952x256 [1] [0] [] [0] [] 1 ![1, 256]
  dot_S512x256_S256x256_S512x256_1_0_0_1_n_n_wf : DotDims.WF S512x256 S256x256 S512x256 [1] [0] [0] [1] [] []
  gather_S61952x256_S56320x1_S56320x256_1_0_n_n_0_1_1256_wf : GatherDims.WF S61952x256 S56320x1 S56320x256 [1] [0] [] [0] [] 1 ![1, 256]
  scatter_S5632x256_S56320x1_S56320x256_1_0_0_1_wf : ScatterDims.WF S5632x256 S56320x1 S56320x256 [1] [0] [0] 1
  scatter_S5632_S56320x1_S56320_n_0_0_1_wf : ScatterDims.WF S5632 S56320x1 S56320 [] [0] [0] 1
  gather_S61952x256_S5632x1_S5632x256_1_0_n_n_0_1_1256_wf : GatherDims.WF S61952x256 S5632x1 S5632x256 [1] [0] [] [0] [] 1 ![1, 256]
  gather_S5632x256_S5120x1_S5120x256_1_0_n_n_0_1_1256_wf : GatherDims.WF S5632x256 S5120x1 S5120x256 [1] [0] [] [0] [] 1 ![1, 256]
  scatter_S512x256_S5120x1_S5120x256_1_0_0_1_wf : ScatterDims.WF S512x256 S5120x1 S5120x256 [1] [0] [0] 1
  scatter_S512_S5120x1_S5120_n_0_0_1_wf : ScatterDims.WF S512 S5120x1 S5120 [] [0] [0] 1
  gather_S5632x256_S512x1_S512x256_1_0_n_n_0_1_1256_wf : GatherDims.WF S5632x256 S512x1 S512x256 [1] [0] [] [0] [] 1 ![1, 256]
  dot_S512x256_S256x47_S512x47_1_0_0_1_n_n_wf : DotDims.WF S512x256 S256x47 S512x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S61952x256.size a
  hwx0_0 : ∀ i : grid0.Coords, EltTy.bits .f32 = 32 ∨ (Rect.block (s := S61952x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S61952x256.size a
  hwx0_1 : ∀ i : grid0.Coords, EltTy.bits .f32 = 32 ∨ (Rect.block (s := S61952x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S61952x256.size a
  hwx0_5 : ∀ i : grid0.Coords, EltTy.bits .f32 = 32 ∨ (Rect.block (s := S61952x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S61952x256.size a
  hwx1_0 : ∀ i : grid1.Coords, EltTy.bits .f32 = 32 ∨ (Rect.block (s := S61952x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S61952x256.size a
  hwx1_5 : ∀ i : grid1.Coords, EltTy.bits .f32 = 32 ∨ (Rect.block (s := S61952x256) S512x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S5632x256.size a
  hwx2_0 : ∀ i : grid2.Coords, EltTy.bits .f32 = 32 ∨ (Rect.block (s := S5632x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S5632x256.size a
  hwx2_1 : ∀ i : grid2.Coords, EltTy.bits .f32 = 32 ∨ (Rect.block (s := S5632x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S5632x256.size a
  hwx2_5 : ∀ i : grid2.Coords, EltTy.bits .f32 = 32 ∨ (Rect.block (s := S5632x256) S512x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S5632x256.size a
  hwx3_0 : ∀ i : grid3.Coords, EltTy.bits .f32 = 32 ∨ (Rect.block (s := S5632x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S5632x256.size a
  hwx3_5 : ∀ i : grid3.Coords, EltTy.bits .f32 = 32 ∨ (Rect.block (s := S5632x256) S512x256.size (cc3_transform_5 i) (hinb3_5 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S512x256.size a
  hwx4_0 : ∀ i : grid4.Coords, EltTy.bits .f32 = 32 ∨ (Rect.block (s := S512x256) S512x256.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 1
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S512x256.size a
  hwx4_5 : ∀ i : grid4.Coords, EltTy.bits .f32 = 32 ∨ (Rect.block (s := S512x256) S512x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S512x256.size a
  hwx5_0 : ∀ i : grid5.Coords, EltTy.bits .f32 = 32 ∨ (Rect.block (s := S512x256) S512x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S512x256.size a ≤ S512x256.size a
  hwx5_5 : ∀ i : grid5.Coords, EltTy.bits .f32 = 32 ∨ (Rect.block (s := S512x256) S512x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S512x256.size a
  hwx6_0 : ∀ i : grid6.Coords, EltTy.bits .f32 = 32 ∨ (Rect.block (s := S512x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x47.size a ≤ S256x47.size a
  hwx6_1 : ∀ i : grid6.Coords, EltTy.bits .f32 = 32 ∨ (Rect.block (s := S256x47) S256x47.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x47.size a ≤ S1x47.size a
  hwx6_2 : ∀ i : grid6.Coords, EltTy.bits .f32 = 32 ∨ (Rect.block (s := S1x47) S1x47.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x47.size a ≤ S512x47.size a
  hwx6_3 : ∀ i : grid6.Coords, EltTy.bits .f32 = 32 ∨ (Rect.block (s := S512x47) S512x47.size (cc6_transform_3 i) (hinb6_3 i)).WholeWords (EltTy.packing .f32)

variable [Facts₀]

def gather_S681472x256_S619520x1_S619520x256_1_0_n_n_0_1_1256 : GatherDims S681472x256 S619520x1 S619520x256 where
  offsetDims := [1]
  collapsedSliceDims := [0]
  operandBatchingDims := []
  startIndicesBatchingDims := []
  startIndexMap := [0]
  indexVectorDim := 1
  sliceSizes := ![1, 256]
  wf := gather_S681472x256_S619520x1_S619520x256_1_0_n_n_0_1_1256_wf
def scatter_S61952x256_S619520x1_S619520x256_1_0_0_1 : ScatterDims S61952x256 S619520x1 S619520x256 where
  updateWindowDims := [1]
  insertedWindowDims := [0]
  scatterDimsToOperandDims := [0]
  indexVectorDim := 1
  wf := scatter_S61952x256_S619520x1_S619520x256_1_0_0_1_wf
def scatter_S61952_S619520x1_S619520_n_0_0_1 : ScatterDims S61952 S619520x1 S619520 where
  updateWindowDims := []
  insertedWindowDims := [0]
  scatterDimsToOperandDims := [0]
  indexVectorDim := 1
  wf := scatter_S61952_S619520x1_S619520_n_0_0_1_wf
def gather_S681472x256_S61952x1_S61952x256_1_0_n_n_0_1_1256 : GatherDims S681472x256 S61952x1 S61952x256 where
  offsetDims := [1]
  collapsedSliceDims := [0]
  operandBatchingDims := []
  startIndicesBatchingDims := []
  startIndexMap := [0]
  indexVectorDim := 1
  sliceSizes := ![1, 256]
  wf := gather_S681472x256_S61952x1_S61952x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S61952x256_S56320x1_S56320x256_1_0_n_n_0_1_1256 : GatherDims S61952x256 S56320x1 S56320x256 where
  offsetDims := [1]
  collapsedSliceDims := [0]
  operandBatchingDims := []
  startIndicesBatchingDims := []
  startIndexMap := [0]
  indexVectorDim := 1
  sliceSizes := ![1, 256]
  wf := gather_S61952x256_S56320x1_S56320x256_1_0_n_n_0_1_1256_wf
def scatter_S5632x256_S56320x1_S56320x256_1_0_0_1 : ScatterDims S5632x256 S56320x1 S56320x256 where
  updateWindowDims := [1]
  insertedWindowDims := [0]
  scatterDimsToOperandDims := [0]
  indexVectorDim := 1
  wf := scatter_S5632x256_S56320x1_S56320x256_1_0_0_1_wf
def scatter_S5632_S56320x1_S56320_n_0_0_1 : ScatterDims S5632 S56320x1 S56320 where
  updateWindowDims := []
  insertedWindowDims := [0]
  scatterDimsToOperandDims := [0]
  indexVectorDim := 1
  wf := scatter_S5632_S56320x1_S56320_n_0_0_1_wf
def gather_S61952x256_S5632x1_S5632x256_1_0_n_n_0_1_1256 : GatherDims S61952x256 S5632x1 S5632x256 where
  offsetDims := [1]
  collapsedSliceDims := [0]
  operandBatchingDims := []
  startIndicesBatchingDims := []
  startIndexMap := [0]
  indexVectorDim := 1
  sliceSizes := ![1, 256]
  wf := gather_S61952x256_S5632x1_S5632x256_1_0_n_n_0_1_1256_wf
def gather_S5632x256_S5120x1_S5120x256_1_0_n_n_0_1_1256 : GatherDims S5632x256 S5120x1 S5120x256 where
  offsetDims := [1]
  collapsedSliceDims := [0]
  operandBatchingDims := []
  startIndicesBatchingDims := []
  startIndexMap := [0]
  indexVectorDim := 1
  sliceSizes := ![1, 256]
  wf := gather_S5632x256_S5120x1_S5120x256_1_0_n_n_0_1_1256_wf
def scatter_S512x256_S5120x1_S5120x256_1_0_0_1 : ScatterDims S512x256 S5120x1 S5120x256 where
  updateWindowDims := [1]
  insertedWindowDims := [0]
  scatterDimsToOperandDims := [0]
  indexVectorDim := 1
  wf := scatter_S512x256_S5120x1_S5120x256_1_0_0_1_wf
def scatter_S512_S5120x1_S5120_n_0_0_1 : ScatterDims S512 S5120x1 S5120 where
  updateWindowDims := []
  insertedWindowDims := [0]
  scatterDimsToOperandDims := [0]
  indexVectorDim := 1
  wf := scatter_S512_S5120x1_S5120_n_0_0_1_wf
def gather_S5632x256_S512x1_S512x256_1_0_n_n_0_1_1256 : GatherDims S5632x256 S512x1 S512x256 where
  offsetDims := [1]
  collapsedSliceDims := [0]
  operandBatchingDims := []
  startIndicesBatchingDims := []
  startIndexMap := [0]
  indexVectorDim := 1
  sliceSizes := ![1, 256]
  wf := gather_S5632x256_S512x1_S512x256_1_0_n_n_0_1_1256_wf
def dot_S512x256_S256x47_S512x47_1_0_0_1_n_n : DotDims S512x256 S256x47 S512x47 where
  lhsContracting := [1]
  rhsContracting := [0]
  lhsNonContracting := [0]
  rhsNonContracting := [1]
  lhsBatch := []
  rhsBatch := []
  wf := dot_S512x256_S256x47_S512x47_1_0_0_1_n_n_wf

abbrev win0_0 : Pipeline.Window sig grid0 :=
  Pipeline.Window.ofSpec (Memref.whole main_v18) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S512x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v64_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v64_0) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S512x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S512x256.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v99) S512x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101_0) S512x256.size cc4_transform_5 reads4_5 true false 1 stage4_5 sem4_5
    hrank4 hreads4_5 hinb4_5 nbuf4_5 (Memref.isWhole_whole _) hwx4_5 hstage4_5

abbrev win4_6 : Pipeline.Window sig grid4 :=
  Pipeline.Window.ofSpec (Memref.whole main_v101_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v101_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v101_0) S512x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v103) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S512x256.size cc5_transform_5 reads5_5 true false 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v110) S512x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg25) S256x47.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x47.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S512x47.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S681472x256 : Shape := ⟨2, ![681472, 256]⟩
abbrev S619520 : Shape := ⟨1, ![619520]⟩
abbrev S61952 : Shape := ⟨1, ![61952]⟩
abbrev S56320 : Shape := ⟨1, ![56320]⟩
abbrev S5632 : Shape := ⟨1, ![5632]⟩
abbrev S5120 : Shape := ⟨1, ![5120]⟩
abbrev S512 : Shape := ⟨1, ![512]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩
abbrev S619520x1 : Shape := ⟨2, ![619520, 1]⟩
abbrev S619520x256 : Shape := ⟨2, ![619520, 256]⟩
abbrev S61952x256 : Shape := ⟨2, ![61952, 256]⟩
abbrev S61952x1 : Shape := ⟨2, ![61952, 1]⟩
abbrev S1x256 : Shape := ⟨2, ![1, 256]⟩
abbrev S56320x1 : Shape := ⟨2, ![56320, 1]⟩
abbrev S56320x256 : Shape := ⟨2, ![56320, 256]⟩
abbrev S5632x256 : Shape := ⟨2, ![5632, 256]⟩
abbrev S5632x1 : Shape := ⟨2, ![5632, 1]⟩
abbrev S5120x1 : Shape := ⟨2, ![5120, 1]⟩
abbrev S5120x256 : Shape := ⟨2, ![5120, 256]⟩
abbrev S512x256 : Shape := ⟨2, ![512, 256]⟩
abbrev S512x1 : Shape := ⟨2, ![512, 1]⟩
abbrev S512x47 : Shape := ⟨2, ![512, 47]⟩
abbrev S1x47 : Shape := ⟨2, ![1, 47]⟩

abbrev nBuf : Space → Nat
  | .hbm => 292
  | .vmem => 0
  | .smem => 0
  | _ => 0

abbrev hbmTy0_0 (i : Nat) : BufTy := match i % 128 with
  | 0 => ⟨S681472x256, .f32⟩
  | 1 => ⟨S619520, .i32⟩
  | 2 => ⟨S619520, .i32⟩
  | 3 => ⟨S61952, .i32⟩
  | 4 => ⟨S56320, .i32⟩
  | 5 => ⟨S56320, .i32⟩
  | 6 => ⟨S5632, .i32⟩
  | 7 => ⟨S5120, .i32⟩
  | 8 => ⟨S5120, .i32⟩
  | 9 => ⟨S512, .i32⟩
  | 10 => ⟨S256x256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256x256, .f32⟩
  | 22 => ⟨S256, .f32⟩
  | 23 => ⟨S256, .f32⟩
  | 24 => ⟨S256, .f32⟩
  | 25 => ⟨S256x47, .f32⟩
  | 26 => ⟨S47, .f32⟩
  | 27 => ⟨S_, .i32⟩
  | 28 => ⟨S619520, .i32⟩
  | 29 => ⟨S619520, .i1⟩
  | 30 => ⟨S_, .i32⟩
  | 31 => ⟨S619520, .i32⟩
  | 32 => ⟨S619520, .i32⟩
  | 33 => ⟨S619520, .i32⟩
  | 34 => ⟨S619520x1, .i32⟩
  | 35 => ⟨S619520x256, .f32⟩
  | 36 => ⟨S_, .f32⟩
  | 37 => ⟨S61952x256, .f32⟩
  | 38 => ⟨S619520x1, .i32⟩
  | 39 => ⟨S61952x256, .f32⟩
  | 40 => ⟨S_, .f32⟩
  | 41 => ⟨S619520, .f32⟩
  | 42 => ⟨S_, .f32⟩
  | 43 => ⟨S61952, .f32⟩
  | 44 => ⟨S619520x1, .i32⟩
  | 45 => ⟨S61952, .f32⟩
  | 46 => ⟨S_, .f32⟩
  | 47 => ⟨S61952, .f32⟩
  | 48 => ⟨S61952, .f32⟩
  | 49 => ⟨S61952x1, .f32⟩
  | 50 => ⟨S61952x256, .f32⟩
  | 51 => ⟨S61952x256, .f32⟩
  | 52 => ⟨S_, .i32⟩
  | 53 => ⟨S61952, .i32⟩
  | 54 => ⟨S61952, .i1⟩
  | 55 => ⟨S_, .i32⟩
  | 56 => ⟨S61952, .i32⟩
  | 57 => ⟨S61952, .i32⟩
  | 58 => ⟨S61952, .i32⟩
  | 59 => ⟨S61952x1, .i32⟩
  | 60 => ⟨S61952x256, .f32⟩
  | 61 => ⟨S61952x256, .f32⟩
  | 62 => ⟨S61952x256, .f32⟩
  | 63 => ⟨S61952x256, .f32⟩
  | 64 => ⟨S1x256, .f32⟩
  | 65 => ⟨S61952x256, .f32⟩
  | 66 => ⟨S61952x256, .f32⟩
  | 67 => ⟨S_, .f32⟩
  | 68 => ⟨S256, .f32⟩
  | 69 => ⟨S_, .f32⟩
  | 70 => ⟨S256, .f32⟩
  | 71 => ⟨S256, .f32⟩
  | 72 => ⟨S_, .i32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S61952x256, .f32⟩
  | 80 => ⟨S61952x256, .f32⟩
  | 81 => ⟨S61952x256, .f32⟩
  | 82 => ⟨S_, .f32⟩
  | 83 => ⟨S_, .f32⟩
  | 84 => ⟨S_, .f32⟩
  | 85 => ⟨S_, .f32⟩
  | 86 => ⟨S256, .f32⟩
  | 87 => ⟨S256, .f32⟩
  | 88 => ⟨S256, .f32⟩
  | 89 => ⟨S_, .f32⟩
  | 90 => ⟨S_, .i1⟩
  | 91 => ⟨S_, .f32⟩
  | 92 => ⟨S_, .f32⟩
  | 93 => ⟨S256, .f32⟩
  | 94 => ⟨S256, .f32⟩
  | 95 => ⟨S1x256, .f32⟩
  | 96 => ⟨S61952x256, .f32⟩
  | 97 => ⟨S61952x256, .f32⟩
  | 98 => ⟨S_, .f32⟩
  | 99 => ⟨S256, .f32⟩
  | 100 => ⟨S256, .f32⟩
  | 101 => ⟨S256, .f32⟩
  | 102 => ⟨S1x256, .f32⟩
  | 103 => ⟨S61952x256, .f32⟩
  | 104 => ⟨S61952x256, .f32⟩
  | 105 => ⟨S1x256, .f32⟩
  | 106 => ⟨S61952x256, .f32⟩
  | 107 => ⟨S61952x256, .f32⟩
  | 108 => ⟨S1x256, .f32⟩
  | 109 => ⟨S61952x256, .f32⟩
  | 110 => ⟨S61952x256, .f32⟩
  | 111 => ⟨S_, .f32⟩
  | 112 => ⟨S61952x256, .f32⟩
  | 113 => ⟨S61952x256, .f32⟩
  | 114 => ⟨S_, .i32⟩
  | 115 => ⟨S56320, .i32⟩
  | 116 => ⟨S56320, .i1⟩
  | 117 => ⟨S_, .i32⟩
  | 118 => ⟨S56320, .i32⟩
  | 119 => ⟨S56320, .i32⟩
  | 120 => ⟨S56320, .i32⟩
  | 121 => ⟨S56320x1, .i32⟩
  | 122 => ⟨S56320x256, .f32⟩
  | 123 => ⟨S_, .f32⟩
  | 124 => ⟨S5632x256, .f32⟩
  | 125 => ⟨S56320x1, .i32⟩
  | 126 => ⟨S5632x256, .f32⟩
  | 127 => ⟨S_, .f32⟩
  | _ => ⟨S681472x256, .f32⟩

abbrev hbmTy0_1 (i : Nat) : BufTy := match i % 128 with
  | 0 => ⟨S56320, .f32⟩
  | 1 => ⟨S_, .f32⟩
  | 2 => ⟨S5632, .f32⟩
  | 3 => ⟨S56320x1, .i32⟩
  | 4 => ⟨S5632, .f32⟩
  | 5 => ⟨S_, .f32⟩
  | 6 => ⟨S5632, .f32⟩
  | 7 => ⟨S5632, .f32⟩
  | 8 => ⟨S5632x1, .f32⟩
  | 9 => ⟨S5632x256, .f32⟩
  | 10 => ⟨S5632x256, .f32⟩
  | 11 => ⟨S_, .i32⟩
  | 12 => ⟨S5632, .i32⟩
  | 13 => ⟨S5632, .i1⟩
  | 14 => ⟨S_, .i32⟩
  | 15 => ⟨S5632, .i32⟩
  | 16 => ⟨S5632, .i32⟩
  | 17 => ⟨S5632, .i32⟩
  | 18 => ⟨S5632x1, .i32⟩
  | 19 => ⟨S5632x256, .f32⟩
  | 20 => ⟨S5632x256, .f32⟩
  | 21 => ⟨S5632x256, .f32⟩
  | 22 => ⟨S5632x256, .f32⟩
  | 23 => ⟨S1x256, .f32⟩
  | 24 => ⟨S5632x256, .f32⟩
  | 25 => ⟨S5632x256, .f32⟩
  | 26 => ⟨S_, .f32⟩
  | 27 => ⟨S256, .f32⟩
  | 28 => ⟨S_, .f32⟩
  | 29 => ⟨S256, .f32⟩
  | 30 => ⟨S256, .f32⟩
  | 31 => ⟨S_, .i32⟩
  | 32 => ⟨S_, .f32⟩
  | 33 => ⟨S256, .f32⟩
  | 34 => ⟨S1x256, .f32⟩
  | 35 => ⟨S_, .f32⟩
  | 36 => ⟨S1x256, .f32⟩
  | 37 => ⟨S1x256, .f32⟩
  | 38 => ⟨S5632x256, .f32⟩
  | 39 => ⟨S5632x256, .f32⟩
  | 40 => ⟨S5632x256, .f32⟩
  | 41 => ⟨S_, .f32⟩
  | 42 => ⟨S_, .f32⟩
  | 43 => ⟨S_, .f32⟩
  | 44 => ⟨S_, .f32⟩
  | 45 => ⟨S256, .f32⟩
  | 46 => ⟨S256, .f32⟩
  | 47 => ⟨S256, .f32⟩
  | 48 => ⟨S_, .f32⟩
  | 49 => ⟨S_, .i1⟩
  | 50 => ⟨S_, .f32⟩
  | 51 => ⟨S_, .f32⟩
  | 52 => ⟨S256, .f32⟩
  | 53 => ⟨S256, .f32⟩
  | 54 => ⟨S1x256, .f32⟩
  | 55 => ⟨S5632x256, .f32⟩
  | 56 => ⟨S5632x256, .f32⟩
  | 57 => ⟨S_, .f32⟩
  | 58 => ⟨S256, .f32⟩
  | 59 => ⟨S256, .f32⟩
  | 60 => ⟨S256, .f32⟩
  | 61 => ⟨S1x256, .f32⟩
  | 62 => ⟨S5632x256, .f32⟩
  | 63 => ⟨S5632x256, .f32⟩
  | 64 => ⟨S1x256, .f32⟩
  | 65 => ⟨S5632x256, .f32⟩
  | 66 => ⟨S5632x256, .f32⟩
  | 67 => ⟨S1x256, .f32⟩
  | 68 => ⟨S5632x256, .f32⟩
  | 69 => ⟨S5632x256, .f32⟩
  | 70 => ⟨S_, .f32⟩
  | 71 => ⟨S5632x256, .f32⟩
  | 72 => ⟨S5632x256, .f32⟩
  | 73 => ⟨S_, .i32⟩
  | 74 => ⟨S5120, .i32⟩
  | 75 => ⟨S5120, .i1⟩
  | 76 => ⟨S_, .i32⟩
  | 77 => ⟨S5120, .i32⟩
  | 78 => ⟨S5120, .i32⟩
  | 79 => ⟨S5120, .i32⟩
  | 80 => ⟨S5120x1, .i32⟩
  | 81 => ⟨S5120x256, .f32⟩
  | 82 => ⟨S_, .f32⟩
  | 83 => ⟨S512x256, .f32⟩
  | 84 => ⟨S5120x1, .i32⟩
  | 85 => ⟨S512x256, .f32⟩
  | 86 => ⟨S_, .f32⟩
  | 87 => ⟨S5120, .f32⟩
  | 88 => ⟨S_, .f32⟩
  | 89 => ⟨S512, .f32⟩
  | 90 => ⟨S5120x1, .i32⟩
  | 91 => ⟨S512, .f32⟩
  | 92 => ⟨S_, .f32⟩
  | 93 => ⟨S512, .f32⟩
  | 94 => ⟨S512, .f32⟩
  | 95 => ⟨S512x1, .f32⟩
  | 96 => ⟨S512x256, .f32⟩
  | 97 => ⟨S512x256, .f32⟩
  | 98 => ⟨S_, .i32⟩
  | 99 => ⟨S512, .i32⟩
  | 100 => ⟨S512, .i1⟩
  | 101 => ⟨S_, .i32⟩
  | 102 => ⟨S512, .i32⟩
  | 103 => ⟨S512, .i32⟩
  | 104 => ⟨S512, .i32⟩
  | 105 => ⟨S512x1, .i32⟩
  | 106 => ⟨S512x256, .f32⟩
  | 107 => ⟨S512x256, .f32⟩
  | 108 => ⟨S512x256, .f32⟩
  | 109 => ⟨S512x256, .f32⟩
  | 110 => ⟨S1x256, .f32⟩
  | 111 => ⟨S512x256, .f32⟩
  | 112 => ⟨S512x256, .f32⟩
  | 113 => ⟨S_, .f32⟩
  | 114 => ⟨S256, .f32⟩
  | 115 => ⟨S_, .f32⟩
  | 116 => ⟨S256, .f32⟩
  | 117 => ⟨S256, .f32⟩
  | 118 => ⟨S_, .i32⟩
  | 119 => ⟨S_, .f32⟩
  | 120 => ⟨S256, .f32⟩
  | 121 => ⟨S1x256, .f32⟩
  | 122 => ⟨S_, .f32⟩
  | 123 => ⟨S1x256, .f32⟩
  | 124 => ⟨S1x256, .f32⟩
  | 125 => ⟨S512x256, .f32⟩
  | 126 => ⟨S512x256, .f32⟩
  | 127 => ⟨S512x256, .f32⟩
  | _ => ⟨S681472x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S256, .f32⟩
  | 5 => ⟨S256, .f32⟩
  | 6 => ⟨S256, .f32⟩
  | 7 => ⟨S_, .f32⟩
  | 8 => ⟨S_, .i1⟩
  | 9 => ⟨S_, .f32⟩
  | 10 => ⟨S_, .f32⟩
  | 11 => ⟨S256, .f32⟩
  | 12 => ⟨S256, .f32⟩
  | 13 => ⟨S1x256, .f32⟩
  | 14 => ⟨S512x256, .f32⟩
  | 15 => ⟨S512x256, .f32⟩
  | 16 => ⟨S_, .f32⟩
  | 17 => ⟨S256, .f32⟩
  | 18 => ⟨S256, .f32⟩
  | 19 => ⟨S256, .f32⟩
  | 20 => ⟨S1x256, .f32⟩
  | 21 => ⟨S512x256, .f32⟩
  | 22 => ⟨S512x256, .f32⟩
  | 23 => ⟨S1x256, .f32⟩
  | 24 => ⟨S512x256, .f32⟩
  | 25 => ⟨S512x256, .f32⟩
  | 26 => ⟨S1x256, .f32⟩
  | 27 => ⟨S512x256, .f32⟩
  | 28 => ⟨S512x256, .f32⟩
  | 29 => ⟨S_, .f32⟩
  | 30 => ⟨S512x256, .f32⟩
  | 31 => ⟨S512x256, .f32⟩
  | 32 => ⟨S512x47, .f32⟩
  | 33 => ⟨S1x47, .f32⟩
  | 34 => ⟨S512x47, .f32⟩
  | 35 => ⟨S512x47, .f32⟩
  | _ => ⟨S681472x256, .f32⟩

abbrev hbmTy (i : Nat) : BufTy := match i / 128 with
  | 0 => hbmTy0_0 i
  | 1 => hbmTy0_1 i
  | 2 => hbmTy0_2 i
  | _ => ⟨S681472x256, .f32⟩

abbrev bufTy : (tb : Table) → Fin (tcTables nBuf tb) → BufTy
  | .hbm, ⟨i, _⟩ => hbmTy i
  | _, _ => ⟨S681472x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_cst_3 : Ref sig .tc := ⟨.hbm, 89, rfl⟩
abbrev main_call0_v12 : Ref sig .tc := ⟨.hbm, 90, rfl⟩
abbrev main_call0_cst_4 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_9 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_call1_cst : Ref sig .tc := ⟨.hbm, 111, rfl⟩
abbrev main_call1_v0 : Ref sig .tc := ⟨.hbm, 112, rfl⟩
abbrev main_v51 : Ref sig .tc := ⟨.hbm, 113, rfl⟩
abbrev main_c_10 : Ref sig .tc := ⟨.hbm, 114, rfl⟩
abbrev main_v52 : Ref sig .tc := ⟨.hbm, 115, rfl⟩
abbrev main_v53 : Ref sig .tc := ⟨.hbm, 116, rfl⟩
abbrev main_c_11 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_12 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_13 : Ref sig .tc := ⟨.hbm, 127, rfl⟩
abbrev main_v62 : Ref sig .tc := ⟨.hbm, 128, rfl⟩
abbrev main_cst_14 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_15 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_c_16 : Ref sig .tc := ⟨.hbm, 139, rfl⟩
abbrev main_v71 : Ref sig .tc := ⟨.hbm, 140, rfl⟩
abbrev main_v72 : Ref sig .tc := ⟨.hbm, 141, rfl⟩
abbrev main_c_17 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_18 : Ref sig .tc := ⟨.hbm, 154, rfl⟩
abbrev main_v84 : Ref sig .tc := ⟨.hbm, 155, rfl⟩
abbrev main_cst_19 : Ref sig .tc := ⟨.hbm, 156, rfl⟩
abbrev main_v85 : Ref sig .tc := ⟨.hbm, 157, rfl⟩
abbrev main_v86 : Ref sig .tc := ⟨.hbm, 158, rfl⟩
abbrev main_c_20 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_21 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_call3_cst : Ref sig .tc := ⟨.hbm, 198, rfl⟩
abbrev main_call3_v0 : Ref sig .tc := ⟨.hbm, 199, rfl⟩
abbrev main_v103 : Ref sig .tc := ⟨.hbm, 200, rfl⟩
abbrev main_c_22 : Ref sig .tc := ⟨.hbm, 201, rfl⟩
abbrev main_v104 : Ref sig .tc := ⟨.hbm, 202, rfl⟩
abbrev main_v105 : Ref sig .tc := ⟨.hbm, 203, rfl⟩
abbrev main_c_23 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_cst_24 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_cst_25 : Ref sig .tc := ⟨.hbm, 214, rfl⟩
abbrev main_v114 : Ref sig .tc := ⟨.hbm, 215, rfl⟩
abbrev main_cst_26 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_cst_27 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_c_28 : Ref sig .tc := ⟨.hbm, 226, rfl⟩
abbrev main_v123 : Ref sig .tc := ⟨.hbm, 227, rfl⟩
abbrev main_v124 : Ref sig .tc := ⟨.hbm, 228, rfl⟩
abbrev main_c_29 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_cst_30 : Ref sig .tc := ⟨.hbm, 241, rfl⟩
abbrev main_v136 : Ref sig .tc := ⟨.hbm, 242, rfl⟩
abbrev main_cst_31 : Ref sig .tc := ⟨.hbm, 243, rfl⟩
abbrev main_v137 : Ref sig .tc := ⟨.hbm, 244, rfl⟩
abbrev main_v138 : Ref sig .tc := ⟨.hbm, 245, rfl⟩
abbrev main_c_32 : Ref sig .tc := ⟨.hbm, 246, rfl⟩
abbrev main_call4_cst : Ref sig .tc := ⟨.hbm, 247, rfl⟩
abbrev main_call4_v0 : Ref sig .tc := ⟨.hbm, 248, rfl⟩
abbrev main_call4_v1 : Ref sig .tc := ⟨.hbm, 249, rfl⟩
abbrev main_call4_cst_0 : Ref sig .tc := ⟨.hbm, 250, rfl⟩
abbrev main_call4_v2 : Ref sig .tc := ⟨.hbm, 251, rfl⟩
abbrev main_call4_v3 : Ref sig .tc := ⟨.hbm, 252, rfl⟩
abbrev main_call4_v4 : Ref sig .tc := ⟨.hbm, 253, rfl⟩
abbrev main_call4_v5 : Ref sig .tc := ⟨.hbm, 254, rfl⟩
abbrev main_call4_v6 : Ref sig .tc := ⟨.hbm, 255, rfl⟩
abbrev main_call4_v7 : Ref sig .tc := ⟨.hbm, 256, rfl⟩
abbrev main_call4_cst_1 : Ref sig .tc := ⟨.hbm, 257, rfl⟩
abbrev main_call4_v8 : Ref sig .tc := ⟨.hbm, 258, rfl⟩
abbrev main_call4_cst_2 : Ref sig .tc := ⟨.hbm, 259, rfl⟩
abbrev main_call4_v9 : Ref sig .tc := ⟨.hbm, 260, rfl⟩
abbrev main_call4_v10 : Ref sig .tc := ⟨.hbm, 261, rfl⟩
abbrev main_call4_v11 : Ref sig .tc := ⟨.hbm, 262, rfl⟩
abbrev main_call4_cst_3 : Ref sig .tc := ⟨.hbm, 263, rfl⟩
abbrev main_call4_v12 : Ref sig .tc := ⟨.hbm, 264, rfl⟩
abbrev main_call4_cst_4 : Ref sig .tc := ⟨.hbm, 265, rfl⟩
abbrev main_call4_call0_v0 : Ref sig .tc := ⟨.hbm, 266, rfl⟩
abbrev main_call4_call0_v1 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_cst_33 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_call5_cst : Ref sig .tc := ⟨.hbm, 285, rfl⟩
abbrev main_call5_v0 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩

abbrev nD : Nat := 1
abbrev τ : Topo := Topo.v7x

variable {F : FTy → Type} [FloatOps F]

class Facts₀ : Prop where
  bcast_S_S619520 : S_.BroadcastsInDim S619520 (![] : Fin 0 → Fin S619520.rank)
  bcast_S619520_S619520x1_0 : S619520.BroadcastsInDim S619520x1 (![0] : Fin 1 → Fin S619520x1.rank)
  bcast_S_S61952x256 : S_.BroadcastsInDim S61952x256 (![] : Fin 0 → Fin S61952x256.rank)
  bcast_S_S61952 : S_.BroadcastsInDim S61952 (![] : Fin 0 → Fin S61952.rank)
  bcast_S61952_S61952x1_0 : S61952.BroadcastsInDim S61952x1 (![0] : Fin 1 → Fin S61952x1.rank)
  bcast_S61952x1_S61952x256_0_1 : S61952x1.BroadcastsInDim S61952x256 (![0, 1] : Fin 2 → Fin S61952x256.rank)
  bcast_S256_S1x256_1 : S256.BroadcastsInDim S1x256 (![1] : Fin 1 → Fin S1x256.rank)
  bcast_S1x256_S61952x256_0_1 : S1x256.BroadcastsInDim S61952x256 (![0, 1] : Fin 2 → Fin S61952x256.rank)
  reducesTo_S61952x256_S256_d0 : S61952x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S56320 : S_.BroadcastsInDim S56320 (![] : Fin 0 → Fin S56320.rank)
  bcast_S56320_S56320x1_0 : S56320.BroadcastsInDim S56320x1 (![0] : Fin 1 → Fin S56320x1.rank)
  bcast_S_S5632x256 : S_.BroadcastsInDim S5632x256 (![] : Fin 0 → Fin S5632x256.rank)
  bcast_S_S5632 : S_.BroadcastsInDim S5632 (![] : Fin 0 → Fin S5632.rank)
  bcast_S5632_S5632x1_0 : S5632.BroadcastsInDim S5632x1 (![0] : Fin 1 → Fin S5632x1.rank)
  bcast_S5632x1_S5632x256_0_1 : S5632x1.BroadcastsInDim S5632x256 (![0, 1] : Fin 2 → Fin S5632x256.rank)
  bcast_S1x256_S5632x256_0_1 : S1x256.BroadcastsInDim S5632x256 (![0, 1] : Fin 2 → Fin S5632x256.rank)
  reducesTo_S5632x256_S256_d0 : S5632x256.ReducesTo [0] S256
  bcast_S_S5120 : S_.BroadcastsInDim S5120 (![] : Fin 0 → Fin S5120.rank)
  bcast_S5120_S5120x1_0 : S5120.BroadcastsInDim S5120x1 (![0] : Fin 1 → Fin S5120x1.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  reducesTo_S512x256_S256_d0 : S512x256.ReducesTo [0] S256
  bcast_S47_S1x47_1 : S47.BroadcastsInDim S1x47 (![1] : Fin 1 → Fin S1x47.rank)
  bcast_S1x47_S512x47_0_1 : S1x47.BroadcastsInDim S512x47 (![0, 1] : Fin 2 → Fin S512x47.rank)
  gather_S681472x256_S619520x1_S619520x256_1_0_n_n_0_1_1256_wf : GatherDims.WF S681472x256 S619520x1 S619520x256 [1] [0] [] [0] [] 1 ![1, 256]
  scatter_S61952x256_S619520x1_S619520x256_1_0_0_1_wf : ScatterDims.WF S61952x256 S619520x1 S619520x256 [1] [0] [0] 1
  scatter_S61952_S619520x1_S619520_n_0_0_1_wf : ScatterDims.WF S61952 S619520x1 S619520 [] [0] [0] 1
  gather_S681472x256_S61952x1_S61952x256_1_0_n_n_0_1_1256_wf : GatherDims.WF S681472x256 S61952x1 S61952x256 [1] [0] [] [0] [] 1 ![1, 256]
  dot_S61952x256_S256x256_S61952x256_1_0_0_1_n_n_wf : DotDims.WF S61952x256 S256x256 S61952x256 [1] [0] [0] [1] [] []
  gather_S61952x256_S56320x1_S56320x256_1_0_n_n_0_1_1256_wf : GatherDims.WF S61952x256 S56320x1 S56320x256 [1] [0] [] [0] [] 1 ![1, 256]
  scatter_S5632x256_S56320x1_S56320x256_1_0_0_1_wf : ScatterDims.WF S5632x256 S56320x1 S56320x256 [1] [0] [0] 1
  scatter_S5632_S56320x1_S56320_n_0_0_1_wf : ScatterDims.WF S5632 S56320x1 S56320 [] [0] [0] 1
  gather_S61952x256_S5632x1_S5632x256_1_0_n_n_0_1_1256_wf : GatherDims.WF S61952x256 S5632x1 S5632x256 [1] [0] [] [0] [] 1 ![1, 256]
  dot_S5632x256_S256x256_S5632x256_1_0_0_1_n_n_wf : DotDims.WF S5632x256 S256x256 S5632x256 [1] [0] [0] [1] [] []
  gather_S5632x256_S5120x1_S5120x256_1_0_n_n_0_1_1256_wf : GatherDims.WF S5632x256 S5120x1 S5120x256 [1] [0] [] [0] [] 1 ![1, 256]
  scatter_S512x256_S5120x1_S5120x256_1_0_0_1_wf : ScatterDims.WF S512x256 S5120x1 S5120x256 [1] [0] [0] 1
  scatter_S512_S5120x1_S5120_n_0_0_1_wf : ScatterDims.WF S512 S5120x1 S5120 [] [0] [0] 1
  gather_S5632x256_S512x1_S512x256_1_0_n_n_0_1_1256_wf : GatherDims.WF S5632x256 S512x1 S512x256 [1] [0] [] [0] [] 1 ![1, 256]
  dot_S512x256_S256x256_S512x256_1_0_0_1_n_n_wf : DotDims.WF S512x256 S256x256 S512x256 [1] [0] [0] [1] [] []
  dot_S512x256_S256x47_S512x47_1_0_0_1_n_n_wf : DotDims.WF S512x256 S256x47 S512x47 [1] [0] [0] [1] [] []

variable [Facts₀]

def gather_S681472x256_S619520x1_S619520x256_1_0_n_n_0_1_1256 : GatherDims S681472x256 S619520x1 S619520x256 where
  offsetDims := [1]
  collapsedSliceDims := [0]
  operandBatchingDims := []
  startIndicesBatchingDims := []
  startIndexMap := [0]
  indexVectorDim := 1
  sliceSizes := ![1, 256]
  wf := gather_S681472x256_S619520x1_S619520x256_1_0_n_n_0_1_1256_wf
def scatter_S61952x256_S619520x1_S619520x256_1_0_0_1 : ScatterDims S61952x256 S619520x1 S619520x256 where
  updateWindowDims := [1]
  insertedWindowDims := [0]
  scatterDimsToOperandDims := [0]
  indexVectorDim := 1
  wf := scatter_S61952x256_S619520x1_S619520x256_1_0_0_1_wf
def scatter_S61952_S619520x1_S619520_n_0_0_1 : ScatterDims S61952 S619520x1 S619520 where
  updateWindowDims := []
  insertedWindowDims := [0]
  scatterDimsToOperandDims := [0]
  indexVectorDim := 1
  wf := scatter_S61952_S619520x1_S619520_n_0_0_1_wf
def gather_S681472x256_S61952x1_S61952x256_1_0_n_n_0_1_1256 : GatherDims S681472x256 S61952x1 S61952x256 where
  offsetDims := [1]
  collapsedSliceDims := [0]
  operandBatchingDims := []
  startIndicesBatchingDims := []
  startIndexMap := [0]
  indexVectorDim := 1
  sliceSizes := ![1, 256]
  wf := gather_S681472x256_S61952x1_S61952x256_1_0_n_n_0_1_1256_wf
def dot_S61952x256_S256x256_S61952x256_1_0_0_1_n_n : DotDims S61952x256 S256x256 S61952x256 where
  lhsContracting := [1]
  rhsContracting := [0]
  lhsNonContracting := [0]
  rhsNonContracting := [1]
  lhsBatch := []
  rhsBatch := []
  wf := dot_S61952x256_S256x256_S61952x256_1_0_0_1_n_n_wf
def gather_S61952x256_S56320x1_S56320x256_1_0_n_n_0_1_1256 : GatherDims S61952x256 S56320x1 S56320x256 where
  offsetDims := [1]
  collapsedSliceDims := [0]
  operandBatchingDims := []
  startIndicesBatchingDims := []
  startIndexMap := [0]
  indexVectorDim := 1
  sliceSizes := ![1, 256]
  wf := gather_S61952x256_S56320x1_S56320x256_1_0_n_n_0_1_1256_wf
def scatter_S5632x256_S56320x1_S56320x256_1_0_0_1 : ScatterDims S5632x256 S56320x1 S56320x256 where
  updateWindowDims := [1]
  insertedWindowDims := [0]
  scatterDimsToOperandDims := [0]
  indexVectorDim := 1
  wf := scatter_S5632x256_S56320x1_S56320x256_1_0_0_1_wf
def scatter_S5632_S56320x1_S56320_n_0_0_1 : ScatterDims S5632 S56320x1 S56320 where
  updateWindowDims := []
  insertedWindowDims := [0]
  scatterDimsToOperandDims := [0]
  indexVectorDim := 1
  wf := scatter_S5632_S56320x1_S56320_n_0_0_1_wf
def gather_S61952x256_S5632x1_S5632x256_1_0_n_n_0_1_1256 : GatherDims S61952x256 S5632x1 S5632x256 where
  offsetDims := [1]
  collapsedSliceDims := [0]
  operandBatchingDims := []
  startIndicesBatchingDims := []
  startIndexMap := [0]
  indexVectorDim := 1
  sliceSizes := ![1, 256]
  wf := gather_S61952x256_S5632x1_S5632x256_1_0_n_n_0_1_1256_wf
def dot_S5632x256_S256x256_S5632x256_1_0_0_1_n_n : DotDims S5632x256 S256x256 S5632x256 where
  lhsContracting := [1]
  rhsContracting := [0]
  lhsNonContracting := [0]
  rhsNonContracting := [1]
  lhsBatch := []
  rhsBatch := []
  wf := dot_S5632x256_S256x256_S5632x256_1_0_0_1_n_n_wf
def gather_S5632x256_S5120x1_S5120x256_1_0_n_n_0_1_1256 : GatherDims S5632x256 S5120x1 S5120x256 where
  offsetDims := [1]
  collapsedSliceDims := [0]
  operandBatchingDims := []
  startIndicesBatchingDims := []
  startIndexMap := [0]
  indexVectorDim := 1
  sliceSizes := ![1, 256]
  wf := gather_S5632x256_S5120x1_S5120x256_1_0_n_n_0_1_1256_wf
def scatter_S512x256_S5120x1_S5120x256_1_0_0_1 : ScatterDims S512x256 S5120x1 S5120x256 where
  updateWindowDims := [1]
  insertedWindowDims := [0]
  scatterDimsToOperandDims := [0]
  indexVectorDim := 1
  wf := scatter_S512x256_S5120x1_S5120x256_1_0_0_1_wf
def scatter_S512_S5120x1_S5120_n_0_0_1 : ScatterDims S512 S5120x1 S5120 where
  updateWindowDims := []
  insertedWindowDims := [0]
  scatterDimsToOperandDims := [0]
  indexVectorDim := 1
  wf := scatter_S512_S5120x1_S5120_n_0_0_1_wf
def gather_S5632x256_S512x1_S512x256_1_0_n_n_0_1_1256 : GatherDims S5632x256 S512x1 S512x256 where
  offsetDims := [1]
  collapsedSliceDims := [0]
  operandBatchingDims := []
  startIndicesBatchingDims := []
  startIndexMap := [0]
  indexVectorDim := 1
  sliceSizes := ![1, 256]
  wf := gather_S5632x256_S512x1_S512x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x47_S512x47_1_0_0_1_n_n : DotDims S512x256 S256x47 S512x47 where
  lhsContracting := [1]
  rhsContracting := [0]
  lhsNonContracting := [0]
  rhsNonContracting := [1]
  lhsBatch := []
  rhsBatch := []
  wf := dot_S512x256_S256x47_S512x47_1_0_0_1_n_n_wf

class Facts : Prop extends Facts₀ where

variable [Facts]
-- ==== Proof.KRun.lean ====
/-
  The idealized kernel program's run with EVERY unscoped buffer read at the end: every weakly fair execution of @main
  terminates, nothing faulting, and each TensorCore's unscoped buffers end at the contents the chain of host stretches
  and regions leaves (the last boundary's valuation). The result buffer and the arguments are read off this one post.
-/
import proofs.«168550_j58342835749309_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its fourteen segments, its post every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The run with the result buffer and the arguments read: the result at the last boundary's contents, each argument as
    launched. -/
theorem run_result : θ_run defs (onTc (τ := τ) (main (F := F))) ⟨m, fun _ => 0, ρ⟩ (fun r => ∀ c : Dev nD,
      r.2.mem ((c.tc : Thread nD τ).loc main_v112) = W14 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun s h c =>
    ⟨h c _ (mem_uc main_v112 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c),
     (h c _ (mem_uc main_arg24 (by decide))).trans (W14_main_arg24 m ρ c),
     (h c _ (mem_uc main_arg25 (by decide))).trans (W14_main_arg25 m ρ c),
     (h c _ (mem_uc main_arg26 (by decide))).trans (W14_main_arg26 m ρ c)⟩) (run_all m ρ)

end Cert.KernelIdeal.KRun

end
-- ==== Proof.Spec.lean ====
/-
  The scalar content of one GraphSAGE layer with batch normalisation, index by index on the extended reals, for any
  extents: the linear part of a row, the column statistics, and the normalised, rescaled, shifted and clamped entry.
  No program is imported: both programs' arrays are compared against these functions.
-/
import Idealize.ShloMosaic.PureOps.Ideal
import Idealize.ShloMosaic.Lib.ValueIdx

noncomputable section

namespace Cert.Sage

open Idealize.ShloMosaic Idealize.ShloMosaic.ValueIdx

/-- The linear part of a layer at row `r`, column `q`: the aggregated row times the left weights plus the target row times
    the right weights plus the bias entry. -/
def linS {N K C : ℕ} (a x : (⟨2, ![N, K]⟩ : Shape).Idx → EReal) (wl wr : (⟨2, ![K, C]⟩ : Shape).Idx → EReal)
    (b : (⟨2, ![1, C]⟩ : Shape).Idx → EReal) (r : Fin N) (q : Fin C) : EReal :=
  ((∑ k : Fin K, a (ix2 r k) * wl (ix2 k q)) + (∑ k : Fin K, x (ix2 r k) * wr (ix2 k q))) + b (ix2 0 q)

/-- The normalised entry: centred at the column's mean, times the inverse square root of the column's variance plus the
    program's epsilon word, times the gain, plus the shift, clamped below at the zero word. -/
def bnS {N C : ℕ} (h : (⟨2, ![N, C]⟩ : Shape).Idx → EReal) (mean var g be : (⟨2, ![1, C]⟩ : Shape).Idx → EReal)
    (r : Fin N) (q : Fin C) : EReal :=
  max ((((h (ix2 r q) - mean (ix2 0 q)) * Ideal.rsqrt (var (ix2 0 q) + Ideal.ofBits .f32 0x3727C5AC#32)) * g (ix2 0 q))
    + be (ix2 0 q)) (Ideal.ofBits .f32 0x00000000#32)

/-- The final affine map at row `r`, column `q`. -/
def fcS {N K C : ℕ} (x : (⟨2, ![N, K]⟩ : Shape).Idx → EReal) (w : (⟨2, ![K, C]⟩ : Shape).Idx → EReal)
    (b : (⟨2, ![1, C]⟩ : Shape).Idx → EReal) (r : Fin N) (q : Fin C) : EReal :=
  (∑ k : Fin K, x (ix2 r k) * w (ix2 k q)) + b (ix2 0 q)

end Cert.Sage

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibColumnReduce.lean ====
/-
  A sum down the columns, read at an index, at the ideal values.

  The vector unit's add-reduction of an [a, b] array over its rows (axis 0), from the zero accumulator, read at
  column c, is the plain sum over the a rows r of the entry (r, c): no order of addition is left in it.
-/
import Idealize.ShloMosaic.Lib.ValueIdx
import Idealize.ShloMosaic.PureOps.Ideal.Laws

noncomputable section

namespace Cert.Lib.ColumnReduce

open Idealize.ShloMosaic Idealize.ShloMosaic.ValueIdx
open scoped BigOperators

/-- The row-reduction of an [a, b] array into [b], from the zero word, read at column c: the sum down the column. -/
theorem multiReduction_rows_apply {a b : Nat} (x : FVec Ideal ⟨2, ![a, b]⟩ .f32)
    (h : (⟨2, ![a, b]⟩ : Shape).Reduces [0] ⟨1, ![b]⟩) (c : Fin b) :
    multiReduction .add [0] ⟨1, ![b]⟩ x 0x00000000#32 h (.inl rfl) rfl (ix1 c) = ∑ r : Fin a, x (ix2 r c) := by
  refine (Ideal.multiReduction_add_single x 0x00000000#32 h (.inl rfl) rfl (ix1 c)).trans ?_
  show ∑ k : Fin a, x (h.lift (ix1 c) k) = ∑ r : Fin a, x (ix2 r c)
  refine Finset.sum_congr rfl fun k _ => congrArg x (funext fun d => Fin.ext ?_)
  match d with
  | ⟨0, _⟩ => rfl
  | ⟨1, _⟩ => rfl

end Cert.Lib.ColumnReduce

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«168550_j58342835749309_1_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Lin0.lean ====
/-
  Region 0: the linear part of a layer on blocks of 512 rows, with the two column statistics accumulated over the grid.
  What the body leaves in its three output buffers in each of its control cases, as the body's pure terms of the input
  blocks and of the running statistics; then the running statistics after any point as sums over the rows seen so far;
  then the three result arrays: the linear part row by row, and the column sums of it and of its squares.
-/
import proofs.«168550_j58342835749309_1_alg».proof.Proof.Gen.KernelIdeal.Frame
import proofs.«168550_j58342835749309_1_alg».proof.Proof.Spec
import proofs.«168550_j58342835749309_1_alg».proof.Proof.LibPlainDot
import proofs.«168550_j58342835749309_1_alg».proof.Proof.LibColumnReduce
import proofs.«168550_j58342835749309_1_alg».proof.Proof.LibBlockRuns
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lin0

open Cert.KernelIdeal Cert.KernelIdeal.Gen

theorem hz : (![0, 0] : Fin 2 → Nat) = fun _ => 0 := funext fun a => by fin_cases a <;> rfl

section Pieces
variable {F : FTy → Type} [FloatOps F]

/-- The first case leaves the linear part of the block in the row output. -/
theorem outA5 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S512x256 .f32) (x2 x3 : Vec F S256x256 .f32) (x4 : Vec F S1x256 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the sum output, the block's column sums added to the zero row it has just stored. -/
theorem outA6 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S512x256 .f32) (x2 x3 : Vec F S256x256 .f32) (x4 : Vec F S1x256 .f32) :
    out0_A_6 c i a1 h1 a2 h2 a3 h3 a4 h4 a5 h5 a6 h6 a7 h7 a8 h8 hc x0 x1 x2 x3 x4 = k0_pay5 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the squares output, the block's column sums of squares added to the zero row. -/
theorem outA7 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S512x256 .f32) (x2 x3 : Vec F S256x256 .f32) (x4 : Vec F S1x256 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case leaves the linear part of the block in the row output. -/
theorem outB5 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S512x256 .f32) (x2 x3 : Vec F S256x256 .f32) (x4 : Vec F S1x256 .f32) (xo6 xo7 : Vec F S1x256 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case adds the block's column sums to the running sums. -/
theorem outB6 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S512x256 .f32) (x2 x3 : Vec F S256x256 .f32) (x4 : Vec F S1x256 .f32) (xo6 xo7 : Vec F S1x256 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case adds the block's column sums of squares to the running sums of squares. -/
theorem outB7 (c : Dev nD) (i : grid0.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S512x256 .f32) (x2 x3 : Vec F S256x256 .f32) (x4 : Vec F S1x256 .f32) (xo6 xo7 : Vec F S1x256 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

end Pieces

/-! ## The body's terms at an index, at the ideal values -/

/-- The linear part of a block: row `p` of the first block times the first weights, plus row `p` of the second block times
    the second weights, plus the bias row's entry. The narrowing of the operands is the identity on the extended reals. -/
theorem pay4_apply (x0 x1 : Vec Ideal S512x256 .f32) (x2 x3 : Vec Ideal S256x256 .f32) (x4 : Vec Ideal S1x256 .f32)
    (p : Fin 512) (q : Fin 256) :
    k0_pay4 (F := Ideal) x0 x1 x2 x3 x4 (ix2 p q)
      = ((∑ k : Fin 256, x0 (ix2 p k) * x2 (ix2 k q)) + (∑ k : Fin 256, x1 (ix2 p k) * x3 (ix2 k q))) + x4 (ix2 0 q) := by
  unfold k0_pay4
  show (matmul dot_S512x256_S256x256_S512x256_1_0_0_1_n_n none (truncf .bf16 (shapeCast S512x256 x0 shapeCasts_S512x256_S512x256) bitsLt_bf16_f32)
          (truncf .bf16 x2 bitsLt_bf16_f32) (constant (F := Ideal) S512x256 .f32 0x00000000#32) (ix2 p q)
        + matmul dot_S512x256_S256x256_S512x256_1_0_0_1_n_n none (truncf .bf16 (shapeCast S512x256 x1 shapeCasts_S512x256_S512x256) bitsLt_bf16_f32)
          (truncf .bf16 x3 bitsLt_bf16_f32) (constant (F := Ideal) S512x256 .f32 0x00000000#32) (ix2 p q))
      + broadcastTo S512x256 (shapeCast S1x256 x4 shapeCasts_S1x256_S1x256) broadcasts_S1x256_S512x256 (ix2 p q) = _
  rw [show dot_S512x256_S256x256_S512x256_1_0_0_1_n_n = DotDims.plain 512 256 256 from rfl,
    Cert.Lib.PlainDot.matmul_plain_zero_apply, Cert.Lib.PlainDot.matmul_plain_zero_apply, broadcastTo_1b_ab_apply]
  simp only [truncf_apply, shapeCast_self]

/-- The sum payload at column `q`: the running sum's entry plus the column sum of the block's linear part. -/
theorem pay5_apply (x0 x1 : Vec Ideal S512x256 .f32) (x2 x3 : Vec Ideal S256x256 .f32) (x4 v21 : Vec Ideal S1x256 .f32)
    (q : Fin 256) :
    k0_pay5 (F := Ideal) x0 x1 x2 x3 x4 v21 (ix2 0 q)
      = v21 (ix2 0 q) + ∑ p : Fin 512, k0_pay4 (F := Ideal) x0 x1 x2 x3 x4 (ix2 p q) := by
  unfold k0_pay5
  show shapeCast S1x256 v21 shapeCasts_S1x256_S1x256 (ix2 0 q)
      + shapeCast S1x256 (multiReduction .add [0] S256 (k0_pay4 (F := Ideal) x0 x1 x2 x3 x4) 0x00000000#32 reduces_S512x256_S256 (.inl rfl) rfl)
          shapeCasts_S256_S1x256 (ix2 0 q) = _
  rw [shapeCast_self, shapeCast_a_1a_apply, Cert.Lib.ColumnReduce.multiReduction_rows_apply]

/-- The squares payload at column `q`: the column sum of the squares of the block's linear part. -/
theorem pay7_apply (x0 x1 : Vec Ideal S512x256 .f32) (x2 x3 : Vec Ideal S256x256 .f32) (x4 : Vec Ideal S1x256 .f32)
    (q : Fin 256) :
    k0_pay7 (F := Ideal) x0 x1 x2 x3 x4 (ix2 0 q)
      = ∑ p : Fin 512, k0_pay4 (F := Ideal) x0 x1 x2 x3 x4 (ix2 p q) * k0_pay4 (F := Ideal) x0 x1 x2 x3 x4 (ix2 p q) := by
  unfold k0_pay7
  show shapeCast S1x256 (multiReduction .add [0] S256 (mulf (k0_pay4 (F := Ideal) x0 x1 x2 x3 x4) (k0_pay4 (F := Ideal) x0 x1 x2 x3 x4))
          0x00000000#32 reduces_S512x256_S256 (.inl rfl) rfl) shapeCasts_S256_S1x256 (ix2 0 q) = _
  rw [shapeCast_a_1a_apply, Cert.Lib.ColumnReduce.multiReduction_rows_apply]
  rfl

/-- The squares output's payload at column `q`: the running entry plus the block's column sum of squares. -/
theorem pay1_apply (v27 : Vec Ideal S1x256 .f32) (x0 x1 : Vec Ideal S512x256 .f32) (x2 x3 : Vec Ideal S256x256 .f32)
    (x4 : Vec Ideal S1x256 .f32) (q : Fin 256) :
    k0_pay1 (F := Ideal) (k0_pay6 (F := Ideal) v27) (k0_pay7 (F := Ideal) x0 x1 x2 x3 x4) (ix2 0 q)
      = v27 (ix2 0 q) + ∑ p : Fin 512, k0_pay4 (F := Ideal) x0 x1 x2 x3 x4 (ix2 p q) * k0_pay4 (F := Ideal) x0 x1 x2 x3 x4 (ix2 p q) := by
  unfold k0_pay1 k0_pay6
  show shapeCast S1x256 v27 shapeCasts_S1x256_S1x256 (ix2 0 q) + k0_pay7 (F := Ideal) x0 x1 x2 x3 x4 (ix2 0 q) = _
  rw [shapeCast_self, pay7_apply]

/-- The row the first point stores into the sum output is zero. -/
theorem pay2_apply (q : Fin 256) : k0_pay2 (F := Ideal) (ix2 0 q) = 0 := by
  unfold k0_pay2
  show Ideal.ofBits .f32 0x00000000#32 = 0
  exact Ideal.ofBits_zero_f32

/-- The row the first point stores into the squares output is zero. -/
theorem pay3_apply (q : Fin 256) : k0_pay3 (F := Ideal) (ix2 0 q) = 0 := by
  unfold k0_pay3
  show Ideal.ofBits .f32 0x00000000#32 = 0
  exact Ideal.ofBits_zero_f32

/-! ## The blocks a point reads, and the statistics after each point -/

section Arrays
variable (V : (c : Dev nD) → (b : Ref sig .tc) → Buf (Elt Ideal) ((c : Thread nD τ).loc b)) (c : Dev nD)

/-- The five input arrays as the region finds them. -/
abbrev arrA : S61952x256.Idx → EReal := V c (Pipeline.arrRef spec0 0)
abbrev arrX : S61952x256.Idx → EReal := V c (Pipeline.arrRef spec0 1)
abbrev arrWl : S256x256.Idx → EReal := V c (Pipeline.arrRef spec0 2)
abbrev arrWr : S256x256.Idx → EReal := V c (Pipeline.arrRef spec0 3)
abbrev arrB : S1x256.Idx → EReal := V c (Pipeline.arrRef spec0 4)

/-- The linear part of the layer at row `r`, column `q`, of the arrays as found. -/
abbrev H (r : Fin 61952) (q : Fin 256) : EReal := Cert.Sage.linS (arrA V c) (arrX V c) (arrWl V c) (arrWr V c) (arrB V c) r q

/-- The block indices over the grid: the two row operands and the row output move down one block per point; the
    weights, the bias row and the two statistics rows stay. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

theorem row_lt (t : Fin cfg0.N) (p : Fin 512) : 512 * t.val + p.val < 61952 := by
  have hN : t.val < 121 := lt_of_lt_of_eq t.isLt (show cfg0.N = 121 from N_0)
  have := p.isLt; omega

/-- Row `p` of the first operand's block at point `t` is row `512 t + p` of the array. -/
theorem blkA_apply (t : Fin cfg0.N) (p : Fin 512) (k : Fin 256) :
    iblk0 V c 0 t (ix2 p k) = arrA V c (ix2 ⟨512 * t.val + p.val, row_lt t p⟩ k) := by
  unfold iblk0
  rw [View.read_apply]
  refine congrArg (V c (Pipeline.arrRef spec0 0)) (funext fun a => Fin.ext ?_)
  match a with
  | ⟨0, _⟩ => show win0_0.index t 0 * 512 + 1 * p.val = 512 * t.val + p.val; rw [(idx_facts t).1.1]; omega
  | ⟨1, _⟩ => show win0_0.index t 1 * 256 + 1 * k.val = k.val; rw [(idx_facts t).1.2]; omega

/-- Row `p` of the second operand's block at point `t` is row `512 t + p` of the array. -/
theorem blkX_apply (t : Fin cfg0.N) (p : Fin 512) (k : Fin 256) :
    iblk0 V c 1 t (ix2 p k) = arrX V c (ix2 ⟨512 * t.val + p.val, row_lt t p⟩ k) := by
  unfold iblk0
  rw [View.read_apply]
  refine congrArg (V c (Pipeline.arrRef spec0 1)) (funext fun a => Fin.ext ?_)
  match a with
  | ⟨0, _⟩ => show win0_1.index t 0 * 512 + 1 * p.val = 512 * t.val + p.val; rw [(idx_facts t).2.1.1]; omega
  | ⟨1, _⟩ => show win0_1.index t 1 * 256 + 1 * k.val = k.val; rw [(idx_facts t).2.1.2]; omega

/-- The first weights' block at any point is the whole array. -/
theorem blkWl_apply (t : Fin cfg0.N) (k q : Fin 256) : iblk0 V c 2 t (ix2 k q) = arrWl V c (ix2 k q) := by
  unfold iblk0
  rw [View.read_apply]
  refine congrArg (V c (Pipeline.arrRef spec0 2)) (funext fun a => Fin.ext ?_)
  match a with
  | ⟨0, _⟩ => show win0_2.index t 0 * 256 + 1 * k.val = k.val; rw [(idx_facts t).2.2.1.1]; omega
  | ⟨1, _⟩ => show win0_2.index t 1 * 256 + 1 * q.val = q.val; rw [(idx_facts t).2.2.1.2]; omega

/-- The second weights' block at any point is the whole array. -/
theorem blkWr_apply (t : Fin cfg0.N) (k q : Fin 256) : iblk0 V c 3 t (ix2 k q) = arrWr V c (ix2 k q) := by
  unfold iblk0
  rw [View.read_apply]
  refine congrArg (V c (Pipeline.arrRef spec0 3)) (funext fun a => Fin.ext ?_)
  match a with
  | ⟨0, _⟩ => show win0_3.index t 0 * 256 + 1 * k.val = k.val; rw [(idx_facts t).2.2.2.1.1]; omega
  | ⟨1, _⟩ => show win0_3.index t 1 * 256 + 1 * q.val = q.val; rw [(idx_facts t).2.2.2.1.2]; omega

/-- The bias row's block at any point is the whole row. -/
theorem blkB_apply (t : Fin cfg0.N) (q : Fin 256) : iblk0 V c 4 t (ix2 0 q) = arrB V c (ix2 0 q) := by
  unfold iblk0
  rw [View.read_apply]
  refine congrArg (V c (Pipeline.arrRef spec0 4)) (funext fun a => Fin.ext ?_)
  match a with
  | ⟨0, _⟩ => show win0_4.index t 0 * 1 + 1 * 0 = 0; rw [(idx_facts t).2.2.2.2.1.1]
  | ⟨1, _⟩ => show win0_4.index t 1 * 256 + 1 * q.val = q.val; rw [(idx_facts t).2.2.2.2.1.2]; omega

/-- The body's linear part at point `t`, row `p`, column `q`, is the layer's linear part at row `512 t + p`. -/
theorem lin_at (t : Fin cfg0.N) (p : Fin 512) (q : Fin 256) :
    k0_pay4 (F := Ideal) (iblk0 V c 0 t) (iblk0 V c 1 t) (iblk0 V c 2 t) (iblk0 V c 3 t) (iblk0 V c 4 t) (ix2 p q)
      = H V c ⟨512 * t.val + p.val, row_lt t p⟩ q := by
  refine (pay4_apply (iblk0 V c 0 t) (iblk0 V c 1 t) (iblk0 V c 2 t) (iblk0 V c 3 t) (iblk0 V c 4 t) p q).trans ?_
  unfold H Cert.Sage.linS
  rw [blkB_apply V c t q]
  refine congrArg₂ (· + ·) (congrArg₂ (· + ·) (Finset.sum_congr rfl fun k _ => ?_) (Finset.sum_congr rfl fun k _ => ?_)) rfl
  · rw [blkA_apply V c t p k, blkWl_apply V c t k q]
  · rw [blkX_apply V c t p k, blkWr_apply V c t k q]

/-- What the three output buffers hold after the first point. -/
theorem outs_first (t : Fin cfg0.N) (h0 : t.val % 121 = 0) :
    (outsAt0 V c t.val t.isLt).1 = k0_pay4 (F := Ideal) (iblk0 V c 0 t) (iblk0 V c 1 t) (iblk0 V c 2 t) (iblk0 V c 3 t) (iblk0 V c 4 t)
    ∧ (outsAt0 V c t.val t.isLt).2.1 = k0_pay5 (F := Ideal) (iblk0 V c 0 t) (iblk0 V c 1 t) (iblk0 V c 2 t) (iblk0 V c 3 t) (iblk0 V c 4 t) (k0_pay2 (F := Ideal))
    ∧ (outsAt0 V c t.val t.isLt).2.2 = k0_pay1 (F := Ideal) (k0_pay6 (F := Ideal) (k0_pay3 (F := Ideal))) (k0_pay7 (F := Ideal) (iblk0 V c 0 t) (iblk0 V c 1 t) (iblk0 V c 2 t) (iblk0 V c 3 t) (iblk0 V c 4 t)) := by
  rw [outsAt0_A V c t h0]
  dsimp only
  refine ⟨?_, ?_, ?_⟩
  · exact outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · exact outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)

/-- What the three output buffers hold after a later point, from what the point before left in the two statistics rows. -/
theorem outs_later (t : Fin cfg0.N) (h0 : ¬t.val % 121 = 0) :
    (outsAt0 V c t.val t.isLt).1 = k0_pay4 (F := Ideal) (iblk0 V c 0 t) (iblk0 V c 1 t) (iblk0 V c 2 t) (iblk0 V c 3 t) (iblk0 V c 4 t)
    ∧ (outsAt0 V c t.val t.isLt).2.1 = k0_pay5 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).2.1
    ∧ (outsAt0 V c t.val t.isLt).2.2 = k0_pay1 (F := Ideal) (k0_pay6 (F := Ideal) (outsAt0 V c (t.val - 1) (Nat.lt_of_le_of_lt (Nat.sub_le _ _) t.isLt)).2.2) (k0_pay7 (F := Ideal) (iblk0 V c 0 t) (iblk0 V c 1 t) (iblk0 V c 2 t) (iblk0 V c 3 t) (iblk0 V c 4 t)) := by
  rw [outsAt0_B V c t h0]
  dsimp only
  refine ⟨?_, ?_, ?_⟩
  · exact outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _
  · exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _
  · exact outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _

/-- The row output after any point is the body's linear part of the point's blocks. -/
theorem rows_at (t : Fin cfg0.N) : (outsAt0 V c t.val t.isLt).1 = k0_pay4 (F := Ideal) (iblk0 V c 0 t) (iblk0 V c 1 t) (iblk0 V c 2 t) (iblk0 V c 3 t) (iblk0 V c 4 t) := by
  by_cases h0 : t.val % 121 = 0
  · exact (outs_first V c t h0).1
  · exact (outs_later V c t h0).1

theorem hNKB : 61952 = 121 * 512 := by norm_num

/-- The column sum of block `j` of the layer's linear part, and of its squares: what one point adds. -/
theorem block_sum (t : Fin cfg0.N) (q : Fin 256) :
    (∑ p : Fin 512, k0_pay4 (F := Ideal) (iblk0 V c 0 t) (iblk0 V c 1 t) (iblk0 V c 2 t) (iblk0 V c 3 t) (iblk0 V c 4 t) (ix2 p q)) = Cert.LibBlockRuns.block 121 512 hNKB (fun r => H V c r q) t.val := by
  have hN : t.val < 121 := lt_of_lt_of_eq t.isLt (show cfg0.N = 121 from N_0)
  rw [Cert.LibBlockRuns.block_of_lt 121 512 hNKB _ t.val hN]
  exact Finset.sum_congr rfl fun p _ => lin_at V c t p q

theorem block_sq (t : Fin cfg0.N) (q : Fin 256) :
    (∑ p : Fin 512, k0_pay4 (F := Ideal) (iblk0 V c 0 t) (iblk0 V c 1 t) (iblk0 V c 2 t) (iblk0 V c 3 t) (iblk0 V c 4 t) (ix2 p q) * k0_pay4 (F := Ideal) (iblk0 V c 0 t) (iblk0 V c 1 t) (iblk0 V c 2 t) (iblk0 V c 3 t) (iblk0 V c 4 t) (ix2 p q))
      = Cert.LibBlockRuns.block 121 512 hNKB (fun r => H V c r q * H V c r q) t.val := by
  have hN : t.val < 121 := lt_of_lt_of_eq t.isLt (show cfg0.N = 121 from N_0)
  rw [Cert.LibBlockRuns.block_of_lt 121 512 hNKB _ t.val hN]
  exact Finset.sum_congr rfl fun p _ => by rw [lin_at V c t p q]

/-- THE RUNNING STATISTICS: after point `n` the two rows hold the column sums, of the linear part and of its squares,
    over the blocks 0 … n — by induction on the point. -/
theorem stats_at : ∀ (n : ℕ) (hn : n < cfg0.N) (q : Fin 256),
    (outsAt0 V c n hn).2.1 (ix2 0 q) = ∑ j ∈ Finset.range (n + 1), Cert.LibBlockRuns.block 121 512 hNKB (fun r => H V c r q) j
    ∧ (outsAt0 V c n hn).2.2 (ix2 0 q)
        = ∑ j ∈ Finset.range (n + 1), Cert.LibBlockRuns.block 121 512 hNKB (fun r => H V c r q * H V c r q) j
  | 0, hn, q => by
    obtain ⟨-, e6, e7⟩ := outs_first V c ⟨0, hn⟩ rfl
    have e6' : (outsAt0 V c 0 hn).2.1 = _ := e6
    have e7' : (outsAt0 V c 0 hn).2.2 = _ := e7
    rw [e6', e7', pay5_apply, pay1_apply, pay2_apply, pay3_apply, block_sum V c ⟨0, hn⟩ q, block_sq V c ⟨0, hn⟩ q]
    refine ⟨?_, ?_⟩
    · show 0 + _ = ∑ j ∈ Finset.range 1, _
      rw [Finset.sum_range_one]; exact zero_add _
    · show 0 + _ = ∑ j ∈ Finset.range 1, _
      rw [Finset.sum_range_one]; exact zero_add _
  | n + 1, hn, q => by
    have hN : n + 1 < 121 := lt_of_lt_of_eq hn (show cfg0.N = 121 from N_0)
    have hB : ¬(⟨n + 1, hn⟩ : Fin cfg0.N).val % 121 = 0 := by dsimp only; omega
    obtain ⟨-, e6, e7⟩ := outs_later V c ⟨n + 1, hn⟩ hB
    have e6' : (outsAt0 V c (n + 1) hn).2.1 = _ := e6
    have e7' : (outsAt0 V c (n + 1) hn).2.2 = _ := e7
    rw [e6', e7', pay5_apply, pay1_apply, block_sum V c ⟨n + 1, hn⟩ q, block_sq V c ⟨n + 1, hn⟩ q,
      Finset.sum_range_succ _ (n + 1), Finset.sum_range_succ _ (n + 1)]
    have ih := stats_at n (Nat.lt_of_succ_lt hn) q
    exact ⟨congrArg (· + _) ih.1, congrArg (· + _) ih.2⟩

/-- After the last point the two rows hold the column sums over all rows. -/
theorem stats_last (t : Fin cfg0.N) (hl : t.val = 120) (q : Fin 256) :
    (outsAt0 V c t.val t.isLt).2.1 (ix2 0 q) = ∑ r : Fin 61952, H V c r q
    ∧ (outsAt0 V c t.val t.isLt).2.2 (ix2 0 q) = ∑ r : Fin 61952, H V c r q * H V c r q := by
  obtain ⟨e1, e2⟩ := stats_at V c t.val t.isLt q
  rw [e1, e2, hl]
  refine ⟨?_, ?_⟩
  · show ∑ j ∈ Finset.range 121, _ = _
    exact Cert.LibBlockRuns.sum_range_block hNKB _
  · show ∑ j ∈ Finset.range 121, _ = _
    exact Cert.LibBlockRuns.sum_range_block hNKB _

/-! ## The three result arrays -/

/-- The row array the region leaves: the layer's linear part, row by row. -/
abbrev rowsG : S61952x256.Idx → EReal := fun i => H V c (i 0) (i 1)
/-- The sums row the region leaves: the column sums of the linear part over all rows. -/
abbrev sumG : S1x256.Idx → EReal := fun i => ∑ r : Fin 61952, H V c r (i 1)
/-- The squares row the region leaves: the column sums of the squared linear part over all rows. -/
abbrev sqG : S1x256.Idx → EReal := fun i => ∑ r : Fin 61952, H V c r (i 1) * H V c r (i 1)

/-- What point `t` writes back of the row output is block `t` of the row array. -/
theorem flushed5_eq (t : Fin cfg0.N) :
    (dat0 V c).flushed 5 t = ((cfg0.win 5).blk t).view.read (Elt Ideal) (rowsG V c) := by
  show (cfg0.win 5).cut (grid0.coords t) ((dat0 V c).after 5 t) = _
  rw [after0_5, rows_at V c t]
  funext j
  obtain ⟨p, q, rfl⟩ : ∃ (p : Fin 512) (q : Fin 256), j = ix2 p q := ⟨j 0, j 1, eq_ix2 j⟩
  rw [View.read_apply]
  refine (lin_at V c t p q).trans ?_
  refine congrArg₂ (H V c) (Fin.ext ?_) (Fin.ext ?_)
  · show 512 * t.val + p.val = win0_5.index t 0 * 512 + 1 * p.val
    rw [(idx_facts t).2.2.2.2.2.1.1]; omega
  · show q.val = win0_5.index t 1 * 256 + 1 * q.val
    rw [(idx_facts t).2.2.2.2.2.1.2]; omega

/-- An index of the row array is in point `t`'s block exactly when its coordinates are in the block's ranges. -/
theorem mem_blk5 (t : Fin cfg0.N) (i : S61952x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v27_0).slice (win0_5.rect t)).set ↔ _
  rw [View.set_slice_whole, Rect.mem_set_unit]
  exact Iff.rfl

/-- THE ROW ARRAY after the run: every row is in the block of the point `row / 512`. -/
theorem rows_final : (dat0 V c).arrAt 5 cfg0.N = rowsG V c :=
  (dat0 V c).arrAt_eq_of_cover 5 (rowsG V c) (fun t _ => flushed5_eq V c t) fun i => by
    have hi0 : (i 0).val < 61952 := (i 0).isLt
    have hi1 : (i 1).val < 256 := (i 1).isLt
    have hN : cfg0.N = 121 := N_0
    refine ⟨⟨(i 0).val / 512, by rw [hN]; omega⟩, flush0_5 _, ?_⟩
    rw [mem_blk5]
    intro a
    match a with
    | ⟨0, _⟩ =>
      show win0_5.index ⟨(i 0).val / 512, _⟩ 0 * 512 ≤ (i 0).val ∧ (i 0).val < win0_5.index ⟨(i 0).val / 512, _⟩ 0 * 512 + 512
      rw [(idx_facts _).2.2.2.2.2.1.1]; dsimp only; omega
    | ⟨1, _⟩ =>
      show win0_5.index ⟨(i 0).val / 512, _⟩ 1 * 256 ≤ (i 1).val ∧ (i 1).val < win0_5.index ⟨(i 0).val / 512, _⟩ 1 * 256 + 256
      rw [(idx_facts _).2.2.2.2.2.1.2]; omega

/-- The one write-back of the sums row, after the last point, writes the column sums over all rows. -/
theorem flushed6_eq (t : Fin cfg0.N) (hf : (cfg0.win 6).flush t = true) :
    (dat0 V c).flushed 6 t = ((cfg0.win 6).blk t).view.read (Elt Ideal) (sumG V c) := by
  have hN : t.val < 121 := lt_of_lt_of_eq t.isLt (show cfg0.N = 121 from N_0)
  have hl : t.val = 120 := by have := (flush0_6 t).mp hf; omega
  have hz' : (fun a => win0_6.index t a * main_v27_1.ty.shape.size a) = fun _ => 0 := funext fun a => by
    match a with
    | ⟨0, _⟩ => show win0_6.index t 0 * 1 = 0; rw [(idx_facts t).2.2.2.2.2.2.1.1]
    | ⟨1, _⟩ => show win0_6.index t 1 * 256 = 0; rw [(idx_facts t).2.2.2.2.2.2.1.2]
  show (cfg0.win 6).cut (grid0.coords t) ((dat0 V c).after 6 t) = _
  rw [after0_6]
  refine Eq.trans ?_ (Memref.read_access_unit_zero (Elt Ideal) main_v27_1 hz' (fun a => by rw [congrFun hz' a]; simp) (sumG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t hl q).1

/-- The one write-back of the squares row writes the column sums of squares over all rows. -/
theorem flushed7_eq (t : Fin cfg0.N) (hf : (cfg0.win 7).flush t = true) :
    (dat0 V c).flushed 7 t = ((cfg0.win 7).blk t).view.read (Elt Ideal) (sqG V c) := by
  have hN : t.val < 121 := lt_of_lt_of_eq t.isLt (show cfg0.N = 121 from N_0)
  have hl : t.val = 120 := by have := (flush0_7 t).mp hf; omega
  have hz' : (fun a => win0_7.index t a * main_v27_2.ty.shape.size a) = fun _ => 0 := funext fun a => by
    match a with
    | ⟨0, _⟩ => show win0_7.index t 0 * 1 = 0; rw [(idx_facts t).2.2.2.2.2.2.2.1]
    | ⟨1, _⟩ => show win0_7.index t 1 * 256 = 0; rw [(idx_facts t).2.2.2.2.2.2.2.2]
  show (cfg0.win 7).cut (grid0.coords t) ((dat0 V c).after 7 t) = _
  rw [after0_7]
  refine Eq.trans ?_ (Memref.read_access_unit_zero (Elt Ideal) main_v27_2 hz' (fun a => by rw [congrFun hz' a]; simp) (sqG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t hl q).2

theorem mem_blk6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v27_1).slice (win0_6.rect t)).set ↔ _
  rw [View.set_slice_whole, Rect.mem_set_unit]
  exact Iff.rfl

theorem sum_final : (dat0 V c).arrAt 6 cfg0.N = sumG V c :=
  (dat0 V c).arrAt_eq_of_cover 6 (sumG V c) (flushed6_eq V c) fun i => by
    have hN : cfg0.N = 121 := N_0
    have hi0 : (i 0).val < 1 := (i 0).isLt
    have hi1 : (i 1).val < 256 := (i 1).isLt
    refine ⟨⟨120, by rw [hN]; omega⟩, (flush0_6 _).mpr rfl, ?_⟩
    rw [mem_blk6]
    intro a
    match a with
    | ⟨0, _⟩ =>
      show win0_6.index ⟨120, _⟩ 0 * 1 ≤ (i 0).val ∧ (i 0).val < win0_6.index ⟨120, _⟩ 0 * 1 + 1
      rw [(idx_facts _).2.2.2.2.2.2.1.1]; omega
    | ⟨1, _⟩ =>
      show win0_6.index ⟨120, _⟩ 1 * 256 ≤ (i 1).val ∧ (i 1).val < win0_6.index ⟨120, _⟩ 1 * 256 + 256
      rw [(idx_facts _).2.2.2.2.2.2.1.2]; omega

/-- THE SQUARES ROW after the run. -/
theorem mem_blk7 (t : Fin cfg0.N) (i : S1x256.Idx) :
    i ∈ ((cfg0.win 7).blk t).view.set ↔ ∀ a : Fin 2, win0_7.index t a * S1x256.size a ≤ (i a).val
      ∧ (i a).val < win0_7.index t a * S1x256.size a + S1x256.size a := by
  show i ∈ ((View.whole main_v27_2).slice (win0_7.rect t)).set ↔ _
  rw [View.set_slice_whole, Rect.mem_set_unit]
  exact Iff.rfl

theorem sq_final : (dat0 V c).arrAt 7 cfg0.N = sqG V c :=
  (dat0 V c).arrAt_eq_of_cover 7 (sqG V c) (flushed7_eq V c) fun i => by
    have hN : cfg0.N = 121 := N_0
    have hi0 : (i 0).val < 1 := (i 0).isLt
    have hi1 : (i 1).val < 256 := (i 1).isLt
    refine ⟨⟨120, by rw [hN]; omega⟩, (flush0_7 _).mpr rfl, ?_⟩
    rw [mem_blk7]
    intro a
    match a with
    | ⟨0, _⟩ =>
      show win0_7.index ⟨120, _⟩ 0 * 1 ≤ (i 0).val ∧ (i 0).val < win0_7.index ⟨120, _⟩ 0 * 1 + 1
      rw [(idx_facts _).2.2.2.2.2.2.2.1]; omega
    | ⟨1, _⟩ =>
      show win0_7.index ⟨120, _⟩ 1 * 256 ≤ (i 1).val ∧ (i 1).val < win0_7.index ⟨120, _⟩ 1 * 256 + 256
      rw [(idx_facts _).2.2.2.2.2.2.2.2]; omega

end Arrays

end Cert.KernelIdeal.Lin0

end
-- ==== Proof.BnPayload.lean ====
/-
  The batch-norm kernels' arithmetic at one entry of a block of 512 rows.

  The body centres each entry of its block at the mean row, scales it by the inverse square root of the variance row plus
  a small constant, by the gain row, adds the shift row and clamps at zero.  At the ideal values every step is the
  extended reals' own operation, and a row of extent 1 broadcast down the block reads its only row: the result at (p, q)
  is the normalised entry of the specification.  The three kernels of the program have the same body.
-/
import proofs.«168550_j58342835749309_1_alg».proof.Proof.Gen.KernelIdeal.Skeleton
import proofs.«168550_j58342835749309_1_alg».proof.Proof.Spec
import Idealize.ShloMosaic.Lib.ValueIdx
import Idealize.ShloMosaic.Lib.ValueLayout
import Idealize.ShloMosaic.Lib.Pipeline.Value

noncomputable section

namespace Cert.KernelIdeal.BnValue

open Idealize.ShloMosaic Idealize.ShloMosaic.ValueIdx Cert.KernelIdeal

/-- The body's result for batch-norm kernel 1 at row p, column q of its block: the block entry centred at the mean row,
    times the inverse square root of the variance row plus the epsilon word, times the gain row, plus the shift row,
    clamped below at the zero word.  Every row operand is read at its only row. -/
theorem pay1_apply (x0 : Vec Ideal S512x256 .f32) (x1 x2 x3 x4 : Vec Ideal S1x256 .f32) (p : Fin 512) (q : Fin 256) :
    Gen.k1_pay1 x0 x2 x1 x3 x4 (ix2 p q)
      = max ((((x0 (ix2 p q) - x1 (ix2 0 q)) * Ideal.rsqrt (x2 (ix2 0 q) + Ideal.ofBits .f32 0x3727C5AC#32)) * x3 (ix2 0 q))
          + x4 (ix2 0 q)) (Ideal.ofBits .f32 0x00000000#32) := by
  unfold Gen.k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The same entry when the blocks are pieces of whole arrays: if the block's row p is row r of the array h and the four
    row blocks are the rows mean, var, g, be, the body's result at (p, q) is the normalised entry of the arrays at (r, q). -/
theorem pay1_blocks {R : Nat} (h : (⟨2, ![R, 256]⟩ : Shape).Idx → EReal) (mean var g be : (⟨2, ![1, 256]⟩ : Shape).Idx → EReal)
    (x0 : Vec Ideal S512x256 .f32) (x1 x2 x3 x4 : Vec Ideal S1x256 .f32) (p : Fin 512) (q : Fin 256) (r : Fin R)
    (h0 : x0 (ix2 p q) = h (ix2 r q)) (h1 : x1 (ix2 0 q) = mean (ix2 0 q)) (h2 : x2 (ix2 0 q) = var (ix2 0 q))
    (h3 : x3 (ix2 0 q) = g (ix2 0 q)) (h4 : x4 (ix2 0 q) = be (ix2 0 q)) :
    Gen.k1_pay1 x0 x2 x1 x3 x4 (ix2 p q) = Cert.Sage.bnS h mean var g be r q := by
  rw [pay1_apply, h0, h1, h2, h3, h4]
  rfl

/-- The body's result for batch-norm kernel 3 at row p, column q of its block: the block entry centred at the mean row,
    times the inverse square root of the variance row plus the epsilon word, times the gain row, plus the shift row,
    clamped below at the zero word.  Every row operand is read at its only row. -/
theorem pay3_apply (x0 : Vec Ideal S512x256 .f32) (x1 x2 x3 x4 : Vec Ideal S1x256 .f32) (p : Fin 512) (q : Fin 256) :
    Gen.k3_pay1 x0 x2 x1 x3 x4 (ix2 p q)
      = max ((((x0 (ix2 p q) - x1 (ix2 0 q)) * Ideal.rsqrt (x2 (ix2 0 q) + Ideal.ofBits .f32 0x3727C5AC#32)) * x3 (ix2 0 q))
          + x4 (ix2 0 q)) (Ideal.ofBits .f32 0x00000000#32) := by
  unfold Gen.k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The same entry when the blocks are pieces of whole arrays: if the block's row p is row r of the array h and the four
    row blocks are the rows mean, var, g, be, the body's result at (p, q) is the normalised entry of the arrays at (r, q). -/
theorem pay3_blocks {R : Nat} (h : (⟨2, ![R, 256]⟩ : Shape).Idx → EReal) (mean var g be : (⟨2, ![1, 256]⟩ : Shape).Idx → EReal)
    (x0 : Vec Ideal S512x256 .f32) (x1 x2 x3 x4 : Vec Ideal S1x256 .f32) (p : Fin 512) (q : Fin 256) (r : Fin R)
    (h0 : x0 (ix2 p q) = h (ix2 r q)) (h1 : x1 (ix2 0 q) = mean (ix2 0 q)) (h2 : x2 (ix2 0 q) = var (ix2 0 q))
    (h3 : x3 (ix2 0 q) = g (ix2 0 q)) (h4 : x4 (ix2 0 q) = be (ix2 0 q)) :
    Gen.k3_pay1 x0 x2 x1 x3 x4 (ix2 p q) = Cert.Sage.bnS h mean var g be r q := by
  rw [pay3_apply, h0, h1, h2, h3, h4]
  rfl

/-- The body's result for batch-norm kernel 5 at row p, column q of its block: the block entry centred at the mean row,
    times the inverse square root of the variance row plus the epsilon word, times the gain row, plus the shift row,
    clamped below at the zero word.  Every row operand is read at its only row. -/
theorem pay5_apply (x0 : Vec Ideal S512x256 .f32) (x1 x2 x3 x4 : Vec Ideal S1x256 .f32) (p : Fin 512) (q : Fin 256) :
    Gen.k5_pay1 x0 x2 x1 x3 x4 (ix2 p q)
      = max ((((x0 (ix2 p q) - x1 (ix2 0 q)) * Ideal.rsqrt (x2 (ix2 0 q) + Ideal.ofBits .f32 0x3727C5AC#32)) * x3 (ix2 0 q))
          + x4 (ix2 0 q)) (Ideal.ofBits .f32 0x00000000#32) := by
  unfold Gen.k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The same entry when the blocks are pieces of whole arrays: if the block's row p is row r of the array h and the four
    row blocks are the rows mean, var, g, be, the body's result at (p, q) is the normalised entry of the arrays at (r, q). -/
theorem pay5_blocks {R : Nat} (h : (⟨2, ![R, 256]⟩ : Shape).Idx → EReal) (mean var g be : (⟨2, ![1, 256]⟩ : Shape).Idx → EReal)
    (x0 : Vec Ideal S512x256 .f32) (x1 x2 x3 x4 : Vec Ideal S1x256 .f32) (p : Fin 512) (q : Fin 256) (r : Fin R)
    (h0 : x0 (ix2 p q) = h (ix2 r q)) (h1 : x1 (ix2 0 q) = mean (ix2 0 q)) (h2 : x2 (ix2 0 q) = var (ix2 0 q))
    (h3 : x3 (ix2 0 q) = g (ix2 0 q)) (h4 : x4 (ix2 0 q) = be (ix2 0 q)) :
    Gen.k5_pay1 x0 x2 x1 x3 x4 (ix2 p q) = Cert.Sage.bnS h mean var g be r q := by
  rw [pay5_apply, h0, h1, h2, h3, h4]
  rfl

end Cert.KernelIdeal.BnValue

end
-- ==== Proof.BnRegion1.lean ====
/-
  Region 1 of the program (a batch-norm kernel over 61952 rows in 121 blocks of 512 rows), in closed form.

  For any contents of the arrays when the region is entered: the block of the input at point t is rows 512 t … 512 t + 511
  of its array, the four row operands are whole at every point, so what point t writes back is block t of ONE function of
  the five arrays — the normalised entry of the specification at (row, column).  The output's blocks tile its array (row r
  lies in block r / 512), so after the last point the output array is that function everywhere.
-/
import proofs.«168550_j58342835749309_1_alg».proof.Proof.Gen.KernelIdeal.Frame
import proofs.«168550_j58342835749309_1_alg».proof.Proof.BnPayload
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.BnValue

open Cert.KernelIdeal Cert.KernelIdeal.Gen

variable (V : (c : Dev nD) → (b : Ref sig .tc) → Buf (Elt Ideal) ((c : Thread nD τ).loc b))

/-- The windows' index maps over the grid: the two row-block windows sit at block row t, column block 0; the four row
    windows stay at block (0, 0). -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ (win1_1.index t (0 : Fin 2) = 0 ∧ win1_1.index t (1 : Fin 2) = 0
      ∧ win1_2.index t (0 : Fin 2) = 0 ∧ win1_2.index t (1 : Fin 2) = 0
      ∧ win1_3.index t (0 : Fin 2) = 0 ∧ win1_3.index t (1 : Fin 2) = 0
      ∧ win1_4.index t (0 : Fin 2) = 0 ∧ win1_4.index t (1 : Fin 2) = 0) :=
  (by decide +kernel : ∀ t : Fin grid1.N, _)

/-- The input window's block at point t is rows 512 t … 512 t + 511 of its array. -/
theorem iblk1_0_apply (c : Dev nD) (t : Fin cfg1.N) (p : Fin 512) (q : Fin 256) (r : Fin 61952)
    (hr : r.val = t.val * 512 + p.val) :
    (iblk1 V c 0 t : Vec Ideal S512x256 .f32) (ix2 p q) = (V c (Pipeline.arrRef spec1 0) : S61952x256.Idx → EReal) (ix2 r q) := by
  obtain ⟨e0, e1, -⟩ := idx_facts1 t
  show V c (Pipeline.arrRef spec1 0) (((cfg1.win 0).blk t).view.emb (ix2 p q)) = V c (Pipeline.arrRef spec1 0) (ix2 r q)
  refine congrArg (V c (Pipeline.arrRef spec1 0)) (funext fun a => Fin.ext ?_)
  match a with
  | ⟨0, _⟩ => show win1_0.index t (0 : Fin 2) * 512 + 1 * p.val = r.val; omega
  | ⟨1, _⟩ => show win1_0.index t (1 : Fin 2) * 256 + 1 * q.val = q.val; omega

/-- The mean window's block at any point is the whole row array: its entry at column q is the array's. -/
theorem iblk1_1_apply (c : Dev nD) (t : Fin cfg1.N) (q : Fin 256) :
    (iblk1 V c 1 t : Vec Ideal S1x256 .f32) (ix2 0 q) = (V c (Pipeline.arrRef spec1 1) : S1x256.Idx → EReal) (ix2 0 q) := by
  obtain ⟨-, -, -, -, e⟩ := idx_facts1 t
  have e0 : win1_1.index t (0 : Fin 2) = 0 := by simp only [e]
  have e1 : win1_1.index t (1 : Fin 2) = 0 := by simp only [e]
  show V c (Pipeline.arrRef spec1 1) (((cfg1.win 1).blk t).view.emb (ix2 0 q)) = V c (Pipeline.arrRef spec1 1) (ix2 0 q)
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 256 + 1 * q.val = q.val; omega

/-- The variance window's block at any point is the whole row array: its entry at column q is the array's. -/
theorem iblk1_2_apply (c : Dev nD) (t : Fin cfg1.N) (q : Fin 256) :
    (iblk1 V c 2 t : Vec Ideal S1x256 .f32) (ix2 0 q) = (V c (Pipeline.arrRef spec1 2) : S1x256.Idx → EReal) (ix2 0 q) := by
  obtain ⟨-, -, -, -, e⟩ := idx_facts1 t
  have e0 : win1_2.index t (0 : Fin 2) = 0 := by simp only [e]
  have e1 : win1_2.index t (1 : Fin 2) = 0 := by simp only [e]
  show V c (Pipeline.arrRef spec1 2) (((cfg1.win 2).blk t).view.emb (ix2 0 q)) = V c (Pipeline.arrRef spec1 2) (ix2 0 q)
  refine congrArg (V c (Pipeline.arrRef spec1 2)) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

/-- The gain window's block at any point is the whole row array: its entry at column q is the array's. -/
theorem iblk1_3_apply (c : Dev nD) (t : Fin cfg1.N) (q : Fin 256) :
    (iblk1 V c 3 t : Vec Ideal S1x256 .f32) (ix2 0 q) = (V c (Pipeline.arrRef spec1 3) : S1x256.Idx → EReal) (ix2 0 q) := by
  obtain ⟨-, -, -, -, e⟩ := idx_facts1 t
  have e0 : win1_3.index t (0 : Fin 2) = 0 := by simp only [e]
  have e1 : win1_3.index t (1 : Fin 2) = 0 := by simp only [e]
  show V c (Pipeline.arrRef spec1 3) (((cfg1.win 3).blk t).view.emb (ix2 0 q)) = V c (Pipeline.arrRef spec1 3) (ix2 0 q)
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- The shift window's block at any point is the whole row array: its entry at column q is the array's. -/
theorem iblk1_4_apply (c : Dev nD) (t : Fin cfg1.N) (q : Fin 256) :
    (iblk1 V c 4 t : Vec Ideal S1x256 .f32) (ix2 0 q) = (V c (Pipeline.arrRef spec1 4) : S1x256.Idx → EReal) (ix2 0 q) := by
  obtain ⟨-, -, -, -, e⟩ := idx_facts1 t
  have e0 : win1_4.index t (0 : Fin 2) = 0 := by simp only [e]
  have e1 : win1_4.index t (1 : Fin 2) = 0 := by simp only [e]
  show V c (Pipeline.arrRef spec1 4) (((cfg1.win 4).blk t).view.emb (ix2 0 q)) = V c (Pipeline.arrRef spec1 4) (ix2 0 q)
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- An index of the output array is in point t's block iff each coordinate is in the block's range on its axis. -/
theorem mem_blk1 (t : Fin cfg1.N) (i : S61952x256.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v36).slice (win1_5.rect t)).set ↔ _
  rw [View.set_slice_whole, Rect.mem_set_unit]
  exact Iff.rfl

/-- Every index of the output array is in the block of the point its row falls in: row r is in block r / 512. -/
theorem cover1 (i : S61952x256.Idx) :
    ∃ t : Fin cfg1.N, (cfg1.win 5).flush t = true ∧ i ∈ ((cfg1.win 5).blk t).view.set := by
  have hN : cfg1.N = 121 := N_1
  have hi0 : (i 0).val < 61952 := idx2_lt0 i
  have hi1 : (i 1).val < 256 := idx2_lt1 i
  have ht : (i 0).val / 512 < cfg1.N := by rw [hN]; omega
  obtain ⟨-, -, e2, e3, -⟩ := idx_facts1 ⟨(i 0).val / 512, ht⟩
  refine ⟨⟨(i 0).val / 512, ht⟩, flush1_5 _, ?_⟩
  rw [mem_blk1]
  intro a
  match a with
  | ⟨0, _⟩ =>
    show win1_5.index ⟨(i 0).val / 512, ht⟩ (0 : Fin 2) * 512 ≤ (i 0).val ∧ (i 0).val < win1_5.index ⟨(i 0).val / 512, ht⟩ (0 : Fin 2) * 512 + 512
    rw [e2]; show (i 0).val / 512 * 512 ≤ (i 0).val ∧ (i 0).val < (i 0).val / 512 * 512 + 512; omega
  | ⟨1, _⟩ =>
    show win1_5.index ⟨(i 0).val / 512, ht⟩ (1 : Fin 2) * 256 ≤ (i 1).val ∧ (i 1).val < win1_5.index ⟨(i 0).val / 512, ht⟩ (1 : Fin 2) * 256 + 256
    rw [e3]; omega

/-- The whole output array of the region as one function of the five arrays the region reads, index by index: the
    normalised entry of the specification. -/
def G1 (c : Dev nD) : S61952x256.Idx → EReal := fun i =>
  Cert.Sage.bnS (N := 61952) (C := 256) (V c (Pipeline.arrRef spec1 0)) (V c (Pipeline.arrRef spec1 1)) (V c (Pipeline.arrRef spec1 2)) (V c (Pipeline.arrRef spec1 3)) (V c (Pipeline.arrRef spec1 4)) (i 0) (i 1)

theorem hz1 : (![0, 0] : Fin 2 → Nat) = fun _ => 0 := funext fun a => by fin_cases a <;> rfl

/-- What point t writes back is block t of that function of the arrays as the region finds them. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S512x256) hz1, View.ld_unit_zero (S := S1x256) hz1]
  have hN : cfg1.N = 121 := N_1
  have htN : t.val < cfg1.N := t.isLt
  obtain ⟨-, -, e2, e3, -⟩ := idx_facts1 t
  refine funext fun (j : S512x256.Idx) => ?_
  obtain ⟨p, q, rfl⟩ : ∃ (p : Fin 512) (q : Fin 256), j = ix2 p q := ⟨j 0, j 1, eq_ix2 j⟩
  have hr : t.val * 512 + p.val < 61952 := by omega
  show k1_pay1 (iblk1 V c 0 t) (iblk1 V c 2 t) (iblk1 V c 1 t) (iblk1 V c 3 t) (iblk1 V c 4 t) (ix2 p q) = G1 V c (((cfg1.win 5).blk t).view.emb (ix2 p q))
  refine (pay1_blocks (R := 61952) (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) p q ⟨t.val * 512 + p.val, hr⟩
    (iblk1_0_apply V c t p q ⟨t.val * 512 + p.val, hr⟩ rfl) (iblk1_1_apply V c t q) (iblk1_2_apply V c t q)
    (iblk1_3_apply V c t q) (iblk1_4_apply V c t q)).trans ?_
  have ha : (⟨t.val * 512 + p.val, hr⟩ : Fin 61952) = ((cfg1.win 5).blk t).view.emb (ix2 p q) 0 :=
    Fin.ext (by show t.val * 512 + p.val = win1_5.index t (0 : Fin 2) * 512 + 1 * p.val; omega)
  have hb : q = ((cfg1.win 5).blk t).view.emb (ix2 p q) 1 :=
    Fin.ext (by show q.val = win1_5.index t (1 : Fin 2) * 256 + 1 * q.val; omega)
  exact congrArg₂ (Cert.Sage.bnS (N := 61952) (C := 256) (V c (Pipeline.arrRef spec1 0)) (V c (Pipeline.arrRef spec1 1)) (V c (Pipeline.arrRef spec1 2)) (V c (Pipeline.arrRef spec1 3)) (V c (Pipeline.arrRef spec1 4))) ha hb

/-- The region's output array after all its points: the normalised array, as one function. -/
theorem bn1_arr_eq (c : Dev nD) : (dat1 (F := Ideal) V c).arrAt 5 cfg1.N = G1 V c :=
  (dat1 (F := Ideal) V c).arrAt_eq_of_cover 5 (G1 V c) (fun t _ => flushed1_eq V c t) cover1

/-- The region's output array after all its points, entry by entry: at row r, column q it is the normalised entry of the
    five arrays the region read. -/
theorem bn1_arr (c : Dev nD) (r : Fin 61952) (q : Fin 256) :
    (dat1 (F := Ideal) V c).arrAt 5 cfg1.N (ix2 r q)
      = Cert.Sage.bnS (V c (Pipeline.arrRef spec1 0)) (V c (Pipeline.arrRef spec1 1)) (V c (Pipeline.arrRef spec1 2)) (V c (Pipeline.arrRef spec1 3)) (V c (Pipeline.arrRef spec1 4)) r q := by
  rw [bn1_arr_eq]
  rfl

end Cert.KernelIdeal.BnValue

end
-- ==== Proof.KKept.lean ====
/-
  Buffers that a stretch of the program does not write keep their contents through it: each argument array a later
  stretch or region reads is still the launched one when it is read, and a region's row output is still what the region
  left when the next region reads it.
-/
import proofs.«168550_j58342835749309_1_alg».proof.Proof.Gen.KernelIdeal.Frame
import Idealize.ShloMosaic.PureOps.Ideal

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A buffer none of a stretch's operations writes reads the same after the stretch. -/
syntax "kept_through " ident : tactic
macro_rules
  | `(tactic| kept_through $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

theorem w1_main_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by kept_through hostOps0
    _ = m ((c : Thread nD τ).loc main_arg10) := rfl

theorem w1_main_arg11 (c : Dev nD) : W1 m ρ c (Proc.devRef .tc main_arg11) = m ((c : Thread nD τ).loc main_arg11) :=
  calc W1 m ρ c (Proc.devRef .tc main_arg11)
    _ = W0 m ρ c (Proc.devRef .tc main_arg11) := by kept_through hostOps0
    _ = m ((c : Thread nD τ).loc main_arg11) := rfl

theorem w2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by kept_through hostOps0
    _ = m ((c : Thread nD τ).loc main_arg13) := rfl

theorem w2_main_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := by kept_through hostOps0
    _ = m ((c : Thread nD τ).loc main_arg14) := rfl

theorem w4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by kept_through hostOps1
    _ = W1 m ρ c (Proc.devRef .tc main_arg4) := W2_of_ne m ρ c main_arg4 (by decide)
    _ = W0 m ρ c (Proc.devRef .tc main_arg4) := by kept_through hostOps0
    _ = m ((c : Thread nD τ).loc main_arg4) := rfl

theorem w4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by kept_through hostOps1
    _ = W1 m ρ c (Proc.devRef .tc main_arg5) := W2_of_ne m ρ c main_arg5 (by decide)
    _ = W0 m ρ c (Proc.devRef .tc main_arg5) := by kept_through hostOps0
    _ = m ((c : Thread nD τ).loc main_arg5) := rfl

theorem w4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by kept_through hostOps1
    _ = W1 m ρ c (Proc.devRef .tc main_arg6) := W2_of_ne m ρ c main_arg6 (by decide)
    _ = W0 m ρ c (Proc.devRef .tc main_arg6) := by kept_through hostOps0
    _ = m ((c : Thread nD τ).loc main_arg6) := rfl

theorem w4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by kept_through hostOps1
    _ = W1 m ρ c (Proc.devRef .tc main_arg17) := W2_of_ne m ρ c main_arg17 (by decide)
    _ = W0 m ρ c (Proc.devRef .tc main_arg17) := by kept_through hostOps0
    _ = m ((c : Thread nD τ).loc main_arg17) := rfl

theorem w5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := by kept_through hostOps2
    _ = W3 m ρ c (Proc.devRef .tc main_arg15) := W4_of_ne m ρ c main_arg15 (by decide)
    _ = W2 m ρ c (Proc.devRef .tc main_arg15) := by kept_through hostOps1
    _ = W1 m ρ c (Proc.devRef .tc main_arg15) := W2_of_ne m ρ c main_arg15 (by decide)
    _ = W0 m ρ c (Proc.devRef .tc main_arg15) := by kept_through hostOps0
    _ = m ((c : Thread nD τ).loc main_arg15) := rfl

theorem w5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := by kept_through hostOps2
    _ = W3 m ρ c (Proc.devRef .tc main_arg16) := W4_of_ne m ρ c main_arg16 (by decide)
    _ = W2 m ρ c (Proc.devRef .tc main_arg16) := by kept_through hostOps1
    _ = W1 m ρ c (Proc.devRef .tc main_arg16) := W2_of_ne m ρ c main_arg16 (by decide)
    _ = W0 m ρ c (Proc.devRef .tc main_arg16) := by kept_through hostOps0
    _ = m ((c : Thread nD τ).loc main_arg16) := rfl

theorem w6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := by kept_through hostOps2
    _ = W3 m ρ c (Proc.devRef .tc main_arg18) := W4_of_ne m ρ c main_arg18 (by decide)
    _ = W2 m ρ c (Proc.devRef .tc main_arg18) := by kept_through hostOps1
    _ = W1 m ρ c (Proc.devRef .tc main_arg18) := W2_of_ne m ρ c main_arg18 (by decide)
    _ = W0 m ρ c (Proc.devRef .tc main_arg18) := by kept_through hostOps0
    _ = m ((c : Thread nD τ).loc main_arg18) := rfl

theorem w6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := by kept_through hostOps2
    _ = W3 m ρ c (Proc.devRef .tc main_arg19) := W4_of_ne m ρ c main_arg19 (by decide)
    _ = W2 m ρ c (Proc.devRef .tc main_arg19) := by kept_through hostOps1
    _ = W1 m ρ c (Proc.devRef .tc main_arg19) := W2_of_ne m ρ c main_arg19 (by decide)
    _ = W0 m ρ c (Proc.devRef .tc main_arg19) := by kept_through hostOps0
    _ = m ((c : Thread nD τ).loc main_arg19) := rfl

theorem w8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by kept_through hostOps3
    _ = W5 m ρ c (Proc.devRef .tc main_arg7) := W6_of_ne m ρ c main_arg7 (by decide)
    _ = W4 m ρ c (Proc.devRef .tc main_arg7) := by kept_through hostOps2
    _ = W3 m ρ c (Proc.devRef .tc main_arg7) := W4_of_ne m ρ c main_arg7 (by decide)
    _ = W2 m ρ c (Proc.devRef .tc main_arg7) := by kept_through hostOps1
    _ = W1 m ρ c (Proc.devRef .tc main_arg7) := W2_of_ne m ρ c main_arg7 (by decide)
    _ = W0 m ρ c (Proc.devRef .tc main_arg7) := by kept_through hostOps0
    _ = m ((c : Thread nD τ).loc main_arg7) := rfl

theorem w8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by kept_through hostOps3
    _ = W5 m ρ c (Proc.devRef .tc main_arg8) := W6_of_ne m ρ c main_arg8 (by decide)
    _ = W4 m ρ c (Proc.devRef .tc main_arg8) := by kept_through hostOps2
    _ = W3 m ρ c (Proc.devRef .tc main_arg8) := W4_of_ne m ρ c main_arg8 (by decide)
    _ = W2 m ρ c (Proc.devRef .tc main_arg8) := by kept_through hostOps1
    _ = W1 m ρ c (Proc.devRef .tc main_arg8) := W2_of_ne m ρ c main_arg8 (by decide)
    _ = W0 m ρ c (Proc.devRef .tc main_arg8) := by kept_through hostOps0
    _ = m ((c : Thread nD τ).loc main_arg8) := rfl

theorem w8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by kept_through hostOps3
    _ = W5 m ρ c (Proc.devRef .tc main_arg9) := W6_of_ne m ρ c main_arg9 (by decide)
    _ = W4 m ρ c (Proc.devRef .tc main_arg9) := by kept_through hostOps2
    _ = W3 m ρ c (Proc.devRef .tc main_arg9) := W4_of_ne m ρ c main_arg9 (by decide)
    _ = W2 m ρ c (Proc.devRef .tc main_arg9) := by kept_through hostOps1
    _ = W1 m ρ c (Proc.devRef .tc main_arg9) := W2_of_ne m ρ c main_arg9 (by decide)
    _ = W0 m ρ c (Proc.devRef .tc main_arg9) := by kept_through hostOps0
    _ = m ((c : Thread nD τ).loc main_arg9) := rfl

theorem w8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := by kept_through hostOps3
    _ = W5 m ρ c (Proc.devRef .tc main_arg22) := W6_of_ne m ρ c main_arg22 (by decide)
    _ = W4 m ρ c (Proc.devRef .tc main_arg22) := by kept_through hostOps2
    _ = W3 m ρ c (Proc.devRef .tc main_arg22) := W4_of_ne m ρ c main_arg22 (by decide)
    _ = W2 m ρ c (Proc.devRef .tc main_arg22) := by kept_through hostOps1
    _ = W1 m ρ c (Proc.devRef .tc main_arg22) := W2_of_ne m ρ c main_arg22 (by decide)
    _ = W0 m ρ c (Proc.devRef .tc main_arg22) := by kept_through hostOps0
    _ = m ((c : Thread nD τ).loc main_arg22) := rfl

theorem w9_main_arg20 (c : Dev nD) : W9 m ρ c (Proc.devRef .tc main_arg20) = m ((c : Thread nD τ).loc main_arg20) :=
  calc W9 m ρ c (Proc.devRef .tc main_arg20)
    _ = W8 m ρ c (Proc.devRef .tc main_arg20) := by kept_through hostOps4
    _ = W7 m ρ c (Proc.devRef .tc main_arg20) := W8_of_ne m ρ c main_arg20 (by decide)
    _ = W6 m ρ c (Proc.devRef .tc main_arg20) := by kept_through hostOps3
    _ = W5 m ρ c (Proc.devRef .tc main_arg20) := W6_of_ne m ρ c main_arg20 (by decide)
    _ = W4 m ρ c (Proc.devRef .tc main_arg20) := by kept_through hostOps2
    _ = W3 m ρ c (Proc.devRef .tc main_arg20) := W4_of_ne m ρ c main_arg20 (by decide)
    _ = W2 m ρ c (Proc.devRef .tc main_arg20) := by kept_through hostOps1
    _ = W1 m ρ c (Proc.devRef .tc main_arg20) := W2_of_ne m ρ c main_arg20 (by decide)
    _ = W0 m ρ c (Proc.devRef .tc main_arg20) := by kept_through hostOps0
    _ = m ((c : Thread nD τ).loc main_arg20) := rfl

theorem w9_main_arg21 (c : Dev nD) : W9 m ρ c (Proc.devRef .tc main_arg21) = m ((c : Thread nD τ).loc main_arg21) :=
  calc W9 m ρ c (Proc.devRef .tc main_arg21)
    _ = W8 m ρ c (Proc.devRef .tc main_arg21) := by kept_through hostOps4
    _ = W7 m ρ c (Proc.devRef .tc main_arg21) := W8_of_ne m ρ c main_arg21 (by decide)
    _ = W6 m ρ c (Proc.devRef .tc main_arg21) := by kept_through hostOps3
    _ = W5 m ρ c (Proc.devRef .tc main_arg21) := W6_of_ne m ρ c main_arg21 (by decide)
    _ = W4 m ρ c (Proc.devRef .tc main_arg21) := by kept_through hostOps2
    _ = W3 m ρ c (Proc.devRef .tc main_arg21) := W4_of_ne m ρ c main_arg21 (by decide)
    _ = W2 m ρ c (Proc.devRef .tc main_arg21) := by kept_through hostOps1
    _ = W1 m ρ c (Proc.devRef .tc main_arg21) := W2_of_ne m ρ c main_arg21 (by decide)
    _ = W0 m ρ c (Proc.devRef .tc main_arg21) := by kept_through hostOps0
    _ = m ((c : Thread nD τ).loc main_arg21) := rfl

theorem w10_main_arg23 (c : Dev nD) : W10 m ρ c (Proc.devRef .tc main_arg23) = m ((c : Thread nD τ).loc main_arg23) :=
  calc W10 m ρ c (Proc.devRef .tc main_arg23)
    _ = W9 m ρ c (Proc.devRef .tc main_arg23) := W10_of_ne m ρ c main_arg23 (by decide)
    _ = W8 m ρ c (Proc.devRef .tc main_arg23) := by kept_through hostOps4
    _ = W7 m ρ c (Proc.devRef .tc main_arg23) := W8_of_ne m ρ c main_arg23 (by decide)
    _ = W6 m ρ c (Proc.devRef .tc main_arg23) := by kept_through hostOps3
    _ = W5 m ρ c (Proc.devRef .tc main_arg23) := W6_of_ne m ρ c main_arg23 (by decide)
    _ = W4 m ρ c (Proc.devRef .tc main_arg23) := by kept_through hostOps2
    _ = W3 m ρ c (Proc.devRef .tc main_arg23) := W4_of_ne m ρ c main_arg23 (by decide)
    _ = W2 m ρ c (Proc.devRef .tc main_arg23) := by kept_through hostOps1
    _ = W1 m ρ c (Proc.devRef .tc main_arg23) := W2_of_ne m ρ c main_arg23 (by decide)
    _ = W0 m ρ c (Proc.devRef .tc main_arg23) := by kept_through hostOps0
    _ = m ((c : Thread nD τ).loc main_arg23) := rfl

theorem w10_main_arg24 (c : Dev nD) : W10 m ρ c (Proc.devRef .tc main_arg24) = m ((c : Thread nD τ).loc main_arg24) :=
  calc W10 m ρ c (Proc.devRef .tc main_arg24)
    _ = W9 m ρ c (Proc.devRef .tc main_arg24) := W10_of_ne m ρ c main_arg24 (by decide)
    _ = W8 m ρ c (Proc.devRef .tc main_arg24) := by kept_through hostOps4
    _ = W7 m ρ c (Proc.devRef .tc main_arg24) := W8_of_ne m ρ c main_arg24 (by decide)
    _ = W6 m ρ c (Proc.devRef .tc main_arg24) := by kept_through hostOps3
    _ = W5 m ρ c (Proc.devRef .tc main_arg24) := W6_of_ne m ρ c main_arg24 (by decide)
    _ = W4 m ρ c (Proc.devRef .tc main_arg24) := by kept_through hostOps2
    _ = W3 m ρ c (Proc.devRef .tc main_arg24) := W4_of_ne m ρ c main_arg24 (by decide)
    _ = W2 m ρ c (Proc.devRef .tc main_arg24) := by kept_through hostOps1
    _ = W1 m ρ c (Proc.devRef .tc main_arg24) := W2_of_ne m ρ c main_arg24 (by decide)
    _ = W0 m ρ c (Proc.devRef .tc main_arg24) := by kept_through hostOps0
    _ = m ((c : Thread nD τ).loc main_arg24) := rfl

theorem w12_main_arg26 (c : Dev nD) : W12 m ρ c (Proc.devRef .tc main_arg26) = m ((c : Thread nD τ).loc main_arg26) :=
  calc W12 m ρ c (Proc.devRef .tc main_arg26)
    _ = W11 m ρ c (Proc.devRef .tc main_arg26) := W12_of_ne m ρ c main_arg26 (by decide)
    _ = W10 m ρ c (Proc.devRef .tc main_arg26) := by kept_through hostOps5
    _ = W9 m ρ c (Proc.devRef .tc main_arg26) := W10_of_ne m ρ c main_arg26 (by decide)
    _ = W8 m ρ c (Proc.devRef .tc main_arg26) := by kept_through hostOps4
    _ = W7 m ρ c (Proc.devRef .tc main_arg26) := W8_of_ne m ρ c main_arg26 (by decide)
    _ = W6 m ρ c (Proc.devRef .tc main_arg26) := by kept_through hostOps3
    _ = W5 m ρ c (Proc.devRef .tc main_arg26) := W6_of_ne m ρ c main_arg26 (by decide)
    _ = W4 m ρ c (Proc.devRef .tc main_arg26) := by kept_through hostOps2
    _ = W3 m ρ c (Proc.devRef .tc main_arg26) := W4_of_ne m ρ c main_arg26 (by decide)
    _ = W2 m ρ c (Proc.devRef .tc main_arg26) := by kept_through hostOps1
    _ = W1 m ρ c (Proc.devRef .tc main_arg26) := W2_of_ne m ρ c main_arg26 (by decide)
    _ = W0 m ρ c (Proc.devRef .tc main_arg26) := by kept_through hostOps0
    _ = m ((c : Thread nD τ).loc main_arg26) := rfl

theorem w13_main_arg25 (c : Dev nD) : W13 m ρ c (Proc.devRef .tc main_arg25) = m ((c : Thread nD τ).loc main_arg25) :=
  calc W13 m ρ c (Proc.devRef .tc main_arg25)
    _ = W12 m ρ c (Proc.devRef .tc main_arg25) := by kept_through hostOps6
    _ = W11 m ρ c (Proc.devRef .tc main_arg25) := W12_of_ne m ρ c main_arg25 (by decide)
    _ = W10 m ρ c (Proc.devRef .tc main_arg25) := by kept_through hostOps5
    _ = W9 m ρ c (Proc.devRef .tc main_arg25) := W10_of_ne m ρ c main_arg25 (by decide)
    _ = W8 m ρ c (Proc.devRef .tc main_arg25) := by kept_through hostOps4
    _ = W7 m ρ c (Proc.devRef .tc main_arg25) := W8_of_ne m ρ c main_arg25 (by decide)
    _ = W6 m ρ c (Proc.devRef .tc main_arg25) := by kept_through hostOps3
    _ = W5 m ρ c (Proc.devRef .tc main_arg25) := W6_of_ne m ρ c main_arg25 (by decide)
    _ = W4 m ρ c (Proc.devRef .tc main_arg25) := by kept_through hostOps2
    _ = W3 m ρ c (Proc.devRef .tc main_arg25) := W4_of_ne m ρ c main_arg25 (by decide)
    _ = W2 m ρ c (Proc.devRef .tc main_arg25) := by kept_through hostOps1
    _ = W1 m ρ c (Proc.devRef .tc main_arg25) := W2_of_ne m ρ c main_arg25 (by decide)
    _ = W0 m ρ c (Proc.devRef .tc main_arg25) := by kept_through hostOps0
    _ = m ((c : Thread nD τ).loc main_arg25) := rfl

theorem w3_main_v27_0 (c : Dev nD) : W3 m ρ c (Proc.devRef .tc main_v27_0) = W2 m ρ c (Proc.devRef .tc main_v27_0) := by
  kept_through hostOps1

theorem w7_main_v64_0 (c : Dev nD) : W7 m ρ c (Proc.devRef .tc main_v64_0) = W6 m ρ c (Proc.devRef .tc main_v64_0) := by
  kept_through hostOps3

theorem w11_main_v101_0 (c : Dev nD) : W11 m ρ c (Proc.devRef .tc main_v101_0) = W10 m ρ c (Proc.devRef .tc main_v101_0) := by
  kept_through hostOps5

theorem w13_main_v110 (c : Dev nD) : W13 m ρ c (Proc.devRef .tc main_v110) = W12 m ρ c (Proc.devRef .tc main_v110) := by
  kept_through hostOps6

end Cert.KernelIdeal.Kept

end
-- ==== Proof.SpecCongr.lean ====
/-
  The layer's scalar functions read their arrays at a few indices only: the normalised entry at (r, q) reads the linear
  part at (r, q) and the four rows at (0, q); the linear part reads rows r of its two operands, column q of the two
  weights and the bias entry (0, q). Arrays that agree there give equal values.
-/
import proofs.«168550_j58342835749309_1_alg».proof.Proof.Spec

noncomputable section

namespace Cert.Sage

open Idealize.ShloMosaic Idealize.ShloMosaic.ValueIdx

theorem bnS_congr {N C : ℕ} {h h' : (⟨2, ![N, C]⟩ : Shape).Idx → EReal}
    {mean mean' var var' g g' be be' : (⟨2, ![1, C]⟩ : Shape).Idx → EReal} (r : Fin N) (q : Fin C)
    (hh : h (ix2 r q) = h' (ix2 r q)) (hm : mean (ix2 0 q) = mean' (ix2 0 q)) (hv : var (ix2 0 q) = var' (ix2 0 q))
    (hg : g (ix2 0 q) = g' (ix2 0 q)) (hb : be (ix2 0 q) = be' (ix2 0 q)) :
    bnS h mean var g be r q = bnS h' mean' var' g' be' r q := by
  unfold bnS
  rw [hh, hm, hv, hg, hb]

theorem linS_congr {N K C : ℕ} {a a' x x' : (⟨2, ![N, K]⟩ : Shape).Idx → EReal}
    {wl wl' wr wr' : (⟨2, ![K, C]⟩ : Shape).Idx → EReal} {b b' : (⟨2, ![1, C]⟩ : Shape).Idx → EReal} (r : Fin N) (q : Fin C)
    (ha : ∀ k, a (ix2 r k) = a' (ix2 r k)) (hx : ∀ k, x (ix2 r k) = x' (ix2 r k))
    (hwl : ∀ k, wl (ix2 k q) = wl' (ix2 k q)) (hwr : ∀ k, wr (ix2 k q) = wr' (ix2 k q))
    (hb : b (ix2 0 q) = b' (ix2 0 q)) :
    linS a x wl wr b r q = linS a' x' wl' wr' b' r q := by
  unfold linS
  rw [hb]
  refine congrArg (· + b' (ix2 0 q)) (congrArg₂ (· + ·) (Finset.sum_congr rfl fun k _ => ?_) (Finset.sum_congr rfl fun k _ => ?_))
  · rw [ha k, hwl k]
  · rw [hx k, hwr k]

theorem fcS_congr {N K C : ℕ} {x x' : (⟨2, ![N, K]⟩ : Shape).Idx → EReal} {w w' : (⟨2, ![K, C]⟩ : Shape).Idx → EReal}
    {b b' : (⟨2, ![1, C]⟩ : Shape).Idx → EReal} (r : Fin N) (q : Fin C)
    (hx : ∀ k, x (ix2 r k) = x' (ix2 r k)) (hw : ∀ k, w (ix2 k q) = w' (ix2 k q)) (hb : b (ix2 0 q) = b' (ix2 0 q)) :
    fcS x w b r q = fcS x' w' b' r q := by
  unfold fcS
  rw [hb]
  refine congrArg (· + b' (ix2 0 q)) (Finset.sum_congr rfl fun k _ => ?_)
  rw [hx k, hw k]

end Cert.Sage

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibScatterReal.lean ====
/-
  An accumulating scatter of real numbers is real.

  At the ideal values the host's accumulating scatter, read at an entry, is the operand's entry plus a finite
  sum of updates (those whose index names the entry). So if every entry of the operand and every update is a
  real number, so is every entry of the result — whatever the indices and the dimension numbers.
-/
import proofs.«168550_j58342835749309_1_alg».proof.Proof.LibReals
import Idealize.ShloMosaic.PureOps.Ideal

noncomputable section

namespace Cert.Lib.ScatterReal

open Idealize.ShloMosaic Cert.Reals
open scoped BigOperators

/-- The accumulating scatter of real updates into a real operand has real entries. -/
theorem scatterAdd_real {s si su : Shape} {φ : FTy} {w : Nat} (d : ScatterDims s si su) (x : FVec Ideal s φ)
    (idx : IVec si w) (upd : FVec Ideal su φ) (hx : ∀ i, IsRealS (x i)) (hu : ∀ j, IsRealS (upd j)) (i : s.Idx) :
    IsRealS (Host.scatterAdd d x idx upd i) := by
  show IsRealS (Ideal.hostScatterAdd d x idx upd i)
  unfold Ideal.hostScatterAdd
  exact IsRealS.add (hx i) (isRealS_sum _ _ fun j _ => hu j)

end Cert.Lib.ScatterReal

end
-- ==== Proof.LibSageReal.lean ====
/-
  Real numbers through one batch-normalised GraphSAGE layer, for any extents.

  At the ideal values every float is an extended real. This module shows which of the layer's quantities are (images of)
  real numbers: the three row-count words and the unit word are the reals 61952, 5632, 512 and 1; the epsilon word of the
  normalisation is a positive real; the linear part of a row is a real when its five arrays are; the column statistics
  in moment form (mean of the entries, mean of the squares minus the squared mean, each mean the ideal quotient by the
  number of rows) of a real array are reals, the variance not negative; and so the normalised, rescaled, shifted and
  clamped entry is a real. Last, the mean aggregation over neighbours, as a host program spells it (an accumulating
  scatter of gathered rows into zeros, divided by the neighbour counts clamped below at one), keeps a real array real.
-/
import Idealize.ShloMosaic.Lib.ValueIdx
import Idealize.ShloMosaic.Lib.IdealHost
import Idealize.ShloMosaic.PureOps.Ideal.Laws
import proofs.«168550_j58342835749309_1_alg».proof.Proof.LibReals
import proofs.«168550_j58342835749309_1_alg».proof.Proof.LibScatterReal
import proofs.«168550_j58342835749309_1_alg».proof.Proof.Spec

noncomputable section

namespace Cert.Sage

open Idealize.ShloMosaic Idealize.ShloMosaic.ValueIdx Cert.Reals
open scoped BigOperators

/-! ## The literal words -/

/-- The word 0x47720000 is the real 61952. -/
theorem ofBits_61952 : Ideal.ofBits .f32 0x47720000#32 = ((61952 : ℝ) : EReal) := by
  simp [Ideal.ofBits, Ideal.ieee, -EReal.coe_mul]; norm_num

/-- The word 0x45B00000 is the real 5632. -/
theorem ofBits_5632 : Ideal.ofBits .f32 0x45B00000#32 = ((5632 : ℝ) : EReal) := by
  simp [Ideal.ofBits, Ideal.ieee, -EReal.coe_mul]; norm_num

/-- The word 0x44000000 is the real 512. -/
theorem ofBits_512 : Ideal.ofBits .f32 0x44000000#32 = ((512 : ℝ) : EReal) := by
  simp [Ideal.ofBits, Ideal.ieee, -EReal.coe_mul]; norm_num

/-- The same three, the real written as the cast of the natural number of rows. -/
theorem ofBits_61952_nat : Ideal.ofBits .f32 0x47720000#32 = (((61952 : ℕ) : ℝ) : EReal) := by
  rw [ofBits_61952]; norm_num

theorem ofBits_5632_nat : Ideal.ofBits .f32 0x45B00000#32 = (((5632 : ℕ) : ℝ) : EReal) := by
  rw [ofBits_5632]; norm_num

theorem ofBits_512_nat : Ideal.ofBits .f32 0x44000000#32 = (((512 : ℕ) : ℝ) : EReal) := by
  rw [ofBits_512]; norm_num

/-- The epsilon word 0x3727C5AC is a positive real (a normal number with a clear sign bit). -/
theorem eps_pos_real : ∃ e : ℝ, 0 < e ∧ Ideal.ofBits .f32 0x3727C5AC#32 = (e : EReal) := by
  refine ⟨_, ?_, by simp [Ideal.ofBits, Ideal.ieee, -EReal.coe_mul]; rfl⟩
  positivity

/-- The epsilon word is a real. -/
theorem isRealS_eps : IsRealS (Ideal.ofBits .f32 0x3727C5AC#32) := by
  obtain ⟨e, _, he⟩ := eps_pos_real; exact ⟨e, he⟩

/-- The epsilon word is positive. -/
theorem eps_pos : (0 : EReal) < Ideal.ofBits .f32 0x3727C5AC#32 := by
  obtain ⟨e, h0, he⟩ := eps_pos_real; rw [he]; exact EReal.coe_pos.mpr h0

/-! ## The linear part -/

/-- The linear part of a row is a real when the aggregated rows, the target rows, the two weight matrices and the bias
    are real. -/
theorem isRealS_linS {N K C : ℕ} (a x : (⟨2, ![N, K]⟩ : Shape).Idx → EReal) (wl wr : (⟨2, ![K, C]⟩ : Shape).Idx → EReal)
    (b : (⟨2, ![1, C]⟩ : Shape).Idx → EReal) (ha : IsReal a) (hx : IsReal x) (hwl : IsReal wl) (hwr : IsReal wr)
    (hb : IsReal b) (r : Fin N) (q : Fin C) : IsRealS (linS a x wl wr b r q) := by
  unfold linS
  exact ((isRealS_sum _ _ fun k _ => (ha.apply _).mul (hwl.apply _)).add
    (isRealS_sum _ _ fun k _ => (hx.apply _).mul (hwr.apply _))).add (hb.apply _)

/-! ## The column statistics in moment form -/

/-- The column means of an [N, C] array as a row [1, C]: the ideal quotient of the column's sum by `n`. -/
def momMean {N C : ℕ} (h : (⟨2, ![N, C]⟩ : Shape).Idx → EReal) (n : EReal) : (⟨2, ![1, C]⟩ : Shape).Idx → EReal :=
  fun i => Ideal.div (∑ r' : Fin N, h (ix2 r' (i 1))) n

/-- The column variances in moment form as a row [1, C]: the ideal quotient of the column's sum of squares by `n`, minus
    the squared column mean. -/
def momVar {N C : ℕ} (h : (⟨2, ![N, C]⟩ : Shape).Idx → EReal) (n : EReal) : (⟨2, ![1, C]⟩ : Shape).Idx → EReal :=
  fun i => Ideal.div (∑ r' : Fin N, h (ix2 r' (i 1)) * h (ix2 r' (i 1))) n - momMean h n i * momMean h n i

theorem momMean_apply {N C : ℕ} (h : (⟨2, ![N, C]⟩ : Shape).Idx → EReal) (n : EReal) (q : Fin C) :
    momMean h n (ix2 0 q) = Ideal.div (∑ r' : Fin N, h (ix2 r' q)) n := rfl

theorem momVar_apply {N C : ℕ} (h : (⟨2, ![N, C]⟩ : Shape).Idx → EReal) (n : EReal) (q : Fin C) :
    momVar h n (ix2 0 q) = Ideal.div (∑ r' : Fin N, h (ix2 r' q) * h (ix2 r' q)) n
      - Ideal.div (∑ r' : Fin N, h (ix2 r' q)) n * Ideal.div (∑ r' : Fin N, h (ix2 r' q)) n := rfl

/-- The column means of a real array over a positive number of rows are reals. -/
theorem isReal_momMean {N C : ℕ} (hN : 0 < N) (h : (⟨2, ![N, C]⟩ : Shape).Idx → EReal) (hh : IsReal h) :
    IsReal (momMean h ((N : ℝ) : EReal)) := fun _ =>
  (isRealS_sum _ _ fun _ _ => hh.apply _).div_coe (Nat.cast_ne_zero.mpr hN.ne')

/-- The moment-form column variances of a real array over its N > 0 rows are reals that are not negative. -/
theorem momVar_real_nonneg {N C : ℕ} (hN : 0 < N) (h : (⟨2, ![N, C]⟩ : Shape).Idx → EReal) (hh : IsReal h)
    (i : (⟨2, ![1, C]⟩ : Shape).Idx) : IsRealS (momVar h ((N : ℝ) : EReal) i) ∧ 0 ≤ momVar h ((N : ℝ) : EReal) i :=
  isRealS_and_nonneg_of_exists
    (variance_mom_real_nonneg (fun r' : Fin N => h (ix2 r' (i 1))) (fun _ => hh _) (by simp)
      (Nat.cast_pos.mpr hN))

/-- So they form a real row. -/
theorem isReal_momVar {N C : ℕ} (hN : 0 < N) (h : (⟨2, ![N, C]⟩ : Shape).Idx → EReal) (hh : IsReal h) :
    IsReal (momVar h ((N : ℝ) : EReal)) := fun i => (momVar_real_nonneg hN h hh i).1

/-! ## The normalised entry -/

/-- The normalised entry is a real when the array, the mean row, the gain and the shift are real and the variance row
    is real and not negative at the column. -/
theorem isRealS_bnS {N C : ℕ} (h : (⟨2, ![N, C]⟩ : Shape).Idx → EReal) (mean var g be : (⟨2, ![1, C]⟩ : Shape).Idx → EReal)
    (hh : IsReal h) (hm : IsReal mean) (hv : IsReal var) (hg : IsReal g) (hbe : IsReal be) (r : Fin N) (q : Fin C)
    (hv0 : 0 ≤ var (ix2 0 q)) : IsRealS (bnS h mean var g be r q) := by
  unfold bnS
  have hpos : (0 : EReal) < var (ix2 0 q) + Ideal.ofBits .f32 0x3727C5AC#32 := add_pos_of_nonneg_of_pos hv0 eps_pos
  have hre : IsRealS (var (ix2 0 q) + Ideal.ofBits .f32 0x3727C5AC#32) := (hv.apply _).add isRealS_eps
  rw [Ideal.ofBits_zero_f32]
  exact (((((hh.apply _).sub (hm.apply _)).mul (hre.rsqrt hpos)).mul (hg.apply _)).add (hbe.apply _)).max isRealS_zero

/-- The normalised entry with the moment statistics of the array itself, the divisor word denoting the number N > 0 of
    rows, is a real when the array, the gain and the shift are real. -/
theorem isRealS_bnS_mom {N C : ℕ} (hN : 0 < N) (nW : BitVec 32) (hnW : Ideal.ofBits .f32 nW = ((N : ℝ) : EReal))
    (h : (⟨2, ![N, C]⟩ : Shape).Idx → EReal) (g be : (⟨2, ![1, C]⟩ : Shape).Idx → EReal)
    (hh : IsReal h) (hg : IsReal g) (hbe : IsReal be) (r : Fin N) (q : Fin C) :
    IsRealS (bnS h (momMean h (Ideal.ofBits .f32 nW)) (momVar h (Ideal.ofBits .f32 nW)) g be r q) := by
  rw [hnW]
  exact isRealS_bnS h _ _ g be hh (isReal_momMean hN h hh) (isReal_momVar hN h hh) hg hbe r q
    (momVar_real_nonneg hN h hh _).2

/-! ## The mean aggregation over neighbours -/

/-- Every entry of a broadcast array is an entry of its operand, so what holds of every entry of the operand holds of
    every entry of the broadcast. -/
theorem broadcastInDim_forall {α : Type} {s t : Shape} (dims : Fin s.rank → Fin t.rank) (hb : s.BroadcastsInDim t dims)
    (x : s.Idx → α) (P : α → Prop) (hP : ∀ k, P (x k)) (j : t.Idx) : P (broadcastInDim t dims hb x j) := by
  unfold broadcastInDim
  exact hP _

/-- A broadcast of a real array is real. -/
theorem isReal_broadcastInDim {s t : Shape} (dims : Fin s.rank → Fin t.rank) (hb : s.BroadcastsInDim t dims)
    (x : s.Idx → EReal) (hx : IsReal x) : IsReal (broadcastInDim t dims hb x) :=
  fun j => broadcastInDim_forall dims hb x IsRealS (fun k => hx.apply k) j

/-- The zero word broadcast to any shape is real. -/
theorem isRealS_bcast_zero {t : Shape} (hb : (⟨0, ![]⟩ : Shape).BroadcastsInDim t (![] : Fin 0 → Fin t.rank)) (j : t.Idx) :
    IsRealS (broadcastInDim t (![] : Fin 0 → Fin t.rank) hb (constant (F := Ideal) ⟨0, ![]⟩ .f32 0x00000000#32) j) := by
  rw [broadcastInDim_scalar_apply, constant_apply, Ideal.ofBits_zero_f32]; exact isRealS_zero

/-- The unit word broadcast to any shape is the real 1. -/
theorem bcast_one_apply {t : Shape} (hb : (⟨0, ![]⟩ : Shape).BroadcastsInDim t (![] : Fin 0 → Fin t.rank)) (j : t.Idx) :
    broadcastInDim t (![] : Fin 0 → Fin t.rank) hb (constant (F := Ideal) ⟨0, ![]⟩ .f32 0x3F800000#32) j = 1 := by
  rw [broadcastInDim_scalar_apply, constant_apply, Ideal.ofBits_one_f32]

/-- The neighbour counts clamped below at one — an accumulating scatter of ones into zeros, then the maximum with one —
    are reals that are not zero, whatever the indices and the dimension numbers. -/
theorem clampedCount_real_ne_zero {sC si' sU : Shape} {w : ℕ} (d' : ScatterDims sC si' sU)
    (bzC : (⟨0, ![]⟩ : Shape).BroadcastsInDim sC (![] : Fin 0 → Fin sC.rank))
    (boU : (⟨0, ![]⟩ : Shape).BroadcastsInDim sU (![] : Fin 0 → Fin sU.rank))
    (boC : (⟨0, ![]⟩ : Shape).BroadcastsInDim sC (![] : Fin 0 → Fin sC.rank)) (i' : IVec si' w) (k : sC.Idx) :
    IsRealS (maximumf
        (Host.scatterAdd d' (broadcastInDim sC (![] : Fin 0 → Fin sC.rank) bzC (constant (F := Ideal) ⟨0, ![]⟩ .f32 0x00000000#32)) i'
          (broadcastInDim sU (![] : Fin 0 → Fin sU.rank) boU (constant ⟨0, ![]⟩ .f32 0x3F800000#32)))
        (broadcastInDim sC (![] : Fin 0 → Fin sC.rank) boC (constant ⟨0, ![]⟩ .f32 0x3F800000#32)) k)
      ∧ maximumf
        (Host.scatterAdd d' (broadcastInDim sC (![] : Fin 0 → Fin sC.rank) bzC (constant (F := Ideal) ⟨0, ![]⟩ .f32 0x00000000#32)) i'
          (broadcastInDim sU (![] : Fin 0 → Fin sU.rank) boU (constant ⟨0, ![]⟩ .f32 0x3F800000#32)))
        (broadcastInDim sC (![] : Fin 0 → Fin sC.rank) boC (constant ⟨0, ![]⟩ .f32 0x3F800000#32)) k ≠ 0 := by
  rw [maximumf_apply, bcast_one_apply]
  refine ⟨IsRealS.max ?_ isRealS_one, (pos_of_one_le (le_max_right _ _)).ne'⟩
  exact Cert.Lib.ScatterReal.scatterAdd_real d' _ i' _ (fun j => isRealS_bcast_zero bzC j)
    (fun j => by rw [bcast_one_apply]; exact isRealS_one) k

/-- THE MEAN AGGREGATION KEEPS REAL ARRAYS REAL: rows gathered from a real array, accumulated by a scatter into zeros
    and divided by the clamped neighbour counts (broadcast twice, to a column and over the lanes) form a real array,
    for any shapes, dimension numbers and index words. -/
theorem isReal_meanAgg {sx sgi sE sN si sC si' sU sM : Shape} {w w' w'' : ℕ}
    (gd : GatherDims sx sgi sE) (d : ScatterDims sN si sE) (d' : ScatterDims sC si' sU)
    (bzN : (⟨0, ![]⟩ : Shape).BroadcastsInDim sN (![] : Fin 0 → Fin sN.rank))
    (bzC : (⟨0, ![]⟩ : Shape).BroadcastsInDim sC (![] : Fin 0 → Fin sC.rank))
    (boU : (⟨0, ![]⟩ : Shape).BroadcastsInDim sU (![] : Fin 0 → Fin sU.rank))
    (boC : (⟨0, ![]⟩ : Shape).BroadcastsInDim sC (![] : Fin 0 → Fin sC.rank))
    (dims1 : Fin sC.rank → Fin sM.rank) (b1 : sC.BroadcastsInDim sM dims1)
    (dims2 : Fin sM.rank → Fin sN.rank) (b2 : sM.BroadcastsInDim sN dims2)
    (x : FVec Ideal sx .f32) (gi : IVec sgi w) (i : IVec si w') (i' : IVec si' w'') (hx : IsReal x) :
    IsReal (Host.divf
      (Host.scatterAdd d (broadcastInDim sN (![] : Fin 0 → Fin sN.rank) bzN (constant ⟨0, ![]⟩ .f32 0x00000000#32)) i
        (Host.gather gd x gi))
      (broadcastInDim sN dims2 b2 (broadcastInDim sM dims1 b1
        (maximumf
          (Host.scatterAdd d' (broadcastInDim sC (![] : Fin 0 → Fin sC.rank) bzC (constant ⟨0, ![]⟩ .f32 0x00000000#32)) i'
            (broadcastInDim sU (![] : Fin 0 → Fin sU.rank) boU (constant ⟨0, ![]⟩ .f32 0x3F800000#32)))
          (broadcastInDim sC (![] : Fin 0 → Fin sC.rank) boC (constant ⟨0, ![]⟩ .f32 0x3F800000#32)))))) := fun j => by
  change IsRealS (Ideal.div _ _)
  have hden := broadcastInDim_forall dims2 b2 _ (fun v : EReal => IsRealS v ∧ v ≠ 0)
    (fun k => broadcastInDim_forall dims1 b1 _ (fun v : EReal => IsRealS v ∧ v ≠ 0)
      (fun k' => clampedCount_real_ne_zero d' bzC boU boC i' k') k) j
  exact IsRealS.div
    (Cert.Lib.ScatterReal.scatterAdd_real d _ i _ (fun k => isRealS_bcast_zero bzN k) (fun k => hx (gd.operandIdx k gi)) j)
    hden.1 hden.2

end Cert.Sage

end
-- ==== Proof.KLayer0.lean ====
/-
  Layer 0 of the idealized kernel program, read off its chain of boundaries: the linear region's three arrays, the
  host's mean and variance rows from them, the reshaped gain and shift rows, and the batch-norm region's output — the
  layer's output array entry by entry as the normalised, clamped linear part, its statistics the moment forms.
-/
import proofs.«168550_j58342835749309_1_alg».proof.Proof.Gen.KernelIdeal.Frame
import proofs.«168550_j58342835749309_1_alg».proof.Proof.Lin0
import proofs.«168550_j58342835749309_1_alg».proof.Proof.BnRegion1
import proofs.«168550_j58342835749309_1_alg».proof.Proof.KKept
import proofs.«168550_j58342835749309_1_alg».proof.Proof.SpecCongr
import proofs.«168550_j58342835749309_1_alg».proof.Proof.LibSageReal
import Idealize.ShloMosaic.Lib.StableHlo.Run
import Idealize.ShloMosaic.Lib.ValueLayout

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg) (c : Dev nD)

/-- The layer's linear part, as the linear region computes it from the arrays it finds. -/
abbrev Hk : S61952x256.Idx → EReal := Cert.KernelIdeal.Lin0.rowsG (V1 m ρ) c

/-- The bias row the glue stretch reshapes from the bias vector. -/
theorem b2_apply (q : Fin 256) : W1 m ρ c (Proc.devRef .tc main_v26) (ix2 0 q) = (m ((c : Thread nD τ).loc main_arg12)) (ix1 q) := by
  have e : (StableHlo.after hostOps0 (W0 m ρ c) (Proc.devRef .tc main_v26) : S1x256.Idx → EReal)
      = shapeCast S1x256 (W0 m ρ c (Proc.devRef .tc main_arg12) : S256.Idx → EReal) shapeCasts_S256_S1x256 := by
    after_results
    rfl
  show StableHlo.after hostOps0 (W0 m ρ c) (Proc.devRef .tc main_v26) (ix2 0 q) = _
  rw [e, shapeCast_a_1a_apply]

/-- The linear region's row output is still there when the batch-norm region reads it. -/
theorem h_eq : W3 m ρ c (Proc.devRef .tc main_v27_0) = Hk m ρ c := by
  rw [Cert.KernelIdeal.Kept.w3_main_v27_0 m ρ c]
  exact (W2_arr m ρ c 5).trans (Cert.KernelIdeal.Lin0.rows_final (V1 m ρ) c)

theorem s_eq : W2 m ρ c (Proc.devRef .tc main_v27_1) = Cert.KernelIdeal.Lin0.sumG (V1 m ρ) c :=
  (W2_arr m ρ c 6).trans (Cert.KernelIdeal.Lin0.sum_final (V1 m ρ) c)

theorem ss_eq : W2 m ρ c (Proc.devRef .tc main_v27_2) = Cert.KernelIdeal.Lin0.sqG (V1 m ρ) c :=
  (W2_arr m ρ c 7).trans (Cert.KernelIdeal.Lin0.sq_final (V1 m ρ) c)

/-- The host's mean row: the sums row divided by the row count. -/
theorem mean_apply (q : Fin 256) :
    W3 m ρ c (Proc.devRef .tc main_v29) (ix2 0 q) = momMean (Hk m ρ c) (Ideal.ofBits .f32 0x47720000#32) (ix2 0 q) := by
  have e : (StableHlo.after hostOps1 (W2 m ρ c) (Proc.devRef .tc main_v29) : S1x256.Idx → EReal)
      = Host.divf (F := Ideal) (W2 m ρ c (Proc.devRef .tc main_v27_1) : S1x256.Idx → EReal)
          (broadcastInDim S1x256 ![] bcast_S_S1x256 (constant (F := Ideal) S_ .f32 0x47720000#32)) := by
    after_results
  show StableHlo.after hostOps1 (W2 m ρ c) (Proc.devRef .tc main_v29) (ix2 0 q) = _
  rw [e, s_eq]
  rfl

/-- The host's variance row: the squares row divided by the row count, minus the squared mean. -/
theorem var_apply (q : Fin 256) :
    W3 m ρ c (Proc.devRef .tc main_v33) (ix2 0 q) = momVar (Hk m ρ c) (Ideal.ofBits .f32 0x47720000#32) (ix2 0 q) := by
  have e : (StableHlo.after hostOps1 (W2 m ρ c) (Proc.devRef .tc main_v33) : S1x256.Idx → EReal)
      = subf (F := Ideal) (Host.divf (F := Ideal) (W2 m ρ c (Proc.devRef .tc main_v27_2) : S1x256.Idx → EReal)
            (broadcastInDim S1x256 ![] bcast_S_S1x256 (constant (F := Ideal) S_ .f32 0x47720000#32)))
          (mulf (F := Ideal) (Host.divf (F := Ideal) (W2 m ρ c (Proc.devRef .tc main_v27_1) : S1x256.Idx → EReal)
              (broadcastInDim S1x256 ![] bcast_S_S1x256 (constant (F := Ideal) S_ .f32 0x47720000#32)))
            (Host.divf (F := Ideal) (W2 m ρ c (Proc.devRef .tc main_v27_1) : S1x256.Idx → EReal)
              (broadcastInDim S1x256 ![] bcast_S_S1x256 (constant (F := Ideal) S_ .f32 0x47720000#32)))) := by
    after_results
  show StableHlo.after hostOps1 (W2 m ρ c) (Proc.devRef .tc main_v33) (ix2 0 q) = _
  rw [e, s_eq, ss_eq]
  rfl

/-- The gain row the host reshapes from the gain vector. -/
theorem g2_apply (q : Fin 256) : W3 m ρ c (Proc.devRef .tc main_v34) (ix2 0 q) = (m ((c : Thread nD τ).loc main_arg13)) (ix1 q) := by
  have e : (StableHlo.after hostOps1 (W2 m ρ c) (Proc.devRef .tc main_v34) : S1x256.Idx → EReal)
      = shapeCast S1x256 (W2 m ρ c (Proc.devRef .tc main_arg13) : S256.Idx → EReal) shapeCasts_S256_S1x256 := by
    after_results
    rfl
  show StableHlo.after hostOps1 (W2 m ρ c) (Proc.devRef .tc main_v34) (ix2 0 q) = _
  rw [e, shapeCast_a_1a_apply]
  exact congrFun (Cert.KernelIdeal.Kept.w2_main_arg13 m ρ c) _

/-- The shift row the host reshapes from the shift vector. -/
theorem be2_apply (q : Fin 256) : W3 m ρ c (Proc.devRef .tc main_v35) (ix2 0 q) = (m ((c : Thread nD τ).loc main_arg14)) (ix1 q) := by
  have e : (StableHlo.after hostOps1 (W2 m ρ c) (Proc.devRef .tc main_v35) : S1x256.Idx → EReal)
      = shapeCast S1x256 (W2 m ρ c (Proc.devRef .tc main_arg14) : S256.Idx → EReal) shapeCasts_S256_S1x256 := by
    after_results
    rfl
  show StableHlo.after hostOps1 (W2 m ρ c) (Proc.devRef .tc main_v35) (ix2 0 q) = _
  rw [e, shapeCast_a_1a_apply]
  exact congrFun (Cert.KernelIdeal.Kept.w2_main_arg14 m ρ c) _

/-- THE LAYER'S OUTPUT, entry by entry: the normalised, rescaled, shifted and clamped linear part, its mean and variance
    the moment forms of the linear part's columns. -/
theorem out_apply (r : Fin 61952) (q : Fin 256) :
    W4 m ρ c (Proc.devRef .tc main_v36) (ix2 r q)
      = bnS (Hk m ρ c) (momMean (Hk m ρ c) (Ideal.ofBits .f32 0x47720000#32)) (momVar (Hk m ρ c) (Ideal.ofBits .f32 0x47720000#32))
          (fun i : S1x256.Idx => (m ((c : Thread nD τ).loc main_arg13)) (ix1 (i 1))) (fun i : S1x256.Idx => (m ((c : Thread nD τ).loc main_arg14)) (ix1 (i 1))) r q := by
  show W4 m ρ c (Proc.devRef .tc (Pipeline.arrRef spec1 5)) (ix2 r q) = _
  rw [W4_arr m ρ c 5, Cert.KernelIdeal.BnValue.bn1_arr (V3 m ρ) c r q]
  exact bnS_congr r q (congrFun (h_eq m ρ c) _) (mean_apply m ρ c q) (var_apply m ρ c q) (g2_apply m ρ c q) (be2_apply m ρ c q)

/-- The linear part in terms of the glue stretch's two arrays and the launched weights and bias. -/
theorem Hk_apply (r : Fin 61952) (q : Fin 256) :
    Hk m ρ c (ix2 r q) = linS (W1 m ρ c (Proc.devRef .tc main_v18) : S61952x256.Idx → EReal) (W1 m ρ c (Proc.devRef .tc main_v25) : S61952x256.Idx → EReal)
      (m ((c : Thread nD τ).loc main_arg10)) (m ((c : Thread nD τ).loc main_arg11)) (fun i : S1x256.Idx => (m ((c : Thread nD τ).loc main_arg12)) (ix1 (i 1))) r q := by
  show linS (Cert.KernelIdeal.Lin0.arrA (V1 m ρ) c) (Cert.KernelIdeal.Lin0.arrX (V1 m ρ) c) (Cert.KernelIdeal.Lin0.arrWl (V1 m ρ) c) (Cert.KernelIdeal.Lin0.arrWr (V1 m ρ) c)
    (Cert.KernelIdeal.Lin0.arrB (V1 m ρ) c) r q = _
  exact linS_congr r q (fun k => rfl) (fun k => rfl)
    (fun k => congrFun (Cert.KernelIdeal.Kept.w1_main_arg10 m ρ c) _)
    (fun k => congrFun (Cert.KernelIdeal.Kept.w1_main_arg11 m ρ c) _) (b2_apply m ρ c q)

end Cert.KernelIdeal.Layer0

end
-- ==== Proof.Lin2.lean ====
/-
  Region 2: the linear part of a layer on blocks of 512 rows, with the two column statistics accumulated over the grid.
  What the body leaves in its three output buffers in each of its control cases, as the body's pure terms of the input
  blocks and of the running statistics; then the running statistics after any point as sums over the rows seen so far;
  then the three result arrays: the linear part row by row, and the column sums of it and of its squares.
-/
import proofs.«168550_j58342835749309_1_alg».proof.Proof.Gen.KernelIdeal.Frame
import proofs.«168550_j58342835749309_1_alg».proof.Proof.Spec
import proofs.«168550_j58342835749309_1_alg».proof.Proof.LibPlainDot
import proofs.«168550_j58342835749309_1_alg».proof.Proof.LibColumnReduce
import proofs.«168550_j58342835749309_1_alg».proof.Proof.LibBlockRuns
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lin2

open Cert.KernelIdeal Cert.KernelIdeal.Gen

theorem hz : (![0, 0] : Fin 2 → Nat) = fun _ => 0 := funext fun a => by fin_cases a <;> rfl

section Pieces
variable {F : FTy → Type} [FloatOps F]

/-- The first case leaves the linear part of the block in the row output. -/
theorem outA5 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S512x256 .f32) (x2 x3 : Vec F S256x256 .f32) (x4 : Vec F S1x256 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the sum output, the block's column sums added to the zero row it has just stored. -/
theorem outA6 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S512x256 .f32) (x2 x3 : Vec F S256x256 .f32) (x4 : Vec F S1x256 .f32) :
    out2_A_6 c i a1 h1 a2 h2 a3 h3 a4 h4 a5 h5 a6 h6 a7 h7 a8 h8 hc x0 x1 x2 x3 x4 = k2_pay5 x0 x1 x2 x3 x4 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the squares output, the block's column sums of squares added to the zero row. -/
theorem outA7 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S512x256 .f32) (x2 x3 : Vec F S256x256 .f32) (x4 : Vec F S1x256 .f32) :
    out2_A_7 c i a1 h1 a2 h2 a3 h3 a4 h4 a5 h5 a6 h6 a7 h7 a8 h8 hc x0 x1 x2 x3 x4 = k2_pay1 (k2_pay6 (k2_pay3 (F := F))) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case leaves the linear part of the block in the row output. -/
theorem outB5 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S512x256 .f32) (x2 x3 : Vec F S256x256 .f32) (x4 : Vec F S1x256 .f32) (xo6 xo7 : Vec F S1x256 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case adds the block's column sums to the running sums. -/
theorem outB6 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S512x256 .f32) (x2 x3 : Vec F S256x256 .f32) (x4 : Vec F S1x256 .f32) (xo6 xo7 : Vec F S1x256 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- A later case adds the block's column sums of squares to the running sums of squares. -/
theorem outB7 (c : Dev nD) (i : grid2.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S512x256 .f32) (x2 x3 : Vec F S256x256 .f32) (x4 : Vec F S1x256 .f32) (xo6 xo7 : Vec F S1x256 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

end Pieces

/-! ## The body's terms at an index, at the ideal values -/

/-- The linear part of a block: row `p` of the first block times the first weights, plus row `p` of the second block times
    the second weights, plus the bias row's entry. The narrowing of the operands is the identity on the extended reals. -/
theorem pay4_apply (x0 x1 : Vec Ideal S512x256 .f32) (x2 x3 : Vec Ideal S256x256 .f32) (x4 : Vec Ideal S1x256 .f32)
    (p : Fin 512) (q : Fin 256) :
    k2_pay4 (F := Ideal) x0 x1 x2 x3 x4 (ix2 p q)
      = ((∑ k : Fin 256, x0 (ix2 p k) * x2 (ix2 k q)) + (∑ k : Fin 256, x1 (ix2 p k) * x3 (ix2 k q))) + x4 (ix2 0 q) := by
  unfold k2_pay4
  show (matmul dot_S512x256_S256x256_S512x256_1_0_0_1_n_n none (truncf .bf16 (shapeCast S512x256 x0 shapeCasts_S512x256_S512x256) bitsLt_bf16_f32)
          (truncf .bf16 x2 bitsLt_bf16_f32) (constant (F := Ideal) S512x256 .f32 0x00000000#32) (ix2 p q)
        + matmul dot_S512x256_S256x256_S512x256_1_0_0_1_n_n none (truncf .bf16 (shapeCast S512x256 x1 shapeCasts_S512x256_S512x256) bitsLt_bf16_f32)
          (truncf .bf16 x3 bitsLt_bf16_f32) (constant (F := Ideal) S512x256 .f32 0x00000000#32) (ix2 p q))
      + broadcastTo S512x256 (shapeCast S1x256 x4 shapeCasts_S1x256_S1x256) broadcasts_S1x256_S512x256 (ix2 p q) = _
  rw [show dot_S512x256_S256x256_S512x256_1_0_0_1_n_n = DotDims.plain 512 256 256 from rfl,
    Cert.Lib.PlainDot.matmul_plain_zero_apply, Cert.Lib.PlainDot.matmul_plain_zero_apply, broadcastTo_1b_ab_apply]
  simp only [truncf_apply, shapeCast_self]

/-- The sum payload at column `q`: the running sum's entry plus the column sum of the block's linear part. -/
theorem pay5_apply (x0 x1 : Vec Ideal S512x256 .f32) (x2 x3 : Vec Ideal S256x256 .f32) (x4 v21 : Vec Ideal S1x256 .f32)
    (q : Fin 256) :
    k2_pay5 (F := Ideal) x0 x1 x2 x3 x4 v21 (ix2 0 q)
      = v21 (ix2 0 q) + ∑ p : Fin 512, k2_pay4 (F := Ideal) x0 x1 x2 x3 x4 (ix2 p q) := by
  unfold k2_pay5
  show shapeCast S1x256 v21 shapeCasts_S1x256_S1x256 (ix2 0 q)
      + shapeCast S1x256 (multiReduction .add [0] S256 (k2_pay4 (F := Ideal) x0 x1 x2 x3 x4) 0x00000000#32 reduces_S512x256_S256 (.inl rfl) rfl)
          shapeCasts_S256_S1x256 (ix2 0 q) = _
  rw [shapeCast_self, shapeCast_a_1a_apply, Cert.Lib.ColumnReduce.multiReduction_rows_apply]

/-- The squares payload at column `q`: the column sum of the squares of the block's linear part. -/
theorem pay7_apply (x0 x1 : Vec Ideal S512x256 .f32) (x2 x3 : Vec Ideal S256x256 .f32) (x4 : Vec Ideal S1x256 .f32)
    (q : Fin 256) :
    k2_pay7 (F := Ideal) x0 x1 x2 x3 x4 (ix2 0 q)
      = ∑ p : Fin 512, k2_pay4 (F := Ideal) x0 x1 x2 x3 x4 (ix2 p q) * k2_pay4 (F := Ideal) x0 x1 x2 x3 x4 (ix2 p q) := by
  unfold k2_pay7
  show shapeCast S1x256 (multiReduction .add [0] S256 (mulf (k2_pay4 (F := Ideal) x0 x1 x2 x3 x4) (k2_pay4 (F := Ideal) x0 x1 x2 x3 x4))
          0x00000000#32 reduces_S512x256_S256 (.inl rfl) rfl) shapeCasts_S256_S1x256 (ix2 0 q) = _
  rw [shapeCast_a_1a_apply, Cert.Lib.ColumnReduce.multiReduction_rows_apply]
  rfl

/-- The squares output's payload at column `q`: the running entry plus the block's column sum of squares. -/
theorem pay1_apply (v27 : Vec Ideal S1x256 .f32) (x0 x1 : Vec Ideal S512x256 .f32) (x2 x3 : Vec Ideal S256x256 .f32)
    (x4 : Vec Ideal S1x256 .f32) (q : Fin 256) :
    k2_pay1 (F := Ideal) (k2_pay6 (F := Ideal) v27) (k2_pay7 (F := Ideal) x0 x1 x2 x3 x4) (ix2 0 q)
      = v27 (ix2 0 q) + ∑ p : Fin 512, k2_pay4 (F := Ideal) x0 x1 x2 x3 x4 (ix2 p q) * k2_pay4 (F := Ideal) x0 x1 x2 x3 x4 (ix2 p q) := by
  unfold k2_pay1 k2_pay6
  show shapeCast S1x256 v27 shapeCasts_S1x256_S1x256 (ix2 0 q) + k2_pay7 (F := Ideal) x0 x1 x2 x3 x4 (ix2 0 q) = _
  rw [shapeCast_self, pay7_apply]

/-- The row the first point stores into the sum output is zero. -/
theorem pay2_apply (q : Fin 256) : k2_pay2 (F := Ideal) (ix2 0 q) = 0 := by
  unfold k2_pay2
  show Ideal.ofBits .f32 0x00000000#32 = 0
  exact Ideal.ofBits_zero_f32

/-- The row the first point stores into the squares output is zero. -/
theorem pay3_apply (q : Fin 256) : k2_pay3 (F := Ideal) (ix2 0 q) = 0 := by
  unfold k2_pay3
  show Ideal.ofBits .f32 0x00000000#32 = 0
  exact Ideal.ofBits_zero_f32

/-! ## The blocks a point reads, and the statistics after each point -/

section Arrays
variable (V : (c : Dev nD) → (b : Ref sig .tc) → Buf (Elt Ideal) ((c : Thread nD τ).loc b)) (c : Dev nD)

/-- The five input arrays as the region finds them. -/
abbrev arrA : S5632x256.Idx → EReal := V c (Pipeline.arrRef spec2 0)
abbrev arrX : S5632x256.Idx → EReal := V c (Pipeline.arrRef spec2 1)
abbrev arrWl : S256x256.Idx → EReal := V c (Pipeline.arrRef spec2 2)
abbrev arrWr : S256x256.Idx → EReal := V c (Pipeline.arrRef spec2 3)
abbrev arrB : S1x256.Idx → EReal := V c (Pipeline.arrRef spec2 4)

/-- The linear part of the layer at row `r`, column `q`, of the arrays as found. -/
abbrev H (r : Fin 5632) (q : Fin 256) : EReal := Cert.Sage.linS (arrA V c) (arrX V c) (arrWl V c) (arrWr V c) (arrB V c) r q

/-- The block indices over the grid: the two row operands and the row output move down one block per point; the
    weights, the bias row and the two statistics rows stay. -/
theorem idx_facts : ∀ t : Fin cfg2.N,
    (win2_0.index t 0 = t.val ∧ win2_0.index t 1 = 0) ∧ (win2_1.index t 0 = t.val ∧ win2_1.index t 1 = 0)
    ∧ (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = t.val ∧ win2_5.index t 1 = 0)
    ∧ (win2_6.index t 0 = 0 ∧ win2_6.index t 1 = 0) ∧ (win2_7.index t 0 = 0 ∧ win2_7.index t 1 = 0) :=
  (by decide +kernel : ∀ t : Fin grid2.N, _)

theorem row_lt (t : Fin cfg2.N) (p : Fin 512) : 512 * t.val + p.val < 5632 := by
  have hN : t.val < 11 := lt_of_lt_of_eq t.isLt (show cfg2.N = 11 from N_2)
  have := p.isLt; omega

/-- Row `p` of the first operand's block at point `t` is row `512 t + p` of the array. -/
theorem blkA_apply (t : Fin cfg2.N) (p : Fin 512) (k : Fin 256) :
    iblk2 V c 0 t (ix2 p k) = arrA V c (ix2 ⟨512 * t.val + p.val, row_lt t p⟩ k) := by
  unfold iblk2
  rw [View.read_apply]
  refine congrArg (V c (Pipeline.arrRef spec2 0)) (funext fun a => Fin.ext ?_)
  match a with
  | ⟨0, _⟩ => show win2_0.index t 0 * 512 + 1 * p.val = 512 * t.val + p.val; rw [(idx_facts t).1.1]; omega
  | ⟨1, _⟩ => show win2_0.index t 1 * 256 + 1 * k.val = k.val; rw [(idx_facts t).1.2]; omega

/-- Row `p` of the second operand's block at point `t` is row `512 t + p` of the array. -/
theorem blkX_apply (t : Fin cfg2.N) (p : Fin 512) (k : Fin 256) :
    iblk2 V c 1 t (ix2 p k) = arrX V c (ix2 ⟨512 * t.val + p.val, row_lt t p⟩ k) := by
  unfold iblk2
  rw [View.read_apply]
  refine congrArg (V c (Pipeline.arrRef spec2 1)) (funext fun a => Fin.ext ?_)
  match a with
  | ⟨0, _⟩ => show win2_1.index t 0 * 512 + 1 * p.val = 512 * t.val + p.val; rw [(idx_facts t).2.1.1]; omega
  | ⟨1, _⟩ => show win2_1.index t 1 * 256 + 1 * k.val = k.val; rw [(idx_facts t).2.1.2]; omega

/-- The first weights' block at any point is the whole array. -/
theorem blkWl_apply (t : Fin cfg2.N) (k q : Fin 256) : iblk2 V c 2 t (ix2 k q) = arrWl V c (ix2 k q) := by
  unfold iblk2
  rw [View.read_apply]
  refine congrArg (V c (Pipeline.arrRef spec2 2)) (funext fun a => Fin.ext ?_)
  match a with
  | ⟨0, _⟩ => show win2_2.index t 0 * 256 + 1 * k.val = k.val; rw [(idx_facts t).2.2.1.1]; omega
  | ⟨1, _⟩ => show win2_2.index t 1 * 256 + 1 * q.val = q.val; rw [(idx_facts t).2.2.1.2]; omega

/-- The second weights' block at any point is the whole array. -/
theorem blkWr_apply (t : Fin cfg2.N) (k q : Fin 256) : iblk2 V c 3 t (ix2 k q) = arrWr V c (ix2 k q) := by
  unfold iblk2
  rw [View.read_apply]
  refine congrArg (V c (Pipeline.arrRef spec2 3)) (funext fun a => Fin.ext ?_)
  match a with
  | ⟨0, _⟩ => show win2_3.index t 0 * 256 + 1 * k.val = k.val; rw [(idx_facts t).2.2.2.1.1]; omega
  | ⟨1, _⟩ => show win2_3.index t 1 * 256 + 1 * q.val = q.val; rw [(idx_facts t).2.2.2.1.2]; omega

/-- The bias row's block at any point is the whole row. -/
theorem blkB_apply (t : Fin cfg2.N) (q : Fin 256) : iblk2 V c 4 t (ix2 0 q) = arrB V c (ix2 0 q) := by
  unfold iblk2
  rw [View.read_apply]
  refine congrArg (V c (Pipeline.arrRef spec2 4)) (funext fun a => Fin.ext ?_)
  match a with
  | ⟨0, _⟩ => show win2_4.index t 0 * 1 + 1 * 0 = 0; rw [(idx_facts t).2.2.2.2.1.1]
  | ⟨1, _⟩ => show win2_4.index t 1 * 256 + 1 * q.val = q.val; rw [(idx_facts t).2.2.2.2.1.2]; omega

/-- The body's linear part at point `t`, row `p`, column `q`, is the layer's linear part at row `512 t + p`. -/
theorem lin_at (t : Fin cfg2.N) (p : Fin 512) (q : Fin 256) :
    k2_pay4 (F := Ideal) (iblk2 V c 0 t) (iblk2 V c 1 t) (iblk2 V c 2 t) (iblk2 V c 3 t) (iblk2 V c 4 t) (ix2 p q)
      = H V c ⟨512 * t.val + p.val, row_lt t p⟩ q := by
  refine (pay4_apply (iblk2 V c 0 t) (iblk2 V c 1 t) (iblk2 V c 2 t) (iblk2 V c 3 t) (iblk2 V c 4 t) p q).trans ?_
  unfold H Cert.Sage.linS
  rw [blkB_apply V c t q]
  refine congrArg₂ (· + ·) (congrArg₂ (· + ·) (Finset.sum_congr rfl fun k _ => ?_) (Finset.sum_congr rfl fun k _ => ?_)) rfl
  · rw [blkA_apply V c t p k, blkWl_apply V c t k q]
  · rw [blkX_apply V c t p k, blkWr_apply V c t k q]

/-- What the three output buffers hold after the first point. -/
theorem outs_first (t : Fin cfg2.N) (h0 : t.val % 11 = 0) :
    (outsAt2 V c t.val t.isLt).1 = k2_pay4 (F := Ideal) (iblk2 V c 0 t) (iblk2 V c 1 t) (iblk2 V c 2 t) (iblk2 V c 3 t) (iblk2 V c 4 t)
    ∧ (outsAt2 V c t.val t.isLt).2.1 = k2_pay5 (F := Ideal) (iblk2 V c 0 t) (iblk2 V c 1 t) (iblk2 V c 2 t) (iblk2 V c 3 t) (iblk2 V c 4 t) (k2_pay2 (F := Ideal))
    ∧ (outsAt2 V c t.val t.isLt).2.2 = k2_pay1 (F := Ideal) (k2_pay6 (F := Ideal) (k2_pay3 (F := Ideal))) (k2_pay7 (F := Ideal) (iblk2 V c 0 t) (iblk2 V c 1 t) (iblk2 V c 2 t) (iblk2 V c 3 t) (iblk2 V c 4 t)) := by
  rw [outsAt2_A V c t h0]
  dsimp only
  refine ⟨?_, ?_, ?_⟩
  · exact outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · exact outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · exact outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)

/-- What the three output buffers hold after a later point, from what the point before left in the two statistics rows. -/
theorem outs_later (t : Fin cfg2.N) (h0 : ¬t.val % 11 = 0) :
    (outsAt2 V c t.val t.isLt).1 = k2_pay4 (F := Ideal) (iblk2 V c 0 t) (iblk2 V c 1 t) (iblk2 V c 2 t) (iblk2 V c 3 t) (iblk2 V c 4 t)
    ∧ (outsAt2 V c t.val t.isLt).2.1 = k2_pay5 (F := Ideal) (iblk2 V c 0 t) (iblk2 V c 1 t) (iblk2 V c 2 t) (iblk2 V c 3 t) (iblk2 V c 4 t) (outsAt2 V c (t.val - 1) (Nat.lt_of_le_of_lt (Nat.sub_le _ _) t.isLt)).2.1
    ∧ (outsAt2 V c t.val t.isLt).2.2 = k2_pay1 (F := Ideal) (k2_pay6 (F := Ideal) (outsAt2 V c (t.val - 1) (Nat.lt_of_le_of_lt (Nat.sub_le _ _) t.isLt)).2.2) (k2_pay7 (F := Ideal) (iblk2 V c 0 t) (iblk2 V c 1 t) (iblk2 V c 2 t) (iblk2 V c 3 t) (iblk2 V c 4 t)) := by
  rw [outsAt2_B V c t h0]
  dsimp only
  refine ⟨?_, ?_, ?_⟩
  · exact outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _
  · exact outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _
  · exact outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _

/-- The row output after any point is the body's linear part of the point's blocks. -/
theorem rows_at (t : Fin cfg2.N) : (outsAt2 V c t.val t.isLt).1 = k2_pay4 (F := Ideal) (iblk2 V c 0 t) (iblk2 V c 1 t) (iblk2 V c 2 t) (iblk2 V c 3 t) (iblk2 V c 4 t) := by
  by_cases h0 : t.val % 11 = 0
  · exact (outs_first V c t h0).1
  · exact (outs_later V c t h0).1

theorem hNKB : 5632 = 11 * 512 := by norm_num

/-- The column sum of block `j` of the layer's linear part, and of its squares: what one point adds. -/
theorem block_sum (t : Fin cfg2.N) (q : Fin 256) :
    (∑ p : Fin 512, k2_pay4 (F := Ideal) (iblk2 V c 0 t) (iblk2 V c 1 t) (iblk2 V c 2 t) (iblk2 V c 3 t) (iblk2 V c 4 t) (ix2 p q)) = Cert.LibBlockRuns.block 11 512 hNKB (fun r => H V c r q) t.val := by
  have hN : t.val < 11 := lt_of_lt_of_eq t.isLt (show cfg2.N = 11 from N_2)
  rw [Cert.LibBlockRuns.block_of_lt 11 512 hNKB _ t.val hN]
  exact Finset.sum_congr rfl fun p _ => lin_at V c t p q

theorem block_sq (t : Fin cfg2.N) (q : Fin 256) :
    (∑ p : Fin 512, k2_pay4 (F := Ideal) (iblk2 V c 0 t) (iblk2 V c 1 t) (iblk2 V c 2 t) (iblk2 V c 3 t) (iblk2 V c 4 t) (ix2 p q) * k2_pay4 (F := Ideal) (iblk2 V c 0 t) (iblk2 V c 1 t) (iblk2 V c 2 t) (iblk2 V c 3 t) (iblk2 V c 4 t) (ix2 p q))
      = Cert.LibBlockRuns.block 11 512 hNKB (fun r => H V c r q * H V c r q) t.val := by
  have hN : t.val < 11 := lt_of_lt_of_eq t.isLt (show cfg2.N = 11 from N_2)
  rw [Cert.LibBlockRuns.block_of_lt 11 512 hNKB _ t.val hN]
  exact Finset.sum_congr rfl fun p _ => by rw [lin_at V c t p q]

/-- THE RUNNING STATISTICS: after point `n` the two rows hold the column sums, of the linear part and of its squares,
    over the blocks 0 … n — by induction on the point. -/
theorem stats_at : ∀ (n : ℕ) (hn : n < cfg2.N) (q : Fin 256),
    (outsAt2 V c n hn).2.1 (ix2 0 q) = ∑ j ∈ Finset.range (n + 1), Cert.LibBlockRuns.block 11 512 hNKB (fun r => H V c r q) j
    ∧ (outsAt2 V c n hn).2.2 (ix2 0 q)
        = ∑ j ∈ Finset.range (n + 1), Cert.LibBlockRuns.block 11 512 hNKB (fun r => H V c r q * H V c r q) j
  | 0, hn, q => by
    obtain ⟨-, e6, e7⟩ := outs_first V c ⟨0, hn⟩ rfl
    have e6' : (outsAt2 V c 0 hn).2.1 = _ := e6
    have e7' : (outsAt2 V c 0 hn).2.2 = _ := e7
    rw [e6', e7', pay5_apply, pay1_apply, pay2_apply, pay3_apply, block_sum V c ⟨0, hn⟩ q, block_sq V c ⟨0, hn⟩ q]
    refine ⟨?_, ?_⟩
    · show 0 + _ = ∑ j ∈ Finset.range 1, _
      rw [Finset.sum_range_one]; exact zero_add _
    · show 0 + _ = ∑ j ∈ Finset.range 1, _
      rw [Finset.sum_range_one]; exact zero_add _
  | n + 1, hn, q => by
    have hN : n + 1 < 11 := lt_of_lt_of_eq hn (show cfg2.N = 11 from N_2)
    have hB : ¬(⟨n + 1, hn⟩ : Fin cfg2.N).val % 11 = 0 := by dsimp only; omega
    obtain ⟨-, e6, e7⟩ := outs_later V c ⟨n + 1, hn⟩ hB
    have e6' : (outsAt2 V c (n + 1) hn).2.1 = _ := e6
    have e7' : (outsAt2 V c (n + 1) hn).2.2 = _ := e7
    rw [e6', e7', pay5_apply, pay1_apply, block_sum V c ⟨n + 1, hn⟩ q, block_sq V c ⟨n + 1, hn⟩ q,
      Finset.sum_range_succ _ (n + 1), Finset.sum_range_succ _ (n + 1)]
    have ih := stats_at n (Nat.lt_of_succ_lt hn) q
    exact ⟨congrArg (· + _) ih.1, congrArg (· + _) ih.2⟩

/-- After the last point the two rows hold the column sums over all rows. -/
theorem stats_last (t : Fin cfg2.N) (hl : t.val = 10) (q : Fin 256) :
    (outsAt2 V c t.val t.isLt).2.1 (ix2 0 q) = ∑ r : Fin 5632, H V c r q
    ∧ (outsAt2 V c t.val t.isLt).2.2 (ix2 0 q) = ∑ r : Fin 5632, H V c r q * H V c r q := by
  obtain ⟨e1, e2⟩ := stats_at V c t.val t.isLt q
  rw [e1, e2, hl]
  refine ⟨?_, ?_⟩
  · show ∑ j ∈ Finset.range 11, _ = _
    exact Cert.LibBlockRuns.sum_range_block hNKB _
  · show ∑ j ∈ Finset.range 11, _ = _
    exact Cert.LibBlockRuns.sum_range_block hNKB _

/-! ## The three result arrays -/

/-- The row array the region leaves: the layer's linear part, row by row. -/
abbrev rowsG : S5632x256.Idx → EReal := fun i => H V c (i 0) (i 1)
/-- The sums row the region leaves: the column sums of the linear part over all rows. -/
abbrev sumG : S1x256.Idx → EReal := fun i => ∑ r : Fin 5632, H V c r (i 1)
/-- The squares row the region leaves: the column sums of the squared linear part over all rows. -/
abbrev sqG : S1x256.Idx → EReal := fun i => ∑ r : Fin 5632, H V c r (i 1) * H V c r (i 1)

/-- What point `t` writes back of the row output is block `t` of the row array. -/
theorem flushed5_eq (t : Fin cfg2.N) :
    (dat2 V c).flushed 5 t = ((cfg2.win 5).blk t).view.read (Elt Ideal) (rowsG V c) := by
  show (cfg2.win 5).cut (grid2.coords t) ((dat2 V c).after 5 t) = _
  rw [after2_5, rows_at V c t]
  funext j
  obtain ⟨p, q, rfl⟩ : ∃ (p : Fin 512) (q : Fin 256), j = ix2 p q := ⟨j 0, j 1, eq_ix2 j⟩
  rw [View.read_apply]
  refine (lin_at V c t p q).trans ?_
  refine congrArg₂ (H V c) (Fin.ext ?_) (Fin.ext ?_)
  · show 512 * t.val + p.val = win2_5.index t 0 * 512 + 1 * p.val
    rw [(idx_facts t).2.2.2.2.2.1.1]; omega
  · show q.val = win2_5.index t 1 * 256 + 1 * q.val
    rw [(idx_facts t).2.2.2.2.2.1.2]; omega

/-- An index of the row array is in point `t`'s block exactly when its coordinates are in the block's ranges. -/
theorem mem_blk5 (t : Fin cfg2.N) (i : S5632x256.Idx) :
    i ∈ ((cfg2.win 5).blk t).view.set ↔ ∀ a : Fin 2, win2_5.index t a * S512x256.size a ≤ (i a).val
      ∧ (i a).val < win2_5.index t a * S512x256.size a + S512x256.size a := by
  show i ∈ ((View.whole main_v64_0).slice (win2_5.rect t)).set ↔ _
  rw [View.set_slice_whole, Rect.mem_set_unit]
  exact Iff.rfl

/-- THE ROW ARRAY after the run: every row is in the block of the point `row / 512`. -/
theorem rows_final : (dat2 V c).arrAt 5 cfg2.N = rowsG V c :=
  (dat2 V c).arrAt_eq_of_cover 5 (rowsG V c) (fun t _ => flushed5_eq V c t) fun i => by
    have hi0 : (i 0).val < 5632 := (i 0).isLt
    have hi1 : (i 1).val < 256 := (i 1).isLt
    have hN : cfg2.N = 11 := N_2
    refine ⟨⟨(i 0).val / 512, by rw [hN]; omega⟩, flush2_5 _, ?_⟩
    rw [mem_blk5]
    intro a
    match a with
    | ⟨0, _⟩ =>
      show win2_5.index ⟨(i 0).val / 512, _⟩ 0 * 512 ≤ (i 0).val ∧ (i 0).val < win2_5.index ⟨(i 0).val / 512, _⟩ 0 * 512 + 512
      rw [(idx_facts _).2.2.2.2.2.1.1]; dsimp only; omega
    | ⟨1, _⟩ =>
      show win2_5.index ⟨(i 0).val / 512, _⟩ 1 * 256 ≤ (i 1).val ∧ (i 1).val < win2_5.index ⟨(i 0).val / 512, _⟩ 1 * 256 + 256
      rw [(idx_facts _).2.2.2.2.2.1.2]; omega

/-- The one write-back of the sums row, after the last point, writes the column sums over all rows. -/
theorem flushed6_eq (t : Fin cfg2.N) (hf : (cfg2.win 6).flush t = true) :
    (dat2 V c).flushed 6 t = ((cfg2.win 6).blk t).view.read (Elt Ideal) (sumG V c) := by
  have hN : t.val < 11 := lt_of_lt_of_eq t.isLt (show cfg2.N = 11 from N_2)
  have hl : t.val = 10 := by have := (flush2_6 t).mp hf; omega
  have hz' : (fun a => win2_6.index t a * main_v64_1.ty.shape.size a) = fun _ => 0 := funext fun a => by
    match a with
    | ⟨0, _⟩ => show win2_6.index t 0 * 1 = 0; rw [(idx_facts t).2.2.2.2.2.2.1.1]
    | ⟨1, _⟩ => show win2_6.index t 1 * 256 = 0; rw [(idx_facts t).2.2.2.2.2.2.1.2]
  show (cfg2.win 6).cut (grid2.coords t) ((dat2 V c).after 6 t) = _
  rw [after2_6]
  refine Eq.trans ?_ (Memref.read_access_unit_zero (Elt Ideal) main_v64_1 hz' (fun a => by rw [congrFun hz' a]; simp) (sumG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t hl q).1

/-- The one write-back of the squares row writes the column sums of squares over all rows. -/
theorem flushed7_eq (t : Fin cfg2.N) (hf : (cfg2.win 7).flush t = true) :
    (dat2 V c).flushed 7 t = ((cfg2.win 7).blk t).view.read (Elt Ideal) (sqG V c) := by
  have hN : t.val < 11 := lt_of_lt_of_eq t.isLt (show cfg2.N = 11 from N_2)
  have hl : t.val = 10 := by have := (flush2_7 t).mp hf; omega
  have hz' : (fun a => win2_7.index t a * main_v64_2.ty.shape.size a) = fun _ => 0 := funext fun a => by
    match a with
    | ⟨0, _⟩ => show win2_7.index t 0 * 1 = 0; rw [(idx_facts t).2.2.2.2.2.2.2.1]
    | ⟨1, _⟩ => show win2_7.index t 1 * 256 = 0; rw [(idx_facts t).2.2.2.2.2.2.2.2]
  show (cfg2.win 7).cut (grid2.coords t) ((dat2 V c).after 7 t) = _
  rw [after2_7]
  refine Eq.trans ?_ (Memref.read_access_unit_zero (Elt Ideal) main_v64_2 hz' (fun a => by rw [congrFun hz' a]; simp) (sqG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t hl q).2

theorem mem_blk6 (t : Fin cfg2.N) (i : S1x256.Idx) :
    i ∈ ((cfg2.win 6).blk t).view.set ↔ ∀ a : Fin 2, win2_6.index t a * S1x256.size a ≤ (i a).val
      ∧ (i a).val < win2_6.index t a * S1x256.size a + S1x256.size a := by
  show i ∈ ((View.whole main_v64_1).slice (win2_6.rect t)).set ↔ _
  rw [View.set_slice_whole, Rect.mem_set_unit]
  exact Iff.rfl

theorem sum_final : (dat2 V c).arrAt 6 cfg2.N = sumG V c :=
  (dat2 V c).arrAt_eq_of_cover 6 (sumG V c) (flushed6_eq V c) fun i => by
    have hN : cfg2.N = 11 := N_2
    have hi0 : (i 0).val < 1 := (i 0).isLt
    have hi1 : (i 1).val < 256 := (i 1).isLt
    refine ⟨⟨10, by rw [hN]; omega⟩, (flush2_6 _).mpr rfl, ?_⟩
    rw [mem_blk6]
    intro a
    match a with
    | ⟨0, _⟩ =>
      show win2_6.index ⟨10, _⟩ 0 * 1 ≤ (i 0).val ∧ (i 0).val < win2_6.index ⟨10, _⟩ 0 * 1 + 1
      rw [(idx_facts _).2.2.2.2.2.2.1.1]; omega
    | ⟨1, _⟩ =>
      show win2_6.index ⟨10, _⟩ 1 * 256 ≤ (i 1).val ∧ (i 1).val < win2_6.index ⟨10, _⟩ 1 * 256 + 256
      rw [(idx_facts _).2.2.2.2.2.2.1.2]; omega

/-- THE SQUARES ROW after the run. -/
theorem mem_blk7 (t : Fin cfg2.N) (i : S1x256.Idx) :
    i ∈ ((cfg2.win 7).blk t).view.set ↔ ∀ a : Fin 2, win2_7.index t a * S1x256.size a ≤ (i a).val
      ∧ (i a).val < win2_7.index t a * S1x256.size a + S1x256.size a := by
  show i ∈ ((View.whole main_v64_2).slice (win2_7.rect t)).set ↔ _
  rw [View.set_slice_whole, Rect.mem_set_unit]
  exact Iff.rfl

theorem sq_final : (dat2 V c).arrAt 7 cfg2.N = sqG V c :=
  (dat2 V c).arrAt_eq_of_cover 7 (sqG V c) (flushed7_eq V c) fun i => by
    have hN : cfg2.N = 11 := N_2
    have hi0 : (i 0).val < 1 := (i 0).isLt
    have hi1 : (i 1).val < 256 := (i 1).isLt
    refine ⟨⟨10, by rw [hN]; omega⟩, (flush2_7 _).mpr rfl, ?_⟩
    rw [mem_blk7]
    intro a
    match a with
    | ⟨0, _⟩ =>
      show win2_7.index ⟨10, _⟩ 0 * 1 ≤ (i 0).val ∧ (i 0).val < win2_7.index ⟨10, _⟩ 0 * 1 + 1
      rw [(idx_facts _).2.2.2.2.2.2.2.1]; omega
    | ⟨1, _⟩ =>
      show win2_7.index ⟨10, _⟩ 1 * 256 ≤ (i 1).val ∧ (i 1).val < win2_7.index ⟨10, _⟩ 1 * 256 + 256
      rw [(idx_facts _).2.2.2.2.2.2.2.2]; omega

end Arrays

end Cert.KernelIdeal.Lin2

end
-- ==== Proof.BnRegion3.lean ====
/-
  Region 3 of the program (a batch-norm kernel over 5632 rows in 11 blocks of 512 rows), in closed form.

  For any contents of the arrays when the region is entered: the block of the input at point t is rows 512 t … 512 t + 511
  of its array, the four row operands are whole at every point, so what point t writes back is block t of ONE function of
  the five arrays — the normalised entry of the specification at (row, column).  The output's blocks tile its array (row r
  lies in block r / 512), so after the last point the output array is that function everywhere.
-/
import proofs.«168550_j58342835749309_1_alg».proof.Proof.Gen.KernelIdeal.Frame
import proofs.«168550_j58342835749309_1_alg».proof.Proof.BnPayload
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.BnValue

open Cert.KernelIdeal Cert.KernelIdeal.Gen

variable (V : (c : Dev nD) → (b : Ref sig .tc) → Buf (Elt Ideal) ((c : Thread nD τ).loc b))

/-- The windows' index maps over the grid: the two row-block windows sit at block row t, column block 0; the four row
    windows stay at block (0, 0). -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ (win3_1.index t (0 : Fin 2) = 0 ∧ win3_1.index t (1 : Fin 2) = 0
      ∧ win3_2.index t (0 : Fin 2) = 0 ∧ win3_2.index t (1 : Fin 2) = 0
      ∧ win3_3.index t (0 : Fin 2) = 0 ∧ win3_3.index t (1 : Fin 2) = 0
      ∧ win3_4.index t (0 : Fin 2) = 0 ∧ win3_4.index t (1 : Fin 2) = 0) :=
  (by decide +kernel : ∀ t : Fin grid3.N, _)

/-- The input window's block at point t is rows 512 t … 512 t + 511 of its array. -/
theorem iblk3_0_apply (c : Dev nD) (t : Fin cfg3.N) (p : Fin 512) (q : Fin 256) (r : Fin 5632)
    (hr : r.val = t.val * 512 + p.val) :
    (iblk3 V c 0 t : Vec Ideal S512x256 .f32) (ix2 p q) = (V c (Pipeline.arrRef spec3 0) : S5632x256.Idx → EReal) (ix2 r q) := by
  obtain ⟨e0, e1, -⟩ := idx_facts3 t
  show V c (Pipeline.arrRef spec3 0) (((cfg3.win 0).blk t).view.emb (ix2 p q)) = V c (Pipeline.arrRef spec3 0) (ix2 r q)
  refine congrArg (V c (Pipeline.arrRef spec3 0)) (funext fun a => Fin.ext ?_)
  match a with
  | ⟨0, _⟩ => show win3_0.index t (0 : Fin 2) * 512 + 1 * p.val = r.val; omega
  | ⟨1, _⟩ => show win3_0.index t (1 : Fin 2) * 256 + 1 * q.val = q.val; omega

/-- The mean window's block at any point is the whole row array: its entry at column q is the array's. -/
theorem iblk3_1_apply (c : Dev nD) (t : Fin cfg3.N) (q : Fin 256) :
    (iblk3 V c 1 t : Vec Ideal S1x256 .f32) (ix2 0 q) = (V c (Pipeline.arrRef spec3 1) : S1x256.Idx → EReal) (ix2 0 q) := by
  obtain ⟨-, -, -, -, e⟩ := idx_facts3 t
  have e0 : win3_1.index t (0 : Fin 2) = 0 := by simp only [e]
  have e1 : win3_1.index t (1 : Fin 2) = 0 := by simp only [e]
  show V c (Pipeline.arrRef spec3 1) (((cfg3.win 1).blk t).view.emb (ix2 0 q)) = V c (Pipeline.arrRef spec3 1) (ix2 0 q)
  refine congrArg (V c (Pipeline.arrRef spec3 1)) (funext fun a => Fin.ext ?_)
  match a with
  | ⟨0, _⟩ => show win3_1.index t (0 : Fin 2) * 1 + 1 * 0 = 0; omega
  | ⟨1, _⟩ => show win3_1.index t (1 : Fin 2) * 256 + 1 * q.val = q.val; omega

/-- The variance window's block at any point is the whole row array: its entry at column q is the array's. -/
theorem iblk3_2_apply (c : Dev nD) (t : Fin cfg3.N) (q : Fin 256) :
    (iblk3 V c 2 t : Vec Ideal S1x256 .f32) (ix2 0 q) = (V c (Pipeline.arrRef spec3 2) : S1x256.Idx → EReal) (ix2 0 q) := by
  obtain ⟨-, -, -, -, e⟩ := idx_facts3 t
  have e0 : win3_2.index t (0 : Fin 2) = 0 := by simp only [e]
  have e1 : win3_2.index t (1 : Fin 2) = 0 := by simp only [e]
  show V c (Pipeline.arrRef spec3 2) (((cfg3.win 2).blk t).view.emb (ix2 0 q)) = V c (Pipeline.arrRef spec3 2) (ix2 0 q)
  refine congrArg (V c (Pipeline.arrRef spec3 2)) (funext fun a => Fin.ext ?_)
  match a with
  | ⟨0, _⟩ => show win3_2.index t (0 : Fin 2) * 1 + 1 * 0 = 0; omega
  | ⟨1, _⟩ => show win3_2.index t (1 : Fin 2) * 256 + 1 * q.val = q.val; omega

/-- The gain window's block at any point is the whole row array: its entry at column q is the array's. -/
theorem iblk3_3_apply (c : Dev nD) (t : Fin cfg3.N) (q : Fin 256) :
    (iblk3 V c 3 t : Vec Ideal S1x256 .f32) (ix2 0 q) = (V c (Pipeline.arrRef spec3 3) : S1x256.Idx → EReal) (ix2 0 q) := by
  obtain ⟨-, -, -, -, e⟩ := idx_facts3 t
  have e0 : win3_3.index t (0 : Fin 2) = 0 := by simp only [e]
  have e1 : win3_3.index t (1 : Fin 2) = 0 := by simp only [e]
  show V c (Pipeline.arrRef spec3 3) (((cfg3.win 3).blk t).view.emb (ix2 0 q)) = V c (Pipeline.arrRef spec3 3) (ix2 0 q)
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 256 + 1 * q.val = q.val; omega

/-- The shift window's block at any point is the whole row array: its entry at column q is the array's. -/
theorem iblk3_4_apply (c : Dev nD) (t : Fin cfg3.N) (q : Fin 256) :
    (iblk3 V c 4 t : Vec Ideal S1x256 .f32) (ix2 0 q) = (V c (Pipeline.arrRef spec3 4) : S1x256.Idx → EReal) (ix2 0 q) := by
  obtain ⟨-, -, -, -, e⟩ := idx_facts3 t
  have e0 : win3_4.index t (0 : Fin 2) = 0 := by simp only [e]
  have e1 : win3_4.index t (1 : Fin 2) = 0 := by simp only [e]
  show V c (Pipeline.arrRef spec3 4) (((cfg3.win 4).blk t).view.emb (ix2 0 q)) = V c (Pipeline.arrRef spec3 4) (ix2 0 q)
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 256 + 1 * q.val = q.val; omega

/-- An index of the output array is in point t's block iff each coordinate is in the block's range on its axis. -/
theorem mem_blk3 (t : Fin cfg3.N) (i : S5632x256.Idx) :
    i ∈ ((cfg3.win 5).blk t).view.set ↔ ∀ a : Fin 2, win3_5.index t a * S512x256.size a ≤ (i a).val ∧ (i a).val < win3_5.index t a * S512x256.size a + S512x256.size a := by
  show i ∈ ((View.whole main_v73).slice (win3_5.rect t)).set ↔ _
  rw [View.set_slice_whole, Rect.mem_set_unit]
  exact Iff.rfl

/-- Every index of the output array is in the block of the point its row falls in: row r is in block r / 512. -/
theorem cover3 (i : S5632x256.Idx) :
    ∃ t : Fin cfg3.N, (cfg3.win 5).flush t = true ∧ i ∈ ((cfg3.win 5).blk t).view.set := by
  have hN : cfg3.N = 11 := N_3
  have hi0 : (i 0).val < 5632 := idx2_lt0 i
  have hi1 : (i 1).val < 256 := idx2_lt1 i
  have ht : (i 0).val / 512 < cfg3.N := by rw [hN]; omega
  obtain ⟨-, -, e2, e3, -⟩ := idx_facts3 ⟨(i 0).val / 512, ht⟩
  refine ⟨⟨(i 0).val / 512, ht⟩, flush3_5 _, ?_⟩
  rw [mem_blk3]
  intro a
  match a with
  | ⟨0, _⟩ =>
    show win3_5.index ⟨(i 0).val / 512, ht⟩ (0 : Fin 2) * 512 ≤ (i 0).val ∧ (i 0).val < win3_5.index ⟨(i 0).val / 512, ht⟩ (0 : Fin 2) * 512 + 512
    rw [e2]; show (i 0).val / 512 * 512 ≤ (i 0).val ∧ (i 0).val < (i 0).val / 512 * 512 + 512; omega
  | ⟨1, _⟩ =>
    show win3_5.index ⟨(i 0).val / 512, ht⟩ (1 : Fin 2) * 256 ≤ (i 1).val ∧ (i 1).val < win3_5.index ⟨(i 0).val / 512, ht⟩ (1 : Fin 2) * 256 + 256
    rw [e3]; omega

/-- The whole output array of the region as one function of the five arrays the region reads, index by index: the
    normalised entry of the specification. -/
def G3 (c : Dev nD) : S5632x256.Idx → EReal := fun i =>
  Cert.Sage.bnS (N := 5632) (C := 256) (V c (Pipeline.arrRef spec3 0)) (V c (Pipeline.arrRef spec3 1)) (V c (Pipeline.arrRef spec3 2)) (V c (Pipeline.arrRef spec3 3)) (V c (Pipeline.arrRef spec3 4)) (i 0) (i 1)

theorem hz3 : (![0, 0] : Fin 2 → Nat) = fun _ => 0 := funext fun a => by fin_cases a <;> rfl

/-- What point t writes back is block t of that function of the arrays as the region finds them. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero hz3]
  simp only [View.ld_unit_zero (S := S512x256) hz3, View.ld_unit_zero (S := S1x256) hz3]
  have hN : cfg3.N = 11 := N_3
  have htN : t.val < cfg3.N := t.isLt
  obtain ⟨-, -, e2, e3, -⟩ := idx_facts3 t
  refine funext fun (j : S512x256.Idx) => ?_
  obtain ⟨p, q, rfl⟩ : ∃ (p : Fin 512) (q : Fin 256), j = ix2 p q := ⟨j 0, j 1, eq_ix2 j⟩
  have hr : t.val * 512 + p.val < 5632 := by omega
  show k3_pay1 (iblk3 V c 0 t) (iblk3 V c 2 t) (iblk3 V c 1 t) (iblk3 V c 3 t) (iblk3 V c 4 t) (ix2 p q) = G3 V c (((cfg3.win 5).blk t).view.emb (ix2 p q))
  refine (pay3_blocks (R := 5632) (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t) p q ⟨t.val * 512 + p.val, hr⟩
    (iblk3_0_apply V c t p q ⟨t.val * 512 + p.val, hr⟩ rfl) (iblk3_1_apply V c t q) (iblk3_2_apply V c t q)
    (iblk3_3_apply V c t q) (iblk3_4_apply V c t q)).trans ?_
  have ha : (⟨t.val * 512 + p.val, hr⟩ : Fin 5632) = ((cfg3.win 5).blk t).view.emb (ix2 p q) 0 :=
    Fin.ext (by show t.val * 512 + p.val = win3_5.index t (0 : Fin 2) * 512 + 1 * p.val; omega)
  have hb : q = ((cfg3.win 5).blk t).view.emb (ix2 p q) 1 :=
    Fin.ext (by show q.val = win3_5.index t (1 : Fin 2) * 256 + 1 * q.val; omega)
  exact congrArg₂ (Cert.Sage.bnS (N := 5632) (C := 256) (V c (Pipeline.arrRef spec3 0)) (V c (Pipeline.arrRef spec3 1)) (V c (Pipeline.arrRef spec3 2)) (V c (Pipeline.arrRef spec3 3)) (V c (Pipeline.arrRef spec3 4))) ha hb

/-- The region's output array after all its points: the normalised array, as one function. -/
theorem bn3_arr_eq (c : Dev nD) : (dat3 (F := Ideal) V c).arrAt 5 cfg3.N = G3 V c :=
  (dat3 (F := Ideal) V c).arrAt_eq_of_cover 5 (G3 V c) (fun t _ => flushed3_eq V c t) cover3

/-- The region's output array after all its points, entry by entry: at row r, column q it is the normalised entry of the
    five arrays the region read. -/
theorem bn3_arr (c : Dev nD) (r : Fin 5632) (q : Fin 256) :
    (dat3 (F := Ideal) V c).arrAt 5 cfg3.N (ix2 r q)
      = Cert.Sage.bnS (V c (Pipeline.arrRef spec3 0)) (V c (Pipeline.arrRef spec3 1)) (V c (Pipeline.arrRef spec3 2)) (V c (Pipeline.arrRef spec3 3)) (V c (Pipeline.arrRef spec3 4)) r q := by
  rw [bn3_arr_eq]
  rfl

end Cert.KernelIdeal.BnValue

end
-- ==== Proof.KLayer1.lean ====
/-
  Layer 1 of the idealized kernel program, read off its chain of boundaries: the linear region's three arrays, the
  host's mean and variance rows from them, the reshaped gain and shift rows, and the batch-norm region's output — the
  layer's output array entry by entry as the normalised, clamped linear part, its statistics the moment forms.
-/
import proofs.«168550_j58342835749309_1_alg».proof.Proof.Gen.KernelIdeal.Frame
import proofs.«168550_j58342835749309_1_alg».proof.Proof.Lin2
import proofs.«168550_j58342835749309_1_alg».proof.Proof.BnRegion3
import proofs.«168550_j58342835749309_1_alg».proof.Proof.KKept
import proofs.«168550_j58342835749309_1_alg».proof.Proof.SpecCongr
import proofs.«168550_j58342835749309_1_alg».proof.Proof.LibSageReal
import Idealize.ShloMosaic.Lib.StableHlo.Run
import Idealize.ShloMosaic.Lib.ValueLayout

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg) (c : Dev nD)

/-- The layer's linear part, as the linear region computes it from the arrays it finds. -/
abbrev Hk : S5632x256.Idx → EReal := Cert.KernelIdeal.Lin2.rowsG (V5 m ρ) c

/-- The bias row the glue stretch reshapes from the bias vector. -/
theorem b2_apply (q : Fin 256) : W5 m ρ c (Proc.devRef .tc main_v63) (ix2 0 q) = (m ((c : Thread nD τ).loc main_arg17)) (ix1 q) := by
  have e : (StableHlo.after hostOps2 (W4 m ρ c) (Proc.devRef .tc main_v63) : S1x256.Idx → EReal)
      = shapeCast S1x256 (W4 m ρ c (Proc.devRef .tc main_arg17) : S256.Idx → EReal) shapeCasts_S256_S1x256 := by
    after_results
    rfl
  show StableHlo.after hostOps2 (W4 m ρ c) (Proc.devRef .tc main_v63) (ix2 0 q) = _
  rw [e, shapeCast_a_1a_apply]
  exact congrFun (Cert.KernelIdeal.Kept.w4_main_arg17 m ρ c) _

/-- The linear region's row output is still there when the batch-norm region reads it. -/
theorem h_eq : W7 m ρ c (Proc.devRef .tc main_v64_0) = Hk m ρ c := by
  rw [Cert.KernelIdeal.Kept.w7_main_v64_0 m ρ c]
  exact (W6_arr m ρ c 5).trans (Cert.KernelIdeal.Lin2.rows_final (V5 m ρ) c)

theorem s_eq : W6 m ρ c (Proc.devRef .tc main_v64_1) = Cert.KernelIdeal.Lin2.sumG (V5 m ρ) c :=
  (W6_arr m ρ c 6).trans (Cert.KernelIdeal.Lin2.sum_final (V5 m ρ) c)

theorem ss_eq : W6 m ρ c (Proc.devRef .tc main_v64_2) = Cert.KernelIdeal.Lin2.sqG (V5 m ρ) c :=
  (W6_arr m ρ c 7).trans (Cert.KernelIdeal.Lin2.sq_final (V5 m ρ) c)

/-- The host's mean row: the sums row divided by the row count. -/
theorem mean_apply (q : Fin 256) :
    W7 m ρ c (Proc.devRef .tc main_v66) (ix2 0 q) = momMean (Hk m ρ c) (Ideal.ofBits .f32 0x45B00000#32) (ix2 0 q) := by
  have e : (StableHlo.after hostOps3 (W6 m ρ c) (Proc.devRef .tc main_v66) : S1x256.Idx → EReal)
      = Host.divf (F := Ideal) (W6 m ρ c (Proc.devRef .tc main_v64_1) : S1x256.Idx → EReal)
          (broadcastInDim S1x256 ![] bcast_S_S1x256 (constant (F := Ideal) S_ .f32 0x45B00000#32)) := by
    after_results
  show StableHlo.after hostOps3 (W6 m ρ c) (Proc.devRef .tc main_v66) (ix2 0 q) = _
  rw [e, s_eq]
  rfl

/-- The host's variance row: the squares row divided by the row count, minus the squared mean. -/
theorem var_apply (q : Fin 256) :
    W7 m ρ c (Proc.devRef .tc main_v70) (ix2 0 q) = momVar (Hk m ρ c) (Ideal.ofBits .f32 0x45B00000#32) (ix2 0 q) := by
  have e : (StableHlo.after hostOps3 (W6 m ρ c) (Proc.devRef .tc main_v70) : S1x256.Idx → EReal)
      = subf (F := Ideal) (Host.divf (F := Ideal) (W6 m ρ c (Proc.devRef .tc main_v64_2) : S1x256.Idx → EReal)
            (broadcastInDim S1x256 ![] bcast_S_S1x256 (constant (F := Ideal) S_ .f32 0x45B00000#32)))
          (mulf (F := Ideal) (Host.divf (F := Ideal) (W6 m ρ c (Proc.devRef .tc main_v64_1) : S1x256.Idx → EReal)
              (broadcastInDim S1x256 ![] bcast_S_S1x256 (constant (F := Ideal) S_ .f32 0x45B00000#32)))
            (Host.divf (F := Ideal) (W6 m ρ c (Proc.devRef .tc main_v64_1) : S1x256.Idx → EReal)
              (broadcastInDim S1x256 ![] bcast_S_S1x256 (constant (F := Ideal) S_ .f32 0x45B00000#32)))) := by
    after_results
  show StableHlo.after hostOps3 (W6 m ρ c) (Proc.devRef .tc main_v70) (ix2 0 q) = _
  rw [e, s_eq, ss_eq]
  rfl

/-- The gain row the host reshapes from the gain vector. -/
theorem g2_apply (q : Fin 256) : W7 m ρ c (Proc.devRef .tc main_v71) (ix2 0 q) = (m ((c : Thread nD τ).loc main_arg18)) (ix1 q) := by
  have e : (StableHlo.after hostOps3 (W6 m ρ c) (Proc.devRef .tc main_v71) : S1x256.Idx → EReal)
      = shapeCast S1x256 (W6 m ρ c (Proc.devRef .tc main_arg18) : S256.Idx → EReal) shapeCasts_S256_S1x256 := by
    after_results
    rfl
  show StableHlo.after hostOps3 (W6 m ρ c) (Proc.devRef .tc main_v71) (ix2 0 q) = _
  rw [e, shapeCast_a_1a_apply]
  exact congrFun (Cert.KernelIdeal.Kept.w6_main_arg18 m ρ c) _

/-- The shift row the host reshapes from the shift vector. -/
theorem be2_apply (q : Fin 256) : W7 m ρ c (Proc.devRef .tc main_v72) (ix2 0 q) = (m ((c : Thread nD τ).loc main_arg19)) (ix1 q) := by
  have e : (StableHlo.after hostOps3 (W6 m ρ c) (Proc.devRef .tc main_v72) : S1x256.Idx → EReal)
      = shapeCast S1x256 (W6 m ρ c (Proc.devRef .tc main_arg19) : S256.Idx → EReal) shapeCasts_S256_S1x256 := by
    after_results
    rfl
  show StableHlo.after hostOps3 (W6 m ρ c) (Proc.devRef .tc main_v72) (ix2 0 q) = _
  rw [e, shapeCast_a_1a_apply]
  exact congrFun (Cert.KernelIdeal.Kept.w6_main_arg19 m ρ c) _

/-- THE LAYER'S OUTPUT, entry by entry: the normalised, rescaled, shifted and clamped linear part, its mean and variance
    the moment forms of the linear part's columns. -/
theorem out_apply (r : Fin 5632) (q : Fin 256) :
    W8 m ρ c (Proc.devRef .tc main_v73) (ix2 r q)
      = bnS (Hk m ρ c) (momMean (Hk m ρ c) (Ideal.ofBits .f32 0x45B00000#32)) (momVar (Hk m ρ c) (Ideal.ofBits .f32 0x45B00000#32))
          (fun i : S1x256.Idx => (m ((c : Thread nD τ).loc main_arg18)) (ix1 (i 1))) (fun i : S1x256.Idx => (m ((c : Thread nD τ).loc main_arg19)) (ix1 (i 1))) r q := by
  show W8 m ρ c (Proc.devRef .tc (Pipeline.arrRef spec3 5)) (ix2 r q) = _
  rw [W8_arr m ρ c 5, Cert.KernelIdeal.BnValue.bn3_arr (V7 m ρ) c r q]
  exact bnS_congr r q (congrFun (h_eq m ρ c) _) (mean_apply m ρ c q) (var_apply m ρ c q) (g2_apply m ρ c q) (be2_apply m ρ c q)

/-- The linear part in terms of the glue stretch's two arrays and the launched weights and bias. -/
theorem Hk_apply (r : Fin 5632) (q : Fin 256) :
    Hk m ρ c (ix2 r q) = linS (W5 m ρ c (Proc.devRef .tc main_v55) : S5632x256.Idx → EReal) (W5 m ρ c (Proc.devRef .tc main_v62) : S5632x256.Idx → EReal)
      (m ((c : Thread nD τ).loc main_arg15)) (m ((c : Thread nD τ).loc main_arg16)) (fun i : S1x256.Idx => (m ((c : Thread nD τ).loc main_arg17)) (ix1 (i 1))) r q := by
  show linS (Cert.KernelIdeal.Lin2.arrA (V5 m ρ) c) (Cert.KernelIdeal.Lin2.arrX (V5 m ρ) c) (Cert.KernelIdeal.Lin2.arrWl (V5 m ρ) c) (Cert.KernelIdeal.Lin2.arrWr (V5 m ρ) c)
    (Cert.KernelIdeal.Lin2.arrB (V5 m ρ) c) r q = _
  exact linS_congr r q (fun k => rfl) (fun k => rfl)
    (fun k => congrFun (Cert.KernelIdeal.Kept.w5_main_arg15 m ρ c) _)
    (fun k => congrFun (Cert.KernelIdeal.Kept.w5_main_arg16 m ρ c) _) (b2_apply m ρ c q)

end Cert.KernelIdeal.Layer1

end
-- ==== Proof.Lin4.lean ====
/-
  Region 4: the linear part of a layer on blocks of 512 rows, with the two column statistics accumulated over the grid.
  What the body leaves in its three output buffers in each of its control cases, as the body's pure terms of the input
  blocks and of the running statistics; then the running statistics after any point as sums over the rows seen so far;
  then the three result arrays: the linear part row by row, and the column sums of it and of its squares.
-/
import proofs.«168550_j58342835749309_1_alg».proof.Proof.Gen.KernelIdeal.Frame
import proofs.«168550_j58342835749309_1_alg».proof.Proof.Spec
import proofs.«168550_j58342835749309_1_alg».proof.Proof.LibPlainDot
import proofs.«168550_j58342835749309_1_alg».proof.Proof.LibColumnReduce
import proofs.«168550_j58342835749309_1_alg».proof.Proof.LibBlockRuns
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lin4

open Cert.KernelIdeal Cert.KernelIdeal.Gen

theorem hz : (![0, 0] : Fin 2 → Nat) = fun _ => 0 := funext fun a => by fin_cases a <;> rfl

section Pieces
variable {F : FTy → Type} [FloatOps F]

/-- The first case leaves the linear part of the block in the row output. -/
theorem outA5 (c : Dev nD) (i : grid4.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S512x256 .f32) (x2 x3 : Vec F S256x256 .f32) (x4 : Vec F S1x256 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the sum output, the block's column sums added to the zero row it has just stored. -/
theorem outA6 (c : Dev nD) (i : grid4.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S512x256 .f32) (x2 x3 : Vec F S256x256 .f32) (x4 : Vec F S1x256 .f32) :
    out4_A_6 c i a1 h1 a2 h2 a3 h3 a4 h4 a5 h5 a6 h6 a7 h7 a8 h8 hc x0 x1 x2 x3 x4 = k4_pay5 x0 x1 x2 x3 x4 (k4_pay2 (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

/-- The first case leaves, in the squares output, the block's column sums of squares added to the zero row. -/
theorem outA7 (c : Dev nD) (i : grid4.Coords) (a1 : Memref sig .tc .vmem S512x256 .f32) (h1 : a1.IsWhole) (a2 : Memref sig .tc .vmem S512x256 .f32) (h2 : a2.IsWhole) (a3 : Memref sig .tc .vmem S256x256 .f32) (h3 : a3.IsWhole) (a4 : Memref sig .tc .vmem S256x256 .f32) (h4 : a4.IsWhole) (a5 : Memref sig .tc .vmem S1x256 .f32) (h5 : a5.IsWhole) (a6 : Memref sig .tc .vmem S512x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S512x256 .f32) (x2 x3 : Vec F S256x256 .f32) (x4 : Vec F S1x256 .f32) :
    out4_A_7 c i a1 h1 a2 h2 a3 h3 a4 h4 a5 h5 a6 h6 a7 h7 a8 h8 hc x0 x1 x2 x3 x4 = k4_pay1 (k4_pay6 (k4_pay3 (F := F))) (k4_pay7 x0 x1 x2 x3 x4) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S512x256) hz, View.ld_unit_zero (S := S256x256) hz, View.ld_unit_zero (S := S1x256) hz]

end Pieces

/-! ## The body's terms at an index, at the ideal values -/

/-- The linear part of a block: row `p` of the first block times the first weights, plus row `p` of the second block times
    the second weights, plus the bias row's entry. The narrowing of the operands is the identity on the extended reals. -/
theorem pay4_apply (x0 x1 : Vec Ideal S512x256 .f32) (x2 x3 : Vec Ideal S256x256 .f32) (x4 : Vec Ideal S1x256 .f32)
    (p : Fin 512) (q : Fin 256) :
    k4_pay4 (F := Ideal) x0 x1 x2 x3 x4 (ix2 p q)
      = ((∑ k : Fin 256, x0 (ix2 p k) * x2 (ix2 k q)) + (∑ k : Fin 256, x1 (ix2 p k) * x3 (ix2 k q))) + x4 (ix2 0 q) := by
  unfold k4_pay4
  show (matmul dot_S512x256_S256x256_S512x256_1_0_0_1_n_n none (truncf .bf16 (shapeCast S512x256 x0 shapeCasts_S512x256_S512x256) bitsLt_bf16_f32)
          (truncf .bf16 x2 bitsLt_bf16_f32) (constant (F := Ideal) S512x256 .f32 0x00000000#32) (ix2 p q)
        + matmul dot_S512x256_S256x256_S512x256_1_0_0_1_n_n none (truncf .bf16 (shapeCast S512x256 x1 shapeCasts_S512x256_S512x256) bitsLt_bf16_f32)
          (truncf .bf16 x3 bitsLt_bf16_f32) (constant (F := Ideal) S512x256 .f32 0x00000000#32) (ix2 p q))
      + broadcastTo S512x256 (shapeCast S1x256 x4 shapeCasts_S1x256_S1x256) broadcasts_S1x256_S512x256 (ix2 p q) = _
  rw [show dot_S512x256_S256x256_S512x256_1_0_0_1_n_n = DotDims.plain 512 256 256 from rfl,
    Cert.Lib.PlainDot.matmul_plain_zero_apply, Cert.Lib.PlainDot.matmul_plain_zero_apply, broadcastTo_1b_ab_apply]
  simp only [truncf_apply, shapeCast_self]

/-- The sum payload at column `q`: the running sum's entry plus the column sum of the block's linear part. -/
theorem pay5_apply (x0 x1 : Vec Ideal S512x256 .f32) (x2 x3 : Vec Ideal S256x256 .f32) (x4 v21 : Vec Ideal S1x256 .f32)
    (q : Fin 256) :
    k4_pay5 (F := Ideal) x0 x1 x2 x3 x4 v21 (ix2 0 q)
      = v21 (ix2 0 q) + ∑ p : Fin 512, k4_pay4 (F := Ideal) x0 x1 x2 x3 x4 (ix2 p q) := by
  unfold k4_pay5
  show shapeCast S1x256 v21 shapeCasts_S1x256_S1x256 (ix2 0 q)
      + shapeCast S1x256 (multiReduction .add [0] S256 (k4_pay4 (F := Ideal) x0 x1 x2 x3 x4) 0x00000000#32 reduces_S512x256_S256 (.inl rfl) rfl)
          shapeCasts_S256_S1x256 (ix2 0 q) = _
  rw [shapeCast_self, shapeCast_a_1a_apply, Cert.Lib.ColumnReduce.multiReduction_rows_apply]

/-- The squares payload at column `q`: the column sum of the squares of the block's linear part. -/
theorem pay7_apply (x0 x1 : Vec Ideal S512x256 .f32) (x2 x3 : Vec Ideal S256x256 .f32) (x4 : Vec Ideal S1x256 .f32)
    (q : Fin 256) :
    k4_pay7 (F := Ideal) x0 x1 x2 x3 x4 (ix2 0 q)
      = ∑ p : Fin 512, k4_pay4 (F := Ideal) x0 x1 x2 x3 x4 (ix2 p q) * k4_pay4 (F := Ideal) x0 x1 x2 x3 x4 (ix2 p q) := by
  unfold k4_pay7
  show shapeCast S1x256 (multiReduction .add [0] S256 (mulf (k4_pay4 (F := Ideal) x0 x1 x2 x3 x4) (k4_pay4 (F := Ideal) x0 x1 x2 x3 x4))
          0x00000000#32 reduces_S512x256_S256 (.inl rfl) rfl) shapeCasts_S256_S1x256 (ix2 0 q) = _
  rw [shapeCast_a_1a_apply, Cert.Lib.ColumnReduce.multiReduction_rows_apply]
  rfl

/-- The squares output's payload at column `q`: the running entry plus the block's column sum of squares. -/
theorem pay1_apply (v27 : Vec Ideal S1x256 .f32) (x0 x1 : Vec Ideal S512x256 .f32) (x2 x3 : Vec Ideal S256x256 .f32)
    (x4 : Vec Ideal S1x256 .f32) (q : Fin 256) :
    k4_pay1 (F := Ideal) (k4_pay6 (F := Ideal) v27) (k4_pay7 (F := Ideal) x0 x1 x2 x3 x4) (ix2 0 q)
      = v27 (ix2 0 q) + ∑ p : Fin 512, k4_pay4 (F := Ideal) x0 x1 x2 x3 x4 (ix2 p q) * k4_pay4 (F := Ideal) x0 x1 x2 x3 x4 (ix2 p q) := by
  unfold k4_pay1 k4_pay6
  show shapeCast S1x256 v27 shapeCasts_S1x256_S1x256 (ix2 0 q) + k4_pay7 (F := Ideal) x0 x1 x2 x3 x4 (ix2 0 q) = _
  rw [shapeCast_self, pay7_apply]

/-- The row the first point stores into the sum output is zero. -/
theorem pay2_apply (q : Fin 256) : k4_pay2 (F := Ideal) (ix2 0 q) = 0 := by
  unfold k4_pay2
  show Ideal.ofBits .f32 0x00000000#32 = 0
  exact Ideal.ofBits_zero_f32

/-- The row the first point stores into the squares output is zero. -/
theorem pay3_apply (q : Fin 256) : k4_pay3 (F := Ideal) (ix2 0 q) = 0 := by
  unfold k4_pay3
  show Ideal.ofBits .f32 0x00000000#32 = 0
  exact Ideal.ofBits_zero_f32

/-! ## The blocks a point reads, and the statistics after each point -/

section Arrays
variable (V : (c : Dev nD) → (b : Ref sig .tc) → Buf (Elt Ideal) ((c : Thread nD τ).loc b)) (c : Dev nD)

/-- The five input arrays as the region finds them. -/
abbrev arrA : S512x256.Idx → EReal := V c (Pipeline.arrRef spec4 0)
abbrev arrX : S512x256.Idx → EReal := V c (Pipeline.arrRef spec4 1)
abbrev arrWl : S256x256.Idx → EReal := V c (Pipeline.arrRef spec4 2)
abbrev arrWr : S256x256.Idx → EReal := V c (Pipeline.arrRef spec4 3)
abbrev arrB : S1x256.Idx → EReal := V c (Pipeline.arrRef spec4 4)

/-- The linear part of the layer at row `r`, column `q`, of the arrays as found. -/
abbrev H (r : Fin 512) (q : Fin 256) : EReal := Cert.Sage.linS (arrA V c) (arrX V c) (arrWl V c) (arrWr V c) (arrB V c) r q

/-- The block indices over the grid: the two row operands and the row output move down one block per point; the
    weights, the bias row and the two statistics rows stay. -/
theorem idx_facts : ∀ t : Fin cfg4.N,
    (win4_0.index t 0 = t.val ∧ win4_0.index t 1 = 0) ∧ (win4_1.index t 0 = t.val ∧ win4_1.index t 1 = 0)
    ∧ (win4_2.index t 0 = 0 ∧ win4_2.index t 1 = 0) ∧ (win4_3.index t 0 = 0 ∧ win4_3.index t 1 = 0)
    ∧ (win4_4.index t 0 = 0 ∧ win4_4.index t 1 = 0) ∧ (win4_5.index t 0 = t.val ∧ win4_5.index t 1 = 0)
    ∧ (win4_6.index t 0 = 0 ∧ win4_6.index t 1 = 0) ∧ (win4_7.index t 0 = 0 ∧ win4_7.index t 1 = 0) :=
  (by decide +kernel : ∀ t : Fin grid4.N, _)

theorem row_lt (t : Fin cfg4.N) (p : Fin 512) : 512 * t.val + p.val < 512 := by
  have hN : t.val < 1 := lt_of_lt_of_eq t.isLt (show cfg4.N = 1 from N_4)
  have := p.isLt; omega

/-- Row `p` of the first operand's block at point `t` is row `512 t + p` of the array. -/
theorem blkA_apply (t : Fin cfg4.N) (p : Fin 512) (k : Fin 256) :
    iblk4 V c 0 t (ix2 p k) = arrA V c (ix2 ⟨512 * t.val + p.val, row_lt t p⟩ k) := by
  unfold iblk4
  rw [View.read_apply]
  refine congrArg (V c (Pipeline.arrRef spec4 0)) (funext fun a => Fin.ext ?_)
  match a with
  | ⟨0, _⟩ => show win4_0.index t 0 * 512 + 1 * p.val = 512 * t.val + p.val; rw [(idx_facts t).1.1]; omega
  | ⟨1, _⟩ => show win4_0.index t 1 * 256 + 1 * k.val = k.val; rw [(idx_facts t).1.2]; omega

/-- Row `p` of the second operand's block at point `t` is row `512 t + p` of the array. -/
theorem blkX_apply (t : Fin cfg4.N) (p : Fin 512) (k : Fin 256) :
    iblk4 V c 1 t (ix2 p k) = arrX V c (ix2 ⟨512 * t.val + p.val, row_lt t p⟩ k) := by
  unfold iblk4
  rw [View.read_apply]
  refine congrArg (V c (Pipeline.arrRef spec4 1)) (funext fun a => Fin.ext ?_)
  match a with
  | ⟨0, _⟩ => show win4_1.index t 0 * 512 + 1 * p.val = 512 * t.val + p.val; rw [(idx_facts t).2.1.1]; omega
  | ⟨1, _⟩ => show win4_1.index t 1 * 256 + 1 * k.val = k.val; rw [(idx_facts t).2.1.2]; omega

/-- The first weights' block at any point is the whole array. -/
theorem blkWl_apply (t : Fin cfg4.N) (k q : Fin 256) : iblk4 V c 2 t (ix2 k q) = arrWl V c (ix2 k q) := by
  unfold iblk4
  rw [View.read_apply]
  refine congrArg (V c (Pipeline.arrRef spec4 2)) (funext fun a => Fin.ext ?_)
  match a with
  | ⟨0, _⟩ => show win4_2.index t 0 * 256 + 1 * k.val = k.val; rw [(idx_facts t).2.2.1.1]; omega
  | ⟨1, _⟩ => show win4_2.index t 1 * 256 + 1 * q.val = q.val; rw [(idx_facts t).2.2.1.2]; omega

/-- The second weights' block at any point is the whole array. -/
theorem blkWr_apply (t : Fin cfg4.N) (k q : Fin 256) : iblk4 V c 3 t (ix2 k q) = arrWr V c (ix2 k q) := by
  unfold iblk4
  rw [View.read_apply]
  refine congrArg (V c (Pipeline.arrRef spec4 3)) (funext fun a => Fin.ext ?_)
  match a with
  | ⟨0, _⟩ => show win4_3.index t 0 * 256 + 1 * k.val = k.val; rw [(idx_facts t).2.2.2.1.1]; omega
  | ⟨1, _⟩ => show win4_3.index t 1 * 256 + 1 * q.val = q.val; rw [(idx_facts t).2.2.2.1.2]; omega

/-- The bias row's block at any point is the whole row. -/
theorem blkB_apply (t : Fin cfg4.N) (q : Fin 256) : iblk4 V c 4 t (ix2 0 q) = arrB V c (ix2 0 q) := by
  unfold iblk4
  rw [View.read_apply]
  refine congrArg (V c (Pipeline.arrRef spec4 4)) (funext fun a => Fin.ext ?_)
  match a with
  | ⟨0, _⟩ => show win4_4.index t 0 * 1 + 1 * 0 = 0; rw [(idx_facts t).2.2.2.2.1.1]
  | ⟨1, _⟩ => show win4_4.index t 1 * 256 + 1 * q.val = q.val; rw [(idx_facts t).2.2.2.2.1.2]; omega

/-- The body's linear part at point `t`, row `p`, column `q`, is the layer's linear part at row `512 t + p`. -/
theorem lin_at (t : Fin cfg4.N) (p : Fin 512) (q : Fin 256) :
    k4_pay4 (F := Ideal) (iblk4 V c 0 t) (iblk4 V c 1 t) (iblk4 V c 2 t) (iblk4 V c 3 t) (iblk4 V c 4 t) (ix2 p q)
      = H V c ⟨512 * t.val + p.val, row_lt t p⟩ q := by
  refine (pay4_apply (iblk4 V c 0 t) (iblk4 V c 1 t) (iblk4 V c 2 t) (iblk4 V c 3 t) (iblk4 V c 4 t) p q).trans ?_
  unfold H Cert.Sage.linS
  rw [blkB_apply V c t q]
  refine congrArg₂ (· + ·) (congrArg₂ (· + ·) (Finset.sum_congr rfl fun k _ => ?_) (Finset.sum_congr rfl fun k _ => ?_)) rfl
  · rw [blkA_apply V c t p k, blkWl_apply V c t k q]
  · rw [blkX_apply V c t p k, blkWr_apply V c t k q]

/-- What the three output buffers hold after the one point. -/
theorem outs_first (t : Fin cfg4.N) :
    (outsAt4 V c t).1 = k4_pay4 (F := Ideal) (iblk4 V c 0 t) (iblk4 V c 1 t) (iblk4 V c 2 t) (iblk4 V c 3 t) (iblk4 V c 4 t)
    ∧ (outsAt4 V c t).2.1 = k4_pay5 (F := Ideal) (iblk4 V c 0 t) (iblk4 V c 1 t) (iblk4 V c 2 t) (iblk4 V c 3 t) (iblk4 V c 4 t) (k4_pay2 (F := Ideal))
    ∧ (outsAt4 V c t).2.2 = k4_pay1 (F := Ideal) (k4_pay6 (F := Ideal) (k4_pay3 (F := Ideal))) (k4_pay7 (F := Ideal) (iblk4 V c 0 t) (iblk4 V c 1 t) (iblk4 V c 2 t) (iblk4 V c 3 t) (iblk4 V c 4 t)) := by
  unfold outsAt4
  dsimp only
  refine ⟨?_, ?_, ?_⟩
  · exact outA5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (hcond4_0 t) (iblk4 V c 0 t) (iblk4 V c 1 t) (iblk4 V c 2 t) (iblk4 V c 3 t) (iblk4 V c 4 t)
  · exact outA6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (hcond4_0 t) (iblk4 V c 0 t) (iblk4 V c 1 t) (iblk4 V c 2 t) (iblk4 V c 3 t) (iblk4 V c 4 t)
  · exact outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (hcond4_0 t) (iblk4 V c 0 t) (iblk4 V c 1 t) (iblk4 V c 2 t) (iblk4 V c 3 t) (iblk4 V c 4 t)

theorem rows_at (t : Fin cfg4.N) : (outsAt4 V c t).1 = k4_pay4 (F := Ideal) (iblk4 V c 0 t) (iblk4 V c 1 t) (iblk4 V c 2 t) (iblk4 V c 3 t) (iblk4 V c 4 t) := (outs_first V c t).1

theorem hNKB : 512 = 1 * 512 := by norm_num

/-- The column sum of block `j` of the layer's linear part, and of its squares: what one point adds. -/
theorem block_sum (t : Fin cfg4.N) (q : Fin 256) :
    (∑ p : Fin 512, k4_pay4 (F := Ideal) (iblk4 V c 0 t) (iblk4 V c 1 t) (iblk4 V c 2 t) (iblk4 V c 3 t) (iblk4 V c 4 t) (ix2 p q)) = Cert.LibBlockRuns.block 1 512 hNKB (fun r => H V c r q) t.val := by
  have hN : t.val < 1 := lt_of_lt_of_eq t.isLt (show cfg4.N = 1 from N_4)
  rw [Cert.LibBlockRuns.block_of_lt 1 512 hNKB _ t.val hN]
  exact Finset.sum_congr rfl fun p _ => lin_at V c t p q

theorem block_sq (t : Fin cfg4.N) (q : Fin 256) :
    (∑ p : Fin 512, k4_pay4 (F := Ideal) (iblk4 V c 0 t) (iblk4 V c 1 t) (iblk4 V c 2 t) (iblk4 V c 3 t) (iblk4 V c 4 t) (ix2 p q) * k4_pay4 (F := Ideal) (iblk4 V c 0 t) (iblk4 V c 1 t) (iblk4 V c 2 t) (iblk4 V c 3 t) (iblk4 V c 4 t) (ix2 p q))
      = Cert.LibBlockRuns.block 1 512 hNKB (fun r => H V c r q * H V c r q) t.val := by
  have hN : t.val < 1 := lt_of_lt_of_eq t.isLt (show cfg4.N = 1 from N_4)
  rw [Cert.LibBlockRuns.block_of_lt 1 512 hNKB _ t.val hN]
  exact Finset.sum_congr rfl fun p _ => by rw [lin_at V c t p q]

/-- After the one point the two rows hold the column sums over all rows. -/
theorem stats_last (t : Fin cfg4.N) (q : Fin 256) :
    (outsAt4 V c t).2.1 (ix2 0 q) = ∑ r : Fin 512, H V c r q
    ∧ (outsAt4 V c t).2.2 (ix2 0 q) = ∑ r : Fin 512, H V c r q * H V c r q := by
  have ht : t.val = 0 := by have := lt_of_lt_of_eq t.isLt (show cfg4.N = 1 from N_4); omega
  obtain ⟨-, e6, e7⟩ := outs_first V c t
  rw [e6, e7, pay5_apply, pay1_apply, pay2_apply, pay3_apply, block_sum V c t q, block_sq V c t q, ht]
  refine ⟨?_, ?_⟩
  · rw [← Cert.LibBlockRuns.sum_range_block hNKB (fun r => H V c r q)]
    show 0 + _ = ∑ j ∈ Finset.range 1, _
    rw [Finset.sum_range_one]; exact zero_add _
  · rw [← Cert.LibBlockRuns.sum_range_block hNKB (fun r => H V c r q * H V c r q)]
    show 0 + _ = ∑ j ∈ Finset.range 1, _
    rw [Finset.sum_range_one]; exact zero_add _

/-! ## The three result arrays -/

/-- The row array the region leaves: the layer's linear part, row by row. -/
abbrev rowsG : S512x256.Idx → EReal := fun i => H V c (i 0) (i 1)
/-- The sums row the region leaves: the column sums of the linear part over all rows. -/
abbrev sumG : S1x256.Idx → EReal := fun i => ∑ r : Fin 512, H V c r (i 1)
/-- The squares row the region leaves: the column sums of the squared linear part over all rows. -/
abbrev sqG : S1x256.Idx → EReal := fun i => ∑ r : Fin 512, H V c r (i 1) * H V c r (i 1)

/-- What point `t` writes back of the row output is block `t` of the row array. -/
theorem flushed5_eq (t : Fin cfg4.N) :
    (dat4 V c).flushed 5 t = ((cfg4.win 5).blk t).view.read (Elt Ideal) (rowsG V c) := by
  show (cfg4.win 5).cut (grid4.coords t) ((dat4 V c).after 5 t) = _
  rw [after4_5, rows_at V c t]
  funext j
  obtain ⟨p, q, rfl⟩ : ∃ (p : Fin 512) (q : Fin 256), j = ix2 p q := ⟨j 0, j 1, eq_ix2 j⟩
  rw [View.read_apply]
  refine (lin_at V c t p q).trans ?_
  refine congrArg₂ (H V c) (Fin.ext ?_) (Fin.ext ?_)
  · show 512 * t.val + p.val = win4_5.index t 0 * 512 + 1 * p.val
    rw [(idx_facts t).2.2.2.2.2.1.1]; omega
  · show q.val = win4_5.index t 1 * 256 + 1 * q.val
    rw [(idx_facts t).2.2.2.2.2.1.2]; omega

/-- An index of the row array is in point `t`'s block exactly when its coordinates are in the block's ranges. -/
theorem mem_blk5 (t : Fin cfg4.N) (i : S512x256.Idx) :
    i ∈ ((cfg4.win 5).blk t).view.set ↔ ∀ a : Fin 2, win4_5.index t a * S512x256.size a ≤ (i a).val
      ∧ (i a).val < win4_5.index t a * S512x256.size a + S512x256.size a := by
  show i ∈ ((View.whole main_v101_0).slice (win4_5.rect t)).set ↔ _
  rw [View.set_slice_whole, Rect.mem_set_unit]
  exact Iff.rfl

/-- THE ROW ARRAY after the run: every row is in the block of the point `row / 512`. -/
theorem rows_final : (dat4 V c).arrAt 5 cfg4.N = rowsG V c :=
  (dat4 V c).arrAt_eq_of_cover 5 (rowsG V c) (fun t _ => flushed5_eq V c t) fun i => by
    have hi0 : (i 0).val < 512 := (i 0).isLt
    have hi1 : (i 1).val < 256 := (i 1).isLt
    have hN : cfg4.N = 1 := N_4
    refine ⟨⟨(i 0).val / 512, by rw [hN]; omega⟩, flush4_5 _, ?_⟩
    rw [mem_blk5]
    intro a
    match a with
    | ⟨0, _⟩ =>
      show win4_5.index ⟨(i 0).val / 512, _⟩ 0 * 512 ≤ (i 0).val ∧ (i 0).val < win4_5.index ⟨(i 0).val / 512, _⟩ 0 * 512 + 512
      rw [(idx_facts _).2.2.2.2.2.1.1]; dsimp only; omega
    | ⟨1, _⟩ =>
      show win4_5.index ⟨(i 0).val / 512, _⟩ 1 * 256 ≤ (i 1).val ∧ (i 1).val < win4_5.index ⟨(i 0).val / 512, _⟩ 1 * 256 + 256
      rw [(idx_facts _).2.2.2.2.2.1.2]; omega

/-- The one write-back of the sums row, after the last point, writes the column sums over all rows. -/
theorem flushed6_eq (t : Fin cfg4.N) (hf : (cfg4.win 6).flush t = true) :
    (dat4 V c).flushed 6 t = ((cfg4.win 6).blk t).view.read (Elt Ideal) (sumG V c) := by
  have hN : t.val < 1 := lt_of_lt_of_eq t.isLt (show cfg4.N = 1 from N_4)
  have hl : t.val = 0 := by omega
  have hz' : (fun a => win4_6.index t a * main_v101_1.ty.shape.size a) = fun _ => 0 := funext fun a => by
    match a with
    | ⟨0, _⟩ => show win4_6.index t 0 * 1 = 0; rw [(idx_facts t).2.2.2.2.2.2.1.1]
    | ⟨1, _⟩ => show win4_6.index t 1 * 256 = 0; rw [(idx_facts t).2.2.2.2.2.2.1.2]
  show (cfg4.win 6).cut (grid4.coords t) ((dat4 V c).after 6 t) = _
  rw [after4_6]
  refine Eq.trans ?_ (Memref.read_access_unit_zero (Elt Ideal) main_v101_1 hz' (fun a => by rw [congrFun hz' a]; simp) (sumG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t q).1

/-- The one write-back of the squares row writes the column sums of squares over all rows. -/
theorem flushed7_eq (t : Fin cfg4.N) (hf : (cfg4.win 7).flush t = true) :
    (dat4 V c).flushed 7 t = ((cfg4.win 7).blk t).view.read (Elt Ideal) (sqG V c) := by
  have hN : t.val < 1 := lt_of_lt_of_eq t.isLt (show cfg4.N = 1 from N_4)
  have hl : t.val = 0 := by omega
  have hz' : (fun a => win4_7.index t a * main_v101_2.ty.shape.size a) = fun _ => 0 := funext fun a => by
    match a with
    | ⟨0, _⟩ => show win4_7.index t 0 * 1 = 0; rw [(idx_facts t).2.2.2.2.2.2.2.1]
    | ⟨1, _⟩ => show win4_7.index t 1 * 256 = 0; rw [(idx_facts t).2.2.2.2.2.2.2.2]
  show (cfg4.win 7).cut (grid4.coords t) ((dat4 V c).after 7 t) = _
  rw [after4_7]
  refine Eq.trans ?_ (Memref.read_access_unit_zero (Elt Ideal) main_v101_2 hz' (fun a => by rw [congrFun hz' a]; simp) (sqG V c)).symm
  funext j
  obtain ⟨u, q, rfl⟩ : ∃ (u : Fin 1) (q : Fin 256), j = ix2 u q := ⟨j 0, j 1, eq_ix2 j⟩
  obtain rfl : u = 0 := Subsingleton.elim _ _
  exact (stats_last V c t q).2

theorem mem_blk6 (t : Fin cfg4.N) (i : S1x256.Idx) :
    i ∈ ((cfg4.win 6).blk t).view.set ↔ ∀ a : Fin 2, win4_6.index t a * S1x256.size a ≤ (i a).val
      ∧ (i a).val < win4_6.index t a * S1x256.size a + S1x256.size a := by
  show i ∈ ((View.whole main_v101_1).slice (win4_6.rect t)).set ↔ _
  rw [View.set_slice_whole, Rect.mem_set_unit]
  exact Iff.rfl

theorem sum_final : (dat4 V c).arrAt 6 cfg4.N = sumG V c :=
  (dat4 V c).arrAt_eq_of_cover 6 (sumG V c) (flushed6_eq V c) fun i => by
    have hN : cfg4.N = 1 := N_4
    have hi0 : (i 0).val < 1 := (i 0).isLt
    have hi1 : (i 1).val < 256 := (i 1).isLt
    refine ⟨⟨0, by rw [hN]; omega⟩, flush4_6 _, ?_⟩
    rw [mem_blk6]
    intro a
    match a with
    | ⟨0, _⟩ =>
      show win4_6.index ⟨0, _⟩ 0 * 1 ≤ (i 0).val ∧ (i 0).val < win4_6.index ⟨0, _⟩ 0 * 1 + 1
      rw [(idx_facts _).2.2.2.2.2.2.1.1]; omega
    | ⟨1, _⟩ =>
      show win4_6.index ⟨0, _⟩ 1 * 256 ≤ (i 1).val ∧ (i 1).val < win4_6.index ⟨0, _⟩ 1 * 256 + 256
      rw [(idx_facts _).2.2.2.2.2.2.1.2]; omega

/-- THE SQUARES ROW after the run. -/
theorem mem_blk7 (t : Fin cfg4.N) (i : S1x256.Idx) :
    i ∈ ((cfg4.win 7).blk t).view.set ↔ ∀ a : Fin 2, win4_7.index t a * S1x256.size a ≤ (i a).val
      ∧ (i a).val < win4_7.index t a * S1x256.size a + S1x256.size a := by
  show i ∈ ((View.whole main_v101_2).slice (win4_7.rect t)).set ↔ _
  rw [View.set_slice_whole, Rect.mem_set_unit]
  exact Iff.rfl

theorem sq_final : (dat4 V c).arrAt 7 cfg4.N = sqG V c :=
  (dat4 V c).arrAt_eq_of_cover 7 (sqG V c) (flushed7_eq V c) fun i => by
    have hN : cfg4.N = 1 := N_4
    have hi0 : (i 0).val < 1 := (i 0).isLt
    have hi1 : (i 1).val < 256 := (i 1).isLt
    refine ⟨⟨0, by rw [hN]; omega⟩, flush4_7 _, ?_⟩
    rw [mem_blk7]
    intro a
    match a with
    | ⟨0, _⟩ =>
      show win4_7.index ⟨0, _⟩ 0 * 1 ≤ (i 0).val ∧ (i 0).val < win4_7.index ⟨0, _⟩ 0 * 1 + 1
      rw [(idx_facts _).2.2.2.2.2.2.2.1]; omega
    | ⟨1, _⟩ =>
      show win4_7.index ⟨0, _⟩ 1 * 256 ≤ (i 1).val ∧ (i 1).val < win4_7.index ⟨0, _⟩ 1 * 256 + 256
      rw [(idx_facts _).2.2.2.2.2.2.2.2]; omega

end Arrays

end Cert.KernelIdeal.Lin4

end
-- ==== Proof.BnRegion5.lean ====
/-
  Region 5 of the program (a batch-norm kernel over 512 rows in 1 block of 512 rows), in closed form.

  For any contents of the arrays when the region is entered: the block of the input at point t is rows 512 t … 512 t + 511
  of its array, the four row operands are whole at every point, so what point t writes back is block t of ONE function of
  the five arrays — the normalised entry of the specification at (row, column).  The output's blocks tile its array (row r
  lies in block r / 512), so after the last point the output array is that function everywhere.
-/
import proofs.«168550_j58342835749309_1_alg».proof.Proof.Gen.KernelIdeal.Frame
import proofs.«168550_j58342835749309_1_alg».proof.Proof.BnPayload
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.BnValue

open Cert.KernelIdeal Cert.KernelIdeal.Gen

variable (V : (c : Dev nD) → (b : Ref sig .tc) → Buf (Elt Ideal) ((c : Thread nD τ).loc b))

/-- The windows' index maps over the grid: the two row-block windows sit at block row t, column block 0; the four row
    windows stay at block (0, 0). -/
theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0
    ∧ (win5_1.index t (0 : Fin 2) = 0 ∧ win5_1.index t (1 : Fin 2) = 0
      ∧ win5_2.index t (0 : Fin 2) = 0 ∧ win5_2.index t (1 : Fin 2) = 0
      ∧ win5_3.index t (0 : Fin 2) = 0 ∧ win5_3.index t (1 : Fin 2) = 0
      ∧ win5_4.index t (0 : Fin 2) = 0 ∧ win5_4.index t (1 : Fin 2) = 0) :=
  (by decide +kernel : ∀ t : Fin grid5.N, _)

/-- The input window's block at point t is rows 512 t … 512 t + 511 of its array. -/
theorem iblk5_0_apply (c : Dev nD) (t : Fin cfg5.N) (p : Fin 512) (q : Fin 256) (r : Fin 512)
    (hr : r.val = t.val * 512 + p.val) :
    (iblk5 V c 0 t : Vec Ideal S512x256 .f32) (ix2 p q) = (V c (Pipeline.arrRef spec5 0) : S512x256.Idx → EReal) (ix2 r q) := by
  obtain ⟨e0, e1, -⟩ := idx_facts5 t
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 512 + 1 * p.val = r.val; omega
  | ⟨1, _⟩ => show win5_0.index t (1 : Fin 2) * 256 + 1 * q.val = q.val; omega

/-- The mean window's block at any point is the whole row array: its entry at column q is the array's. -/
theorem iblk5_1_apply (c : Dev nD) (t : Fin cfg5.N) (q : Fin 256) :
    (iblk5 V c 1 t : Vec Ideal S1x256 .f32) (ix2 0 q) = (V c (Pipeline.arrRef spec5 1) : S1x256.Idx → EReal) (ix2 0 q) := by
  obtain ⟨-, -, -, -, e⟩ := idx_facts5 t
  have e0 : win5_1.index t (0 : Fin 2) = 0 := by simp only [e]
  have e1 : win5_1.index t (1 : Fin 2) = 0 := by simp only [e]
  show V c (Pipeline.arrRef spec5 1) (((cfg5.win 1).blk t).view.emb (ix2 0 q)) = V c (Pipeline.arrRef spec5 1) (ix2 0 q)
  refine congrArg (V c (Pipeline.arrRef spec5 1)) (funext fun a => Fin.ext ?_)
  match a with
  | ⟨0, _⟩ => show win5_1.index t (0 : Fin 2) * 1 + 1 * 0 = 0; omega
  | ⟨1, _⟩ => show win5_1.index t (1 : Fin 2) * 256 + 1 * q.val = q.val; omega

/-- The variance window's block at any point is the whole row array: its entry at column q is the array's. -/
theorem iblk5_2_apply (c : Dev nD) (t : Fin cfg5.N) (q : Fin 256) :
    (iblk5 V c 2 t : Vec Ideal S1x256 .f32) (ix2 0 q) = (V c (Pipeline.arrRef spec5 2) : S1x256.Idx → EReal) (ix2 0 q) := by
  obtain ⟨-, -, -, -, e⟩ := idx_facts5 t
  have e0 : win5_2.index t (0 : Fin 2) = 0 := by simp only [e]
  have e1 : win5_2.index t (1 : Fin 2) = 0 := by simp only [e]
  show V c (Pipeline.arrRef spec5 2) (((cfg5.win 2).blk t).view.emb (ix2 0 q)) = V c (Pipeline.arrRef spec5 2) (ix2 0 q)
  refine congrArg (V c (Pipeline.arrRef spec5 2)) (funext fun a => Fin.ext ?_)
  match a with
  | ⟨0, _⟩ => show win5_2.index t (0 : Fin 2) * 1 + 1 * 0 = 0; omega
  | ⟨1, _⟩ => show win5_2.index t (1 : Fin 2) * 256 + 1 * q.val = q.val; omega

/-- The gain window's block at any point is the whole row array: its entry at column q is the array's. -/
theorem iblk5_3_apply (c : Dev nD) (t : Fin cfg5.N) (q : Fin 256) :
    (iblk5 V c 3 t : Vec Ideal S1x256 .f32) (ix2 0 q) = (V c (Pipeline.arrRef spec5 3) : S1x256.Idx → EReal) (ix2 0 q) := by
  obtain ⟨-, -, -, -, e⟩ := idx_facts5 t
  have e0 : win5_3.index t (0 : Fin 2) = 0 := by simp only [e]
  have e1 : win5_3.index t (1 : Fin 2) = 0 := by simp only [e]
  show V c (Pipeline.arrRef spec5 3) (((cfg5.win 3).blk t).view.emb (ix2 0 q)) = V c (Pipeline.arrRef spec5 3) (ix2 0 q)
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 256 + 1 * q.val = q.val; omega

/-- The shift window's block at any point is the whole row array: its entry at column q is the array's. -/
theorem iblk5_4_apply (c : Dev nD) (t : Fin cfg5.N) (q : Fin 256) :
    (iblk5 V c 4 t : Vec Ideal S1x256 .f32) (ix2 0 q) = (V c (Pipeline.arrRef spec5 4) : S1x256.Idx → EReal) (ix2 0 q) := by
  obtain ⟨-, -, -, -, e⟩ := idx_facts5 t
  have e0 : win5_4.index t (0 : Fin 2) = 0 := by simp only [e]
  have e1 : win5_4.index t (1 : Fin 2) = 0 := by simp only [e]
  show V c (Pipeline.arrRef spec5 4) (((cfg5.win 4).blk t).view.emb (ix2 0 q)) = V c (Pipeline.arrRef spec5 4) (ix2 0 q)
  refine congrArg (V c (Pipeline.arrRef spec5 4)) (funext fun a => Fin.ext ?_)
  match a with
  | ⟨0, _⟩ => show win5_4.index t (0 : Fin 2) * 1 + 1 * 0 = 0; omega
  | ⟨1, _⟩ => show win5_4.index t (1 : Fin 2) * 256 + 1 * q.val = q.val; omega

/-- An index of the output array is in point t's block iff each coordinate is in the block's range on its axis. -/
theorem mem_blk5 (t : Fin cfg5.N) (i : S512x256.Idx) :
    i ∈ ((cfg5.win 5).blk t).view.set ↔ ∀ a : Fin 2, win5_5.index t a * S512x256.size a ≤ (i a).val ∧ (i a).val < win5_5.index t a * S512x256.size a + S512x256.size a := by
  show i ∈ ((View.whole main_v110).slice (win5_5.rect t)).set ↔ _
  rw [View.set_slice_whole, Rect.mem_set_unit]
  exact Iff.rfl

/-- Every index of the output array is in the block of the point its row falls in: row r is in block r / 512. -/
theorem cover5 (i : S512x256.Idx) :
    ∃ t : Fin cfg5.N, (cfg5.win 5).flush t = true ∧ i ∈ ((cfg5.win 5).blk t).view.set := by
  have hN : cfg5.N = 1 := N_5
  have hi0 : (i 0).val < 512 := idx2_lt0 i
  have hi1 : (i 1).val < 256 := idx2_lt1 i
  have ht : (i 0).val / 512 < cfg5.N := by rw [hN]; omega
  obtain ⟨-, -, e2, e3, -⟩ := idx_facts5 ⟨(i 0).val / 512, ht⟩
  refine ⟨⟨(i 0).val / 512, ht⟩, flush5_5 _, ?_⟩
  rw [mem_blk5]
  intro a
  match a with
  | ⟨0, _⟩ =>
    show win5_5.index ⟨(i 0).val / 512, ht⟩ (0 : Fin 2) * 512 ≤ (i 0).val ∧ (i 0).val < win5_5.index ⟨(i 0).val / 512, ht⟩ (0 : Fin 2) * 512 + 512
    rw [e2]; show (i 0).val / 512 * 512 ≤ (i 0).val ∧ (i 0).val < (i 0).val / 512 * 512 + 512; omega
  | ⟨1, _⟩ =>
    show win5_5.index ⟨(i 0).val / 512, ht⟩ (1 : Fin 2) * 256 ≤ (i 1).val ∧ (i 1).val < win5_5.index ⟨(i 0).val / 512, ht⟩ (1 : Fin 2) * 256 + 256
    rw [e3]; omega

/-- The whole output array of the region as one function of the five arrays the region reads, index by index: the
    normalised entry of the specification. -/
def G5 (c : Dev nD) : S512x256.Idx → EReal := fun i =>
  Cert.Sage.bnS (N := 512) (C := 256) (V c (Pipeline.arrRef spec5 0)) (V c (Pipeline.arrRef spec5 1)) (V c (Pipeline.arrRef spec5 2)) (V c (Pipeline.arrRef spec5 3)) (V c (Pipeline.arrRef spec5 4)) (i 0) (i 1)

theorem hz5 : (![0, 0] : Fin 2 → Nat) = fun _ => 0 := funext fun a => by fin_cases a <;> rfl

/-- What point t writes back is block t of that function of the arrays as the region finds them. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz5]
  simp only [View.ld_unit_zero (S := S512x256) hz5, View.ld_unit_zero (S := S1x256) hz5]
  have hN : cfg5.N = 1 := N_5
  have htN : t.val < cfg5.N := t.isLt
  obtain ⟨-, -, e2, e3, -⟩ := idx_facts5 t
  refine funext fun (j : S512x256.Idx) => ?_
  obtain ⟨p, q, rfl⟩ : ∃ (p : Fin 512) (q : Fin 256), j = ix2 p q := ⟨j 0, j 1, eq_ix2 j⟩
  have hr : t.val * 512 + p.val < 512 := by omega
  show k5_pay1 (iblk5 V c 0 t) (iblk5 V c 2 t) (iblk5 V c 1 t) (iblk5 V c 3 t) (iblk5 V c 4 t) (ix2 p q) = G5 V c (((cfg5.win 5).blk t).view.emb (ix2 p q))
  refine (pay5_blocks (R := 512) (V c (Pipeline.arrRef spec5 0)) (V c (Pipeline.arrRef spec5 1)) (V c (Pipeline.arrRef spec5 2)) (V c (Pipeline.arrRef spec5 3)) (V c (Pipeline.arrRef spec5 4))
    (iblk5 V c 0 t) (iblk5 V c 1 t) (iblk5 V c 2 t) (iblk5 V c 3 t) (iblk5 V c 4 t) p q ⟨t.val * 512 + p.val, hr⟩
    (iblk5_0_apply V c t p q ⟨t.val * 512 + p.val, hr⟩ rfl) (iblk5_1_apply V c t q) (iblk5_2_apply V c t q)
    (iblk5_3_apply V c t q) (iblk5_4_apply V c t q)).trans ?_
  have ha : (⟨t.val * 512 + p.val, hr⟩ : Fin 512) = ((cfg5.win 5).blk t).view.emb (ix2 p q) 0 :=
    Fin.ext (by show t.val * 512 + p.val = win5_5.index t (0 : Fin 2) * 512 + 1 * p.val; omega)
  have hb : q = ((cfg5.win 5).blk t).view.emb (ix2 p q) 1 :=
    Fin.ext (by show q.val = win5_5.index t (1 : Fin 2) * 256 + 1 * q.val; omega)
  exact congrArg₂ (Cert.Sage.bnS (N := 512) (C := 256) (V c (Pipeline.arrRef spec5 0)) (V c (Pipeline.arrRef spec5 1)) (V c (Pipeline.arrRef spec5 2)) (V c (Pipeline.arrRef spec5 3)) (V c (Pipeline.arrRef spec5 4))) ha hb

/-- The region's output array after all its points: the normalised array, as one function. -/
theorem bn5_arr_eq (c : Dev nD) : (dat5 (F := Ideal) V c).arrAt 5 cfg5.N = G5 V c :=
  (dat5 (F := Ideal) V c).arrAt_eq_of_cover 5 (G5 V c) (fun t _ => flushed5_eq V c t) cover5

/-- The region's output array after all its points, entry by entry: at row r, column q it is the normalised entry of the
    five arrays the region read. -/
theorem bn5_arr (c : Dev nD) (r : Fin 512) (q : Fin 256) :
    (dat5 (F := Ideal) V c).arrAt 5 cfg5.N (ix2 r q)
      = Cert.Sage.bnS (V c (Pipeline.arrRef spec5 0)) (V c (Pipeline.arrRef spec5 1)) (V c (Pipeline.arrRef spec5 2)) (V c (Pipeline.arrRef spec5 3)) (V c (Pipeline.arrRef spec5 4)) r q := by
  rw [bn5_arr_eq]
  rfl

end Cert.KernelIdeal.BnValue

end
-- ==== Proof.KLayer2.lean ====
/-
  Layer 2 of the idealized kernel program, read off its chain of boundaries: the linear region's three arrays, the
  host's mean and variance rows from them, the reshaped gain and shift rows, and the batch-norm region's output — the
  layer's output array entry by entry as the normalised, clamped linear part, its statistics the moment forms.
-/
import proofs.«168550_j58342835749309_1_alg».proof.Proof.Gen.KernelIdeal.Frame
import proofs.«168550_j58342835749309_1_alg».proof.Proof.Lin4
import proofs.«168550_j58342835749309_1_alg».proof.Proof.BnRegion5
import proofs.«168550_j58342835749309_1_alg».proof.Proof.KKept
import proofs.«168550_j58342835749309_1_alg».proof.Proof.SpecCongr
import proofs.«168550_j58342835749309_1_alg».proof.Proof.LibSageReal
import Idealize.ShloMosaic.Lib.StableHlo.Run
import Idealize.ShloMosaic.Lib.ValueLayout

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg) (c : Dev nD)

/-- The layer's linear part, as the linear region computes it from the arrays it finds. -/
abbrev Hk : S512x256.Idx → EReal := Cert.KernelIdeal.Lin4.rowsG (V9 m ρ) c

/-- The bias row the glue stretch reshapes from the bias vector. -/
theorem b2_apply (q : Fin 256) : W9 m ρ c (Proc.devRef .tc main_v100) (ix2 0 q) = (m ((c : Thread nD τ).loc main_arg22)) (ix1 q) := by
  have e : (StableHlo.after hostOps4 (W8 m ρ c) (Proc.devRef .tc main_v100) : S1x256.Idx → EReal)
      = shapeCast S1x256 (W8 m ρ c (Proc.devRef .tc main_arg22) : S256.Idx → EReal) shapeCasts_S256_S1x256 := by
    after_results
    rfl
  show StableHlo.after hostOps4 (W8 m ρ c) (Proc.devRef .tc main_v100) (ix2 0 q) = _
  rw [e, shapeCast_a_1a_apply]
  exact congrFun (Cert.KernelIdeal.Kept.w8_main_arg22 m ρ c) _

/-- The linear region's row output is still there when the batch-norm region reads it. -/
theorem h_eq : W11 m ρ c (Proc.devRef .tc main_v101_0) = Hk m ρ c := by
  rw [Cert.KernelIdeal.Kept.w11_main_v101_0 m ρ c]
  exact (W10_arr m ρ c 5).trans (Cert.KernelIdeal.Lin4.rows_final (V9 m ρ) c)

theorem s_eq : W10 m ρ c (Proc.devRef .tc main_v101_1) = Cert.KernelIdeal.Lin4.sumG (V9 m ρ) c :=
  (W10_arr m ρ c 6).trans (Cert.KernelIdeal.Lin4.sum_final (V9 m ρ) c)

theorem ss_eq : W10 m ρ c (Proc.devRef .tc main_v101_2) = Cert.KernelIdeal.Lin4.sqG (V9 m ρ) c :=
  (W10_arr m ρ c 7).trans (Cert.KernelIdeal.Lin4.sq_final (V9 m ρ) c)

/-- The host's mean row: the sums row divided by the row count. -/
theorem mean_apply (q : Fin 256) :
    W11 m ρ c (Proc.devRef .tc main_v103) (ix2 0 q) = momMean (Hk m ρ c) (Ideal.ofBits .f32 0x44000000#32) (ix2 0 q) := by
  have e : (StableHlo.after hostOps5 (W10 m ρ c) (Proc.devRef .tc main_v103) : S1x256.Idx → EReal)
      = Host.divf (F := Ideal) (W10 m ρ c (Proc.devRef .tc main_v101_1) : S1x256.Idx → EReal)
          (broadcastInDim S1x256 ![] bcast_S_S1x256 (constant (F := Ideal) S_ .f32 0x44000000#32)) := by
    after_results
  show StableHlo.after hostOps5 (W10 m ρ c) (Proc.devRef .tc main_v103) (ix2 0 q) = _
  rw [e, s_eq]
  rfl

/-- The host's variance row: the squares row divided by the row count, minus the squared mean. -/
theorem var_apply (q : Fin 256) :
    W11 m ρ c (Proc.devRef .tc main_v107) (ix2 0 q) = momVar (Hk m ρ c) (Ideal.ofBits .f32 0x44000000#32) (ix2 0 q) := by
  have e : (StableHlo.after hostOps5 (W10 m ρ c) (Proc.devRef .tc main_v107) : S1x256.Idx → EReal)
      = subf (F := Ideal) (Host.divf (F := Ideal) (W10 m ρ c (Proc.devRef .tc main_v101_2) : S1x256.Idx → EReal)
            (broadcastInDim S1x256 ![] bcast_S_S1x256 (constant (F := Ideal) S_ .f32 0x44000000#32)))
          (mulf (F := Ideal) (Host.divf (F := Ideal) (W10 m ρ c (Proc.devRef .tc main_v101_1) : S1x256.Idx → EReal)
              (broadcastInDim S1x256 ![] bcast_S_S1x256 (constant (F := Ideal) S_ .f32 0x44000000#32)))
            (Host.divf (F := Ideal) (W10 m ρ c (Proc.devRef .tc main_v101_1) : S1x256.Idx → EReal)
              (broadcastInDim S1x256 ![] bcast_S_S1x256 (constant (F := Ideal) S_ .f32 0x44000000#32)))) := by
    after_results
  show StableHlo.after hostOps5 (W10 m ρ c) (Proc.devRef .tc main_v107) (ix2 0 q) = _
  rw [e, s_eq, ss_eq]
  rfl

/-- The gain row the host reshapes from the gain vector. -/
theorem g2_apply (q : Fin 256) : W11 m ρ c (Proc.devRef .tc main_v108) (ix2 0 q) = (m ((c : Thread nD τ).loc main_arg23)) (ix1 q) := by
  have e : (StableHlo.after hostOps5 (W10 m ρ c) (Proc.devRef .tc main_v108) : S1x256.Idx → EReal)
      = shapeCast S1x256 (W10 m ρ c (Proc.devRef .tc main_arg23) : S256.Idx → EReal) shapeCasts_S256_S1x256 := by
    after_results
    rfl
  show StableHlo.after hostOps5 (W10 m ρ c) (Proc.devRef .tc main_v108) (ix2 0 q) = _
  rw [e, shapeCast_a_1a_apply]
  exact congrFun (Cert.KernelIdeal.Kept.w10_main_arg23 m ρ c) _

/-- The shift row the host reshapes from the shift vector. -/
theorem be2_apply (q : Fin 256) : W11 m ρ c (Proc.devRef .tc main_v109) (ix2 0 q) = (m ((c : Thread nD τ).loc main_arg24)) (ix1 q) := by
  have e : (StableHlo.after hostOps5 (W10 m ρ c) (Proc.devRef .tc main_v109) : S1x256.Idx → EReal)
      = shapeCast S1x256 (W10 m ρ c (Proc.devRef .tc main_arg24) : S256.Idx → EReal) shapeCasts_S256_S1x256 := by
    after_results
    rfl
  show StableHlo.after hostOps5 (W10 m ρ c) (Proc.devRef .tc main_v109) (ix2 0 q) = _
  rw [e, shapeCast_a_1a_apply]
  exact congrFun (Cert.KernelIdeal.Kept.w10_main_arg24 m ρ c) _

/-- THE LAYER'S OUTPUT, entry by entry: the normalised, rescaled, shifted and clamped linear part, its mean and variance
    the moment forms of the linear part's columns. -/
theorem out_apply (r : Fin 512) (q : Fin 256) :
    W12 m ρ c (Proc.devRef .tc main_v110) (ix2 r q)
      = bnS (Hk m ρ c) (momMean (Hk m ρ c) (Ideal.ofBits .f32 0x44000000#32)) (momVar (Hk m ρ c) (Ideal.ofBits .f32 0x44000000#32))
          (fun i : S1x256.Idx => (m ((c : Thread nD τ).loc main_arg23)) (ix1 (i 1))) (fun i : S1x256.Idx => (m ((c : Thread nD τ).loc main_arg24)) (ix1 (i 1))) r q := by
  show W12 m ρ c (Proc.devRef .tc (Pipeline.arrRef spec5 5)) (ix2 r q) = _
  rw [W12_arr m ρ c 5, Cert.KernelIdeal.BnValue.bn5_arr (V11 m ρ) c r q]
  exact bnS_congr r q (congrFun (h_eq m ρ c) _) (mean_apply m ρ c q) (var_apply m ρ c q) (g2_apply m ρ c q) (be2_apply m ρ c q)

/-- The linear part in terms of the glue stretch's two arrays and the launched weights and bias. -/
theorem Hk_apply (r : Fin 512) (q : Fin 256) :
    Hk m ρ c (ix2 r q) = linS (W9 m ρ c (Proc.devRef .tc main_v92) : S512x256.Idx → EReal) (W9 m ρ c (Proc.devRef .tc main_v99) : S512x256.Idx → EReal)
      (m ((c : Thread nD τ).loc main_arg20)) (m ((c : Thread nD τ).loc main_arg21)) (fun i : S1x256.Idx => (m ((c : Thread nD τ).loc main_arg22)) (ix1 (i 1))) r q := by
  show linS (Cert.KernelIdeal.Lin4.arrA (V9 m ρ) c) (Cert.KernelIdeal.Lin4.arrX (V9 m ρ) c) (Cert.KernelIdeal.Lin4.arrWl (V9 m ρ) c) (Cert.KernelIdeal.Lin4.arrWr (V9 m ρ) c)
    (Cert.KernelIdeal.Lin4.arrB (V9 m ρ) c) r q = _
  exact linS_congr r q (fun k => rfl) (fun k => rfl)
    (fun k => congrFun (Cert.KernelIdeal.Kept.w9_main_arg20 m ρ c) _)
    (fun k => congrFun (Cert.KernelIdeal.Kept.w9_main_arg21 m ρ c) _) (b2_apply m ρ c q)

end Cert.KernelIdeal.Layer2

end
-- ==== Proof.FcPayload.lean ====
/-
  The final affine kernel's arithmetic at one entry of its one block.

  The body narrows its 512 × 256 block and the 256 × 47 weights, multiplies them into the zero accumulator and adds the
  bias row broadcast down the rows.  At the ideal values a change of float format is the identity and the product into
  the zero accumulator is the plain sum over the contraction index, so the result at (p, q) is the specification's
  affine entry: the sum over k of x (p, k) · w (k, q), plus the bias at column q.
-/
import proofs.«168550_j58342835749309_1_alg».proof.Proof.Gen.KernelIdeal.Skeleton
import proofs.«168550_j58342835749309_1_alg».proof.Proof.Spec
import proofs.«168550_j58342835749309_1_alg».proof.Proof.LibPlainDot
import Idealize.ShloMosaic.Lib.ValueIdx
import Idealize.ShloMosaic.Lib.ValueLayout
import Idealize.ShloMosaic.Lib.Pipeline.Value

noncomputable section

namespace Cert.KernelIdeal.FcValue

open Idealize.ShloMosaic Idealize.ShloMosaic.ValueIdx Cert.KernelIdeal

/-- The body's result at row p, column q of its block: the row of the left block against the column of the weights,
    summed over the 256 contraction positions, plus the bias row's entry at q. -/
theorem pay6_apply (x0 : Vec Ideal S512x256 .f32) (x1 : Vec Ideal S256x47 .f32) (x2 : Vec Ideal S1x47 .f32)
    (p : Fin 512) (q : Fin 47) :
    Gen.k6_pay1 x0 x1 x2 (ix2 p q) = (∑ k : Fin 256, x0 (ix2 p k) * x1 (ix2 k q)) + x2 (ix2 0 q) := by
  unfold Gen.k6_pay1
  simp only [shapeCast_self]
  rw [addf_apply, broadcastTo_1b_ab_apply]
  show matmul (DotDims.plain 512 256 47) none (truncf .bf16 x0 _) (truncf .bf16 x1 _)
      (constant (F := Ideal) ⟨2, ![512, 47]⟩ .f32 0x00000000#32) (ix2 p q) + _ = _
  rw [Cert.Lib.PlainDot.matmul_plain_zero_apply]
  rfl

/-- The same entry when the blocks are the whole arrays x, w, b read entry by entry: the specification's affine entry. -/
theorem pay6_blocks (x : (⟨2, ![512, 256]⟩ : Shape).Idx → EReal) (w : (⟨2, ![256, 47]⟩ : Shape).Idx → EReal)
    (b : (⟨2, ![1, 47]⟩ : Shape).Idx → EReal)
    (x0 : Vec Ideal S512x256 .f32) (x1 : Vec Ideal S256x47 .f32) (x2 : Vec Ideal S1x47 .f32) (p : Fin 512) (q : Fin 47)
    (h0 : ∀ k : Fin 256, x0 (ix2 p k) = x (ix2 p k)) (h1 : ∀ k : Fin 256, x1 (ix2 k q) = w (ix2 k q))
    (h2 : x2 (ix2 0 q) = b (ix2 0 q)) :
    Gen.k6_pay1 x0 x1 x2 (ix2 p q) = Cert.Sage.fcS x w b p q := by
  rw [pay6_apply, h2]
  unfold Cert.Sage.fcS
  exact congrArg (· + b (ix2 0 q)) (Finset.sum_congr rfl fun k _ => by rw [h0 k, h1 k])

end Cert.KernelIdeal.FcValue

end
-- ==== Proof.FcRegion.lean ====
/-
  Region 6 of the program (the final affine kernel, one block), in closed form.

  For any contents of the arrays when the region is entered: the region has one point, and each window's block at it is
  its whole array.  So what the point writes back is the specification's affine entry of the three arrays the region
  reads, at every (row, column), and the block is the whole output array.
-/
import proofs.«168550_j58342835749309_1_alg».proof.Proof.Gen.KernelIdeal.Frame
import proofs.«168550_j58342835749309_1_alg».proof.Proof.FcPayload
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.FcValue

open Cert.KernelIdeal Cert.KernelIdeal.Gen

variable (V : (c : Dev nD) → (b : Ref sig .tc) → Buf (Elt Ideal) ((c : Thread nD τ).loc b))

/-- The windows' index maps over the grid: every window sits at block (0, 0). -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The left operand's block is its whole array. -/
theorem iblk6_0_apply (c : Dev nD) (t : Fin cfg6.N) (p : Fin 512) (k : Fin 256) :
    (iblk6 V c 0 t : Vec Ideal S512x256 .f32) (ix2 p k) = (V c (Pipeline.arrRef spec6 0) : S512x256.Idx → EReal) (ix2 p k) := by
  obtain ⟨e0, e1, -⟩ := idx_facts6 t
  show V c (Pipeline.arrRef spec6 0) (((cfg6.win 0).blk t).view.emb (ix2 p k)) = V c (Pipeline.arrRef spec6 0) (ix2 p k)
  refine congrArg (V c (Pipeline.arrRef spec6 0)) (funext fun a => Fin.ext ?_)
  match a with
  | ⟨0, _⟩ => show win6_0.index t (0 : Fin 2) * 512 + 1 * p.val = p.val; omega
  | ⟨1, _⟩ => show win6_0.index t (1 : Fin 2) * 256 + 1 * k.val = k.val; omega

/-- The weights' block is their whole array. -/
theorem iblk6_1_apply (c : Dev nD) (t : Fin cfg6.N) (k : Fin 256) (q : Fin 47) :
    (iblk6 V c 1 t : Vec Ideal S256x47 .f32) (ix2 k q) = (V c (Pipeline.arrRef spec6 1) : S256x47.Idx → EReal) (ix2 k q) := by
  obtain ⟨-, -, e0, e1, -⟩ := idx_facts6 t
  show V c (Pipeline.arrRef spec6 1) (((cfg6.win 1).blk t).view.emb (ix2 k q)) = V c (Pipeline.arrRef spec6 1) (ix2 k q)
  refine congrArg (V c (Pipeline.arrRef spec6 1)) (funext fun a => Fin.ext ?_)
  match a with
  | ⟨0, _⟩ => show win6_1.index t (0 : Fin 2) * 256 + 1 * k.val = k.val; omega
  | ⟨1, _⟩ => show win6_1.index t (1 : Fin 2) * 47 + 1 * q.val = q.val; omega

/-- The bias row's block is the whole row. -/
theorem iblk6_2_apply (c : Dev nD) (t : Fin cfg6.N) (q : Fin 47) :
    (iblk6 V c 2 t : Vec Ideal S1x47 .f32) (ix2 0 q) = (V c (Pipeline.arrRef spec6 2) : S1x47.Idx → EReal) (ix2 0 q) := by
  obtain ⟨-, -, -, -, e0, e1, -⟩ := idx_facts6 t
  show V c (Pipeline.arrRef spec6 2) (((cfg6.win 2).blk t).view.emb (ix2 0 q)) = V c (Pipeline.arrRef spec6 2) (ix2 0 q)
  refine congrArg (V c (Pipeline.arrRef spec6 2)) (funext fun a => Fin.ext ?_)
  match a with
  | ⟨0, _⟩ => show win6_2.index t (0 : Fin 2) * 1 + 1 * 0 = 0; omega
  | ⟨1, _⟩ => show win6_2.index t (1 : Fin 2) * 47 + 1 * q.val = q.val; omega

/-- An index of the output array is in the point's block iff each coordinate is in the block's range on its axis. -/
theorem mem_blk6 (t : Fin cfg6.N) (i : S512x47.Idx) :
    i ∈ ((cfg6.win 3).blk t).view.set ↔ ∀ a : Fin 2, win6_3.index t a * S512x47.size a ≤ (i a).val ∧ (i a).val < win6_3.index t a * S512x47.size a + S512x47.size a := by
  show i ∈ ((View.whole main_v112).slice (win6_3.rect t)).set ↔ _
  rw [View.set_slice_whole, Rect.mem_set_unit]
  exact Iff.rfl

/-- Every index of the output array is in the one point's block. -/
theorem cover6 (i : S512x47.Idx) :
    ∃ t : Fin cfg6.N, (cfg6.win 3).flush t = true ∧ i ∈ ((cfg6.win 3).blk t).view.set := by
  have hN : cfg6.N = 1 := N_6
  have hi0 : (i 0).val < 512 := idx2_lt0 i
  have hi1 : (i 1).val < 47 := idx2_lt1 i
  have ht : 0 < cfg6.N := by rw [hN]; omega
  obtain ⟨-, -, -, -, -, -, e2, e3⟩ := idx_facts6 ⟨0, ht⟩
  refine ⟨⟨0, ht⟩, flush6_3 _, ?_⟩
  rw [mem_blk6]
  intro a
  match a with
  | ⟨0, _⟩ =>
    show win6_3.index ⟨0, ht⟩ (0 : Fin 2) * 512 ≤ (i 0).val ∧ (i 0).val < win6_3.index ⟨0, ht⟩ (0 : Fin 2) * 512 + 512
    rw [e2]; omega
  | ⟨1, _⟩ =>
    show win6_3.index ⟨0, ht⟩ (1 : Fin 2) * 47 ≤ (i 1).val ∧ (i 1).val < win6_3.index ⟨0, ht⟩ (1 : Fin 2) * 47 + 47
    rw [e3]; omega

/-- The whole output array of the region as one function of the three arrays the region reads, index by index: the
    affine entry of the specification. -/
def G6 (c : Dev nD) : S512x47.Idx → EReal := fun i =>
  Cert.Sage.fcS (N := 512) (K := 256) (C := 47) (V c (Pipeline.arrRef spec6 0)) (V c (Pipeline.arrRef spec6 1))
    (V c (Pipeline.arrRef spec6 2)) (i 0) (i 1)

theorem hz6 : (![0, 0] : Fin 2 → Nat) = fun _ => 0 := funext fun a => by fin_cases a <;> rfl

/-- What the point writes back is the block of that function of the arrays as the region finds them. -/
theorem flushed6_eq (c : Dev nD) (t : Fin cfg6.N) :
    (dat6 (F := Ideal) V c).flushed 3 t = ((cfg6.win 3).blk t).view.read (Elt Ideal) (G6 V c) := by
  show (cfg6.win 3).cut (grid6.coords t) ((dat6 (F := Ideal) V c).after 3 t) = _
  rw [after6_3]
  unfold out6_3
  rw [View.canon_unit_zero hz6]
  simp only [View.ld_unit_zero (S := S512x256) hz6, View.ld_unit_zero (S := S256x47) hz6, View.ld_unit_zero (S := S1x47) hz6]
  obtain ⟨-, -, -, -, -, -, e2, e3⟩ := idx_facts6 t
  refine funext fun (j : S512x47.Idx) => ?_
  obtain ⟨p, q, rfl⟩ : ∃ (p : Fin 512) (q : Fin 47), j = ix2 p q := ⟨j 0, j 1, eq_ix2 j⟩
  show k6_pay1 (iblk6 V c 0 t) (iblk6 V c 1 t) (iblk6 V c 2 t) (ix2 p q) = G6 V c (((cfg6.win 3).blk t).view.emb (ix2 p q))
  refine (pay6_blocks (V c (Pipeline.arrRef spec6 0)) (V c (Pipeline.arrRef spec6 1)) (V c (Pipeline.arrRef spec6 2))
    (iblk6 V c 0 t) (iblk6 V c 1 t) (iblk6 V c 2 t) p q
    (fun k => iblk6_0_apply V c t p k) (fun k => iblk6_1_apply V c t k q) (iblk6_2_apply V c t q)).trans ?_
  unfold G6
  have ha : p = ((cfg6.win 3).blk t).view.emb (ix2 p q) 0 :=
    Fin.ext (by show p.val = win6_3.index t (0 : Fin 2) * 512 + 1 * p.val; omega)
  have hb : q = ((cfg6.win 3).blk t).view.emb (ix2 p q) 1 :=
    Fin.ext (by show q.val = win6_3.index t (1 : Fin 2) * 47 + 1 * q.val; omega)
  rw [← ha, ← hb]

/-- The region's output array after its point: the affine array, as one function. -/
theorem fc6_arr_eq (c : Dev nD) : (dat6 (F := Ideal) V c).arrAt 3 cfg6.N = G6 V c :=
  (dat6 (F := Ideal) V c).arrAt_eq_of_cover 3 (G6 V c) (fun t _ => flushed6_eq V c t) cover6

/-- The region's output array after its point, entry by entry: at row r, column q it is the affine entry of the three
    arrays the region read. -/
theorem fc6_arr (c : Dev nD) (r : Fin 512) (q : Fin 47) :
    (dat6 (F := Ideal) V c).arrAt 3 cfg6.N (ix2 r q)
      = Cert.Sage.fcS (V c (Pipeline.arrRef spec6 0)) (V c (Pipeline.arrRef spec6 1)) (V c (Pipeline.arrRef spec6 2)) r q := by
  rw [fc6_arr_eq]
  rfl

end Cert.KernelIdeal.FcValue

end
-- ==== Proof.KFc.lean ====
/-
  The final affine map of the idealized kernel program, read off its last boundaries: the one-block region's output entry by
  entry as the last layer's output times the launched weights plus the reshaped bias row.
-/
import proofs.«168550_j58342835749309_1_alg».proof.Proof.Gen.KernelIdeal.Frame
import proofs.«168550_j58342835749309_1_alg».proof.Proof.FcRegion
import proofs.«168550_j58342835749309_1_alg».proof.Proof.KKept
import proofs.«168550_j58342835749309_1_alg».proof.Proof.SpecCongr
import Idealize.ShloMosaic.Lib.StableHlo.Run
import Idealize.ShloMosaic.Lib.ValueLayout

set_option maxRecDepth 16384

noncomputable section

namespace Cert.KernelIdeal.FcChain

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg) (c : Dev nD)

/-- The bias row the last stretch reshapes from the bias vector. -/
theorem b2_apply (q : Fin 47) : W13 m ρ c (Proc.devRef .tc main_v111) (ix2 0 q) = (m ((c : Thread nD τ).loc main_arg26)) (ix1 q) := by
  have e : (StableHlo.after hostOps6 (W12 m ρ c) (Proc.devRef .tc main_v111) : S1x47.Idx → EReal)
      = shapeCast S1x47 (W12 m ρ c (Proc.devRef .tc main_arg26) : S47.Idx → EReal) shapeCasts_S47_S1x47 := by
    after_results
    rfl
  show StableHlo.after hostOps6 (W12 m ρ c) (Proc.devRef .tc main_v111) (ix2 0 q) = _
  rw [e, shapeCast_a_1a_apply]
  exact congrFun (Cert.KernelIdeal.Kept.w12_main_arg26 m ρ c) _

/-- THE RESULT, entry by entry. -/
theorem out_apply (r : Fin 512) (q : Fin 47) :
    W14 m ρ c (Proc.devRef .tc main_v112) (ix2 r q)
      = fcS (W12 m ρ c (Proc.devRef .tc main_v110) : S512x256.Idx → EReal) (m ((c : Thread nD τ).loc main_arg25))
          (fun i : S1x47.Idx => (m ((c : Thread nD τ).loc main_arg26)) (ix1 (i 1))) r q := by
  show W14 m ρ c (Proc.devRef .tc (Pipeline.arrRef spec6 3)) (ix2 r q) = _
  rw [W14_arr m ρ c 3, Cert.KernelIdeal.FcValue.fc6_arr (V13 m ρ) c r q]
  exact fcS_congr r q (fun k => congrFun (Cert.KernelIdeal.Kept.w13_main_v110 m ρ c) _)
    (fun k => congrFun (Cert.KernelIdeal.Kept.w13_main_arg25 m ρ c) _) (b2_apply m ρ c q)

end Cert.KernelIdeal.FcChain

end
-- ==== Proof.RefRun.lean ====
import proofs.«168550_j58342835749309_1_alg».proof.ReferenceIdeal
import proofs.«168550_j58342835749309_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference program as one straight line of host operations, and its run

The printed reference is `main`, four consecutive windows of statements, six of which are calls of
module-local functions (a per-column variance, itself calling a select-with-default, and a rectifier, once
per layer). Unfolding each function at its call site over that call's buffer record turns every window into
a literal list of operations; the four lists concatenated are `ops`, and `main c = seq ops`. The library's
`run_seq` then gives: every weakly fair execution terminates, with each buffer at the fold `after ops` of the
operations' results over the launch contents. No operation writes an argument buffer, so the arguments are
unchanged. -/

/-- The first window's operations (statements 1 … 60; the first layer's variance call inline). -/
abbrev ops0 : List (HloOp τ sig (Elt F)) :=
  [ StableHlo.nullary main_c (constantI S_ 32 0#32),
    StableHlo.unary main_c main_v0 (broadcastInDim S619520 ![] bcast_S_S619520 : (⟨S_, .i32⟩ : BufTy).Contents (Elt F) → (⟨S619520, .i32⟩ : BufTy).Contents (Elt F)),
    StableHlo.binary main_arg1 main_v0 main_v1 (cmpi .slt : (⟨S619520, .i32⟩ : BufTy).Contents (Elt F) → (⟨S619520, .i32⟩ : BufTy).Contents (Elt F) → (⟨S619520, .i1⟩ : BufTy).Contents (Elt F)),
    StableHlo.nullary main_c_0 (constantI S_ 32 681472#32),
    StableHlo.unary main_c_0 main_v2 (broadcastInDim S619520 ![] bcast_S_S619520 : (⟨S_, .i32⟩ : BufTy).Contents (Elt F) → (⟨S619520, .i32⟩ : BufTy).Contents (Elt F)),
    StableHlo.binary main_arg1 main_v2 main_v3 (addi : (⟨S619520, .i32⟩ : BufTy).Contents (Elt F) → (⟨S619520, .i32⟩ : BufTy).Contents (Elt F) → (⟨S619520, .i32⟩ : BufTy).Contents (Elt F)),
    StableHlo.ternary main_v1 main_v3 main_arg1 main_v4 (select : (⟨S619520, .i1⟩ : BufTy).Contents (Elt F) → (⟨S619520, .i32⟩ : BufTy).Contents (Elt F) → (⟨S619520, .i32⟩ : BufTy).Contents (Elt F) → (⟨S619520, .i32⟩ : BufTy).Contents (Elt F)),
    StableHlo.unary main_v4 main_v5 (broadcastInDim S619520x1 ![0] bcast_S619520_S619520x1_0 : (⟨S619520, .i32⟩ : BufTy).Contents (Elt F) → (⟨S619520x1, .i32⟩ : BufTy).Contents (Elt F)),
    StableHlo.binary main_arg0 main_v5 main_v6 ((fun x i => Host.gather gather_S681472x256_S619520x1_S619520x256_1_0_n_n_0_1_1256 x i) : (⟨S681472x256, .f32⟩ : BufTy).Contents (Elt F) → (⟨S619520x1, .i32⟩ : BufTy).Contents (Elt F) → (⟨S619520x256, .f32⟩ : BufTy).Contents (Elt F)),
    StableHlo.nullary main_cst (constant S_ .f32 0x00000000#32),
    StableHlo.unary main_cst main_v7 (broadcastInDim S61952x256 ![] bcast_S_S61952x256 : (⟨S_, .f32⟩ : BufTy).Contents (Elt F) → (⟨S61952x256, .f32⟩ : BufTy).Contents (Elt F)),
    StableHlo.unary main_arg2 main_v8 (broadcastInDim S619520x1 ![0] bcast_S619520_S619520x1_0 : (⟨S619520, .i32⟩ : BufTy).Contents (Elt F) → (⟨S619520x1, .i32⟩ : BufTy).Contents (Elt F)),
    StableHlo.ternary main_v7 main_v8 main_v6 main_v9 ((fun x i u => Host.scatterAdd scatter_S61952x256_S619520x1_S619520x256_1_0_0_1 x i u) : (⟨S61952x256, .f32⟩ : BufTy).Contents (Elt F) → (⟨S619520x1, .i32⟩ : BufTy).Contents (Elt F) → (⟨S619520x256, .f32⟩ : BufTy).Contents (Elt F) → (⟨S61952x256, .f32⟩ : BufTy).Contents (Elt F)),
    StableHlo.nullary main_cst_1 (constant S_ .f32 0x3F800000#32),
    StableHlo.unary main_cst_1 main_v10 (broadcastInDim S619520 ![] bcast_S_S619520 : (⟨S_, .f32⟩ : BufTy).Contents (Elt F) → (⟨S619520, .f32⟩ : BufTy).Contents (Elt F)),
    StableHlo.nullary main_cst_2 (constant S_ .f32 0x00000000#32),
    StableHlo.unary main_cst_2 main_v11 (broadcastInDim S61952 ![] bcast_S_S61952 : (⟨S_, .f32⟩ : BufTy).Contents (Elt F) → (⟨S61952, .f32⟩ : BufTy).Contents (Elt F)),
    StableHlo.unary main_arg2 main_v12 (broadcastInDim S619520x1 ![0] bcast_S619520_S619520x1_0 : (⟨S619520, .i32⟩ : BufTy).Contents (Elt F) → (⟨S619520x1, .i32⟩ : BufTy).Contents (Elt F)),
    StableHlo.ternary main_v11 main_v12 main_v10 main_v13 ((fun x i u => Host.scatterAdd scatter_S61952_S619520x1_S619520_n_0_0_1 x i u) : (⟨S61952, .f32⟩ : BufTy).Contents (Elt F) → (⟨S619520x1, .i32⟩ : BufTy).Contents (Elt F) → (⟨S619520, .f32⟩ : BufTy).Contents (Elt F) → (⟨S61952, .f32⟩ : BufTy).Contents (Elt F)),
    StableHlo.nullary main_cst_3 (constant S_ .f32 0x3F800000#32),
    StableHlo.unary main_cst_3 main_v14 (broadcastInDim S61952 ![] bcast_S_S61952 : (⟨S_, .f32⟩ : BufTy).Contents (Elt F) → (⟨S61952, .f32⟩ : BufTy).Contents (Elt F)),
    StableHlo.binary main_v13 main_v14 main_v15 (maximumf : (⟨S61952, .f32⟩ : BufTy).Contents (Elt F) → (⟨S61952, .f32⟩ : BufTy).Contents (Elt F) → (⟨S61952, .f32⟩ : BufTy).Contents (Elt F)),
    StableHlo.unary main_v15 main_v16 (broadcastInDim S61952x1 ![0] bcast_S61952_S61952x1_0 : (⟨S61952, .f32⟩ : BufTy).Contents (Elt F) → (⟨S61952x1, .f32⟩ : BufTy).Contents (Elt F)),
    StableHlo.unary main_v16 main_v17 (broadcastInDim S61952x256 ![0, 1] bcast_S61952x1_S61952x256_0_1 : (⟨S61952x1, .f32⟩ : BufTy).Contents (Elt F) → (⟨S61952x256, .f32⟩ : BufTy).Contents (Elt F)),
    StableHlo.binary main_v9 main_v17 main_v18 (Host.divf : (⟨S61952x256, .f32⟩ : BufTy).Contents (Elt F) → (⟨S61952x256, .f32⟩ : BufTy).Contents (Elt F) → (⟨S61952x256, .f32⟩ : BufTy).Contents (Elt F)),
    StableHlo.nullary main_c_4 (constantI S_ 32 0#32),
    StableHlo.unary main_c_4 main_v19 (broadcastInDim S61952 ![] bcast_S_S61952 : (⟨S_, .i32⟩ : BufTy).Contents (Elt F) → (⟨S61952, .i32⟩ : BufTy).Contents (Elt F)),
    StableHlo.binary main_arg3 main_v19 main_v20 (cmpi .slt : (⟨S61952, .i32⟩ : BufTy).Contents (Elt F) → (⟨S61952, .i32⟩ : BufTy).Contents (Elt F) → (⟨S61952, .i1⟩ : BufTy).Contents (Elt F)),
    StableHlo.nullary main_c_5 (constantI S_ 32 681472#32),
    StableHlo.unary main_c_5 main_v21 (broadcastInDim S61952 ![] bcast_S_S61952 : (⟨S_, .i32⟩ : BufTy).Contents (Elt F) → (⟨S61952, .i32⟩ : BufTy).Contents (Elt F)),
    StableHlo.binary main_arg3 main_v21 main_v22 (addi : (⟨S61952, .i32⟩ : BufTy).Contents (Elt F) → (⟨S61952, .i32⟩ : BufTy).Contents (Elt F) → (⟨S61952, .i32⟩ : BufTy).Contents (Elt F)),
    StableHlo.ternary main_v20 main_v22 main_arg3 main_v23 (select : (⟨S61952, .i1⟩ : BufTy).Contents (Elt F) → (⟨S61952, .i32⟩ : BufTy).Contents (Elt F) → (⟨S61952, .i32⟩ : BufTy).Contents (Elt F) → (⟨S61952, .i32⟩ : BufTy).Contents (Elt F)),
    StableHlo.unary main_v23 main_v24 (broadcastInDim S61952x1 ![0] bcast_S61952_S61952x1_0 : (⟨S61952, .i32⟩ : BufTy).Contents (Elt F) → (⟨S61952x1, .i32⟩ : BufTy).Contents (Elt F)),
    StableHlo.binary main_arg0 main_v24 main_v25 ((fun x i => Host.gather gather_S681472x256_S61952x1_S61952x256_1_0_n_n_0_1_1256 x i) : (⟨S681472x256, .f32⟩ : BufTy).Contents (Elt F) → (⟨S61952x1, .i32⟩ : BufTy).Contents (Elt F) → (⟨S61952x256, .f32⟩ : BufTy).Contents (Elt F)),
    StableHlo.binary main_v18 main_arg10 main_v26 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v25 main_arg11 main_v27 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v26 main_v27 main_v28 (addf : (⟨S61952x256, .f32⟩ : BufTy).Contents (Elt F) → (⟨S61952x256, .f32⟩ : BufTy).Contents (Elt F) → (⟨S61952x256, .f32⟩ : BufTy).Contents (Elt F)),
    StableHlo.unary main_arg12 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S61952x256 ![0, 1] bcast_S1x256_S61952x256_0_1 : (⟨S1x256, .f32⟩ : BufTy).Contents (Elt F) → (⟨S61952x256, .f32⟩ : BufTy).Contents (Elt F)),
    StableHlo.binary main_v28 main_v30 main_v31 (addf : (⟨S61952x256, .f32⟩ : BufTy).Contents (Elt F) → (⟨S61952x256, .f32⟩ : BufTy).Contents (Elt F) → (⟨S61952x256, .f32⟩ : BufTy).Contents (Elt F)),
    StableHlo.nullary main_cst_6 (constant S_ .f32 0x00000000#32),
    StableHlo.binary main_v31 main_cst_6 main_v32 ((fun x v => Host.reduceAdd x v reducesTo_S61952x256_S256_d0 h_S_) : (⟨S61952x256, .f32⟩ : BufTy).Contents (Elt F) → (⟨S_, .f32⟩ : BufTy).Contents (Elt F) → (⟨S256, .f32⟩ : BufTy).Contents (Elt F)),
    StableHlo.nullary main_cst_7 (constant S_ .f32 0x47720000#32),
    StableHlo.unary main_cst_7 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.TRef.nullary main_call0.cst (constant S_ .f32 0x00000000#32),
    StableHlo.TRef.binary (.of main_v31) main_call0.cst main_call0.v0 (fun x v => Host.reduceAdd x v reducesTo_S61952x256_S256_d0 h_S_),
    StableHlo.TRef.unary main_call0.v0 main_call0.v1 (broadcastInDim S1x256 ![1] bcast_S256_S1x256_1),
    StableHlo.TRef.nullary main_call0.cst_0 (constant S_ .f32 0x47720000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S61952x256 ![0, 1] bcast_S1x256_S61952x256_0_1),
    StableHlo.TRef.binary (.of main_v31) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x47720000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S61952x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v34 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S61952x256 ![0, 1] bcast_S1x256_S61952x256_0_1 : (⟨S1x256, .f32⟩ : BufTy).Contents (Elt F) → (⟨S61952x256, .f32⟩ : BufTy).Contents (Elt F)),
    StableHlo.binary main_v31 main_v37 main_v38 (subf : (⟨S61952x256, .f32⟩ : BufTy).Contents (Elt F) → (⟨S61952x256, .f32⟩ : BufTy).Contents (Elt F) → (⟨S61952x256, .f32⟩ : BufTy).Contents (Elt F)),
    StableHlo.nullary main_cst_9 (constant S_ .f32 0x3727C5AC#32),
    StableHlo.unary main_cst_9 main_v39 (broadcastInDim S256 ![] bcast_S_S256 : (⟨S_, .f32⟩ : BufTy).Contents (Elt F) → (⟨S256, .f32⟩ : BufTy).Contents (Elt F)),
    StableHlo.binary main_v35 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S61952x256 ![0, 1] bcast_S1x256_S61952x256_0_1 : (⟨S1x256, .f32⟩ : BufTy).Contents (Elt F) → (⟨S61952x256, .f32⟩ : BufTy).Contents (Elt F)),
    StableHlo.binary main_v38 main_v43 main_v44 (mulf : (⟨S61952x256, .f32⟩ : BufTy).Contents (Elt F) → (⟨S61952x256, .f32⟩ : BufTy).Contents (Elt F) → (⟨S61952x256, .f32⟩ : BufTy).Contents (Elt F)),
    StableHlo.unary main_arg13 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S61952x256 ![0, 1] bcast_S1x256_S61952x256_0_1 : (⟨S1x256, .f32⟩ : BufTy).Contents (Elt F) → (⟨S61952x256, .f32⟩ : BufTy).Contents (Elt F)),
    StableHlo.binary main_v44 main_v46 main_v47 (mulf : (⟨S61952x256, .f32⟩ : BufTy).Contents (Elt F) → (⟨S61952x256, .f32⟩ : BufTy).Contents (Elt F) → (⟨S61952x256, .f32⟩ : BufTy).Contents (Elt F)) ]

/-- The second window's operations (statements 61 … 120; the first layer's rectifier and the second layer's variance inline). -/
abbrev ops1 : List (HloOp τ sig (Elt F)) :=
  [ StableHlo.unary main_arg14 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S61952x256 ![0, 1] bcast_S1x256_S61952x256_0_1 : (⟨S1x256, .f32⟩ : BufTy).Contents (Elt F) → (⟨S61952x256, .f32⟩ : BufTy).Contents (Elt F)),
    StableHlo.binary main_v47 main_v49 main_v50 (addf : (⟨S61952x256, .f32⟩ : BufTy).Contents (Elt F) → (⟨S61952x256, .f32⟩ : BufTy).Contents (Elt F) → (⟨S61952x256, .f32⟩ : BufTy).Contents (Elt F)),
    StableHlo.TRef.nullary main_call1.cst (constant S_ .f32 0x00000000#32),
    StableHlo.TRef.unary main_call1.cst main_call1.v0 (broadcastInDim S61952x256 ![] bcast_S_S61952x256),
    StableHlo.TRef.binary (.of main_v50) main_call1.v0 main_call1.v1 maximumf,
    StableHlo.nullary main_c_10 (constantI S_ 32 0#32),
    StableHlo.unary main_c_10 main_v52 (broadcastInDim S56320 ![] bcast_S_S56320 : (⟨S_, .i32⟩ : BufTy).Contents (Elt F) → (⟨S56320, .i32⟩ : BufTy).Contents (Elt F)),
    StableHlo.binary main_arg4 main_v52 main_v53 (cmpi .slt : (⟨S56320, .i32⟩ : BufTy).Contents (Elt F) → (⟨S56320, .i32⟩ : BufTy).Contents (Elt F) → (⟨S56320, .i1⟩ : BufTy).Contents (Elt F)),
    StableHlo.nullary main_c_11 (constantI S_ 32 61952#32),
    StableHlo.unary main_c_11 main_v54 (broadcastInDim S56320 ![] bcast_S_S56320 : (⟨S_, .i32⟩ : BufTy).Contents (Elt F) → (⟨S56320, .i32⟩ : BufTy).Contents (Elt F)),
    StableHlo.binary main_arg4 main_v54 main_v55 (addi : (⟨S56320, .i32⟩ : BufTy).Contents (Elt F) → (⟨S56320, .i32⟩ : BufTy).Contents (Elt F) → (⟨S56320, .i32⟩ : BufTy).Contents (Elt F)),
    StableHlo.ternary main_v53 main_v55 main_arg4 main_v56 (select : (⟨S56320, .i1⟩ : BufTy).Contents (Elt F) → (⟨S56320, .i32⟩ : BufTy).Contents (Elt F) → (⟨S56320, .i32⟩ : BufTy).Contents (Elt F) → (⟨S56320, .i32⟩ : BufTy).Contents (Elt F)),
    StableHlo.unary main_v56 main_v57 (broadcastInDim S56320x1 ![0] bcast_S56320_S56320x1_0 : (⟨S56320, .i32⟩ : BufTy).Contents (Elt F) → (⟨S56320x1, .i32⟩ : BufTy).Contents (Elt F)),
    StableHlo.binary main_v51 main_v57 main_v58 ((fun x i => Host.gather gather_S61952x256_S56320x1_S56320x256_1_0_n_n_0_1_1256 x i) : (⟨S61952x256, .f32⟩ : BufTy).Contents (Elt F) → (⟨S56320x1, .i32⟩ : BufTy).Contents (Elt F) → (⟨S56320x256, .f32⟩ : BufTy).Contents (Elt F)),
    StableHlo.nullary main_cst_12 (constant S_ .f32 0x00000000#32),
    StableHlo.unary main_cst_12 main_v59 (broadcastInDim S5632x256 ![] bcast_S_S5632x256 : (⟨S_, .f32⟩ : BufTy).Contents (Elt F) → (⟨S5632x256, .f32⟩ : BufTy).Contents (Elt F)),
    StableHlo.unary main_arg5 main_v60 (broadcastInDim S56320x1 ![0] bcast_S56320_S56320x1_0 : (⟨S56320, .i32⟩ : BufTy).Contents (Elt F) → (⟨S56320x1, .i32⟩ : BufTy).Contents (Elt F)),
    StableHlo.ternary main_v59 main_v60 main_v58 main_v61 ((fun x i u => Host.scatterAdd scatter_S5632x256_S56320x1_S56320x256_1_0_0_1 x i u) : (⟨S5632x256, .f32⟩ : BufTy).Contents (Elt F) → (⟨S56320x1, .i32⟩ : BufTy).Contents (Elt F) → (⟨S56320x256, .f32⟩ : BufTy).Contents (Elt F) → (⟨S5632x256, .f32⟩ : BufTy).Contents (Elt F)),
    StableHlo.nullary main_cst_13 (constant S_ .f32 0x3F800000#32),
    StableHlo.unary main_cst_13 main_v62 (broadcastInDim S56320 ![] bcast_S_S56320 : (⟨S_, .f32⟩ : BufTy).Contents (Elt F) → (⟨S56320, .f32⟩ : BufTy).Contents (Elt F)),
    StableHlo.nullary main_cst_14 (constant S_ .f32 0x00000000#32),
    StableHlo.unary main_cst_14 main_v63 (broadcastInDim S5632 ![] bcast_S_S5632 : (⟨S_, .f32⟩ : BufTy).Contents (Elt F) → (⟨S5632, .f32⟩ : BufTy).Contents (Elt F)),
    StableHlo.unary main_arg5 main_v64 (broadcastInDim S56320x1 ![0] bcast_S56320_S56320x1_0 : (⟨S56320, .i32⟩ : BufTy).Contents (Elt F) → (⟨S56320x1, .i32⟩ : BufTy).Contents (Elt F)),
    StableHlo.ternary main_v63 main_v64 main_v62 main_v65 ((fun x i u => Host.scatterAdd scatter_S5632_S56320x1_S56320_n_0_0_1 x i u) : (⟨S5632, .f32⟩ : BufTy).Contents (Elt F) → (⟨S56320x1, .i32⟩ : BufTy).Contents (Elt F) → (⟨S56320, .f32⟩ : BufTy).Contents (Elt F) → (⟨S5632, .f32⟩ : BufTy).Contents (Elt F)),
    StableHlo.nullary main_cst_15 (constant S_ .f32 0x3F800000#32),
    StableHlo.unary main_cst_15 main_v66 (broadcastInDim S5632 ![] bcast_S_S5632 : (⟨S_, .f32⟩ : BufTy).Contents (Elt F) → (⟨S5632, .f32⟩ : BufTy).Contents (Elt F)),
    StableHlo.binary main_v65 main_v66 main_v67 (maximumf : (⟨S5632, .f32⟩ : BufTy).Contents (Elt F) → (⟨S5632, .f32⟩ : BufTy).Contents (Elt F) → (⟨S5632, .f32⟩ : BufTy).Contents (Elt F)),
    StableHlo.unary main_v67 main_v68 (broadcastInDim S5632x1 ![0] bcast_S5632_S5632x1_0 : (⟨S5632, .f32⟩ : BufTy).Contents (Elt F) → (⟨S5632x1, .f32⟩ : BufTy).Contents (Elt F)),
    StableHlo.unary main_v68 main_v69 (broadcastInDim S5632x256 ![0, 1] bcast_S5632x1_S5632x256_0_1 : (⟨S5632x1, .f32⟩ : BufTy).Contents (Elt F) → (⟨S5632x256, .f32⟩ : BufTy).Contents (Elt F)),
    StableHlo.binary main_v61 main_v69 main_v70 (Host.divf : (⟨S5632x256, .f32⟩ : BufTy).Contents (Elt F) → (⟨S5632x256, .f32⟩ : BufTy).Contents (Elt F) → (⟨S5632x256, .f32⟩ : BufTy).Contents (Elt F)),
    StableHlo.nullary main_c_16 (constantI S_ 32 0#32),
    StableHlo.unary main_c_16 main_v71 (broadcastInDim S5632 ![] bcast_S_S5632 : (⟨S_, .i32⟩ : BufTy).Contents (Elt F) → (⟨S5632, .i32⟩ : BufTy).Contents (Elt F)),
    StableHlo.binary main_arg6 main_v71 main_v72 (cmpi .slt : (⟨S5632, .i32⟩ : BufTy).Contents (Elt F) → (⟨S5632, .i32⟩ : BufTy).Contents (Elt F) → (⟨S5632, .i1⟩ : BufTy).Contents (Elt F)),
    StableHlo.nullary main_c_17 (constantI S_ 32 61952#32),
    StableHlo.unary main_c_17 main_v73 (broadcastInDim S5632 ![] bcast_S_S5632 : (⟨S_, .i32⟩ : BufTy).Contents (Elt F) → (⟨S5632, .i32⟩ : BufTy).Contents (Elt F)),
    StableHlo.binary main_arg6 main_v73 main_v74 (addi : (⟨S5632, .i32⟩ : BufTy).Contents (Elt F) → (⟨S5632, .i32⟩ : BufTy).Contents (Elt F) → (⟨S5632, .i32⟩ : BufTy).Contents (Elt F)),
    StableHlo.ternary main_v72 main_v74 main_arg6 main_v75 (select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)),
    StableHlo.unary main_v75 main_v76 (broadcastInDim S5632x1 ![0] bcast_S5632_S5632x1_0 : (⟨S5632, .i32⟩ : BufTy).Contents (Elt F) → (⟨S5632x1, .i32⟩ : BufTy).Contents (Elt F)),
    StableHlo.binary main_v51 main_v76 main_v77 ((fun x i => Host.gather gather_S61952x256_S5632x1_S5632x256_1_0_n_n_0_1_1256 x i) : (⟨S61952x256, .f32⟩ : BufTy).Contents (Elt F) → (⟨S5632x1, .i32⟩ : BufTy).Contents (Elt F) → (⟨S5632x256, .f32⟩ : BufTy).Contents (Elt F)),
    StableHlo.binary main_v70 main_arg15 main_v78 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v77 main_arg16 main_v79 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v78 main_v79 main_v80 (addf : (⟨S5632x256, .f32⟩ : BufTy).Contents (Elt F) → (⟨S5632x256, .f32⟩ : BufTy).Contents (Elt F) → (⟨S5632x256, .f32⟩ : BufTy).Contents (Elt F)),
    StableHlo.unary main_arg17 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S5632x256 ![0, 1] bcast_S1x256_S5632x256_0_1 : (⟨S1x256, .f32⟩ : BufTy).Contents (Elt F) → (⟨S5632x256, .f32⟩ : BufTy).Contents (Elt F)),
    StableHlo.binary main_v80 main_v82 main_v83 (addf : (⟨S5632x256, .f32⟩ : BufTy).Contents (Elt F) → (⟨S5632x256, .f32⟩ : BufTy).Contents (Elt F) → (⟨S5632x256, .f32⟩ : BufTy).Contents (Elt F)),
    StableHlo.nullary main_cst_18 (constant S_ .f32 0x00000000#32),
    StableHlo.binary main_v83 main_cst_18 main_v84 ((fun x v => Host.reduceAdd x v reducesTo_S5632x256_S256_d0 h_S_) : (⟨S5632x256, .f32⟩ : BufTy).Contents (Elt F) → (⟨S_, .f32⟩ : BufTy).Contents (Elt F) → (⟨S256, .f32⟩ : BufTy).Contents (Elt F)),
    StableHlo.nullary main_cst_19 (constant S_ .f32 0x45B00000#32),
    StableHlo.unary main_cst_19 main_v85 (broadcastInDim S256 ![] bcast_S_S256 : (⟨S_, .f32⟩ : BufTy).Contents (Elt F) → (⟨S256, .f32⟩ : BufTy).Contents (Elt F)),
    StableHlo.binary main_v84 main_v85 main_v86 (Host.divf : (⟨S256, .f32⟩ : BufTy).Contents (Elt F) → (⟨S256, .f32⟩ : BufTy).Contents (Elt F) → (⟨S256, .f32⟩ : BufTy).Contents (Elt F)),
    StableHlo.nullary main_c_20 (constantI S_ 32 0#32),
    StableHlo.TRef.nullary main_call2.cst (constant S_ .f32 0x00000000#32),
    StableHlo.TRef.binary (.of main_v83) main_call2.cst main_call2.v0 (fun x v => Host.reduceAdd x v reducesTo_S5632x256_S256_d0 h_S_),
    StableHlo.TRef.unary main_call2.v0 main_call2.v1 (broadcastInDim S1x256 ![1] bcast_S256_S1x256_1),
    StableHlo.TRef.nullary main_call2.cst_0 (constant S_ .f32 0x45B00000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S5632x256 ![0, 1] bcast_S1x256_S5632x256_0_1),
    StableHlo.TRef.binary (.of main_v83) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x45B00000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S5632x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v86 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S5632x256 ![0, 1] bcast_S1x256_S5632x256_0_1 : (⟨S1x256, .f32⟩ : BufTy).Contents (Elt F) → (⟨S5632x256, .f32⟩ : BufTy).Contents (Elt F)),
    StableHlo.binary main_v83 main_v89 main_v90 (subf : (⟨S5632x256, .f32⟩ : BufTy).Contents (Elt F) → (⟨S5632x256, .f32⟩ : BufTy).Contents (Elt F) → (⟨S5632x256, .f32⟩ : BufTy).Contents (Elt F)),
    StableHlo.nullary main_cst_21 (constant S_ .f32 0x3727C5AC#32),
    StableHlo.unary main_cst_21 main_v91 (broadcastInDim S256 ![] bcast_S_S256 : (⟨S_, .f32⟩ : BufTy).Contents (Elt F) → (⟨S256, .f32⟩ : BufTy).Contents (Elt F)),
    StableHlo.binary main_v87 main_v91 main_v92 (addf : (⟨S256, .f32⟩ : BufTy).Contents (Elt F) → (⟨S256, .f32⟩ : BufTy).Contents (Elt F) → (⟨S256, .f32⟩ : BufTy).Contents (Elt F)),
    StableHlo.unary main_v92 main_v93 (Host.rsqrt : (⟨S256, .f32⟩ : BufTy).Contents (Elt F) → (⟨S256, .f32⟩ : BufTy).Contents (Elt F)),
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S5632x256 ![0, 1] bcast_S1x256_S5632x256_0_1 : (⟨S1x256, .f32⟩ : BufTy).Contents (Elt F) → (⟨S5632x256, .f32⟩ : BufTy).Contents (Elt F)) ]

/-- The third window's operations (statements 121 … 180; the second layer's rectifier and the third layer's variance inline). -/
abbrev ops2 : List (HloOp τ sig (Elt F)) :=
  [ StableHlo.binary main_v90 main_v95 main_v96 (mulf : (⟨S5632x256, .f32⟩ : BufTy).Contents (Elt F) → (⟨S5632x256, .f32⟩ : BufTy).Contents (Elt F) → (⟨S5632x256, .f32⟩ : BufTy).Contents (Elt F)),
    StableHlo.unary main_arg18 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S5632x256 ![0, 1] bcast_S1x256_S5632x256_0_1 : (⟨S1x256, .f32⟩ : BufTy).Contents (Elt F) → (⟨S5632x256, .f32⟩ : BufTy).Contents (Elt F)),
    StableHlo.binary main_v96 main_v98 main_v99 (mulf : (⟨S5632x256, .f32⟩ : BufTy).Contents (Elt F) → (⟨S5632x256, .f32⟩ : BufTy).Contents (Elt F) → (⟨S5632x256, .f32⟩ : BufTy).Contents (Elt F)),
    StableHlo.unary main_arg19 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S5632x256 ![0, 1] bcast_S1x256_S5632x256_0_1 : (⟨S1x256, .f32⟩ : BufTy).Contents (Elt F) → (⟨S5632x256, .f32⟩ : BufTy).Contents (Elt F)),
    StableHlo.binary main_v99 main_v101 main_v102 (addf : (⟨S5632x256, .f32⟩ : BufTy).Contents (Elt F) → (⟨S5632x256, .f32⟩ : BufTy).Contents (Elt F) → (⟨S5632x256, .f32⟩ : BufTy).Contents (Elt F)),
    StableHlo.TRef.nullary main_call3.cst (constant S_ .f32 0x00000000#32),
    StableHlo.TRef.unary main_call3.cst main_call3.v0 (broadcastInDim S5632x256 ![] bcast_S_S5632x256),
    StableHlo.TRef.binary (.of main_v102) main_call3.v0 main_call3.v1 maximumf,
    StableHlo.nullary main_c_22 (constantI S_ 32 0#32),
    StableHlo.unary main_c_22 main_v104 (broadcastInDim S5120 ![] bcast_S_S5120 : (⟨S_, .i32⟩ : BufTy).Contents (Elt F) → (⟨S5120, .i32⟩ : BufTy).Contents (Elt F)),
    StableHlo.binary main_arg7 main_v104 main_v105 (cmpi .slt : (⟨S5120, .i32⟩ : BufTy).Contents (Elt F) → (⟨S5120, .i32⟩ : BufTy).Contents (Elt F) → (⟨S5120, .i1⟩ : BufTy).Contents (Elt F)),
    StableHlo.nullary main_c_23 (constantI S_ 32 5632#32),
    StableHlo.unary main_c_23 main_v106 (broadcastInDim S5120 ![] bcast_S_S5120 : (⟨S_, .i32⟩ : BufTy).Contents (Elt F) → (⟨S5120, .i32⟩ : BufTy).Contents (Elt F)),
    StableHlo.binary main_arg7 main_v106 main_v107 (addi : (⟨S5120, .i32⟩ : BufTy).Contents (Elt F) → (⟨S5120, .i32⟩ : BufTy).Contents (Elt F) → (⟨S5120, .i32⟩ : BufTy).Contents (Elt F)),
    StableHlo.ternary main_v105 main_v107 main_arg7 main_v108 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    StableHlo.unary main_v108 main_v109 (broadcastInDim S5120x1 ![0] bcast_S5120_S5120x1_0 : (⟨S5120, .i32⟩ : BufTy).Contents (Elt F) → (⟨S5120x1, .i32⟩ : BufTy).Contents (Elt F)),
    StableHlo.binary main_v103 main_v109 main_v110 ((fun x i => Host.gather gather_S5632x256_S5120x1_S5120x256_1_0_n_n_0_1_1256 x i) : (⟨S5632x256, .f32⟩ : BufTy).Contents (Elt F) → (⟨S5120x1, .i32⟩ : BufTy).Contents (Elt F) → (⟨S5120x256, .f32⟩ : BufTy).Contents (Elt F)),
    StableHlo.nullary main_cst_24 (constant S_ .f32 0x00000000#32),
    StableHlo.unary main_cst_24 main_v111 (broadcastInDim S512x256 ![] bcast_S_S512x256 : (⟨S_, .f32⟩ : BufTy).Contents (Elt F) → (⟨S512x256, .f32⟩ : BufTy).Contents (Elt F)),
    StableHlo.unary main_arg8 main_v112 (broadcastInDim S5120x1 ![0] bcast_S5120_S5120x1_0 : (⟨S5120, .i32⟩ : BufTy).Contents (Elt F) → (⟨S5120x1, .i32⟩ : BufTy).Contents (Elt F)),
    StableHlo.ternary main_v111 main_v112 main_v110 main_v113 ((fun x i u => Host.scatterAdd scatter_S512x256_S5120x1_S5120x256_1_0_0_1 x i u) : (⟨S512x256, .f32⟩ : BufTy).Contents (Elt F) → (⟨S5120x1, .i32⟩ : BufTy).Contents (Elt F) → (⟨S5120x256, .f32⟩ : BufTy).Contents (Elt F) → (⟨S512x256, .f32⟩ : BufTy).Contents (Elt F)),
    StableHlo.nullary main_cst_25 (constant S_ .f32 0x3F800000#32),
    StableHlo.unary main_cst_25 main_v114 (broadcastInDim S5120 ![] bcast_S_S5120 : (⟨S_, .f32⟩ : BufTy).Contents (Elt F) → (⟨S5120, .f32⟩ : BufTy).Contents (Elt F)),
    StableHlo.nullary main_cst_26 (constant S_ .f32 0x00000000#32),
    StableHlo.unary main_cst_26 main_v115 (broadcastInDim S512 ![] bcast_S_S512 : (⟨S_, .f32⟩ : BufTy).Contents (Elt F) → (⟨S512, .f32⟩ : BufTy).Contents (Elt F)),
    StableHlo.unary main_arg8 main_v116 (broadcastInDim S5120x1 ![0] bcast_S5120_S5120x1_0 : (⟨S5120, .i32⟩ : BufTy).Contents (Elt F) → (⟨S5120x1, .i32⟩ : BufTy).Contents (Elt F)),
    StableHlo.ternary main_v115 main_v116 main_v114 main_v117 ((fun x i u => Host.scatterAdd scatter_S512_S5120x1_S5120_n_0_0_1 x i u) : (⟨S512, .f32⟩ : BufTy).Contents (Elt F) → (⟨S5120x1, .i32⟩ : BufTy).Contents (Elt F) → (⟨S5120, .f32⟩ : BufTy).Contents (Elt F) → (⟨S512, .f32⟩ : BufTy).Contents (Elt F)),
    StableHlo.nullary main_cst_27 (constant S_ .f32 0x3F800000#32),
    StableHlo.unary main_cst_27 main_v118 (broadcastInDim S512 ![] bcast_S_S512 : (⟨S_, .f32⟩ : BufTy).Contents (Elt F) → (⟨S512, .f32⟩ : BufTy).Contents (Elt F)),
    StableHlo.binary main_v117 main_v118 main_v119 (maximumf : (⟨S512, .f32⟩ : BufTy).Contents (Elt F) → (⟨S512, .f32⟩ : BufTy).Contents (Elt F) → (⟨S512, .f32⟩ : BufTy).Contents (Elt F)),
    StableHlo.unary main_v119 main_v120 (broadcastInDim S512x1 ![0] bcast_S512_S512x1_0 : (⟨S512, .f32⟩ : BufTy).Contents (Elt F) → (⟨S512x1, .f32⟩ : BufTy).Contents (Elt F)),
    StableHlo.unary main_v120 main_v121 (broadcastInDim S512x256 ![0, 1] bcast_S512x1_S512x256_0_1 : (⟨S512x1, .f32⟩ : BufTy).Contents (Elt F) → (⟨S512x256, .f32⟩ : BufTy).Contents (Elt F)),
    StableHlo.binary main_v113 main_v121 main_v122 (Host.divf : (⟨S512x256, .f32⟩ : BufTy).Contents (Elt F) → (⟨S512x256, .f32⟩ : BufTy).Contents (Elt F) → (⟨S512x256, .f32⟩ : BufTy).Contents (Elt F)),
    StableHlo.nullary main_c_28 (constantI S_ 32 0#32),
    StableHlo.unary main_c_28 main_v123 (broadcastInDim S512 ![] bcast_S_S512 : (⟨S_, .i32⟩ : BufTy).Contents (Elt F) → (⟨S512, .i32⟩ : BufTy).Contents (Elt F)),
    StableHlo.binary main_arg9 main_v123 main_v124 (cmpi .slt : (⟨S512, .i32⟩ : BufTy).Contents (Elt F) → (⟨S512, .i32⟩ : BufTy).Contents (Elt F) → (⟨S512, .i1⟩ : BufTy).Contents (Elt F)),
    StableHlo.nullary main_c_29 (constantI S_ 32 5632#32),
    StableHlo.unary main_c_29 main_v125 (broadcastInDim S512 ![] bcast_S_S512 : (⟨S_, .i32⟩ : BufTy).Contents (Elt F) → (⟨S512, .i32⟩ : BufTy).Contents (Elt F)),
    StableHlo.binary main_arg9 main_v125 main_v126 (addi : (⟨S512, .i32⟩ : BufTy).Contents (Elt F) → (⟨S512, .i32⟩ : BufTy).Contents (Elt F) → (⟨S512, .i32⟩ : BufTy).Contents (Elt F)),
    StableHlo.ternary main_v124 main_v126 main_arg9 main_v127 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v127 main_v128 (broadcastInDim S512x1 ![0] bcast_S512_S512x1_0 : (⟨S512, .i32⟩ : BufTy).Contents (Elt F) → (⟨S512x1, .i32⟩ : BufTy).Contents (Elt F)),
    StableHlo.binary main_v103 main_v128 main_v129 ((fun x i => Host.gather gather_S5632x256_S512x1_S512x256_1_0_n_n_0_1_1256 x i) : (⟨S5632x256, .f32⟩ : BufTy).Contents (Elt F) → (⟨S512x1, .i32⟩ : BufTy).Contents (Elt F) → (⟨S512x256, .f32⟩ : BufTy).Contents (Elt F)),
    StableHlo.binary main_v122 main_arg20 main_v130 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v129 main_arg21 main_v131 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v130 main_v131 main_v132 (addf : (⟨S512x256, .f32⟩ : BufTy).Contents (Elt F) → (⟨S512x256, .f32⟩ : BufTy).Contents (Elt F) → (⟨S512x256, .f32⟩ : BufTy).Contents (Elt F)),
    StableHlo.unary main_arg22 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S512x256 ![0, 1] bcast_S1x256_S512x256_0_1 : (⟨S1x256, .f32⟩ : BufTy).Contents (Elt F) → (⟨S512x256, .f32⟩ : BufTy).Contents (Elt F)),
    StableHlo.binary main_v132 main_v134 main_v135 (addf : (⟨S512x256, .f32⟩ : BufTy).Contents (Elt F) → (⟨S512x256, .f32⟩ : BufTy).Contents (Elt F) → (⟨S512x256, .f32⟩ : BufTy).Contents (Elt F)),
    StableHlo.nullary main_cst_30 (constant S_ .f32 0x00000000#32),
    StableHlo.binary main_v135 main_cst_30 main_v136 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    StableHlo.nullary main_cst_31 (constant S_ .f32 0x44000000#32),
    StableHlo.unary main_cst_31 main_v137 (broadcastInDim S256 ![] bcast_S_S256 : (⟨S_, .f32⟩ : BufTy).Contents (Elt F) → (⟨S256, .f32⟩ : BufTy).Contents (Elt F)),
    StableHlo.binary main_v136 main_v137 main_v138 (Host.divf : (⟨S256, .f32⟩ : BufTy).Contents (Elt F) → (⟨S256, .f32⟩ : BufTy).Contents (Elt F) → (⟨S256, .f32⟩ : BufTy).Contents (Elt F)),
    StableHlo.nullary main_c_32 (constantI S_ 32 0#32),
    StableHlo.TRef.nullary main_call4.cst (constant S_ .f32 0x00000000#32),
    StableHlo.TRef.binary (.of main_v135) main_call4.cst main_call4.v0 (fun x v => Host.reduceAdd x v reducesTo_S512x256_S256_d0 h_S_),
    StableHlo.TRef.unary main_call4.v0 main_call4.v1 (broadcastInDim S1x256 ![1] bcast_S256_S1x256_1),
    StableHlo.TRef.nullary main_call4.cst_0 (constant S_ .f32 0x44000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S512x256 ![0, 1] bcast_S1x256_S512x256_0_1),
    StableHlo.TRef.binary (.of main_v135) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x44000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v138 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S512x256 ![0, 1] bcast_S1x256_S512x256_0_1 : (⟨S1x256, .f32⟩ : BufTy).Contents (Elt F) → (⟨S512x256, .f32⟩ : BufTy).Contents (Elt F)),
    StableHlo.binary main_v135 main_v141 main_v142 (subf : (⟨S512x256, .f32⟩ : BufTy).Contents (Elt F) → (⟨S512x256, .f32⟩ : BufTy).Contents (Elt F) → (⟨S512x256, .f32⟩ : BufTy).Contents (Elt F)),
    StableHlo.nullary main_cst_33 (constant S_ .f32 0x3727C5AC#32),
    StableHlo.unary main_cst_33 main_v143 (broadcastInDim S256 ![] bcast_S_S256 : (⟨S_, .f32⟩ : BufTy).Contents (Elt F) → (⟨S256, .f32⟩ : BufTy).Contents (Elt F)) ]

/-- The fourth window's operations (statements 181 … 196; the third layer's rectifier inline, then the final product and bias). -/
abbrev ops3 : List (HloOp τ sig (Elt F)) :=
  [ StableHlo.binary main_v139 main_v143 main_v144 (addf : (⟨S256, .f32⟩ : BufTy).Contents (Elt F) → (⟨S256, .f32⟩ : BufTy).Contents (Elt F) → (⟨S256, .f32⟩ : BufTy).Contents (Elt F)),
    StableHlo.unary main_v144 main_v145 (Host.rsqrt : (⟨S256, .f32⟩ : BufTy).Contents (Elt F) → (⟨S256, .f32⟩ : BufTy).Contents (Elt F)),
    StableHlo.unary main_v145 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S512x256 ![0, 1] bcast_S1x256_S512x256_0_1 : (⟨S1x256, .f32⟩ : BufTy).Contents (Elt F) → (⟨S512x256, .f32⟩ : BufTy).Contents (Elt F)),
    StableHlo.binary main_v142 main_v147 main_v148 (mulf : (⟨S512x256, .f32⟩ : BufTy).Contents (Elt F) → (⟨S512x256, .f32⟩ : BufTy).Contents (Elt F) → (⟨S512x256, .f32⟩ : BufTy).Contents (Elt F)),
    StableHlo.unary main_arg23 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S512x256 ![0, 1] bcast_S1x256_S512x256_0_1 : (⟨S1x256, .f32⟩ : BufTy).Contents (Elt F) → (⟨S512x256, .f32⟩ : BufTy).Contents (Elt F)),
    StableHlo.binary main_v148 main_v150 main_v151 (mulf : (⟨S512x256, .f32⟩ : BufTy).Contents (Elt F) → (⟨S512x256, .f32⟩ : BufTy).Contents (Elt F) → (⟨S512x256, .f32⟩ : BufTy).Contents (Elt F)),
    StableHlo.unary main_arg24 main_v152 (broadcastInDim S1x256 ![1] bcast_S256_S1x256_1 : (⟨S256, .f32⟩ : BufTy).Contents (Elt F) → (⟨S1x256, .f32⟩ : BufTy).Contents (Elt F)),
    StableHlo.unary main_v152 main_v153 (broadcastInDim S512x256 ![0, 1] bcast_S1x256_S512x256_0_1 : (⟨S1x256, .f32⟩ : BufTy).Contents (Elt F) → (⟨S512x256, .f32⟩ : BufTy).Contents (Elt F)),
    StableHlo.binary main_v151 main_v153 main_v154 (addf : (⟨S512x256, .f32⟩ : BufTy).Contents (Elt F) → (⟨S512x256, .f32⟩ : BufTy).Contents (Elt F) → (⟨S512x256, .f32⟩ : BufTy).Contents (Elt F)),
    StableHlo.TRef.nullary main_call5.cst (constant S_ .f32 0x00000000#32),
    StableHlo.TRef.unary main_call5.cst main_call5.v0 (broadcastInDim S512x256 ![] bcast_S_S512x256),
    StableHlo.TRef.binary (.of main_v154) main_call5.v0 main_call5.v1 maximumf,
    StableHlo.binary main_v155 main_arg25 main_v156 ((fun l r => Host.dotGeneral dot_S512x256_S256x47_S512x47_1_0_0_1_n_n none l r) : (⟨S512x256, .f32⟩ : BufTy).Contents (Elt F) → (⟨S256x47, .f32⟩ : BufTy).Contents (Elt F) → (⟨S512x47, .f32⟩ : BufTy).Contents (Elt F)),
    StableHlo.unary main_arg26 main_v157 (broadcastInDim S1x47 ![1] bcast_S47_S1x47_1 : (⟨S47, .f32⟩ : BufTy).Contents (Elt F) → (⟨S1x47, .f32⟩ : BufTy).Contents (Elt F)),
    StableHlo.unary main_v157 main_v158 (broadcastInDim S512x47 ![0, 1] bcast_S1x47_S512x47_0_1 : (⟨S1x47, .f32⟩ : BufTy).Contents (Elt F) → (⟨S512x47, .f32⟩ : BufTy).Contents (Elt F)),
    StableHlo.binary main_v156 main_v158 main_v159 (addf : (⟨S512x47, .f32⟩ : BufTy).Contents (Elt F) → (⟨S512x47, .f32⟩ : BufTy).Contents (Elt F) → (⟨S512x47, .f32⟩ : BufTy).Contents (Elt F)) ]

set_option maxRecDepth 8192 in
/-- Window 0 is its list run in order: the called functions unfolded at their calls and sequencing reassociated,
    both sides are one chain of `hlo` steps. -/
theorem part0_eq (c : Dev nD) : main_part0 (F := F) c = seq ops0 := by
  simp only [main_part0, fn_var.body, fn_where.body, seq, bind_assoc, pure_bind]
  rfl

set_option maxRecDepth 8192 in
/-- Window 1 is its list run in order: the called functions unfolded at their calls and sequencing reassociated,
    both sides are one chain of `hlo` steps. -/
theorem part1_eq (c : Dev nD) : main_part1 (F := F) c = seq ops1 := by
  simp only [main_part1, fn_relu.body, fn_var_0.body, fn_where.body, seq, bind_assoc, pure_bind]
  rfl

set_option maxRecDepth 8192 in
/-- Window 2 is its list run in order: the called functions unfolded at their calls and sequencing reassociated,
    both sides are one chain of `hlo` steps. -/
theorem part2_eq (c : Dev nD) : main_part2 (F := F) c = seq ops2 := by
  simp only [main_part2, fn_relu_1.body, fn_var_2.body, fn_where.body, seq, bind_assoc, pure_bind]
  rfl

set_option maxRecDepth 8192 in
/-- Window 3 is its list run in order: the called functions unfolded at their calls and sequencing reassociated,
    both sides are one chain of `hlo` steps. -/
theorem part3_eq (c : Dev nD) : main_part3 (F := F) c = seq ops3 := by
  simp only [main_part3, fn_relu_3.body, seq, bind_assoc, pure_bind]

/-- @main's 265 operations, in order, each callee's listed inline at its call site over the call's buffer record. -/
abbrev ops : List (HloOp τ sig (Elt F)) :=
  [ StableHlo.nullary main_c (constantI S_ 32 0#32),
    StableHlo.unary main_c main_v0 (broadcastInDim S619520 ![] bcast_S_S619520 : (⟨S_, .i32⟩ : BufTy).Contents (Elt F) → (⟨S619520, .i32⟩ : BufTy).Contents (Elt F)),
    StableHlo.binary main_arg1 main_v0 main_v1 (cmpi .slt : (⟨S619520, .i32⟩ : BufTy).Contents (Elt F) → (⟨S619520, .i32⟩ : BufTy).Contents (Elt F) → (⟨S619520, .i1⟩ : BufTy).Contents (Elt F)),
    StableHlo.nullary main_c_0 (constantI S_ 32 681472#32),
    StableHlo.unary main_c_0 main_v2 (broadcastInDim S619520 ![] bcast_S_S619520 : (⟨S_, .i32⟩ : BufTy).Contents (Elt F) → (⟨S619520, .i32⟩ : BufTy).Contents (Elt F)),
    StableHlo.binary main_arg1 main_v2 main_v3 (addi : (⟨S619520, .i32⟩ : BufTy).Contents (Elt F) → (⟨S619520, .i32⟩ : BufTy).Contents (Elt F) → (⟨S619520, .i32⟩ : BufTy).Contents (Elt F)),
    StableHlo.ternary main_v1 main_v3 main_arg1 main_v4 (select : (⟨S619520, .i1⟩ : BufTy).Contents (Elt F) → (⟨S619520, .i32⟩ : BufTy).Contents (Elt F) → (⟨S619520, .i32⟩ : BufTy).Contents (Elt F) → (⟨S619520, .i32⟩ : BufTy).Contents (Elt F)),
    StableHlo.unary main_v4 main_v5 (broadcastInDim S619520x1 ![0] bcast_S619520_S619520x1_0 : (⟨S619520, .i32⟩ : BufTy).Contents (Elt F) → (⟨S619520x1, .i32⟩ : BufTy).Contents (Elt F)),
    StableHlo.binary main_arg0 main_v5 main_v6 ((fun x i => Host.gather gather_S681472x256_S619520x1_S619520x256_1_0_n_n_0_1_1256 x i) : (⟨S681472x256, .f32⟩ : BufTy).Contents (Elt F) → (⟨S619520x1, .i32⟩ : BufTy).Contents (Elt F) → (⟨S619520x256, .f32⟩ : BufTy).Contents (Elt F)),
    StableHlo.nullary main_cst (constant S_ .f32 0x00000000#32),
    StableHlo.unary main_cst main_v7 (broadcastInDim S61952x256 ![] bcast_S_S61952x256 : (⟨S_, .f32⟩ : BufTy).Contents (Elt F) → (⟨S61952x256, .f32⟩ : BufTy).Contents (Elt F)),
    StableHlo.unary main_arg2 main_v8 (broadcastInDim S619520x1 ![0] bcast_S619520_S619520x1_0 : (⟨S619520, .i32⟩ : BufTy).Contents (Elt F) → (⟨S619520x1, .i32⟩ : BufTy).Contents (Elt F)),
    StableHlo.ternary main_v7 main_v8 main_v6 main_v9 ((fun x i u => Host.scatterAdd scatter_S61952x256_S619520x1_S619520x256_1_0_0_1 x i u) : (⟨S61952x256, .f32⟩ : BufTy).Contents (Elt F) → (⟨S619520x1, .i32⟩ : BufTy).Contents (Elt F) → (⟨S619520x256, .f32⟩ : BufTy).Contents (Elt F) → (⟨S61952x256, .f32⟩ : BufTy).Contents (Elt F)),
    StableHlo.nullary main_cst_1 (constant S_ .f32 0x3F800000#32),
    StableHlo.unary main_cst_1 main_v10 (broadcastInDim S619520 ![] bcast_S_S619520 : (⟨S_, .f32⟩ : BufTy).Contents (Elt F) → (⟨S619520, .f32⟩ : BufTy).Contents (Elt F)),
    StableHlo.nullary main_cst_2 (constant S_ .f32 0x00000000#32),
    StableHlo.unary main_cst_2 main_v11 (broadcastInDim S61952 ![] bcast_S_S61952 : (⟨S_, .f32⟩ : BufTy).Contents (Elt F) → (⟨S61952, .f32⟩ : BufTy).Contents (Elt F)),
    StableHlo.unary main_arg2 main_v12 (broadcastInDim S619520x1 ![0] bcast_S619520_S619520x1_0 : (⟨S619520, .i32⟩ : BufTy).Contents (Elt F) → (⟨S619520x1, .i32⟩ : BufTy).Contents (Elt F)),
    StableHlo.ternary main_v11 main_v12 main_v10 main_v13 ((fun x i u => Host.scatterAdd scatter_S61952_S619520x1_S619520_n_0_0_1 x i u) : (⟨S61952, .f32⟩ : BufTy).Contents (Elt F) → (⟨S619520x1, .i32⟩ : BufTy).Contents (Elt F) → (⟨S619520, .f32⟩ : BufTy).Contents (Elt F) → (⟨S61952, .f32⟩ : BufTy).Contents (Elt F)),
    StableHlo.nullary main_cst_3 (constant S_ .f32 0x3F800000#32),
    StableHlo.unary main_cst_3 main_v14 (broadcastInDim S61952 ![] bcast_S_S61952 : (⟨S_, .f32⟩ : BufTy).Contents (Elt F) → (⟨S61952, .f32⟩ : BufTy).Contents (Elt F)),
    StableHlo.binary main_v13 main_v14 main_v15 (maximumf : (⟨S61952, .f32⟩ : BufTy).Contents (Elt F) → (⟨S61952, .f32⟩ : BufTy).Contents (Elt F) → (⟨S61952, .f32⟩ : BufTy).Contents (Elt F)),
    StableHlo.unary main_v15 main_v16 (broadcastInDim S61952x1 ![0] bcast_S61952_S61952x1_0 : (⟨S61952, .f32⟩ : BufTy).Contents (Elt F) → (⟨S61952x1, .f32⟩ : BufTy).Contents (Elt F)),
    StableHlo.unary main_v16 main_v17 (broadcastInDim S61952x256 ![0, 1] bcast_S61952x1_S61952x256_0_1 : (⟨S61952x1, .f32⟩ : BufTy).Contents (Elt F) → (⟨S61952x256, .f32⟩ : BufTy).Contents (Elt F)),
    StableHlo.binary main_v9 main_v17 main_v18 (Host.divf : (⟨S61952x256, .f32⟩ : BufTy).Contents (Elt F) → (⟨S61952x256, .f32⟩ : BufTy).Contents (Elt F) → (⟨S61952x256, .f32⟩ : BufTy).Contents (Elt F)),
    StableHlo.nullary main_c_4 (constantI S_ 32 0#32),
    StableHlo.unary main_c_4 main_v19 (broadcastInDim S61952 ![] bcast_S_S61952 : (⟨S_, .i32⟩ : BufTy).Contents (Elt F) → (⟨S61952, .i32⟩ : BufTy).Contents (Elt F)),
    StableHlo.binary main_arg3 main_v19 main_v20 (cmpi .slt : (⟨S61952, .i32⟩ : BufTy).Contents (Elt F) → (⟨S61952, .i32⟩ : BufTy).Contents (Elt F) → (⟨S61952, .i1⟩ : BufTy).Contents (Elt F)),
    StableHlo.nullary main_c_5 (constantI S_ 32 681472#32),
    StableHlo.unary main_c_5 main_v21 (broadcastInDim S61952 ![] bcast_S_S61952 : (⟨S_, .i32⟩ : BufTy).Contents (Elt F) → (⟨S61952, .i32⟩ : BufTy).Contents (Elt F)),
    StableHlo.binary main_arg3 main_v21 main_v22 (addi : (⟨S61952, .i32⟩ : BufTy).Contents (Elt F) → (⟨S61952, .i32⟩ : BufTy).Contents (Elt F) → (⟨S61952, .i32⟩ : BufTy).Contents (Elt F)),
    StableHlo.ternary main_v20 main_v22 main_arg3 main_v23 (select : (⟨S61952, .i1⟩ : BufTy).Contents (Elt F) → (⟨S61952, .i32⟩ : BufTy).Contents (Elt F) → (⟨S61952, .i32⟩ : BufTy).Contents (Elt F) → (⟨S61952, .i32⟩ : BufTy).Contents (Elt F)),
    StableHlo.unary main_v23 main_v24 (broadcastInDim S61952x1 ![0] bcast_S61952_S61952x1_0 : (⟨S61952, .i32⟩ : BufTy).Contents (Elt F) → (⟨S61952x1, .i32⟩ : BufTy).Contents (Elt F)),
    StableHlo.binary main_arg0 main_v24 main_v25 ((fun x i => Host.gather gather_S681472x256_S61952x1_S61952x256_1_0_n_n_0_1_1256 x i) : (⟨S681472x256, .f32⟩ : BufTy).Contents (Elt F) → (⟨S61952x1, .i32⟩ : BufTy).Contents (Elt F) → (⟨S61952x256, .f32⟩ : BufTy).Contents (Elt F)),
    StableHlo.binary main_v18 main_arg10 main_v26 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v25 main_arg11 main_v27 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v26 main_v27 main_v28 (addf : (⟨S61952x256, .f32⟩ : BufTy).Contents (Elt F) → (⟨S61952x256, .f32⟩ : BufTy).Contents (Elt F) → (⟨S61952x256, .f32⟩ : BufTy).Contents (Elt F)),
    StableHlo.unary main_arg12 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S61952x256 ![0, 1] bcast_S1x256_S61952x256_0_1 : (⟨S1x256, .f32⟩ : BufTy).Contents (Elt F) → (⟨S61952x256, .f32⟩ : BufTy).Contents (Elt F)),
    StableHlo.binary main_v28 main_v30 main_v31 (addf : (⟨S61952x256, .f32⟩ : BufTy).Contents (Elt F) → (⟨S61952x256, .f32⟩ : BufTy).Contents (Elt F) → (⟨S61952x256, .f32⟩ : BufTy).Contents (Elt F)),
    StableHlo.nullary main_cst_6 (constant S_ .f32 0x00000000#32),
    StableHlo.binary main_v31 main_cst_6 main_v32 ((fun x v => Host.reduceAdd x v reducesTo_S61952x256_S256_d0 h_S_) : (⟨S61952x256, .f32⟩ : BufTy).Contents (Elt F) → (⟨S_, .f32⟩ : BufTy).Contents (Elt F) → (⟨S256, .f32⟩ : BufTy).Contents (Elt F)),
    StableHlo.nullary main_cst_7 (constant S_ .f32 0x47720000#32),
    StableHlo.unary main_cst_7 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.TRef.nullary main_call0.cst (constant S_ .f32 0x00000000#32),
    StableHlo.TRef.binary (.of main_v31) main_call0.cst main_call0.v0 (fun x v => Host.reduceAdd x v reducesTo_S61952x256_S256_d0 h_S_),
    StableHlo.TRef.unary main_call0.v0 main_call0.v1 (broadcastInDim S1x256 ![1] bcast_S256_S1x256_1),
    StableHlo.TRef.nullary main_call0.cst_0 (constant S_ .f32 0x47720000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S61952x256 ![0, 1] bcast_S1x256_S61952x256_0_1),
    StableHlo.TRef.binary (.of main_v31) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x47720000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S61952x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v34 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S61952x256 ![0, 1] bcast_S1x256_S61952x256_0_1 : (⟨S1x256, .f32⟩ : BufTy).Contents (Elt F) → (⟨S61952x256, .f32⟩ : BufTy).Contents (Elt F)),
    StableHlo.binary main_v31 main_v37 main_v38 (subf : (⟨S61952x256, .f32⟩ : BufTy).Contents (Elt F) → (⟨S61952x256, .f32⟩ : BufTy).Contents (Elt F) → (⟨S61952x256, .f32⟩ : BufTy).Contents (Elt F)),
    StableHlo.nullary main_cst_9 (constant S_ .f32 0x3727C5AC#32),
    StableHlo.unary main_cst_9 main_v39 (broadcastInDim S256 ![] bcast_S_S256 : (⟨S_, .f32⟩ : BufTy).Contents (Elt F) → (⟨S256, .f32⟩ : BufTy).Contents (Elt F)),
    StableHlo.binary main_v35 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S61952x256 ![0, 1] bcast_S1x256_S61952x256_0_1 : (⟨S1x256, .f32⟩ : BufTy).Contents (Elt F) → (⟨S61952x256, .f32⟩ : BufTy).Contents (Elt F)),
    StableHlo.binary main_v38 main_v43 main_v44 (mulf : (⟨S61952x256, .f32⟩ : BufTy).Contents (Elt F) → (⟨S61952x256, .f32⟩ : BufTy).Contents (Elt F) → (⟨S61952x256, .f32⟩ : BufTy).Contents (Elt F)),
    StableHlo.unary main_arg13 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S61952x256 ![0, 1] bcast_S1x256_S61952x256_0_1 : (⟨S1x256, .f32⟩ : BufTy).Contents (Elt F) → (⟨S61952x256, .f32⟩ : BufTy).Contents (Elt F)),
    StableHlo.binary main_v44 main_v46 main_v47 (mulf : (⟨S61952x256, .f32⟩ : BufTy).Contents (Elt F) → (⟨S61952x256, .f32⟩ : BufTy).Contents (Elt F) → (⟨S61952x256, .f32⟩ : BufTy).Contents (Elt F)),
    StableHlo.unary main_arg14 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S61952x256 ![0, 1] bcast_S1x256_S61952x256_0_1 : (⟨S1x256, .f32⟩ : BufTy).Contents (Elt F) → (⟨S61952x256, .f32⟩ : BufTy).Contents (Elt F)),
    StableHlo.binary main_v47 main_v49 main_v50 (addf : (⟨S61952x256, .f32⟩ : BufTy).Contents (Elt F) → (⟨S61952x256, .f32⟩ : BufTy).Contents (Elt F) → (⟨S61952x256, .f32⟩ : BufTy).Contents (Elt F)),
    StableHlo.TRef.nullary main_call1.cst (constant S_ .f32 0x00000000#32),
    StableHlo.TRef.unary main_call1.cst main_call1.v0 (broadcastInDim S61952x256 ![] bcast_S_S61952x256),
    StableHlo.TRef.binary (.of main_v50) main_call1.v0 main_call1.v1 maximumf,
    StableHlo.nullary main_c_10 (constantI S_ 32 0#32),
    StableHlo.unary main_c_10 main_v52 (broadcastInDim S56320 ![] bcast_S_S56320 : (⟨S_, .i32⟩ : BufTy).Contents (Elt F) → (⟨S56320, .i32⟩ : BufTy).Contents (Elt F)),
    StableHlo.binary main_arg4 main_v52 main_v53 (cmpi .slt : (⟨S56320, .i32⟩ : BufTy).Contents (Elt F) → (⟨S56320, .i32⟩ : BufTy).Contents (Elt F) → (⟨S56320, .i1⟩ : BufTy).Contents (Elt F)),
    StableHlo.nullary main_c_11 (constantI S_ 32 61952#32),
    StableHlo.unary main_c_11 main_v54 (broadcastInDim S56320 ![] bcast_S_S56320 : (⟨S_, .i32⟩ : BufTy).Contents (Elt F) → (⟨S56320, .i32⟩ : BufTy).Contents (Elt F)),
    StableHlo.binary main_arg4 main_v54 main_v55 (addi : (⟨S56320, .i32⟩ : BufTy).Contents (Elt F) → (⟨S56320, .i32⟩ : BufTy).Contents (Elt F) → (⟨S56320, .i32⟩ : BufTy).Contents (Elt F)),
    StableHlo.ternary main_v53 main_v55 main_arg4 main_v56 (select : (⟨S56320, .i1⟩ : BufTy).Contents (Elt F) → (⟨S56320, .i32⟩ : BufTy).Contents (Elt F) → (⟨S56320, .i32⟩ : BufTy).Contents (Elt F) → (⟨S56320, .i32⟩ : BufTy).Contents (Elt F)),
    StableHlo.unary main_v56 main_v57 (broadcastInDim S56320x1 ![0] bcast_S56320_S56320x1_0 : (⟨S56320, .i32⟩ : BufTy).Contents (Elt F) → (⟨S56320x1, .i32⟩ : BufTy).Contents (Elt F)),
    StableHlo.binary main_v51 main_v57 main_v58 ((fun x i => Host.gather gather_S61952x256_S56320x1_S56320x256_1_0_n_n_0_1_1256 x i) : (⟨S61952x256, .f32⟩ : BufTy).Contents (Elt F) → (⟨S56320x1, .i32⟩ : BufTy).Contents (Elt F) → (⟨S56320x256, .f32⟩ : BufTy).Contents (Elt F)),
    StableHlo.nullary main_cst_12 (constant S_ .f32 0x00000000#32),
    StableHlo.unary main_cst_12 main_v59 (broadcastInDim S5632x256 ![] bcast_S_S5632x256 : (⟨S_, .f32⟩ : BufTy).Contents (Elt F) → (⟨S5632x256, .f32⟩ : BufTy).Contents (Elt F)),
    StableHlo.unary main_arg5 main_v60 (broadcastInDim S56320x1 ![0] bcast_S56320_S56320x1_0 : (⟨S56320, .i32⟩ : BufTy).Contents (Elt F) → (⟨S56320x1, .i32⟩ : BufTy).Contents (Elt F)),
    StableHlo.ternary main_v59 main_v60 main_v58 main_v61 ((fun x i u => Host.scatterAdd scatter_S5632x256_S56320x1_S56320x256_1_0_0_1 x i u) : (⟨S5632x256, .f32⟩ : BufTy).Contents (Elt F) → (⟨S56320x1, .i32⟩ : BufTy).Contents (Elt F) → (⟨S56320x256, .f32⟩ : BufTy).Contents (Elt F) → (⟨S5632x256, .f32⟩ : BufTy).Contents (Elt F)),
    StableHlo.nullary main_cst_13 (constant S_ .f32 0x3F800000#32),
    StableHlo.unary main_cst_13 main_v62 (broadcastInDim S56320 ![] bcast_S_S56320 : (⟨S_, .f32⟩ : BufTy).Contents (Elt F) → (⟨S56320, .f32⟩ : BufTy).Contents (Elt F)),
    StableHlo.nullary main_cst_14 (constant S_ .f32 0x00000000#32),
    StableHlo.unary main_cst_14 main_v63 (broadcastInDim S5632 ![] bcast_S_S5632 : (⟨S_, .f32⟩ : BufTy).Contents (Elt F) → (⟨S5632, .f32⟩ : BufTy).Contents (Elt F)),
    StableHlo.unary main_arg5 main_v64 (broadcastInDim S56320x1 ![0] bcast_S56320_S56320x1_0 : (⟨S56320, .i32⟩ : BufTy).Contents (Elt F) → (⟨S56320x1, .i32⟩ : BufTy).Contents (Elt F)),
    StableHlo.ternary main_v63 main_v64 main_v62 main_v65 ((fun x i u => Host.scatterAdd scatter_S5632_S56320x1_S56320_n_0_0_1 x i u) : (⟨S5632, .f32⟩ : BufTy).Contents (Elt F) → (⟨S56320x1, .i32⟩ : BufTy).Contents (Elt F) → (⟨S56320, .f32⟩ : BufTy).Contents (Elt F) → (⟨S5632, .f32⟩ : BufTy).Contents (Elt F)),
    StableHlo.nullary main_cst_15 (constant S_ .f32 0x3F800000#32),
    StableHlo.unary main_cst_15 main_v66 (broadcastInDim S5632 ![] bcast_S_S5632 : (⟨S_, .f32⟩ : BufTy).Contents (Elt F) → (⟨S5632, .f32⟩ : BufTy).Contents (Elt F)),
    StableHlo.binary main_v65 main_v66 main_v67 (maximumf : (⟨S5632, .f32⟩ : BufTy).Contents (Elt F) → (⟨S5632, .f32⟩ : BufTy).Contents (Elt F) → (⟨S5632, .f32⟩ : BufTy).Contents (Elt F)),
    StableHlo.unary main_v67 main_v68 (broadcastInDim S5632x1 ![0] bcast_S5632_S5632x1_0 : (⟨S5632, .f32⟩ : BufTy).Contents (Elt F) → (⟨S5632x1, .f32⟩ : BufTy).Contents (Elt F)),
    StableHlo.unary main_v68 main_v69 (broadcastInDim S5632x256 ![0, 1] bcast_S5632x1_S5632x256_0_1 : (⟨S5632x1, .f32⟩ : BufTy).Contents (Elt F) → (⟨S5632x256, .f32⟩ : BufTy).Contents (Elt F)),
    StableHlo.binary main_v61 main_v69 main_v70 (Host.divf : (⟨S5632x256, .f32⟩ : BufTy).Contents (Elt F) → (⟨S5632x256, .f32⟩ : BufTy).Contents (Elt F) → (⟨S5632x256, .f32⟩ : BufTy).Contents (Elt F)),
    StableHlo.nullary main_c_16 (constantI S_ 32 0#32),
    StableHlo.unary main_c_16 main_v71 (broadcastInDim S5632 ![] bcast_S_S5632 : (⟨S_, .i32⟩ : BufTy).Contents (Elt F) → (⟨S5632, .i32⟩ : BufTy).Contents (Elt F)),
    StableHlo.binary main_arg6 main_v71 main_v72 (cmpi .slt : (⟨S5632, .i32⟩ : BufTy).Contents (Elt F) → (⟨S5632, .i32⟩ : BufTy).Contents (Elt F) → (⟨S5632, .i1⟩ : BufTy).Contents (Elt F)),
    StableHlo.nullary main_c_17 (constantI S_ 32 61952#32),
    StableHlo.unary main_c_17 main_v73 (broadcastInDim S5632 ![] bcast_S_S5632 : (⟨S_, .i32⟩ : BufTy).Contents (Elt F) → (⟨S5632, .i32⟩ : BufTy).Contents (Elt F)),
    StableHlo.binary main_arg6 main_v73 main_v74 (addi : (⟨S5632, .i32⟩ : BufTy).Contents (Elt F) → (⟨S5632, .i32⟩ : BufTy).Contents (Elt F) → (⟨S5632, .i32⟩ : BufTy).Contents (Elt F)),
    StableHlo.ternary main_v72 main_v74 main_arg6 main_v75 (select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)),
    StableHlo.unary main_v75 main_v76 (broadcastInDim S5632x1 ![0] bcast_S5632_S5632x1_0 : (⟨S5632, .i32⟩ : BufTy).Contents (Elt F) → (⟨S5632x1, .i32⟩ : BufTy).Contents (Elt F)),
    StableHlo.binary main_v51 main_v76 main_v77 ((fun x i => Host.gather gather_S61952x256_S5632x1_S5632x256_1_0_n_n_0_1_1256 x i) : (⟨S61952x256, .f32⟩ : BufTy).Contents (Elt F) → (⟨S5632x1, .i32⟩ : BufTy).Contents (Elt F) → (⟨S5632x256, .f32⟩ : BufTy).Contents (Elt F)),
    StableHlo.binary main_v70 main_arg15 main_v78 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v77 main_arg16 main_v79 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v78 main_v79 main_v80 (addf : (⟨S5632x256, .f32⟩ : BufTy).Contents (Elt F) → (⟨S5632x256, .f32⟩ : BufTy).Contents (Elt F) → (⟨S5632x256, .f32⟩ : BufTy).Contents (Elt F)),
    StableHlo.unary main_arg17 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S5632x256 ![0, 1] bcast_S1x256_S5632x256_0_1 : (⟨S1x256, .f32⟩ : BufTy).Contents (Elt F) → (⟨S5632x256, .f32⟩ : BufTy).Contents (Elt F)),
    StableHlo.binary main_v80 main_v82 main_v83 (addf : (⟨S5632x256, .f32⟩ : BufTy).Contents (Elt F) → (⟨S5632x256, .f32⟩ : BufTy).Contents (Elt F) → (⟨S5632x256, .f32⟩ : BufTy).Contents (Elt F)),
    StableHlo.nullary main_cst_18 (constant S_ .f32 0x00000000#32),
    StableHlo.binary main_v83 main_cst_18 main_v84 ((fun x v => Host.reduceAdd x v reducesTo_S5632x256_S256_d0 h_S_) : (⟨S5632x256, .f32⟩ : BufTy).Contents (Elt F) → (⟨S_, .f32⟩ : BufTy).Contents (Elt F) → (⟨S256, .f32⟩ : BufTy).Contents (Elt F)),
    StableHlo.nullary main_cst_19 (constant S_ .f32 0x45B00000#32),
    StableHlo.unary main_cst_19 main_v85 (broadcastInDim S256 ![] bcast_S_S256 : (⟨S_, .f32⟩ : BufTy).Contents (Elt F) → (⟨S256, .f32⟩ : BufTy).Contents (Elt F)),
    StableHlo.binary main_v84 main_v85 main_v86 (Host.divf : (⟨S256, .f32⟩ : BufTy).Contents (Elt F) → (⟨S256, .f32⟩ : BufTy).Contents (Elt F) → (⟨S256, .f32⟩ : BufTy).Contents (Elt F)),
    StableHlo.nullary main_c_20 (constantI S_ 32 0#32),
    StableHlo.TRef.nullary main_call2.cst (constant S_ .f32 0x00000000#32),
    StableHlo.TRef.binary (.of main_v83) main_call2.cst main_call2.v0 (fun x v => Host.reduceAdd x v reducesTo_S5632x256_S256_d0 h_S_),
    StableHlo.TRef.unary main_call2.v0 main_call2.v1 (broadcastInDim S1x256 ![1] bcast_S256_S1x256_1),
    StableHlo.TRef.nullary main_call2.cst_0 (constant S_ .f32 0x45B00000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S5632x256 ![0, 1] bcast_S1x256_S5632x256_0_1),
    StableHlo.TRef.binary (.of main_v83) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x45B00000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S5632x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v86 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S5632x256 ![0, 1] bcast_S1x256_S5632x256_0_1 : (⟨S1x256, .f32⟩ : BufTy).Contents (Elt F) → (⟨S5632x256, .f32⟩ : BufTy).Contents (Elt F)),
    StableHlo.binary main_v83 main_v89 main_v90 (subf : (⟨S5632x256, .f32⟩ : BufTy).Contents (Elt F) → (⟨S5632x256, .f32⟩ : BufTy).Contents (Elt F) → (⟨S5632x256, .f32⟩ : BufTy).Contents (Elt F)),
    StableHlo.nullary main_cst_21 (constant S_ .f32 0x3727C5AC#32),
    StableHlo.unary main_cst_21 main_v91 (broadcastInDim S256 ![] bcast_S_S256 : (⟨S_, .f32⟩ : BufTy).Contents (Elt F) → (⟨S256, .f32⟩ : BufTy).Contents (Elt F)),
    StableHlo.binary main_v87 main_v91 main_v92 (addf : (⟨S256, .f32⟩ : BufTy).Contents (Elt F) → (⟨S256, .f32⟩ : BufTy).Contents (Elt F) → (⟨S256, .f32⟩ : BufTy).Contents (Elt F)),
    StableHlo.unary main_v92 main_v93 (Host.rsqrt : (⟨S256, .f32⟩ : BufTy).Contents (Elt F) → (⟨S256, .f32⟩ : BufTy).Contents (Elt F)),
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S5632x256 ![0, 1] bcast_S1x256_S5632x256_0_1 : (⟨S1x256, .f32⟩ : BufTy).Contents (Elt F) → (⟨S5632x256, .f32⟩ : BufTy).Contents (Elt F)),
    StableHlo.binary main_v90 main_v95 main_v96 (mulf : (⟨S5632x256, .f32⟩ : BufTy).Contents (Elt F) → (⟨S5632x256, .f32⟩ : BufTy).Contents (Elt F) → (⟨S5632x256, .f32⟩ : BufTy).Contents (Elt F)),
    StableHlo.unary main_arg18 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S5632x256 ![0, 1] bcast_S1x256_S5632x256_0_1 : (⟨S1x256, .f32⟩ : BufTy).Contents (Elt F) → (⟨S5632x256, .f32⟩ : BufTy).Contents (Elt F)),
    StableHlo.binary main_v96 main_v98 main_v99 (mulf : (⟨S5632x256, .f32⟩ : BufTy).Contents (Elt F) → (⟨S5632x256, .f32⟩ : BufTy).Contents (Elt F) → (⟨S5632x256, .f32⟩ : BufTy).Contents (Elt F)),
    StableHlo.unary main_arg19 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S5632x256 ![0, 1] bcast_S1x256_S5632x256_0_1 : (⟨S1x256, .f32⟩ : BufTy).Contents (Elt F) → (⟨S5632x256, .f32⟩ : BufTy).Contents (Elt F)),
    StableHlo.binary main_v99 main_v101 main_v102 (addf : (⟨S5632x256, .f32⟩ : BufTy).Contents (Elt F) → (⟨S5632x256, .f32⟩ : BufTy).Contents (Elt F) → (⟨S5632x256, .f32⟩ : BufTy).Contents (Elt F)),
    StableHlo.TRef.nullary main_call3.cst (constant S_ .f32 0x00000000#32),
    StableHlo.TRef.unary main_call3.cst main_call3.v0 (broadcastInDim S5632x256 ![] bcast_S_S5632x256),
    StableHlo.TRef.binary (.of main_v102) main_call3.v0 main_call3.v1 maximumf,
    StableHlo.nullary main_c_22 (constantI S_ 32 0#32),
    StableHlo.unary main_c_22 main_v104 (broadcastInDim S5120 ![] bcast_S_S5120 : (⟨S_, .i32⟩ : BufTy).Contents (Elt F) → (⟨S5120, .i32⟩ : BufTy).Contents (Elt F)),
    StableHlo.binary main_arg7 main_v104 main_v105 (cmpi .slt : (⟨S5120, .i32⟩ : BufTy).Contents (Elt F) → (⟨S5120, .i32⟩ : BufTy).Contents (Elt F) → (⟨S5120, .i1⟩ : BufTy).Contents (Elt F)),
    StableHlo.nullary main_c_23 (constantI S_ 32 5632#32),
    StableHlo.unary main_c_23 main_v106 (broadcastInDim S5120 ![] bcast_S_S5120 : (⟨S_, .i32⟩ : BufTy).Contents (Elt F) → (⟨S5120, .i32⟩ : BufTy).Contents (Elt F)),
    StableHlo.binary main_arg7 main_v106 main_v107 (addi : (⟨S5120, .i32⟩ : BufTy).Contents (Elt F) → (⟨S5120, .i32⟩ : BufTy).Contents (Elt F) → (⟨S5120, .i32⟩ : BufTy).Contents (Elt F)),
    StableHlo.ternary main_v105 main_v107 main_arg7 main_v108 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    StableHlo.unary main_v108 main_v109 (broadcastInDim S5120x1 ![0] bcast_S5120_S5120x1_0 : (⟨S5120, .i32⟩ : BufTy).Contents (Elt F) → (⟨S5120x1, .i32⟩ : BufTy).Contents (Elt F)),
    StableHlo.binary main_v103 main_v109 main_v110 ((fun x i => Host.gather gather_S5632x256_S5120x1_S5120x256_1_0_n_n_0_1_1256 x i) : (⟨S5632x256, .f32⟩ : BufTy).Contents (Elt F) → (⟨S5120x1, .i32⟩ : BufTy).Contents (Elt F) → (⟨S5120x256, .f32⟩ : BufTy).Contents (Elt F)),
    StableHlo.nullary main_cst_24 (constant S_ .f32 0x00000000#32),
    StableHlo.unary main_cst_24 main_v111 (broadcastInDim S512x256 ![] bcast_S_S512x256 : (⟨S_, .f32⟩ : BufTy).Contents (Elt F) → (⟨S512x256, .f32⟩ : BufTy).Contents (Elt F)),
    StableHlo.unary main_arg8 main_v112 (broadcastInDim S5120x1 ![0] bcast_S5120_S5120x1_0 : (⟨S5120, .i32⟩ : BufTy).Contents (Elt F) → (⟨S5120x1, .i32⟩ : BufTy).Contents (Elt F)),
    StableHlo.ternary main_v111 main_v112 main_v110 main_v113 ((fun x i u => Host.scatterAdd scatter_S512x256_S5120x1_S5120x256_1_0_0_1 x i u) : (⟨S512x256, .f32⟩ : BufTy).Contents (Elt F) → (⟨S5120x1, .i32⟩ : BufTy).Contents (Elt F) → (⟨S5120x256, .f32⟩ : BufTy).Contents (Elt F) → (⟨S512x256, .f32⟩ : BufTy).Contents (Elt F)),
    StableHlo.nullary main_cst_25 (constant S_ .f32 0x3F800000#32),
    StableHlo.unary main_cst_25 main_v114 (broadcastInDim S5120 ![] bcast_S_S5120 : (⟨S_, .f32⟩ : BufTy).Contents (Elt F) → (⟨S5120, .f32⟩ : BufTy).Contents (Elt F)),
    StableHlo.nullary main_cst_26 (constant S_ .f32 0x00000000#32),
    StableHlo.unary main_cst_26 main_v115 (broadcastInDim S512 ![] bcast_S_S512 : (⟨S_, .f32⟩ : BufTy).Contents (Elt F) → (⟨S512, .f32⟩ : BufTy).Contents (Elt F)),
    StableHlo.unary main_arg8 main_v116 (broadcastInDim S5120x1 ![0] bcast_S5120_S5120x1_0 : (⟨S5120, .i32⟩ : BufTy).Contents (Elt F) → (⟨S5120x1, .i32⟩ : BufTy).Contents (Elt F)),
    StableHlo.ternary main_v115 main_v116 main_v114 main_v117 ((fun x i u => Host.scatterAdd scatter_S512_S5120x1_S5120_n_0_0_1 x i u) : (⟨S512, .f32⟩ : BufTy).Contents (Elt F) → (⟨S5120x1, .i32⟩ : BufTy).Contents (Elt F) → (⟨S5120, .f32⟩ : BufTy).Contents (Elt F) → (⟨S512, .f32⟩ : BufTy).Contents (Elt F)),
    StableHlo.nullary main_cst_27 (constant S_ .f32 0x3F800000#32),
    StableHlo.unary main_cst_27 main_v118 (broadcastInDim S512 ![] bcast_S_S512 : (⟨S_, .f32⟩ : BufTy).Contents (Elt F) → (⟨S512, .f32⟩ : BufTy).Contents (Elt F)),
    StableHlo.binary main_v117 main_v118 main_v119 (maximumf : (⟨S512, .f32⟩ : BufTy).Contents (Elt F) → (⟨S512, .f32⟩ : BufTy).Contents (Elt F) → (⟨S512, .f32⟩ : BufTy).Contents (Elt F)),
    StableHlo.unary main_v119 main_v120 (broadcastInDim S512x1 ![0] bcast_S512_S512x1_0 : (⟨S512, .f32⟩ : BufTy).Contents (Elt F) → (⟨S512x1, .f32⟩ : BufTy).Contents (Elt F)),
    StableHlo.unary main_v120 main_v121 (broadcastInDim S512x256 ![0, 1] bcast_S512x1_S512x256_0_1 : (⟨S512x1, .f32⟩ : BufTy).Contents (Elt F) → (⟨S512x256, .f32⟩ : BufTy).Contents (Elt F)),
    StableHlo.binary main_v113 main_v121 main_v122 (Host.divf : (⟨S512x256, .f32⟩ : BufTy).Contents (Elt F) → (⟨S512x256, .f32⟩ : BufTy).Contents (Elt F) → (⟨S512x256, .f32⟩ : BufTy).Contents (Elt F)),
    StableHlo.nullary main_c_28 (constantI S_ 32 0#32),
    StableHlo.unary main_c_28 main_v123 (broadcastInDim S512 ![] bcast_S_S512 : (⟨S_, .i32⟩ : BufTy).Contents (Elt F) → (⟨S512, .i32⟩ : BufTy).Contents (Elt F)),
    StableHlo.binary main_arg9 main_v123 main_v124 (cmpi .slt : (⟨S512, .i32⟩ : BufTy).Contents (Elt F) → (⟨S512, .i32⟩ : BufTy).Contents (Elt F) → (⟨S512, .i1⟩ : BufTy).Contents (Elt F)),
    StableHlo.nullary main_c_29 (constantI S_ 32 5632#32),
    StableHlo.unary main_c_29 main_v125 (broadcastInDim S512 ![] bcast_S_S512 : (⟨S_, .i32⟩ : BufTy).Contents (Elt F) → (⟨S512, .i32⟩ : BufTy).Contents (Elt F)),
    StableHlo.binary main_arg9 main_v125 main_v126 (addi : (⟨S512, .i32⟩ : BufTy).Contents (Elt F) → (⟨S512, .i32⟩ : BufTy).Contents (Elt F) → (⟨S512, .i32⟩ : BufTy).Contents (Elt F)),
    StableHlo.ternary main_v124 main_v126 main_arg9 main_v127 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v127 main_v128 (broadcastInDim S512x1 ![0] bcast_S512_S512x1_0 : (⟨S512, .i32⟩ : BufTy).Contents (Elt F) → (⟨S512x1, .i32⟩ : BufTy).Contents (Elt F)),
    StableHlo.binary main_v103 main_v128 main_v129 ((fun x i => Host.gather gather_S5632x256_S512x1_S512x256_1_0_n_n_0_1_1256 x i) : (⟨S5632x256, .f32⟩ : BufTy).Contents (Elt F) → (⟨S512x1, .i32⟩ : BufTy).Contents (Elt F) → (⟨S512x256, .f32⟩ : BufTy).Contents (Elt F)),
    StableHlo.binary main_v122 main_arg20 main_v130 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v129 main_arg21 main_v131 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v130 main_v131 main_v132 (addf : (⟨S512x256, .f32⟩ : BufTy).Contents (Elt F) → (⟨S512x256, .f32⟩ : BufTy).Contents (Elt F) → (⟨S512x256, .f32⟩ : BufTy).Contents (Elt F)),
    StableHlo.unary main_arg22 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S512x256 ![0, 1] bcast_S1x256_S512x256_0_1 : (⟨S1x256, .f32⟩ : BufTy).Contents (Elt F) → (⟨S512x256, .f32⟩ : BufTy).Contents (Elt F)),
    StableHlo.binary main_v132 main_v134 main_v135 (addf : (⟨S512x256, .f32⟩ : BufTy).Contents (Elt F) → (⟨S512x256, .f32⟩ : BufTy).Contents (Elt F) → (⟨S512x256, .f32⟩ : BufTy).Contents (Elt F)),
    StableHlo.nullary main_cst_30 (constant S_ .f32 0x00000000#32),
    StableHlo.binary main_v135 main_cst_30 main_v136 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    StableHlo.nullary main_cst_31 (constant S_ .f32 0x44000000#32),
    StableHlo.unary main_cst_31 main_v137 (broadcastInDim S256 ![] bcast_S_S256 : (⟨S_, .f32⟩ : BufTy).Contents (Elt F) → (⟨S256, .f32⟩ : BufTy).Contents (Elt F)),
    StableHlo.binary main_v136 main_v137 main_v138 (Host.divf : (⟨S256, .f32⟩ : BufTy).Contents (Elt F) → (⟨S256, .f32⟩ : BufTy).Contents (Elt F) → (⟨S256, .f32⟩ : BufTy).Contents (Elt F)),
    StableHlo.nullary main_c_32 (constantI S_ 32 0#32),
    StableHlo.TRef.nullary main_call4.cst (constant S_ .f32 0x00000000#32),
    StableHlo.TRef.binary (.of main_v135) main_call4.cst main_call4.v0 (fun x v => Host.reduceAdd x v reducesTo_S512x256_S256_d0 h_S_),
    StableHlo.TRef.unary main_call4.v0 main_call4.v1 (broadcastInDim S1x256 ![1] bcast_S256_S1x256_1),
    StableHlo.TRef.nullary main_call4.cst_0 (constant S_ .f32 0x44000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S512x256 ![0, 1] bcast_S1x256_S512x256_0_1),
    StableHlo.TRef.binary (.of main_v135) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x44000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v138 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S512x256 ![0, 1] bcast_S1x256_S512x256_0_1 : (⟨S1x256, .f32⟩ : BufTy).Contents (Elt F) → (⟨S512x256, .f32⟩ : BufTy).Contents (Elt F)),
    StableHlo.binary main_v135 main_v141 main_v142 (subf : (⟨S512x256, .f32⟩ : BufTy).Contents (Elt F) → (⟨S512x256, .f32⟩ : BufTy).Contents (Elt F) → (⟨S512x256, .f32⟩ : BufTy).Contents (Elt F)),
    StableHlo.nullary main_cst_33 (constant S_ .f32 0x3727C5AC#32),
    StableHlo.unary main_cst_33 main_v143 (broadcastInDim S256 ![] bcast_S_S256 : (⟨S_, .f32⟩ : BufTy).Contents (Elt F) → (⟨S256, .f32⟩ : BufTy).Contents (Elt F)),
    StableHlo.binary main_v139 main_v143 main_v144 (addf : (⟨S256, .f32⟩ : BufTy).Contents (Elt F) → (⟨S256, .f32⟩ : BufTy).Contents (Elt F) → (⟨S256, .f32⟩ : BufTy).Contents (Elt F)),
    StableHlo.unary main_v144 main_v145 (Host.rsqrt : (⟨S256, .f32⟩ : BufTy).Contents (Elt F) → (⟨S256, .f32⟩ : BufTy).Contents (Elt F)),
    StableHlo.unary main_v145 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S512x256 ![0, 1] bcast_S1x256_S512x256_0_1 : (⟨S1x256, .f32⟩ : BufTy).Contents (Elt F) → (⟨S512x256, .f32⟩ : BufTy).Contents (Elt F)),
    StableHlo.binary main_v142 main_v147 main_v148 (mulf : (⟨S512x256, .f32⟩ : BufTy).Contents (Elt F) → (⟨S512x256, .f32⟩ : BufTy).Contents (Elt F) → (⟨S512x256, .f32⟩ : BufTy).Contents (Elt F)),
    StableHlo.unary main_arg23 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S512x256 ![0, 1] bcast_S1x256_S512x256_0_1 : (⟨S1x256, .f32⟩ : BufTy).Contents (Elt F) → (⟨S512x256, .f32⟩ : BufTy).Contents (Elt F)),
    StableHlo.binary main_v148 main_v150 main_v151 (mulf : (⟨S512x256, .f32⟩ : BufTy).Contents (Elt F) → (⟨S512x256, .f32⟩ : BufTy).Contents (Elt F) → (⟨S512x256, .f32⟩ : BufTy).Contents (Elt F)),
    StableHlo.unary main_arg24 main_v152 (broadcastInDim S1x256 ![1] bcast_S256_S1x256_1 : (⟨S256, .f32⟩ : BufTy).Contents (Elt F) → (⟨S1x256, .f32⟩ : BufTy).Contents (Elt F)),
    StableHlo.unary main_v152 main_v153 (broadcastInDim S512x256 ![0, 1] bcast_S1x256_S512x256_0_1 : (⟨S1x256, .f32⟩ : BufTy).Contents (Elt F) → (⟨S512x256, .f32⟩ : BufTy).Contents (Elt F)),
    StableHlo.binary main_v151 main_v153 main_v154 (addf : (⟨S512x256, .f32⟩ : BufTy).Contents (Elt F) → (⟨S512x256, .f32⟩ : BufTy).Contents (Elt F) → (⟨S512x256, .f32⟩ : BufTy).Contents (Elt F)),
    StableHlo.TRef.nullary main_call5.cst (constant S_ .f32 0x00000000#32),
    StableHlo.TRef.unary main_call5.cst main_call5.v0 (broadcastInDim S512x256 ![] bcast_S_S512x256),
    StableHlo.TRef.binary (.of main_v154) main_call5.v0 main_call5.v1 maximumf,
    StableHlo.binary main_v155 main_arg25 main_v156 ((fun l r => Host.dotGeneral dot_S512x256_S256x47_S512x47_1_0_0_1_n_n none l r) : (⟨S512x256, .f32⟩ : BufTy).Contents (Elt F) → (⟨S256x47, .f32⟩ : BufTy).Contents (Elt F) → (⟨S512x47, .f32⟩ : BufTy).Contents (Elt F)),
    StableHlo.unary main_arg26 main_v157 (broadcastInDim S1x47 ![1] bcast_S47_S1x47_1 : (⟨S47, .f32⟩ : BufTy).Contents (Elt F) → (⟨S1x47, .f32⟩ : BufTy).Contents (Elt F)),
    StableHlo.unary main_v157 main_v158 (broadcastInDim S512x47 ![0, 1] bcast_S1x47_S512x47_0_1 : (⟨S1x47, .f32⟩ : BufTy).Contents (Elt F) → (⟨S512x47, .f32⟩ : BufTy).Contents (Elt F)),
    StableHlo.binary main_v156 main_v158 main_v159 (addf : (⟨S512x47, .f32⟩ : BufTy).Contents (Elt F) → (⟨S512x47, .f32⟩ : BufTy).Contents (Elt F) → (⟨S512x47, .f32⟩ : BufTy).Contents (Elt F)) ]

/-- The whole line is the four windows' lists, one after the other. -/
theorem ops_eq : (ops : List (HloOp τ sig (Elt F))) = ops0 ++ (ops1 ++ (ops2 ++ ops3)) := rfl

/-- @main is that straight line. -/
theorem main_eq (c : Dev nD) : main (F := F) c = seq ops := by
  rw [ops_eq, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- The references the line writes: each operation's result, in order. -/
abbrev written : List (Ref sig .tc) :=
  [ main_c, main_v0, main_v1, main_c_0, main_v2, main_v3, main_v4, main_v5,
    main_v6, main_cst, main_v7, main_v8, main_v9, main_cst_1, main_v10, main_cst_2,
    main_v11, main_v12, main_v13, main_cst_3, main_v14, main_v15, main_v16, main_v17,
    main_v18, main_c_4, main_v19, main_v20, main_c_5, main_v21, main_v22, main_v23,
    main_v24, main_v25, main_v26, main_v27, main_v28, main_v29, main_v30, main_v31,
    main_cst_6, main_v32, main_cst_7, main_v33, main_v34, main_c_8, main_call0.cst.ref, main_call0.v0.ref,
    main_call0.v1.ref, main_call0.cst_0.ref, main_call0.v2.ref, main_call0.v3.ref, main_call0.v4.ref, main_call0.v5.ref, main_call0.v6.ref, main_call0.v7.ref,
    main_call0.cst_1.ref, main_call0.v8.ref, main_call0.cst_2.ref, main_call0.v9.ref, main_call0.v10.ref, main_call0.v11.ref, main_call0.cst_3.ref, main_call0.v12.ref,
    main_call0.cst_4.ref, main_call0.call0.v0.ref, main_call0.call0.v1.ref, main_call0.call0.v2.ref, main_v36, main_v37, main_v38, main_cst_9,
    main_v39, main_v40, main_v41, main_v42, main_v43, main_v44, main_v45, main_v46,
    main_v47, main_v48, main_v49, main_v50, main_call1.cst.ref, main_call1.v0.ref, main_call1.v1.ref, main_c_10,
    main_v52, main_v53, main_c_11, main_v54, main_v55, main_v56, main_v57, main_v58,
    main_cst_12, main_v59, main_v60, main_v61, main_cst_13, main_v62, main_cst_14, main_v63,
    main_v64, main_v65, main_cst_15, main_v66, main_v67, main_v68, main_v69, main_v70,
    main_c_16, main_v71, main_v72, main_c_17, main_v73, main_v74, main_v75, main_v76,
    main_v77, main_v78, main_v79, main_v80, main_v81, main_v82, main_v83, main_cst_18,
    main_v84, main_cst_19, main_v85, main_v86, main_c_20, main_call2.cst.ref, main_call2.v0.ref, main_call2.v1.ref,
    main_call2.cst_0.ref, main_call2.v2.ref, main_call2.v3.ref, main_call2.v4.ref, main_call2.v5.ref, main_call2.v6.ref, main_call2.v7.ref, main_call2.cst_1.ref,
    main_call2.v8.ref, main_call2.cst_2.ref, main_call2.v9.ref, main_call2.v10.ref, main_call2.v11.ref, main_call2.cst_3.ref, main_call2.v12.ref, main_call2.cst_4.ref,
    main_call2.call0.v0.ref, main_call2.call0.v1.ref, main_call2.call0.v2.ref, main_v88, main_v89, main_v90, main_cst_21, main_v91,
    main_v92, main_v93, main_v94, main_v95, main_v96, main_v97, main_v98, main_v99,
    main_v100, main_v101, main_v102, main_call3.cst.ref, main_call3.v0.ref, main_call3.v1.ref, main_c_22, main_v104,
    main_v105, main_c_23, main_v106, main_v107, main_v108, main_v109, main_v110, main_cst_24,
    main_v111, main_v112, main_v113, main_cst_25, main_v114, main_cst_26, main_v115, main_v116,
    main_v117, main_cst_27, main_v118, main_v119, main_v120, main_v121, main_v122, main_c_28,
    main_v123, main_v124, main_c_29, main_v125, main_v126, main_v127, main_v128, main_v129,
    main_v130, main_v131, main_v132, main_v133, main_v134, main_v135, main_cst_30, main_v136,
    main_cst_31, main_v137, main_v138, main_c_32, main_call4.cst.ref, main_call4.v0.ref, main_call4.v1.ref, main_call4.cst_0.ref,
    main_call4.v2.ref, main_call4.v3.ref, main_call4.v4.ref, main_call4.v5.ref, main_call4.v6.ref, main_call4.v7.ref, main_call4.cst_1.ref, main_call4.v8.ref,
    main_call4.cst_2.ref, main_call4.v9.ref, main_call4.v10.ref, main_call4.v11.ref, main_call4.cst_3.ref, main_call4.v12.ref, main_call4.cst_4.ref, main_call4.call0.v0.ref,
    main_call4.call0.v1.ref, main_call4.call0.v2.ref, main_v140, main_v141, main_v142, main_cst_33, main_v143, main_v144,
    main_v145, main_v146, main_v147, main_v148, main_v149, main_v150, main_v151, main_v152,
    main_v153, main_v154, main_call5.cst.ref, main_call5.v0.ref, main_call5.v1.ref, main_v156, main_v157, main_v158,
    main_v159 ]

/-- A single reference that occurs in a list is, as a set of device buffers, inside the list's. -/
theorem single_sub_written {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation writes only its own result, which is the entry of `written` at its position. -/
theorem writes_sub : (ops : List (HloOp τ sig (Elt F))).Forall fun op =>
    op.writes ⊆ (written.map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl), single_sub_written (List.mem_of_getElem? (i := 22) rfl), single_sub_written (List.mem_of_getElem? (i := 23) rfl),
    single_sub_written (List.mem_of_getElem? (i := 24) rfl), single_sub_written (List.mem_of_getElem? (i := 25) rfl), single_sub_written (List.mem_of_getElem? (i := 26) rfl),
    single_sub_written (List.mem_of_getElem? (i := 27) rfl), single_sub_written (List.mem_of_getElem? (i := 28) rfl), single_sub_written (List.mem_of_getElem? (i := 29) rfl),
    single_sub_written (List.mem_of_getElem? (i := 30) rfl), single_sub_written (List.mem_of_getElem? (i := 31) rfl), single_sub_written (List.mem_of_getElem? (i := 32) rfl),
    single_sub_written (List.mem_of_getElem? (i := 33) rfl), single_sub_written (List.mem_of_getElem? (i := 34) rfl), single_sub_written (List.mem_of_getElem? (i := 35) rfl),
    single_sub_written (List.mem_of_getElem? (i := 36) rfl), single_sub_written (List.mem_of_getElem? (i := 37) rfl), single_sub_written (List.mem_of_getElem? (i := 38) rfl),
    single_sub_written (List.mem_of_getElem? (i := 39) rfl), single_sub_written (List.mem_of_getElem? (i := 40) rfl), single_sub_written (List.mem_of_getElem? (i := 41) rfl),
    single_sub_written (List.mem_of_getElem? (i := 42) rfl), single_sub_written (List.mem_of_getElem? (i := 43) rfl), single_sub_written (List.mem_of_getElem? (i := 44) rfl),
    single_sub_written (List.mem_of_getElem? (i := 45) rfl), single_sub_written (List.mem_of_getElem? (i := 46) rfl), single_sub_written (List.mem_of_getElem? (i := 47) rfl),
    single_sub_written (List.mem_of_getElem? (i := 48) rfl), single_sub_written (List.mem_of_getElem? (i := 49) rfl), single_sub_written (List.mem_of_getElem? (i := 50) rfl),
    single_sub_written (List.mem_of_getElem? (i := 51) rfl), single_sub_written (List.mem_of_getElem? (i := 52) rfl), single_sub_written (List.mem_of_getElem? (i := 53) rfl),
    single_sub_written (List.mem_of_getElem? (i := 54) rfl), single_sub_written (List.mem_of_getElem? (i := 55) rfl), single_sub_written (List.mem_of_getElem? (i := 56) rfl),
    single_sub_written (List.mem_of_getElem? (i := 57) rfl), single_sub_written (List.mem_of_getElem? (i := 58) rfl), single_sub_written (List.mem_of_getElem? (i := 59) rfl),
    single_sub_written (List.mem_of_getElem? (i := 60) rfl), single_sub_written (List.mem_of_getElem? (i := 61) rfl), single_sub_written (List.mem_of_getElem? (i := 62) rfl),
    single_sub_written (List.mem_of_getElem? (i := 63) rfl), single_sub_written (List.mem_of_getElem? (i := 64) rfl), single_sub_written (List.mem_of_getElem? (i := 65) rfl),
    single_sub_written (List.mem_of_getElem? (i := 66) rfl), single_sub_written (List.mem_of_getElem? (i := 67) rfl), single_sub_written (List.mem_of_getElem? (i := 68) rfl),
    single_sub_written (List.mem_of_getElem? (i := 69) rfl), single_sub_written (List.mem_of_getElem? (i := 70) rfl), single_sub_written (List.mem_of_getElem? (i := 71) rfl),
    single_sub_written (List.mem_of_getElem? (i := 72) rfl), single_sub_written (List.mem_of_getElem? (i := 73) rfl), single_sub_written (List.mem_of_getElem? (i := 74) rfl),
    single_sub_written (List.mem_of_getElem? (i := 75) rfl), single_sub_written (List.mem_of_getElem? (i := 76) rfl), single_sub_written (List.mem_of_getElem? (i := 77) rfl),
    single_sub_written (List.mem_of_getElem? (i := 78) rfl), single_sub_written (List.mem_of_getElem? (i := 79) rfl), single_sub_written (List.mem_of_getElem? (i := 80) rfl),
    single_sub_written (List.mem_of_getElem? (i := 81) rfl), single_sub_written (List.mem_of_getElem? (i := 82) rfl), single_sub_written (List.mem_of_getElem? (i := 83) rfl),
    single_sub_written (List.mem_of_getElem? (i := 84) rfl), single_sub_written (List.mem_of_getElem? (i := 85) rfl), single_sub_written (List.mem_of_getElem? (i := 86) rfl),
    single_sub_written (List.mem_of_getElem? (i := 87) rfl), single_sub_written (List.mem_of_getElem? (i := 88) rfl), single_sub_written (List.mem_of_getElem? (i := 89) rfl),
    single_sub_written (List.mem_of_getElem? (i := 90) rfl), single_sub_written (List.mem_of_getElem? (i := 91) rfl), single_sub_written (List.mem_of_getElem? (i := 92) rfl),
    single_sub_written (List.mem_of_getElem? (i := 93) rfl), single_sub_written (List.mem_of_getElem? (i := 94) rfl), single_sub_written (List.mem_of_getElem? (i := 95) rfl),
    single_sub_written (List.mem_of_getElem? (i := 96) rfl), single_sub_written (List.mem_of_getElem? (i := 97) rfl), single_sub_written (List.mem_of_getElem? (i := 98) rfl),
    single_sub_written (List.mem_of_getElem? (i := 99) rfl), single_sub_written (List.mem_of_getElem? (i := 100) rfl), single_sub_written (List.mem_of_getElem? (i := 101) rfl),
    single_sub_written (List.mem_of_getElem? (i := 102) rfl), single_sub_written (List.mem_of_getElem? (i := 103) rfl), single_sub_written (List.mem_of_getElem? (i := 104) rfl),
    single_sub_written (List.mem_of_getElem? (i := 105) rfl), single_sub_written (List.mem_of_getElem? (i := 106) rfl), single_sub_written (List.mem_of_getElem? (i := 107) rfl),
    single_sub_written (List.mem_of_getElem? (i := 108) rfl), single_sub_written (List.mem_of_getElem? (i := 109) rfl), single_sub_written (List.mem_of_getElem? (i := 110) rfl),
    single_sub_written (List.mem_of_getElem? (i := 111) rfl), single_sub_written (List.mem_of_getElem? (i := 112) rfl), single_sub_written (List.mem_of_getElem? (i := 113) rfl),
    single_sub_written (List.mem_of_getElem? (i := 114) rfl), single_sub_written (List.mem_of_getElem? (i := 115) rfl), single_sub_written (List.mem_of_getElem? (i := 116) rfl),
    single_sub_written (List.mem_of_getElem? (i := 117) rfl), single_sub_written (List.mem_of_getElem? (i := 118) rfl), single_sub_written (List.mem_of_getElem? (i := 119) rfl),
    single_sub_written (List.mem_of_getElem? (i := 120) rfl), single_sub_written (List.mem_of_getElem? (i := 121) rfl), single_sub_written (List.mem_of_getElem? (i := 122) rfl),
    single_sub_written (List.mem_of_getElem? (i := 123) rfl), single_sub_written (List.mem_of_getElem? (i := 124) rfl), single_sub_written (List.mem_of_getElem? (i := 125) rfl),
    single_sub_written (List.mem_of_getElem? (i := 126) rfl), single_sub_written (List.mem_of_getElem? (i := 127) rfl), single_sub_written (List.mem_of_getElem? (i := 128) rfl),
    single_sub_written (List.mem_of_getElem? (i := 129) rfl), single_sub_written (List.mem_of_getElem? (i := 130) rfl), single_sub_written (List.mem_of_getElem? (i := 131) rfl),
    single_sub_written (List.mem_of_getElem? (i := 132) rfl), single_sub_written (List.mem_of_getElem? (i := 133) rfl), single_sub_written (List.mem_of_getElem? (i := 134) rfl),
    single_sub_written (List.mem_of_getElem? (i := 135) rfl), single_sub_written (List.mem_of_getElem? (i := 136) rfl), single_sub_written (List.mem_of_getElem? (i := 137) rfl),
    single_sub_written (List.mem_of_getElem? (i := 138) rfl), single_sub_written (List.mem_of_getElem? (i := 139) rfl), single_sub_written (List.mem_of_getElem? (i := 140) rfl),
    single_sub_written (List.mem_of_getElem? (i := 141) rfl), single_sub_written (List.mem_of_getElem? (i := 142) rfl), single_sub_written (List.mem_of_getElem? (i := 143) rfl),
    single_sub_written (List.mem_of_getElem? (i := 144) rfl), single_sub_written (List.mem_of_getElem? (i := 145) rfl), single_sub_written (List.mem_of_getElem? (i := 146) rfl),
    single_sub_written (List.mem_of_getElem? (i := 147) rfl), single_sub_written (List.mem_of_getElem? (i := 148) rfl), single_sub_written (List.mem_of_getElem? (i := 149) rfl),
    single_sub_written (List.mem_of_getElem? (i := 150) rfl), single_sub_written (List.mem_of_getElem? (i := 151) rfl), single_sub_written (List.mem_of_getElem? (i := 152) rfl),
    single_sub_written (List.mem_of_getElem? (i := 153) rfl), single_sub_written (List.mem_of_getElem? (i := 154) rfl), single_sub_written (List.mem_of_getElem? (i := 155) rfl),
    single_sub_written (List.mem_of_getElem? (i := 156) rfl), single_sub_written (List.mem_of_getElem? (i := 157) rfl), single_sub_written (List.mem_of_getElem? (i := 158) rfl),
    single_sub_written (List.mem_of_getElem? (i := 159) rfl), single_sub_written (List.mem_of_getElem? (i := 160) rfl), single_sub_written (List.mem_of_getElem? (i := 161) rfl),
    single_sub_written (List.mem_of_getElem? (i := 162) rfl), single_sub_written (List.mem_of_getElem? (i := 163) rfl), single_sub_written (List.mem_of_getElem? (i := 164) rfl),
    single_sub_written (List.mem_of_getElem? (i := 165) rfl), single_sub_written (List.mem_of_getElem? (i := 166) rfl), single_sub_written (List.mem_of_getElem? (i := 167) rfl),
    single_sub_written (List.mem_of_getElem? (i := 168) rfl), single_sub_written (List.mem_of_getElem? (i := 169) rfl), single_sub_written (List.mem_of_getElem? (i := 170) rfl),
    single_sub_written (List.mem_of_getElem? (i := 171) rfl), single_sub_written (List.mem_of_getElem? (i := 172) rfl), single_sub_written (List.mem_of_getElem? (i := 173) rfl),
    single_sub_written (List.mem_of_getElem? (i := 174) rfl), single_sub_written (List.mem_of_getElem? (i := 175) rfl), single_sub_written (List.mem_of_getElem? (i := 176) rfl),
    single_sub_written (List.mem_of_getElem? (i := 177) rfl), single_sub_written (List.mem_of_getElem? (i := 178) rfl), single_sub_written (List.mem_of_getElem? (i := 179) rfl),
    single_sub_written (List.mem_of_getElem? (i := 180) rfl), single_sub_written (List.mem_of_getElem? (i := 181) rfl), single_sub_written (List.mem_of_getElem? (i := 182) rfl),
    single_sub_written (List.mem_of_getElem? (i := 183) rfl), single_sub_written (List.mem_of_getElem? (i := 184) rfl), single_sub_written (List.mem_of_getElem? (i := 185) rfl),
    single_sub_written (List.mem_of_getElem? (i := 186) rfl), single_sub_written (List.mem_of_getElem? (i := 187) rfl), single_sub_written (List.mem_of_getElem? (i := 188) rfl),
    single_sub_written (List.mem_of_getElem? (i := 189) rfl), single_sub_written (List.mem_of_getElem? (i := 190) rfl), single_sub_written (List.mem_of_getElem? (i := 191) rfl),
    single_sub_written (List.mem_of_getElem? (i := 192) rfl), single_sub_written (List.mem_of_getElem? (i := 193) rfl), single_sub_written (List.mem_of_getElem? (i := 194) rfl),
    single_sub_written (List.mem_of_getElem? (i := 195) rfl), single_sub_written (List.mem_of_getElem? (i := 196) rfl), single_sub_written (List.mem_of_getElem? (i := 197) rfl),
    single_sub_written (List.mem_of_getElem? (i := 198) rfl), single_sub_written (List.mem_of_getElem? (i := 199) rfl), single_sub_written (List.mem_of_getElem? (i := 200) rfl),
    single_sub_written (List.mem_of_getElem? (i := 201) rfl), single_sub_written (List.mem_of_getElem? (i := 202) rfl), single_sub_written (List.mem_of_getElem? (i := 203) rfl),
    single_sub_written (List.mem_of_getElem? (i := 204) rfl), single_sub_written (List.mem_of_getElem? (i := 205) rfl), single_sub_written (List.mem_of_getElem? (i := 206) rfl),
    single_sub_written (List.mem_of_getElem? (i := 207) rfl), single_sub_written (List.mem_of_getElem? (i := 208) rfl), single_sub_written (List.mem_of_getElem? (i := 209) rfl),
    single_sub_written (List.mem_of_getElem? (i := 210) rfl), single_sub_written (List.mem_of_getElem? (i := 211) rfl), single_sub_written (List.mem_of_getElem? (i := 212) rfl),
    single_sub_written (List.mem_of_getElem? (i := 213) rfl), single_sub_written (List.mem_of_getElem? (i := 214) rfl), single_sub_written (List.mem_of_getElem? (i := 215) rfl),
    single_sub_written (List.mem_of_getElem? (i := 216) rfl), single_sub_written (List.mem_of_getElem? (i := 217) rfl), single_sub_written (List.mem_of_getElem? (i := 218) rfl),
    single_sub_written (List.mem_of_getElem? (i := 219) rfl), single_sub_written (List.mem_of_getElem? (i := 220) rfl), single_sub_written (List.mem_of_getElem? (i := 221) rfl),
    single_sub_written (List.mem_of_getElem? (i := 222) rfl), single_sub_written (List.mem_of_getElem? (i := 223) rfl), single_sub_written (List.mem_of_getElem? (i := 224) rfl),
    single_sub_written (List.mem_of_getElem? (i := 225) rfl), single_sub_written (List.mem_of_getElem? (i := 226) rfl), single_sub_written (List.mem_of_getElem? (i := 227) rfl),
    single_sub_written (List.mem_of_getElem? (i := 228) rfl), single_sub_written (List.mem_of_getElem? (i := 229) rfl), single_sub_written (List.mem_of_getElem? (i := 230) rfl),
    single_sub_written (List.mem_of_getElem? (i := 231) rfl), single_sub_written (List.mem_of_getElem? (i := 232) rfl), single_sub_written (List.mem_of_getElem? (i := 233) rfl),
    single_sub_written (List.mem_of_getElem? (i := 234) rfl), single_sub_written (List.mem_of_getElem? (i := 235) rfl), single_sub_written (List.mem_of_getElem? (i := 236) rfl),
    single_sub_written (List.mem_of_getElem? (i := 237) rfl), single_sub_written (List.mem_of_getElem? (i := 238) rfl), single_sub_written (List.mem_of_getElem? (i := 239) rfl),
    single_sub_written (List.mem_of_getElem? (i := 240) rfl), single_sub_written (List.mem_of_getElem? (i := 241) rfl), single_sub_written (List.mem_of_getElem? (i := 242) rfl),
    single_sub_written (List.mem_of_getElem? (i := 243) rfl), single_sub_written (List.mem_of_getElem? (i := 244) rfl), single_sub_written (List.mem_of_getElem? (i := 245) rfl),
    single_sub_written (List.mem_of_getElem? (i := 246) rfl), single_sub_written (List.mem_of_getElem? (i := 247) rfl), single_sub_written (List.mem_of_getElem? (i := 248) rfl),
    single_sub_written (List.mem_of_getElem? (i := 249) rfl), single_sub_written (List.mem_of_getElem? (i := 250) rfl), single_sub_written (List.mem_of_getElem? (i := 251) rfl),
    single_sub_written (List.mem_of_getElem? (i := 252) rfl), single_sub_written (List.mem_of_getElem? (i := 253) rfl), single_sub_written (List.mem_of_getElem? (i := 254) rfl),
    single_sub_written (List.mem_of_getElem? (i := 255) rfl), single_sub_written (List.mem_of_getElem? (i := 256) rfl), single_sub_written (List.mem_of_getElem? (i := 257) rfl),
    single_sub_written (List.mem_of_getElem? (i := 258) rfl), single_sub_written (List.mem_of_getElem? (i := 259) rfl), single_sub_written (List.mem_of_getElem? (i := 260) rfl),
    single_sub_written (List.mem_of_getElem? (i := 261) rfl), single_sub_written (List.mem_of_getElem? (i := 262) rfl), single_sub_written (List.mem_of_getElem? (i := 263) rfl),
    single_sub_written (List.mem_of_getElem? (i := 264) rfl)⟩

/-- A reference the line never writes keeps its launch contents. -/
theorem kept (V : Valuation τ sig (Elt F)) {r : Ref sig .tc} (hr : r ∉ written) :
    after ops V (Proc.devRef .tc r) = V (Proc.devRef .tc r) :=
  after_of_writes_sub ops V writes_sub hr

/-- On every device, for any float values, from any memory with zero counters: every weakly fair execution of
    @main terminates with the result buffer at the fold of the operations' results over the launch contents, and
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = after ops (launchContents m c) (Proc.devRef .tc main_v159)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨h c main_v159,
      (h c main_arg0).trans (kept _ (by decide)),
      (h c main_arg1).trans (kept _ (by decide)),
      (h c main_arg2).trans (kept _ (by decide)),
      (h c main_arg3).trans (kept _ (by decide)),
      (h c main_arg4).trans (kept _ (by decide)),
      (h c main_arg5).trans (kept _ (by decide)),
      (h c main_arg6).trans (kept _ (by decide)),
      (h c main_arg7).trans (kept _ (by decide)),
      (h c main_arg8).trans (kept _ (by decide)),
      (h c main_arg9).trans (kept _ (by decide)),
      (h c main_arg10).trans (kept _ (by decide)),
      (h c main_arg11).trans (kept _ (by decide)),
      (h c main_arg12).trans (kept _ (by decide)),
      (h c main_arg13).trans (kept _ (by decide)),
      (h c main_arg14).trans (kept _ (by decide)),
      (h c main_arg15).trans (kept _ (by decide)),
      (h c main_arg16).trans (kept _ (by decide)),
      (h c main_arg17).trans (kept _ (by decide)),
      (h c main_arg18).trans (kept _ (by decide)),
      (h c main_arg19).trans (kept _ (by decide)),
      (h c main_arg20).trans (kept _ (by decide)),
      (h c main_arg21).trans (kept _ (by decide)),
      (h c main_arg22).trans (kept _ (by decide)),
      (h c main_arg23).trans (kept _ (by decide)),
      (h c main_arg24).trans (kept _ (by decide)),
      (h c main_arg25).trans (kept _ (by decide)),
      (h c main_arg26).trans (kept _ (by decide))⟩)
    (run_seq scopedRefs_eq scopedSems_eq defs main (fun _ => ops) main_eq (fun _ => ops_sub) m ρ)

end Cert.ReferenceIdeal.RefRun

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.LibTypedRefs.lean ====
/-
  Contents moved to a typed reference's buffer type and back.

  A module-local function's operations are stated over references that carry the type of the tensor value they
  hold; each operation's function is moved to the buffer's own contents type along the reference's type
  equation, on the way in and on the way out.  The two moves are transports along one equation and its inverse,
  so one after the other they are the identity, for any signature, any value types and any typed reference —
  without computing the buffer's type.
-/
import Idealize.ShloMosaic.Lib.StableHlo

noncomputable section

namespace Cert.Lib.TypedRefs

open Idealize.ShloMosaic Idealize.ShloMosaic.StableHlo

variable {sig : RefSig} {Val : EltTy → Type} {T : BufTy}

/-- Out to the buffer's type and back in: the contents. -/
theorem ofBuf_toBuf (x : TRef sig T) (v : T.Contents Val) : x.ofBuf (x.toBuf v) = v := by
  obtain ⟨r, rfl, _, _⟩ := x; rfl

/-- In from the buffer's type and back out: the contents. -/
theorem toBuf_ofBuf (x : TRef sig T) (u : x.ref.ty.Contents Val) : x.toBuf (x.ofBuf u) = u := by
  obtain ⟨r, rfl, _, _⟩ := x; rfl

end Cert.Lib.TypedRefs

end
-- ==== Proof.RefRead.lean ====
import proofs.«168550_j58342835749309_1_alg».proof.ReferenceIdeal
import proofs.«168550_j58342835749309_1_alg».proof.Proof.Gen.ReferenceIdeal
import proofs.«168550_j58342835749309_1_alg».proof.Proof.RefRun
import proofs.«168550_j58342835749309_1_alg».proof.Proof.LibAfterAppend
import proofs.«168550_j58342835749309_1_alg».proof.Proof.LibTypedRefs
import Idealize.ShloMosaic.Lib.StableHlo.Run

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.LibAfterAppend Cert.Lib.TypedRefs

variable {F : FTy → Type} [FloatOps F]

/-! # The reference's result, read as a composition of per-layer functions

The reference's line of operations (three graph-convolution layers with batch normalisation, then a final linear map) is cut
into stretches: per layer, the operations up to the column means, the called variance function's, the normalisation's, the
called rectifier's; then the final four. Each stretch is read from ANY starting contents — its result buffer holds a named
function of the contents of the buffers it reads, and every buffer it does not write is unchanged — and the contents after a
concatenation are the contents after its second part from the contents after its first. Composing the stretches gives the result
buffer as `fcR (x3 W) …`, with `x3`, `x2`, `x1` the three layers' results of the launch contents `W`. Everything is stated
for any float values `F`. -/
/-- Layer 0, the neighbour mean: negative source indices wrapped, the source rows gathered, summed per destination row, and
    divided by the destination's edge count (at least one). -/
def aggR0 (x : (⟨S681472x256, .f32⟩ : BufTy).Contents (Elt F)) (src : (⟨S619520, .i32⟩ : BufTy).Contents (Elt F)) (dst : (⟨S619520, .i32⟩ : BufTy).Contents (Elt F)) : (⟨S61952x256, .f32⟩ : BufTy).Contents (Elt F) :=
  ((Host.divf : (⟨S61952x256, .f32⟩ : BufTy).Contents (Elt F) → (⟨S61952x256, .f32⟩ : BufTy).Contents (Elt F) → (⟨S61952x256, .f32⟩ : BufTy).Contents (Elt F)) (((fun x i u => Host.scatterAdd scatter_S61952x256_S619520x1_S619520x256_1_0_0_1 x i u) : (⟨S61952x256, .f32⟩ : BufTy).Contents (Elt F) → (⟨S619520x1, .i32⟩ : BufTy).Contents (Elt F) → (⟨S619520x256, .f32⟩ : BufTy).Contents (Elt F) → (⟨S61952x256, .f32⟩ : BufTy).Contents (Elt F)) ((broadcastInDim S61952x256 ![] bcast_S_S61952x256 : (⟨S_, .f32⟩ : BufTy).Contents (Elt F) → (⟨S61952x256, .f32⟩ : BufTy).Contents (Elt F)) (constant S_ .f32 0x00000000#32 : (⟨S_, .f32⟩ : BufTy).Contents (Elt F))) ((broadcastInDim S619520x1 ![0] bcast_S619520_S619520x1_0 : (⟨S619520, .i32⟩ : BufTy).Contents (Elt F) → (⟨S619520x1, .i32⟩ : BufTy).Contents (Elt F)) dst) (((fun x i => Host.gather gather_S681472x256_S619520x1_S619520x256_1_0_n_n_0_1_1256 x i) : (⟨S681472x256, .f32⟩ : BufTy).Contents (Elt F) → (⟨S619520x1, .i32⟩ : BufTy).Contents (Elt F) → (⟨S619520x256, .f32⟩ : BufTy).Contents (Elt F)) x ((broadcastInDim S619520x1 ![0] bcast_S619520_S619520x1_0 : (⟨S619520, .i32⟩ : BufTy).Contents (Elt F) → (⟨S619520x1, .i32⟩ : BufTy).Contents (Elt F)) ((select : (⟨S619520, .i1⟩ : BufTy).Contents (Elt F) → (⟨S619520, .i32⟩ : BufTy).Contents (Elt F) → (⟨S619520, .i32⟩ : BufTy).Contents (Elt F) → (⟨S619520, .i32⟩ : BufTy).Contents (Elt F)) ((cmpi .slt : (⟨S619520, .i32⟩ : BufTy).Contents (Elt F) → (⟨S619520, .i32⟩ : BufTy).Contents (Elt F) → (⟨S619520, .i1⟩ : BufTy).Contents (Elt F)) src ((broadcastInDim S619520 ![] bcast_S_S619520 : (⟨S_, .i32⟩ : BufTy).Contents (Elt F) → (⟨S619520, .i32⟩ : BufTy).Contents (Elt F)) (constantI S_ 32 0#32 : (⟨S_, .i32⟩ : BufTy).Contents (Elt F)))) ((addi : (⟨S619520, .i32⟩ : BufTy).Contents (Elt F) → (⟨S619520, .i32⟩ : BufTy).Contents (Elt F) → (⟨S619520, .i32⟩ : BufTy).Contents (Elt F)) src ((broadcastInDim S619520 ![] bcast_S_S619520 : (⟨S_, .i32⟩ : BufTy).Contents (Elt F) → (⟨S619520, .i32⟩ : BufTy).Contents (Elt F)) (constantI S_ 32 681472#32 : (⟨S_, .i32⟩ : BufTy).Contents (Elt F)))) src)))) ((broadcastInDim S61952x256 ![0, 1] bcast_S61952x1_S61952x256_0_1 : (⟨S61952x1, .f32⟩ : BufTy).Contents (Elt F) → (⟨S61952x256, .f32⟩ : BufTy).Contents (Elt F)) ((broadcastInDim S61952x1 ![0] bcast_S61952_S61952x1_0 : (⟨S61952, .f32⟩ : BufTy).Contents (Elt F) → (⟨S61952x1, .f32⟩ : BufTy).Contents (Elt F)) ((maximumf : (⟨S61952, .f32⟩ : BufTy).Contents (Elt F) → (⟨S61952, .f32⟩ : BufTy).Contents (Elt F) → (⟨S61952, .f32⟩ : BufTy).Contents (Elt F)) (((fun x i u => Host.scatterAdd scatter_S61952_S619520x1_S619520_n_0_0_1 x i u) : (⟨S61952, .f32⟩ : BufTy).Contents (Elt F) → (⟨S619520x1, .i32⟩ : BufTy).Contents (Elt F) → (⟨S619520, .f32⟩ : BufTy).Contents (Elt F) → (⟨S61952, .f32⟩ : BufTy).Contents (Elt F)) ((broadcastInDim S61952 ![] bcast_S_S61952 : (⟨S_, .f32⟩ : BufTy).Contents (Elt F) → (⟨S61952, .f32⟩ : BufTy).Contents (Elt F)) (constant S_ .f32 0x00000000#32 : (⟨S_, .f32⟩ : BufTy).Contents (Elt F))) ((broadcastInDim S619520x1 ![0] bcast_S619520_S619520x1_0 : (⟨S619520, .i32⟩ : BufTy).Contents (Elt F) → (⟨S619520x1, .i32⟩ : BufTy).Contents (Elt F)) dst) ((broadcastInDim S619520 ![] bcast_S_S619520 : (⟨S_, .f32⟩ : BufTy).Contents (Elt F) → (⟨S619520, .f32⟩ : BufTy).Contents (Elt F)) (constant S_ .f32 0x3F800000#32 : (⟨S_, .f32⟩ : BufTy).Contents (Elt F)))) ((broadcastInDim S61952 ![] bcast_S_S61952 : (⟨S_, .f32⟩ : BufTy).Contents (Elt F) → (⟨S61952, .f32⟩ : BufTy).Contents (Elt F)) (constant S_ .f32 0x3F800000#32 : (⟨S_, .f32⟩ : BufTy).Contents (Elt F)))))))

/-- Layer 0, the target rows: negative indices wrapped, the rows gathered. -/
def tgtR0 (x : (⟨S681472x256, .f32⟩ : BufTy).Contents (Elt F)) (tlid : (⟨S61952, .i32⟩ : BufTy).Contents (Elt F)) : (⟨S61952x256, .f32⟩ : BufTy).Contents (Elt F) :=
  (((fun x i => Host.gather gather_S681472x256_S61952x1_S61952x256_1_0_n_n_0_1_1256 x i) : (⟨S681472x256, .f32⟩ : BufTy).Contents (Elt F) → (⟨S61952x1, .i32⟩ : BufTy).Contents (Elt F) → (⟨S61952x256, .f32⟩ : BufTy).Contents (Elt F)) x ((broadcastInDim S61952x1 ![0] bcast_S61952_S61952x1_0 : (⟨S61952, .i32⟩ : BufTy).Contents (Elt F) → (⟨S61952x1, .i32⟩ : BufTy).Contents (Elt F)) ((select : (⟨S61952, .i1⟩ : BufTy).Contents (Elt F) → (⟨S61952, .i32⟩ : BufTy).Contents (Elt F) → (⟨S61952, .i32⟩ : BufTy).Contents (Elt F) → (⟨S61952, .i32⟩ : BufTy).Contents (Elt F)) ((cmpi .slt : (⟨S61952, .i32⟩ : BufTy).Contents (Elt F) → (⟨S61952, .i32⟩ : BufTy).Contents (Elt F) → (⟨S61952, .i1⟩ : BufTy).Contents (Elt F)) tlid ((broadcastInDim S61952 ![] bcast_S_S61952 : (⟨S_, .i32⟩ : BufTy).Contents (Elt F) → (⟨S61952, .i32⟩ : BufTy).Contents (Elt F)) (constantI S_ 32 0#32 : (⟨S_, .i32⟩ : BufTy).Contents (Elt F)))) ((addi : (⟨S61952, .i32⟩ : BufTy).Contents (Elt F) → (⟨S61952, .i32⟩ : BufTy).Contents (Elt F) → (⟨S61952, .i32⟩ : BufTy).Contents (Elt F)) tlid ((broadcastInDim S61952 ![] bcast_S_S61952 : (⟨S_, .i32⟩ : BufTy).Contents (Elt F) → (⟨S61952, .i32⟩ : BufTy).Contents (Elt F)) (constantI S_ 32 681472#32 : (⟨S_, .i32⟩ : BufTy).Contents (Elt F)))) tlid)))

/-- Layer 0, the linear map: the neighbour mean times one matrix plus the target rows times the other, plus the bias row. -/
def linR0 (a : (⟨S61952x256, .f32⟩ : BufTy).Contents (Elt F)) (xt : (⟨S61952x256, .f32⟩ : BufTy).Contents (Elt F)) (wl : (⟨S256x256, .f32⟩ : BufTy).Contents (Elt F)) (wr : (⟨S256x256, .f32⟩ : BufTy).Contents (Elt F)) (b : (⟨S256, .f32⟩ : BufTy).Contents (Elt F)) : (⟨S61952x256, .f32⟩ : BufTy).Contents (Elt F) :=
  ((addf : (⟨S61952x256, .f32⟩ : BufTy).Contents (Elt F) → (⟨S61952x256, .f32⟩ : BufTy).Contents (Elt F) → (⟨S61952x256, .f32⟩ : BufTy).Contents (Elt F)) ((addf : (⟨S61952x256, .f32⟩ : BufTy).Contents (Elt F) → (⟨S61952x256, .f32⟩ : BufTy).Contents (Elt F) → (⟨S61952x256, .f32⟩ : BufTy).Contents (Elt F)) (((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)) a wl) (((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)) xt wr)) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) b)))

/-- Layer 0, the batch normalisation and rectifier: each column centred at its mean, scaled by the reciprocal square root of its
    variance plus a small constant, scaled and shifted by the two parameter rows, and the negative part dropped. -/
def bnR0 (h : (⟨S61952x256, .f32⟩ : BufTy).Contents (Elt F)) (g : (⟨S256, .f32⟩ : BufTy).Contents (Elt F)) (be : (⟨S256, .f32⟩ : BufTy).Contents (Elt F)) : (⟨S61952x256, .f32⟩ : BufTy).Contents (Elt F) :=
  ((maximumf : (⟨S61952x256, .f32⟩ : BufTy).Contents (Elt F) → (⟨S61952x256, .f32⟩ : BufTy).Contents (Elt F) → (⟨S61952x256, .f32⟩ : BufTy).Contents (Elt F)) ((addf : (⟨S61952x256, .f32⟩ : BufTy).Contents (Elt F) → (⟨S61952x256, .f32⟩ : BufTy).Contents (Elt F) → (⟨S61952x256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((subf : (⟨S61952x256, .f32⟩ : BufTy).Contents (Elt F) → (⟨S61952x256, .f32⟩ : BufTy).Contents (Elt F) → (⟨S61952x256, .f32⟩ : BufTy).Contents (Elt F)) h ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x v => Host.reduceAdd x v reducesTo_S61952x256_S256_d0 h_S_) : (⟨S61952x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x47720000#32 : (⟨S_, .f32⟩ : BufTy).Contents (Elt F))))))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47720000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((subf : (⟨S61952x256, .f32⟩ : BufTy).Contents (Elt F) → (⟨S61952x256, .f32⟩ : BufTy).Contents (Elt F) → (⟨S61952x256, .f32⟩ : BufTy).Contents (Elt F)) h ((broadcastInDim S61952x256 ![0, 1] bcast_S1x256_S61952x256_0_1 : (⟨S1x256, .f32⟩ : BufTy).Contents (Elt F) → (⟨S61952x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x47720000#32 : (⟨S_, .f32⟩ : BufTy).Contents (Elt F)))))) ((subf : (⟨S61952x256, .f32⟩ : BufTy).Contents (Elt F) → (⟨S61952x256, .f32⟩ : BufTy).Contents (Elt F) → (⟨S61952x256, .f32⟩ : BufTy).Contents (Elt F)) h ((broadcastInDim S61952x256 ![0, 1] bcast_S1x256_S61952x256_0_1 : (⟨S1x256, .f32⟩ : BufTy).Contents (Elt F) → (⟨S61952x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x47720000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47720000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) g))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) be))) ((broadcastInDim S61952x256 ![] bcast_S_S61952x256 : (⟨S_, .f32⟩ : BufTy).Contents (Elt F) → (⟨S61952x256, .f32⟩ : BufTy).Contents (Elt F)) (constant S_ .f32 0x00000000#32 : (⟨S_, .f32⟩ : BufTy).Contents (Elt F))))

/-- Layer 1, the neighbour mean: negative source indices wrapped, the source rows gathered, summed per destination row, and
    divided by the destination's edge count (at least one). -/
def aggR1 (x : (⟨S61952x256, .f32⟩ : BufTy).Contents (Elt F)) (src : (⟨S56320, .i32⟩ : BufTy).Contents (Elt F)) (dst : (⟨S56320, .i32⟩ : BufTy).Contents (Elt F)) : (⟨S5632x256, .f32⟩ : BufTy).Contents (Elt F) :=
  ((Host.divf : (⟨S5632x256, .f32⟩ : BufTy).Contents (Elt F) → (⟨S5632x256, .f32⟩ : BufTy).Contents (Elt F) → (⟨S5632x256, .f32⟩ : BufTy).Contents (Elt F)) (((fun x i u => Host.scatterAdd scatter_S5632x256_S56320x1_S56320x256_1_0_0_1 x i u) : (⟨S5632x256, .f32⟩ : BufTy).Contents (Elt F) → (⟨S56320x1, .i32⟩ : BufTy).Contents (Elt F) → (⟨S56320x256, .f32⟩ : BufTy).Contents (Elt F) → (⟨S5632x256, .f32⟩ : BufTy).Contents (Elt F)) ((broadcastInDim S5632x256 ![] bcast_S_S5632x256 : (⟨S_, .f32⟩ : BufTy).Contents (Elt F) → (⟨S5632x256, .f32⟩ : BufTy).Contents (Elt F)) (constant S_ .f32 0x00000000#32 : (⟨S_, .f32⟩ : BufTy).Contents (Elt F))) ((broadcastInDim S56320x1 ![0] bcast_S56320_S56320x1_0 : (⟨S56320, .i32⟩ : BufTy).Contents (Elt F) → (⟨S56320x1, .i32⟩ : BufTy).Contents (Elt F)) dst) (((fun x i => Host.gather gather_S61952x256_S56320x1_S56320x256_1_0_n_n_0_1_1256 x i) : (⟨S61952x256, .f32⟩ : BufTy).Contents (Elt F) → (⟨S56320x1, .i32⟩ : BufTy).Contents (Elt F) → (⟨S56320x256, .f32⟩ : BufTy).Contents (Elt F)) x ((broadcastInDim S56320x1 ![0] bcast_S56320_S56320x1_0 : (⟨S56320, .i32⟩ : BufTy).Contents (Elt F) → (⟨S56320x1, .i32⟩ : BufTy).Contents (Elt F)) ((select : (⟨S56320, .i1⟩ : BufTy).Contents (Elt F) → (⟨S56320, .i32⟩ : BufTy).Contents (Elt F) → (⟨S56320, .i32⟩ : BufTy).Contents (Elt F) → (⟨S56320, .i32⟩ : BufTy).Contents (Elt F)) ((cmpi .slt : (⟨S56320, .i32⟩ : BufTy).Contents (Elt F) → (⟨S56320, .i32⟩ : BufTy).Contents (Elt F) → (⟨S56320, .i1⟩ : BufTy).Contents (Elt F)) src ((broadcastInDim S56320 ![] bcast_S_S56320 : (⟨S_, .i32⟩ : BufTy).Contents (Elt F) → (⟨S56320, .i32⟩ : BufTy).Contents (Elt F)) (constantI S_ 32 0#32 : (⟨S_, .i32⟩ : BufTy).Contents (Elt F)))) ((addi : (⟨S56320, .i32⟩ : BufTy).Contents (Elt F) → (⟨S56320, .i32⟩ : BufTy).Contents (Elt F) → (⟨S56320, .i32⟩ : BufTy).Contents (Elt F)) src ((broadcastInDim S56320 ![] bcast_S_S56320 : (⟨S_, .i32⟩ : BufTy).Contents (Elt F) → (⟨S56320, .i32⟩ : BufTy).Contents (Elt F)) (constantI S_ 32 61952#32 : (⟨S_, .i32⟩ : BufTy).Contents (Elt F)))) src)))) ((broadcastInDim S5632x256 ![0, 1] bcast_S5632x1_S5632x256_0_1 : (⟨S5632x1, .f32⟩ : BufTy).Contents (Elt F) → (⟨S5632x256, .f32⟩ : BufTy).Contents (Elt F)) ((broadcastInDim S5632x1 ![0] bcast_S5632_S5632x1_0 : (⟨S5632, .f32⟩ : BufTy).Contents (Elt F) → (⟨S5632x1, .f32⟩ : BufTy).Contents (Elt F)) ((maximumf : (⟨S5632, .f32⟩ : BufTy).Contents (Elt F) → (⟨S5632, .f32⟩ : BufTy).Contents (Elt F) → (⟨S5632, .f32⟩ : BufTy).Contents (Elt F)) (((fun x i u => Host.scatterAdd scatter_S5632_S56320x1_S56320_n_0_0_1 x i u) : (⟨S5632, .f32⟩ : BufTy).Contents (Elt F) → (⟨S56320x1, .i32⟩ : BufTy).Contents (Elt F) → (⟨S56320, .f32⟩ : BufTy).Contents (Elt F) → (⟨S5632, .f32⟩ : BufTy).Contents (Elt F)) ((broadcastInDim S5632 ![] bcast_S_S5632 : (⟨S_, .f32⟩ : BufTy).Contents (Elt F) → (⟨S5632, .f32⟩ : BufTy).Contents (Elt F)) (constant S_ .f32 0x00000000#32 : (⟨S_, .f32⟩ : BufTy).Contents (Elt F))) ((broadcastInDim S56320x1 ![0] bcast_S56320_S56320x1_0 : (⟨S56320, .i32⟩ : BufTy).Contents (Elt F) → (⟨S56320x1, .i32⟩ : BufTy).Contents (Elt F)) dst) ((broadcastInDim S56320 ![] bcast_S_S56320 : (⟨S_, .f32⟩ : BufTy).Contents (Elt F) → (⟨S56320, .f32⟩ : BufTy).Contents (Elt F)) (constant S_ .f32 0x3F800000#32 : (⟨S_, .f32⟩ : BufTy).Contents (Elt F)))) ((broadcastInDim S5632 ![] bcast_S_S5632 : (⟨S_, .f32⟩ : BufTy).Contents (Elt F) → (⟨S5632, .f32⟩ : BufTy).Contents (Elt F)) (constant S_ .f32 0x3F800000#32 : (⟨S_, .f32⟩ : BufTy).Contents (Elt F)))))))

/-- Layer 1, the target rows: negative indices wrapped, the rows gathered. -/
def tgtR1 (x : (⟨S61952x256, .f32⟩ : BufTy).Contents (Elt F)) (tlid : (⟨S5632, .i32⟩ : BufTy).Contents (Elt F)) : (⟨S5632x256, .f32⟩ : BufTy).Contents (Elt F) :=
  (((fun x i => Host.gather gather_S61952x256_S5632x1_S5632x256_1_0_n_n_0_1_1256 x i) : (⟨S61952x256, .f32⟩ : BufTy).Contents (Elt F) → (⟨S5632x1, .i32⟩ : BufTy).Contents (Elt F) → (⟨S5632x256, .f32⟩ : BufTy).Contents (Elt F)) x ((broadcastInDim S5632x1 ![0] bcast_S5632_S5632x1_0 : (⟨S5632, .i32⟩ : BufTy).Contents (Elt F) → (⟨S5632x1, .i32⟩ : BufTy).Contents (Elt F)) ((select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)) ((cmpi .slt : (⟨S5632, .i32⟩ : BufTy).Contents (Elt F) → (⟨S5632, .i32⟩ : BufTy).Contents (Elt F) → (⟨S5632, .i1⟩ : BufTy).Contents (Elt F)) tlid ((broadcastInDim S5632 ![] bcast_S_S5632 : (⟨S_, .i32⟩ : BufTy).Contents (Elt F) → (⟨S5632, .i32⟩ : BufTy).Contents (Elt F)) (constantI S_ 32 0#32 : (⟨S_, .i32⟩ : BufTy).Contents (Elt F)))) ((addi : (⟨S5632, .i32⟩ : BufTy).Contents (Elt F) → (⟨S5632, .i32⟩ : BufTy).Contents (Elt F) → (⟨S5632, .i32⟩ : BufTy).Contents (Elt F)) tlid ((broadcastInDim S5632 ![] bcast_S_S5632 : (⟨S_, .i32⟩ : BufTy).Contents (Elt F) → (⟨S5632, .i32⟩ : BufTy).Contents (Elt F)) (constantI S_ 32 61952#32 : (⟨S_, .i32⟩ : BufTy).Contents (Elt F)))) tlid)))

/-- Layer 1, the linear map: the neighbour mean times one matrix plus the target rows times the other, plus the bias row. -/
def linR1 (a : (⟨S5632x256, .f32⟩ : BufTy).Contents (Elt F)) (xt : (⟨S5632x256, .f32⟩ : BufTy).Contents (Elt F)) (wl : (⟨S256x256, .f32⟩ : BufTy).Contents (Elt F)) (wr : (⟨S256x256, .f32⟩ : BufTy).Contents (Elt F)) (b : (⟨S256, .f32⟩ : BufTy).Contents (Elt F)) : (⟨S5632x256, .f32⟩ : BufTy).Contents (Elt F) :=
  ((addf : (⟨S5632x256, .f32⟩ : BufTy).Contents (Elt F) → (⟨S5632x256, .f32⟩ : BufTy).Contents (Elt F) → (⟨S5632x256, .f32⟩ : BufTy).Contents (Elt F)) ((addf : (⟨S5632x256, .f32⟩ : BufTy).Contents (Elt F) → (⟨S5632x256, .f32⟩ : BufTy).Contents (Elt F) → (⟨S5632x256, .f32⟩ : BufTy).Contents (Elt F)) (((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)) a wl) (((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)) xt wr)) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) b)))

/-- Layer 1, the batch normalisation and rectifier: each column centred at its mean, scaled by the reciprocal square root of its
    variance plus a small constant, scaled and shifted by the two parameter rows, and the negative part dropped. -/
def bnR1 (h : (⟨S5632x256, .f32⟩ : BufTy).Contents (Elt F)) (g : (⟨S256, .f32⟩ : BufTy).Contents (Elt F)) (be : (⟨S256, .f32⟩ : BufTy).Contents (Elt F)) : (⟨S5632x256, .f32⟩ : BufTy).Contents (Elt F) :=
  ((maximumf : (⟨S5632x256, .f32⟩ : BufTy).Contents (Elt F) → (⟨S5632x256, .f32⟩ : BufTy).Contents (Elt F) → (⟨S5632x256, .f32⟩ : BufTy).Contents (Elt F)) ((addf : (⟨S5632x256, .f32⟩ : BufTy).Contents (Elt F) → (⟨S5632x256, .f32⟩ : BufTy).Contents (Elt F) → (⟨S5632x256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((subf : (⟨S5632x256, .f32⟩ : BufTy).Contents (Elt F) → (⟨S5632x256, .f32⟩ : BufTy).Contents (Elt F) → (⟨S5632x256, .f32⟩ : BufTy).Contents (Elt F)) h ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x v => Host.reduceAdd x v reducesTo_S5632x256_S256_d0 h_S_) : (⟨S5632x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x45B00000#32 : (⟨S_, .f32⟩ : BufTy).Contents (Elt F))))))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45B00000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((subf : (⟨S5632x256, .f32⟩ : BufTy).Contents (Elt F) → (⟨S5632x256, .f32⟩ : BufTy).Contents (Elt F) → (⟨S5632x256, .f32⟩ : BufTy).Contents (Elt F)) h ((broadcastInDim S5632x256 ![0, 1] bcast_S1x256_S5632x256_0_1 : (⟨S1x256, .f32⟩ : BufTy).Contents (Elt F) → (⟨S5632x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x45B00000#32 : (⟨S_, .f32⟩ : BufTy).Contents (Elt F)))))) ((subf : (⟨S5632x256, .f32⟩ : BufTy).Contents (Elt F) → (⟨S5632x256, .f32⟩ : BufTy).Contents (Elt F) → (⟨S5632x256, .f32⟩ : BufTy).Contents (Elt F)) h ((broadcastInDim S5632x256 ![0, 1] bcast_S1x256_S5632x256_0_1 : (⟨S1x256, .f32⟩ : BufTy).Contents (Elt F) → (⟨S5632x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x45B00000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45B00000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) g))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) be))) ((broadcastInDim S5632x256 ![] bcast_S_S5632x256 : (⟨S_, .f32⟩ : BufTy).Contents (Elt F) → (⟨S5632x256, .f32⟩ : BufTy).Contents (Elt F)) (constant S_ .f32 0x00000000#32 : (⟨S_, .f32⟩ : BufTy).Contents (Elt F))))

/-- Layer 2, the neighbour mean: negative source indices wrapped, the source rows gathered, summed per destination row, and
    divided by the destination's edge count (at least one). -/
def aggR2 (x : (⟨S5632x256, .f32⟩ : BufTy).Contents (Elt F)) (src : (⟨S5120, .i32⟩ : BufTy).Contents (Elt F)) (dst : (⟨S5120, .i32⟩ : BufTy).Contents (Elt F)) : (⟨S512x256, .f32⟩ : BufTy).Contents (Elt F) :=
  ((Host.divf : (⟨S512x256, .f32⟩ : BufTy).Contents (Elt F) → (⟨S512x256, .f32⟩ : BufTy).Contents (Elt F) → (⟨S512x256, .f32⟩ : BufTy).Contents (Elt F)) (((fun x i u => Host.scatterAdd scatter_S512x256_S5120x1_S5120x256_1_0_0_1 x i u) : (⟨S512x256, .f32⟩ : BufTy).Contents (Elt F) → (⟨S5120x1, .i32⟩ : BufTy).Contents (Elt F) → (⟨S5120x256, .f32⟩ : BufTy).Contents (Elt F) → (⟨S512x256, .f32⟩ : BufTy).Contents (Elt F)) ((broadcastInDim S512x256 ![] bcast_S_S512x256 : (⟨S_, .f32⟩ : BufTy).Contents (Elt F) → (⟨S512x256, .f32⟩ : BufTy).Contents (Elt F)) (constant S_ .f32 0x00000000#32 : (⟨S_, .f32⟩ : BufTy).Contents (Elt F))) ((broadcastInDim S5120x1 ![0] bcast_S5120_S5120x1_0 : (⟨S5120, .i32⟩ : BufTy).Contents (Elt F) → (⟨S5120x1, .i32⟩ : BufTy).Contents (Elt F)) dst) (((fun x i => Host.gather gather_S5632x256_S5120x1_S5120x256_1_0_n_n_0_1_1256 x i) : (⟨S5632x256, .f32⟩ : BufTy).Contents (Elt F) → (⟨S5120x1, .i32⟩ : BufTy).Contents (Elt F) → (⟨S5120x256, .f32⟩ : BufTy).Contents (Elt F)) x ((broadcastInDim S5120x1 ![0] bcast_S5120_S5120x1_0 : (⟨S5120, .i32⟩ : BufTy).Contents (Elt F) → (⟨S5120x1, .i32⟩ : BufTy).Contents (Elt F)) ((select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)) ((cmpi .slt : (⟨S5120, .i32⟩ : BufTy).Contents (Elt F) → (⟨S5120, .i32⟩ : BufTy).Contents (Elt F) → (⟨S5120, .i1⟩ : BufTy).Contents (Elt F)) src ((broadcastInDim S5120 ![] bcast_S_S5120 : (⟨S_, .i32⟩ : BufTy).Contents (Elt F) → (⟨S5120, .i32⟩ : BufTy).Contents (Elt F)) (constantI S_ 32 0#32 : (⟨S_, .i32⟩ : BufTy).Contents (Elt F)))) ((addi : (⟨S5120, .i32⟩ : BufTy).Contents (Elt F) → (⟨S5120, .i32⟩ : BufTy).Contents (Elt F) → (⟨S5120, .i32⟩ : BufTy).Contents (Elt F)) src ((broadcastInDim S5120 ![] bcast_S_S5120 : (⟨S_, .i32⟩ : BufTy).Contents (Elt F) → (⟨S5120, .i32⟩ : BufTy).Contents (Elt F)) (constantI S_ 32 5632#32 : (⟨S_, .i32⟩ : BufTy).Contents (Elt F)))) src)))) ((broadcastInDim S512x256 ![0, 1] bcast_S512x1_S512x256_0_1 : (⟨S512x1, .f32⟩ : BufTy).Contents (Elt F) → (⟨S512x256, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) (((fun x i u => Host.scatterAdd scatter_S512_S5120x1_S5120_n_0_0_1 x i u) : (⟨S512, .f32⟩ : BufTy).Contents (Elt F) → (⟨S5120x1, .i32⟩ : BufTy).Contents (Elt F) → (⟨S5120, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32 : (⟨S_, .f32⟩ : BufTy).Contents (Elt F))) ((broadcastInDim S5120x1 ![0] bcast_S5120_S5120x1_0 : (⟨S5120, .i32⟩ : BufTy).Contents (Elt F) → (⟨S5120x1, .i32⟩ : BufTy).Contents (Elt F)) dst) ((broadcastInDim S5120 ![] bcast_S_S5120 : (⟨S_, .f32⟩ : BufTy).Contents (Elt F) → (⟨S5120, .f32⟩ : BufTy).Contents (Elt F)) (constant S_ .f32 0x3F800000#32 : (⟨S_, .f32⟩ : BufTy).Contents (Elt F)))) ((broadcastInDim S512 ![] bcast_S_S512 : (⟨S_, .f32⟩ : BufTy).Contents (Elt F) → (⟨S512, .f32⟩ : BufTy).Contents (Elt F)) (constant S_ .f32 0x3F800000#32 : (⟨S_, .f32⟩ : BufTy).Contents (Elt F)))))))

/-- Layer 2, the target rows: negative indices wrapped, the rows gathered. -/
def tgtR2 (x : (⟨S5632x256, .f32⟩ : BufTy).Contents (Elt F)) (tlid : (⟨S512, .i32⟩ : BufTy).Contents (Elt F)) : (⟨S512x256, .f32⟩ : BufTy).Contents (Elt F) :=
  (((fun x i => Host.gather gather_S5632x256_S512x1_S512x256_1_0_n_n_0_1_1256 x i) : (⟨S5632x256, .f32⟩ : BufTy).Contents (Elt F) → (⟨S512x1, .i32⟩ : BufTy).Contents (Elt F) → (⟨S512x256, .f32⟩ : BufTy).Contents (Elt F)) x ((broadcastInDim S512x1 ![0] bcast_S512_S512x1_0 : (⟨S512, .i32⟩ : BufTy).Contents (Elt F) → (⟨S512x1, .i32⟩ : BufTy).Contents (Elt F)) ((select : (⟨S512, .i1⟩ : BufTy).Contents (Elt F) → (⟨S512, .i32⟩ : BufTy).Contents (Elt F) → (⟨S512, .i32⟩ : BufTy).Contents (Elt F) → (⟨S512, .i32⟩ : BufTy).Contents (Elt F)) ((cmpi .slt : (⟨S512, .i32⟩ : BufTy).Contents (Elt F) → (⟨S512, .i32⟩ : BufTy).Contents (Elt F) → (⟨S512, .i1⟩ : BufTy).Contents (Elt F)) tlid ((broadcastInDim S512 ![] bcast_S_S512 : (⟨S_, .i32⟩ : BufTy).Contents (Elt F) → (⟨S512, .i32⟩ : BufTy).Contents (Elt F)) (constantI S_ 32 0#32 : (⟨S_, .i32⟩ : BufTy).Contents (Elt F)))) ((addi : (⟨S512, .i32⟩ : BufTy).Contents (Elt F) → (⟨S512, .i32⟩ : BufTy).Contents (Elt F) → (⟨S512, .i32⟩ : BufTy).Contents (Elt F)) tlid ((broadcastInDim S512 ![] bcast_S_S512 : (⟨S_, .i32⟩ : BufTy).Contents (Elt F) → (⟨S512, .i32⟩ : BufTy).Contents (Elt F)) (constantI S_ 32 5632#32 : (⟨S_, .i32⟩ : BufTy).Contents (Elt F)))) tlid)))

/-- Layer 2, the linear map: the neighbour mean times one matrix plus the target rows times the other, plus the bias row. -/
def linR2 (a : (⟨S512x256, .f32⟩ : BufTy).Contents (Elt F)) (xt : (⟨S512x256, .f32⟩ : BufTy).Contents (Elt F)) (wl : (⟨S256x256, .f32⟩ : BufTy).Contents (Elt F)) (wr : (⟨S256x256, .f32⟩ : BufTy).Contents (Elt F)) (b : (⟨S256, .f32⟩ : BufTy).Contents (Elt F)) : (⟨S512x256, .f32⟩ : BufTy).Contents (Elt F) :=
  ((addf : (⟨S512x256, .f32⟩ : BufTy).Contents (Elt F) → (⟨S512x256, .f32⟩ : BufTy).Contents (Elt F) → (⟨S512x256, .f32⟩ : BufTy).Contents (Elt F)) ((addf : (⟨S512x256, .f32⟩ : BufTy).Contents (Elt F) → (⟨S512x256, .f32⟩ : BufTy).Contents (Elt F) → (⟨S512x256, .f32⟩ : BufTy).Contents (Elt F)) (((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)) a wl) (((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)) xt wr)) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) b)))

/-- Layer 2, the batch normalisation and rectifier: each column centred at its mean, scaled by the reciprocal square root of its
    variance plus a small constant, scaled and shifted by the two parameter rows, and the negative part dropped. -/
def bnR2 (h : (⟨S512x256, .f32⟩ : BufTy).Contents (Elt F)) (g : (⟨S256, .f32⟩ : BufTy).Contents (Elt F)) (be : (⟨S256, .f32⟩ : BufTy).Contents (Elt F)) : (⟨S512x256, .f32⟩ : BufTy).Contents (Elt F) :=
  ((maximumf : (⟨S512x256, .f32⟩ : BufTy).Contents (Elt F) → (⟨S512x256, .f32⟩ : BufTy).Contents (Elt F) → (⟨S512x256, .f32⟩ : BufTy).Contents (Elt F)) ((addf : (⟨S512x256, .f32⟩ : BufTy).Contents (Elt F) → (⟨S512x256, .f32⟩ : BufTy).Contents (Elt F) → (⟨S512x256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((subf : (⟨S512x256, .f32⟩ : BufTy).Contents (Elt F) → (⟨S512x256, .f32⟩ : BufTy).Contents (Elt F) → (⟨S512x256, .f32⟩ : BufTy).Contents (Elt F)) h ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x44000000#32 : (⟨S_, .f32⟩ : BufTy).Contents (Elt F))))))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x44000000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((subf : (⟨S512x256, .f32⟩ : BufTy).Contents (Elt F) → (⟨S512x256, .f32⟩ : BufTy).Contents (Elt F) → (⟨S512x256, .f32⟩ : BufTy).Contents (Elt F)) h ((broadcastInDim S512x256 ![0, 1] bcast_S1x256_S512x256_0_1 : (⟨S1x256, .f32⟩ : BufTy).Contents (Elt F) → (⟨S512x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x44000000#32 : (⟨S_, .f32⟩ : BufTy).Contents (Elt F)))))) ((subf : (⟨S512x256, .f32⟩ : BufTy).Contents (Elt F) → (⟨S512x256, .f32⟩ : BufTy).Contents (Elt F) → (⟨S512x256, .f32⟩ : BufTy).Contents (Elt F)) h ((broadcastInDim S512x256 ![0, 1] bcast_S1x256_S512x256_0_1 : (⟨S1x256, .f32⟩ : BufTy).Contents (Elt F) → (⟨S512x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) h (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x44000000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x44000000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) g))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) be))) ((broadcastInDim S512x256 ![] bcast_S_S512x256 : (⟨S_, .f32⟩ : BufTy).Contents (Elt F) → (⟨S512x256, .f32⟩ : BufTy).Contents (Elt F)) (constant S_ .f32 0x00000000#32 : (⟨S_, .f32⟩ : BufTy).Contents (Elt F))))

/-- The final linear map: the product with the class matrix plus the bias row. -/
def fcR (x : (⟨S512x256, .f32⟩ : BufTy).Contents (Elt F)) (w : (⟨S256x47, .f32⟩ : BufTy).Contents (Elt F)) (b : (⟨S47, .f32⟩ : BufTy).Contents (Elt F)) : (⟨S512x47, .f32⟩ : BufTy).Contents (Elt F) :=
  ((addf : (⟨S512x47, .f32⟩ : BufTy).Contents (Elt F) → (⟨S512x47, .f32⟩ : BufTy).Contents (Elt F) → (⟨S512x47, .f32⟩ : BufTy).Contents (Elt F)) (((fun l r => Host.dotGeneral dot_S512x256_S256x47_S512x47_1_0_0_1_n_n none l r) : (⟨S512x256, .f32⟩ : BufTy).Contents (Elt F) → (⟨S256x47, .f32⟩ : BufTy).Contents (Elt F) → (⟨S512x47, .f32⟩ : BufTy).Contents (Elt F)) x w) ((broadcastInDim S512x47 ![0, 1] bcast_S1x47_S512x47_0_1 : (⟨S1x47, .f32⟩ : BufTy).Contents (Elt F) → (⟨S512x47, .f32⟩ : BufTy).Contents (Elt F)) ((broadcastInDim S1x47 ![1] bcast_S47_S1x47_1 : (⟨S47, .f32⟩ : BufTy).Contents (Elt F) → (⟨S1x47, .f32⟩ : BufTy).Contents (Elt F)) b)))

/-! ## Layer 0 -/

/-- Layer 0, first stretch: the neighbour mean, the target rows, the linear map, the column means. -/
abbrev sA0 : List (HloOp τ sig (Elt F)) :=
  [ StableHlo.nullary main_c (constantI S_ 32 0#32),
    StableHlo.unary main_c main_v0 (broadcastInDim S619520 ![] bcast_S_S619520 : (⟨S_, .i32⟩ : BufTy).Contents (Elt F) → (⟨S619520, .i32⟩ : BufTy).Contents (Elt F)),
    StableHlo.binary main_arg1 main_v0 main_v1 (cmpi .slt : (⟨S619520, .i32⟩ : BufTy).Contents (Elt F) → (⟨S619520, .i32⟩ : BufTy).Contents (Elt F) → (⟨S619520, .i1⟩ : BufTy).Contents (Elt F)),
    StableHlo.nullary main_c_0 (constantI S_ 32 681472#32),
    StableHlo.unary main_c_0 main_v2 (broadcastInDim S619520 ![] bcast_S_S619520 : (⟨S_, .i32⟩ : BufTy).Contents (Elt F) → (⟨S619520, .i32⟩ : BufTy).Contents (Elt F)),
    StableHlo.binary main_arg1 main_v2 main_v3 (addi : (⟨S619520, .i32⟩ : BufTy).Contents (Elt F) → (⟨S619520, .i32⟩ : BufTy).Contents (Elt F) → (⟨S619520, .i32⟩ : BufTy).Contents (Elt F)),
    StableHlo.ternary main_v1 main_v3 main_arg1 main_v4 (select : (⟨S619520, .i1⟩ : BufTy).Contents (Elt F) → (⟨S619520, .i32⟩ : BufTy).Contents (Elt F) → (⟨S619520, .i32⟩ : BufTy).Contents (Elt F) → (⟨S619520, .i32⟩ : BufTy).Contents (Elt F)),
    StableHlo.unary main_v4 main_v5 (broadcastInDim S619520x1 ![0] bcast_S619520_S619520x1_0 : (⟨S619520, .i32⟩ : BufTy).Contents (Elt F) → (⟨S619520x1, .i32⟩ : BufTy).Contents (Elt F)),
    StableHlo.binary main_arg0 main_v5 main_v6 ((fun x i => Host.gather gather_S681472x256_S619520x1_S619520x256_1_0_n_n_0_1_1256 x i) : (⟨S681472x256, .f32⟩ : BufTy).Contents (Elt F) → (⟨S619520x1, .i32⟩ : BufTy).Contents (Elt F) → (⟨S619520x256, .f32⟩ : BufTy).Contents (Elt F)),
    StableHlo.nullary main_cst (constant S_ .f32 0x00000000#32),
    StableHlo.unary main_cst main_v7 (broadcastInDim S61952x256 ![] bcast_S_S61952x256 : (⟨S_, .f32⟩ : BufTy).Contents (Elt F) → (⟨S61952x256, .f32⟩ : BufTy).Contents (Elt F)),
    StableHlo.unary main_arg2 main_v8 (broadcastInDim S619520x1 ![0] bcast_S619520_S619520x1_0 : (⟨S619520, .i32⟩ : BufTy).Contents (Elt F) → (⟨S619520x1, .i32⟩ : BufTy).Contents (Elt F)),
    StableHlo.ternary main_v7 main_v8 main_v6 main_v9 ((fun x i u => Host.scatterAdd scatter_S61952x256_S619520x1_S619520x256_1_0_0_1 x i u) : (⟨S61952x256, .f32⟩ : BufTy).Contents (Elt F) → (⟨S619520x1, .i32⟩ : BufTy).Contents (Elt F) → (⟨S619520x256, .f32⟩ : BufTy).Contents (Elt F) → (⟨S61952x256, .f32⟩ : BufTy).Contents (Elt F)),
    StableHlo.nullary main_cst_1 (constant S_ .f32 0x3F800000#32),
    StableHlo.unary main_cst_1 main_v10 (broadcastInDim S619520 ![] bcast_S_S619520 : (⟨S_, .f32⟩ : BufTy).Contents (Elt F) → (⟨S619520, .f32⟩ : BufTy).Contents (Elt F)),
    StableHlo.nullary main_cst_2 (constant S_ .f32 0x00000000#32),
    StableHlo.unary main_cst_2 main_v11 (broadcastInDim S61952 ![] bcast_S_S61952 : (⟨S_, .f32⟩ : BufTy).Contents (Elt F) → (⟨S61952, .f32⟩ : BufTy).Contents (Elt F)),
    StableHlo.unary main_arg2 main_v12 (broadcastInDim S619520x1 ![0] bcast_S619520_S619520x1_0 : (⟨S619520, .i32⟩ : BufTy).Contents (Elt F) → (⟨S619520x1, .i32⟩ : BufTy).Contents (Elt F)),
    StableHlo.ternary main_v11 main_v12 main_v10 main_v13 ((fun x i u => Host.scatterAdd scatter_S61952_S619520x1_S619520_n_0_0_1 x i u) : (⟨S61952, .f32⟩ : BufTy).Contents (Elt F) → (⟨S619520x1, .i32⟩ : BufTy).Contents (Elt F) → (⟨S619520, .f32⟩ : BufTy).Contents (Elt F) → (⟨S61952, .f32⟩ : BufTy).Contents (Elt F)),
    StableHlo.nullary main_cst_3 (constant S_ .f32 0x3F800000#32),
    StableHlo.unary main_cst_3 main_v14 (broadcastInDim S61952 ![] bcast_S_S61952 : (⟨S_, .f32⟩ : BufTy).Contents (Elt F) → (⟨S61952, .f32⟩ : BufTy).Contents (Elt F)),
    StableHlo.binary main_v13 main_v14 main_v15 (maximumf : (⟨S61952, .f32⟩ : BufTy).Contents (Elt F) → (⟨S61952, .f32⟩ : BufTy).Contents (Elt F) → (⟨S61952, .f32⟩ : BufTy).Contents (Elt F)),
    StableHlo.unary main_v15 main_v16 (broadcastInDim S61952x1 ![0] bcast_S61952_S61952x1_0 : (⟨S61952, .f32⟩ : BufTy).Contents (Elt F) → (⟨S61952x1, .f32⟩ : BufTy).Contents (Elt F)),
    StableHlo.unary main_v16 main_v17 (broadcastInDim S61952x256 ![0, 1] bcast_S61952x1_S61952x256_0_1 : (⟨S61952x1, .f32⟩ : BufTy).Contents (Elt F) → (⟨S61952x256, .f32⟩ : BufTy).Contents (Elt F)),
    StableHlo.binary main_v9 main_v17 main_v18 (Host.divf : (⟨S61952x256, .f32⟩ : BufTy).Contents (Elt F) → (⟨S61952x256, .f32⟩ : BufTy).Contents (Elt F) → (⟨S61952x256, .f32⟩ : BufTy).Contents (Elt F)),
    StableHlo.nullary main_c_4 (constantI S_ 32 0#32),
    StableHlo.unary main_c_4 main_v19 (broadcastInDim S61952 ![] bcast_S_S61952 : (⟨S_, .i32⟩ : BufTy).Contents (Elt F) → (⟨S61952, .i32⟩ : BufTy).Contents (Elt F)),
    StableHlo.binary main_arg3 main_v19 main_v20 (cmpi .slt : (⟨S61952, .i32⟩ : BufTy).Contents (Elt F) → (⟨S61952, .i32⟩ : BufTy).Contents (Elt F) → (⟨S61952, .i1⟩ : BufTy).Contents (Elt F)),
    StableHlo.nullary main_c_5 (constantI S_ 32 681472#32),
    StableHlo.unary main_c_5 main_v21 (broadcastInDim S61952 ![] bcast_S_S61952 : (⟨S_, .i32⟩ : BufTy).Contents (Elt F) → (⟨S61952, .i32⟩ : BufTy).Contents (Elt F)),
    StableHlo.binary main_arg3 main_v21 main_v22 (addi : (⟨S61952, .i32⟩ : BufTy).Contents (Elt F) → (⟨S61952, .i32⟩ : BufTy).Contents (Elt F) → (⟨S61952, .i32⟩ : BufTy).Contents (Elt F)),
    StableHlo.ternary main_v20 main_v22 main_arg3 main_v23 (select : (⟨S61952, .i1⟩ : BufTy).Contents (Elt F) → (⟨S61952, .i32⟩ : BufTy).Contents (Elt F) → (⟨S61952, .i32⟩ : BufTy).Contents (Elt F) → (⟨S61952, .i32⟩ : BufTy).Contents (Elt F)),
    StableHlo.unary main_v23 main_v24 (broadcastInDim S61952x1 ![0] bcast_S61952_S61952x1_0 : (⟨S61952, .i32⟩ : BufTy).Contents (Elt F) → (⟨S61952x1, .i32⟩ : BufTy).Contents (Elt F)),
    StableHlo.binary main_arg0 main_v24 main_v25 ((fun x i => Host.gather gather_S681472x256_S61952x1_S61952x256_1_0_n_n_0_1_1256 x i) : (⟨S681472x256, .f32⟩ : BufTy).Contents (Elt F) → (⟨S61952x1, .i32⟩ : BufTy).Contents (Elt F) → (⟨S61952x256, .f32⟩ : BufTy).Contents (Elt F)),
    StableHlo.binary main_v18 main_arg10 main_v26 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v25 main_arg11 main_v27 ((fun l r => Host.dotGeneral dot_S61952x256_S256x256_S61952x256_1_0_0_1_n_n none l r) : (⟨S61952x256, .f32⟩ : BufTy).Contents (Elt F) → (⟨S256x256, .f32⟩ : BufTy).Contents (Elt F) → (⟨S61952x256, .f32⟩ : BufTy).Contents (Elt F)),
    StableHlo.binary main_v26 main_v27 main_v28 (addf : (⟨S61952x256, .f32⟩ : BufTy).Contents (Elt F) → (⟨S61952x256, .f32⟩ : BufTy).Contents (Elt F) → (⟨S61952x256, .f32⟩ : BufTy).Contents (Elt F)),
    StableHlo.unary main_arg12 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S61952x256 ![0, 1] bcast_S1x256_S61952x256_0_1 : (⟨S1x256, .f32⟩ : BufTy).Contents (Elt F) → (⟨S61952x256, .f32⟩ : BufTy).Contents (Elt F)),
    StableHlo.binary main_v28 main_v30 main_v31 (addf : (⟨S61952x256, .f32⟩ : BufTy).Contents (Elt F) → (⟨S61952x256, .f32⟩ : BufTy).Contents (Elt F) → (⟨S61952x256, .f32⟩ : BufTy).Contents (Elt F)),
    StableHlo.nullary main_cst_6 (constant S_ .f32 0x00000000#32),
    StableHlo.binary main_v31 main_cst_6 main_v32 ((fun x v => Host.reduceAdd x v reducesTo_S61952x256_S256_d0 h_S_) : (⟨S61952x256, .f32⟩ : BufTy).Contents (Elt F) → (⟨S_, .f32⟩ : BufTy).Contents (Elt F) → (⟨S256, .f32⟩ : BufTy).Contents (Elt F)),
    StableHlo.nullary main_cst_7 (constant S_ .f32 0x47720000#32),
    StableHlo.unary main_cst_7 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32) ]

/-- The references that stretch writes, in order. -/
abbrev wA0 : List (Ref sig .tc) :=
  [ main_c, main_v0, main_v1, main_c_0, main_v2, main_v3, main_v4, main_v5,
    main_v6, main_cst, main_v7, main_v8, main_v9, main_cst_1, main_v10, main_cst_2,
    main_v11, main_v12, main_v13, main_cst_3, main_v14, main_v15, main_v16, main_v17,
    main_v18, main_c_4, main_v19, main_v20, main_c_5, main_v21, main_v22, main_v23,
    main_v24, main_v25, main_v26, main_v27, main_v28, main_v29, main_v30, main_v31,
    main_cst_6, main_v32, main_cst_7, main_v33, main_v34, main_c_8 ]

theorem writes_sub_A0 : (sA0 : List (HloOp τ sig (Elt F))).Forall fun op => op.writes ⊆ ((wA0).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl), single_sub_written (List.mem_of_getElem? (i := 22) rfl), single_sub_written (List.mem_of_getElem? (i := 23) rfl),
    single_sub_written (List.mem_of_getElem? (i := 24) rfl), single_sub_written (List.mem_of_getElem? (i := 25) rfl), single_sub_written (List.mem_of_getElem? (i := 26) rfl),
    single_sub_written (List.mem_of_getElem? (i := 27) rfl), single_sub_written (List.mem_of_getElem? (i := 28) rfl), single_sub_written (List.mem_of_getElem? (i := 29) rfl),
    single_sub_written (List.mem_of_getElem? (i := 30) rfl), single_sub_written (List.mem_of_getElem? (i := 31) rfl), single_sub_written (List.mem_of_getElem? (i := 32) rfl),
    single_sub_written (List.mem_of_getElem? (i := 33) rfl), single_sub_written (List.mem_of_getElem? (i := 34) rfl), single_sub_written (List.mem_of_getElem? (i := 35) rfl),
    single_sub_written (List.mem_of_getElem? (i := 36) rfl), single_sub_written (List.mem_of_getElem? (i := 37) rfl), single_sub_written (List.mem_of_getElem? (i := 38) rfl),
    single_sub_written (List.mem_of_getElem? (i := 39) rfl), single_sub_written (List.mem_of_getElem? (i := 40) rfl), single_sub_written (List.mem_of_getElem? (i := 41) rfl),
    single_sub_written (List.mem_of_getElem? (i := 42) rfl), single_sub_written (List.mem_of_getElem? (i := 43) rfl), single_sub_written (List.mem_of_getElem? (i := 44) rfl),
    single_sub_written (List.mem_of_getElem? (i := 45) rfl)⟩

/-- A reference that stretch does not write keeps its contents over it. -/
theorem keptA0 (V : Valuation τ sig (Elt F)) {r : Ref sig .tc} (hr : r ∉ wA0) :
    after sA0 V (Proc.devRef .tc r) = V (Proc.devRef .tc r) :=
  after_of_writes_sub sA0 V writes_sub_A0 hr

/-- Layer 0, second stretch: the column variances (a called function's operations over its call's buffers). -/
abbrev sB0 : List (HloOp τ sig (Elt F)) :=
  [ StableHlo.TRef.nullary main_call0.cst (constant S_ .f32 0x00000000#32),
    StableHlo.TRef.binary (.of main_v31) main_call0.cst main_call0.v0 (fun x v => Host.reduceAdd x v reducesTo_S61952x256_S256_d0 h_S_),
    StableHlo.TRef.unary main_call0.v0 main_call0.v1 (broadcastInDim S1x256 ![1] bcast_S256_S1x256_1),
    StableHlo.TRef.nullary main_call0.cst_0 (constant S_ .f32 0x47720000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S61952x256 ![0, 1] bcast_S1x256_S61952x256_0_1),
    StableHlo.TRef.binary (.of main_v31) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x47720000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S61952x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- The references that stretch writes, in order. -/
abbrev wB0 : List (Ref sig .tc) :=
  [ main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v35 ]

theorem writes_sub_B0 : (sB0 : List (HloOp τ sig (Elt F))).Forall fun op => op.writes ⊆ ((wB0).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl)⟩

/-- A reference that stretch does not write keeps its contents over it. -/
theorem keptB0 (V : Valuation τ sig (Elt F)) {r : Ref sig .tc} (hr : r ∉ wB0) :
    after sB0 V (Proc.devRef .tc r) = V (Proc.devRef .tc r) :=
  after_of_writes_sub sB0 V writes_sub_B0 hr

/-- Layer 0, third stretch: centring, scaling by the reciprocal root, the two parameter rows. -/
abbrev sC0 : List (HloOp τ sig (Elt F)) :=
  [ StableHlo.unary main_v34 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S61952x256 ![0, 1] bcast_S1x256_S61952x256_0_1 : (⟨S1x256, .f32⟩ : BufTy).Contents (Elt F) → (⟨S61952x256, .f32⟩ : BufTy).Contents (Elt F)),
    StableHlo.binary main_v31 main_v37 main_v38 (subf : (⟨S61952x256, .f32⟩ : BufTy).Contents (Elt F) → (⟨S61952x256, .f32⟩ : BufTy).Contents (Elt F) → (⟨S61952x256, .f32⟩ : BufTy).Contents (Elt F)),
    StableHlo.nullary main_cst_9 (constant S_ .f32 0x3727C5AC#32),
    StableHlo.unary main_cst_9 main_v39 (broadcastInDim S256 ![] bcast_S_S256 : (⟨S_, .f32⟩ : BufTy).Contents (Elt F) → (⟨S256, .f32⟩ : BufTy).Contents (Elt F)),
    StableHlo.binary main_v35 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S61952x256 ![0, 1] bcast_S1x256_S61952x256_0_1 : (⟨S1x256, .f32⟩ : BufTy).Contents (Elt F) → (⟨S61952x256, .f32⟩ : BufTy).Contents (Elt F)),
    StableHlo.binary main_v38 main_v43 main_v44 (mulf : (⟨S61952x256, .f32⟩ : BufTy).Contents (Elt F) → (⟨S61952x256, .f32⟩ : BufTy).Contents (Elt F) → (⟨S61952x256, .f32⟩ : BufTy).Contents (Elt F)),
    StableHlo.unary main_arg13 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S61952x256 ![0, 1] bcast_S1x256_S61952x256_0_1 : (⟨S1x256, .f32⟩ : BufTy).Contents (Elt F) → (⟨S61952x256, .f32⟩ : BufTy).Contents (Elt F)),
    StableHlo.binary main_v44 main_v46 main_v47 (mulf : (⟨S61952x256, .f32⟩ : BufTy).Contents (Elt F) → (⟨S61952x256, .f32⟩ : BufTy).Contents (Elt F) → (⟨S61952x256, .f32⟩ : BufTy).Contents (Elt F)),
    StableHlo.unary main_arg14 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S61952x256 ![0, 1] bcast_S1x256_S61952x256_0_1 : (⟨S1x256, .f32⟩ : BufTy).Contents (Elt F) → (⟨S61952x256, .f32⟩ : BufTy).Contents (Elt F)),
    StableHlo.binary main_v47 main_v49 main_v50 (addf : (⟨S61952x256, .f32⟩ : BufTy).Contents (Elt F) → (⟨S61952x256, .f32⟩ : BufTy).Contents (Elt F) → (⟨S61952x256, .f32⟩ : BufTy).Contents (Elt F)) ]

/-- The references that stretch writes, in order. -/
abbrev wC0 : List (Ref sig .tc) :=
  [ main_v36, main_v37, main_v38, main_cst_9, main_v39, main_v40, main_v41, main_v42,
    main_v43, main_v44, main_v45, main_v46, main_v47, main_v48, main_v49, main_v50 ]

theorem writes_sub_C0 : (sC0 : List (HloOp τ sig (Elt F))).Forall fun op => op.writes ⊆ ((wC0).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl)⟩

/-- A reference that stretch does not write keeps its contents over it. -/
theorem keptC0 (V : Valuation τ sig (Elt F)) {r : Ref sig .tc} (hr : r ∉ wC0) :
    after sC0 V (Proc.devRef .tc r) = V (Proc.devRef .tc r) :=
  after_of_writes_sub sC0 V writes_sub_C0 hr

/-- Layer 0, fourth stretch: the rectifier (a called function's operations over its call's buffers). -/
abbrev sD0 : List (HloOp τ sig (Elt F)) :=
  [ StableHlo.TRef.nullary main_call1.cst (constant S_ .f32 0x00000000#32),
    StableHlo.TRef.unary main_call1.cst main_call1.v0 (broadcastInDim S61952x256 ![] bcast_S_S61952x256),
    StableHlo.TRef.binary (.of main_v50) main_call1.v0 main_call1.v1 maximumf ]

/-- The references that stretch writes, in order. -/
abbrev wD0 : List (Ref sig .tc) :=
  [ main_call1_cst, main_call1_v0, main_v51 ]

theorem writes_sub_D0 : (sD0 : List (HloOp τ sig (Elt F))).Forall fun op => op.writes ⊆ ((wD0).map (Proc.devRef (τ := τ) .tc)).toFinset :=
  ⟨single_sub_written (List.mem_of_getElem? (i := 0) rfl), single_sub_written (List.mem_of_getElem? (i := 1) rfl), single_sub_written (List.mem_of_getElem? (i := 2) rfl)⟩

/-- A reference that stretch does not write keeps its contents over it. -/
theorem keptD0 (V : Valuation τ sig (Elt F)) {r : Ref sig .tc} (hr : r ∉ wD0) :
    after sD0 V (Proc.devRef .tc r) = V (Proc.devRef .tc r) :=
  after_of_writes_sub sD0 V writes_sub_D0 hr

/-- After the first stretch the linear map's buffer holds the linear map of the neighbour mean and the target rows. -/
theorem A0_h (V : Valuation τ sig (Elt F)) :
    after sA0 V (Proc.devRef .tc main_v31) = (linR0 (aggR0 (V (Proc.devRef .tc main_arg0)) (V (Proc.devRef .tc main_arg1)) (V (Proc.devRef .tc main_arg2))) (tgtR0 (V (Proc.devRef .tc main_arg0)) (V (Proc.devRef .tc main_arg3))) (V (Proc.devRef .tc main_arg10)) (V (Proc.devRef .tc main_arg11)) (V (Proc.devRef .tc main_arg12))) := by
  after_results_simp
  rfl

/-- After the first stretch the mean's buffer holds the column means of that. -/
theorem A0_m (V : Valuation τ sig (Elt F)) :
    after sA0 V (Proc.devRef .tc main_v34) = ((Host.divf : (⟨S256, .f32⟩ : BufTy).Contents (Elt F) → (⟨S256, .f32⟩ : BufTy).Contents (Elt F) → (⟨S256, .f32⟩ : BufTy).Contents (Elt F)) (((fun x v => Host.reduceAdd x v reducesTo_S61952x256_S256_d0 h_S_) : (⟨S61952x256, .f32⟩ : BufTy).Contents (Elt F) → (⟨S_, .f32⟩ : BufTy).Contents (Elt F) → (⟨S256, .f32⟩ : BufTy).Contents (Elt F)) (linR0 (aggR0 (V (Proc.devRef .tc main_arg0)) (V (Proc.devRef .tc main_arg1)) (V (Proc.devRef .tc main_arg2))) (tgtR0 (V (Proc.devRef .tc main_arg0)) (V (Proc.devRef .tc main_arg3))) (V (Proc.devRef .tc main_arg10)) (V (Proc.devRef .tc main_arg11)) (V (Proc.devRef .tc main_arg12))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x47720000#32 : (⟨S_, .f32⟩ : BufTy).Contents (Elt F)))) := by
  after_results_simp
  rfl

/-- After the first stretch the correction constant's buffer holds zero. -/
theorem A0_c (V : Valuation τ sig (Elt F)) :
    after sA0 V (Proc.devRef .tc main_c_8) = (constantI S_ 32 0#32 : (⟨S_, .i32⟩ : BufTy).Contents (Elt F)) := by
  after_results_simp

attribute [local irreducible] Host.reduceAdd in
set_option maxHeartbeats 2000000 in -- the transports are cleared by unfolding, one per operand of each of the twenty-two operations
/-- After the second stretch the variance's buffer holds the column variances of the linear map's buffer (the transports between a
    typed reference's contents and its buffer's are identities at these literal references). -/
theorem B0_v (V : Valuation τ sig (Elt F)) :
    after sB0 V (Proc.devRef .tc main_v35) = ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47720000#32 : (⟨S_, .f32⟩ : BufTy).Contents (Elt F)) ((sitofp .f32 : (⟨S_, .i32⟩ : BufTy).Contents (Elt F) → (⟨S_, .f32⟩ : BufTy).Contents (Elt F)) (V (Proc.devRef .tc main_c_8)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((subf : (⟨S61952x256, .f32⟩ : BufTy).Contents (Elt F) → (⟨S61952x256, .f32⟩ : BufTy).Contents (Elt F) → (⟨S61952x256, .f32⟩ : BufTy).Contents (Elt F)) (V (Proc.devRef .tc main_v31)) ((broadcastInDim S61952x256 ![0, 1] bcast_S1x256_S61952x256_0_1 : (⟨S1x256, .f32⟩ : BufTy).Contents (Elt F) → (⟨S61952x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) (V (Proc.devRef .tc main_v31)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x47720000#32 : (⟨S_, .f32⟩ : BufTy).Contents (Elt F)))))) ((subf : (⟨S61952x256, .f32⟩ : BufTy).Contents (Elt F) → (⟨S61952x256, .f32⟩ : BufTy).Contents (Elt F) → (⟨S61952x256, .f32⟩ : BufTy).Contents (Elt F)) (V (Proc.devRef .tc main_v31)) ((broadcastInDim S61952x256 ![0, 1] bcast_S1x256_S61952x256_0_1 : (⟨S1x256, .f32⟩ : BufTy).Contents (Elt F) → (⟨S61952x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S61952x256_S256_d0 h_S_ : (⟨S61952x256, .f32⟩ : BufTy).Contents (Elt F) → (⟨S_, .f32⟩ : BufTy).Contents (Elt F) → (⟨S256, .f32⟩ : BufTy).Contents (Elt F)) (V (Proc.devRef .tc main_v31)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x47720000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47720000#32 : (⟨S_, .f32⟩ : BufTy).Contents (Elt F)) ((sitofp .f32 : (⟨S_, .i32⟩ : BufTy).Contents (Elt F) → (⟨S_, .f32⟩ : BufTy).Contents (Elt F)) (V (Proc.devRef .tc main_c_8)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) := by
  after_results
  rfl

/-- After the third stretch the last buffer holds the normalised, scaled and shifted columns. -/
theorem C0_o (V : Valuation τ sig (Elt F)) :
    after sC0 V (Proc.devRef .tc main_v50) = ((addf : (⟨S61952x256, .f32⟩ : BufTy).Contents (Elt F) → (⟨S61952x256, .f32⟩ : BufTy).Contents (Elt F) → (⟨S61952x256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((mulf : (⟨S61952x256, .f32⟩ : BufTy).Contents (Elt F) → (⟨S61952x256, .f32⟩ : BufTy).Contents (Elt F) → (⟨S61952x256, .f32⟩ : BufTy).Contents (Elt F)) ((subf : (⟨S61952x256, .f32⟩ : BufTy).Contents (Elt F) → (⟨S61952x256, .f32⟩ : BufTy).Contents (Elt F) → (⟨S61952x256, .f32⟩ : BufTy).Contents (Elt F)) (V (Proc.devRef .tc main_v31)) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_v34))))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (V (Proc.devRef .tc main_v35)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg13))))) ((broadcastInDim S61952x256 ![0, 1] bcast_S1x256_S61952x256_0_1 : (⟨S1x256, .f32⟩ : BufTy).Contents (Elt F) → (⟨S61952x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg14))))) := by
  after_results_simp

/-- After the fourth stretch the layer's result buffer holds the positive part. -/
theorem D0_o (V : Valuation τ sig (Elt F)) :
    after sD0 V (Proc.devRef .tc main_v51) = ((maximumf : (⟨S61952x256, .f32⟩ : BufTy).Contents (Elt F) → (⟨S61952x256, .f32⟩ : BufTy).Contents (Elt F) → (⟨S61952x256, .f32⟩ : BufTy).Contents (Elt F)) (V (Proc.devRef .tc main_v50)) ((broadcastInDim S61952x256 ![] bcast_S_S61952x256 : (⟨S_, .f32⟩ : BufTy).Contents (Elt F) → (⟨S61952x256, .f32⟩ : BufTy).Contents (Elt F)) (constant S_ .f32 0x00000000#32 : (⟨S_, .f32⟩ : BufTy).Contents (Elt F)))) := by
  after_results
  rfl

/-- Layer 0's operations, the four stretches in order. -/
abbrev lay0 : List (HloOp τ sig (Elt F)) := sA0 ++ (sB0 ++ (sC0 ++ sD0))

/-- A reference none of the four stretches writes keeps its contents over the layer. -/
theorem keptL0 (V : Valuation τ sig (Elt F)) {r : Ref sig .tc} (hA : r ∉ wA0) (hB : r ∉ wB0) (hC : r ∉ wC0) (hD : r ∉ wD0) :
    after lay0 V (Proc.devRef .tc r) = V (Proc.devRef .tc r) := by
  show after (sA0 ++ (sB0 ++ (sC0 ++ sD0))) V _ = _
  rw [after_append, after_append, after_append, keptD0 _ hD, keptC0 _ hC, keptB0 _ hB, keptA0 _ hA]

/-- Over the layer, from any contents: the layer's result buffer holds the normalised rectified linear map of the neighbour mean and
    the target rows of the layer's input. -/
theorem L0_out (V : Valuation τ sig (Elt F)) :
    after lay0 V (Proc.devRef .tc main_v51)
      = bnR0 (linR0 (aggR0 (V (Proc.devRef .tc main_arg0)) (V (Proc.devRef .tc main_arg1)) (V (Proc.devRef .tc main_arg2))) (tgtR0 (V (Proc.devRef .tc main_arg0)) (V (Proc.devRef .tc main_arg3))) (V (Proc.devRef .tc main_arg10)) (V (Proc.devRef .tc main_arg11)) (V (Proc.devRef .tc main_arg12))) (V (Proc.devRef .tc main_arg13)) (V (Proc.devRef .tc main_arg14)) := by
  show after (sA0 ++ (sB0 ++ (sC0 ++ sD0))) V _ = _
  rw [after_append, after_append, after_append, D0_o, C0_o, B0_v,
    keptB0 _ (r := main_v31) (by decide), keptB0 _ (r := main_v34) (by decide), keptB0 _ (r := main_arg13) (by decide), keptB0 _ (r := main_arg14) (by decide),
    A0_h, A0_m, A0_c, keptA0 _ (r := main_arg13) (by decide), keptA0 _ (r := main_arg14) (by decide)]
  rfl

/-! ## Layer 1 -/

/-- Layer 1, first stretch: the neighbour mean, the target rows, the linear map, the column means. -/
abbrev sA1 : List (HloOp τ sig (Elt F)) :=
  [ StableHlo.nullary main_c_10 (constantI S_ 32 0#32),
    StableHlo.unary main_c_10 main_v52 (broadcastInDim S56320 ![] bcast_S_S56320 : (⟨S_, .i32⟩ : BufTy).Contents (Elt F) → (⟨S56320, .i32⟩ : BufTy).Contents (Elt F)),
    StableHlo.binary main_arg4 main_v52 main_v53 (cmpi .slt : (⟨S56320, .i32⟩ : BufTy).Contents (Elt F) → (⟨S56320, .i32⟩ : BufTy).Contents (Elt F) → (⟨S56320, .i1⟩ : BufTy).Contents (Elt F)),
    StableHlo.nullary main_c_11 (constantI S_ 32 61952#32),
    StableHlo.unary main_c_11 main_v54 (broadcastInDim S56320 ![] bcast_S_S56320 : (⟨S_, .i32⟩ : BufTy).Contents (Elt F) → (⟨S56320, .i32⟩ : BufTy).Contents (Elt F)),
    StableHlo.binary main_arg4 main_v54 main_v55 (addi : (⟨S56320, .i32⟩ : BufTy).Contents (Elt F) → (⟨S56320, .i32⟩ : BufTy).Contents (Elt F) → (⟨S56320, .i32⟩ : BufTy).Contents (Elt F)),
    StableHlo.ternary main_v53 main_v55 main_arg4 main_v56 (select : (⟨S56320, .i1⟩ : BufTy).Contents (Elt F) → (⟨S56320, .i32⟩ : BufTy).Contents (Elt F) → (⟨S56320, .i32⟩ : BufTy).Contents (Elt F) → (⟨S56320, .i32⟩ : BufTy).Contents (Elt F)),
    StableHlo.unary main_v56 main_v57 (broadcastInDim S56320x1 ![0] bcast_S56320_S56320x1_0 : (⟨S56320, .i32⟩ : BufTy).Contents (Elt F) → (⟨S56320x1, .i32⟩ : BufTy).Contents (Elt F)),
    StableHlo.binary main_v51 main_v57 main_v58 ((fun x i => Host.gather gather_S61952x256_S56320x1_S56320x256_1_0_n_n_0_1_1256 x i) : (⟨S61952x256, .f32⟩ : BufTy).Contents (Elt F) → (⟨S56320x1, .i32⟩ : BufTy).Contents (Elt F) → (⟨S56320x256, .f32⟩ : BufTy).Contents (Elt F)),
    StableHlo.nullary main_cst_12 (constant S_ .f32 0x00000000#32),
    StableHlo.unary main_cst_12 main_v59 (broadcastInDim S5632x256 ![] bcast_S_S5632x256 : (⟨S_, .f32⟩ : BufTy).Contents (Elt F) → (⟨S5632x256, .f32⟩ : BufTy).Contents (Elt F)),
    StableHlo.unary main_arg5 main_v60 (broadcastInDim S56320x1 ![0] bcast_S56320_S56320x1_0 : (⟨S56320, .i32⟩ : BufTy).Contents (Elt F) → (⟨S56320x1, .i32⟩ : BufTy).Contents (Elt F)),
    StableHlo.ternary main_v59 main_v60 main_v58 main_v61 ((fun x i u => Host.scatterAdd scatter_S5632x256_S56320x1_S56320x256_1_0_0_1 x i u) : (⟨S5632x256, .f32⟩ : BufTy).Contents (Elt F) → (⟨S56320x1, .i32⟩ : BufTy).Contents (Elt F) → (⟨S56320x256, .f32⟩ : BufTy).Contents (Elt F) → (⟨S5632x256, .f32⟩ : BufTy).Contents (Elt F)),
    StableHlo.nullary main_cst_13 (constant S_ .f32 0x3F800000#32),
    StableHlo.unary main_cst_13 main_v62 (broadcastInDim S56320 ![] bcast_S_S56320 : (⟨S_, .f32⟩ : BufTy).Contents (Elt F) → (⟨S56320, .f32⟩ : BufTy).Contents (Elt F)),
    StableHlo.nullary main_cst_14 (constant S_ .f32 0x00000000#32),
    StableHlo.unary main_cst_14 main_v63 (broadcastInDim S5632 ![] bcast_S_S5632 : (⟨S_, .f32⟩ : BufTy).Contents (Elt F) → (⟨S5632, .f32⟩ : BufTy).Contents (Elt F)),
    StableHlo.unary main_arg5 main_v64 (broadcastInDim S56320x1 ![0] bcast_S56320_S56320x1_0 : (⟨S56320, .i32⟩ : BufTy).Contents (Elt F) → (⟨S56320x1, .i32⟩ : BufTy).Contents (Elt F)),
    StableHlo.ternary main_v63 main_v64 main_v62 main_v65 ((fun x i u => Host.scatterAdd scatter_S5632_S56320x1_S56320_n_0_0_1 x i u) : (⟨S5632, .f32⟩ : BufTy).Contents (Elt F) → (⟨S56320x1, .i32⟩ : BufTy).Contents (Elt F) → (⟨S56320, .f32⟩ : BufTy).Contents (Elt F) → (⟨S5632, .f32⟩ : BufTy).Contents (Elt F)),
    StableHlo.nullary main_cst_15 (constant S_ .f32 0x3F800000#32),
    StableHlo.unary main_cst_15 main_v66 (broadcastInDim S5632 ![] bcast_S_S5632 : (⟨S_, .f32⟩ : BufTy).Contents (Elt F) → (⟨S5632, .f32⟩ : BufTy).Contents (Elt F)),
    StableHlo.binary main_v65 main_v66 main_v67 (maximumf : (⟨S5632, .f32⟩ : BufTy).Contents (Elt F) → (⟨S5632, .f32⟩ : BufTy).Contents (Elt F) → (⟨S5632, .f32⟩ : BufTy).Contents (Elt F)),
    StableHlo.unary main_v67 main_v68 (broadcastInDim S5632x1 ![0] bcast_S5632_S5632x1_0 : (⟨S5632, .f32⟩ : BufTy).Contents (Elt F) → (⟨S5632x1, .f32⟩ : BufTy).Contents (Elt F)),
    StableHlo.unary main_v68 main_v69 (broadcastInDim S5632x256 ![0, 1] bcast_S5632x1_S5632x256_0_1 : (⟨S5632x1, .f32⟩ : BufTy).Contents (Elt F) → (⟨S5632x256, .f32⟩ : BufTy).Contents (Elt F)),
    StableHlo.binary main_v61 main_v69 main_v70 (Host.divf : (⟨S5632x256, .f32⟩ : BufTy).Contents (Elt F) → (⟨S5632x256, .f32⟩ : BufTy).Contents (Elt F) → (⟨S5632x256, .f32⟩ : BufTy).Contents (Elt F)),
    StableHlo.nullary main_c_16 (constantI S_ 32 0#32),
    StableHlo.unary main_c_16 main_v71 (broadcastInDim S5632 ![] bcast_S_S5632 : (⟨S_, .i32⟩ : BufTy).Contents (Elt F) → (⟨S5632, .i32⟩ : BufTy).Contents (Elt F)),
    StableHlo.binary main_arg6 main_v71 main_v72 (cmpi .slt : (⟨S5632, .i32⟩ : BufTy).Contents (Elt F) → (⟨S5632, .i32⟩ : BufTy).Contents (Elt F) → (⟨S5632, .i1⟩ : BufTy).Contents (Elt F)),
    StableHlo.nullary main_c_17 (constantI S_ 32 61952#32),
    StableHlo.unary main_c_17 main_v73 (broadcastInDim S5632 ![] bcast_S_S5632 : (⟨S_, .i32⟩ : BufTy).Contents (Elt F) → (⟨S5632, .i32⟩ : BufTy).Contents (Elt F)),
    StableHlo.binary main_arg6 main_v73 main_v74 (addi : (⟨S5632, .i32⟩ : BufTy).Contents (Elt F) → (⟨S5632, .i32⟩ : BufTy).Contents (Elt F) → (⟨S5632, .i32⟩ : BufTy).Contents (Elt F)),
    StableHlo.ternary main_v72 main_v74 main_arg6 main_v75 (select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)),
    StableHlo.unary main_v75 main_v76 (broadcastInDim S5632x1 ![0] bcast_S5632_S5632x1_0 : (⟨S5632, .i32⟩ : BufTy).Contents (Elt F) → (⟨S5632x1, .i32⟩ : BufTy).Contents (Elt F)),
    StableHlo.binary main_v51 main_v76 main_v77 ((fun x i => Host.gather gather_S61952x256_S5632x1_S5632x256_1_0_n_n_0_1_1256 x i) : (⟨S61952x256, .f32⟩ : BufTy).Contents (Elt F) → (⟨S5632x1, .i32⟩ : BufTy).Contents (Elt F) → (⟨S5632x256, .f32⟩ : BufTy).Contents (Elt F)),
    StableHlo.binary main_v70 main_arg15 main_v78 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v77 main_arg16 main_v79 ((fun l r => Host.dotGeneral dot_S5632x256_S256x256_S5632x256_1_0_0_1_n_n none l r) : (⟨S5632x256, .f32⟩ : BufTy).Contents (Elt F) → (⟨S256x256, .f32⟩ : BufTy).Contents (Elt F) → (⟨S5632x256, .f32⟩ : BufTy).Contents (Elt F)),
    StableHlo.binary main_v78 main_v79 main_v80 (addf : (⟨S5632x256, .f32⟩ : BufTy).Contents (Elt F) → (⟨S5632x256, .f32⟩ : BufTy).Contents (Elt F) → (⟨S5632x256, .f32⟩ : BufTy).Contents (Elt F)),
    StableHlo.unary main_arg17 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S5632x256 ![0, 1] bcast_S1x256_S5632x256_0_1 : (⟨S1x256, .f32⟩ : BufTy).Contents (Elt F) → (⟨S5632x256, .f32⟩ : BufTy).Contents (Elt F)),
    StableHlo.binary main_v80 main_v82 main_v83 (addf : (⟨S5632x256, .f32⟩ : BufTy).Contents (Elt F) → (⟨S5632x256, .f32⟩ : BufTy).Contents (Elt F) → (⟨S5632x256, .f32⟩ : BufTy).Contents (Elt F)),
    StableHlo.nullary main_cst_18 (constant S_ .f32 0x00000000#32),
    StableHlo.binary main_v83 main_cst_18 main_v84 ((fun x v => Host.reduceAdd x v reducesTo_S5632x256_S256_d0 h_S_) : (⟨S5632x256, .f32⟩ : BufTy).Contents (Elt F) → (⟨S_, .f32⟩ : BufTy).Contents (Elt F) → (⟨S256, .f32⟩ : BufTy).Contents (Elt F)),
    StableHlo.nullary main_cst_19 (constant S_ .f32 0x45B00000#32),
    StableHlo.unary main_cst_19 main_v85 (broadcastInDim S256 ![] bcast_S_S256 : (⟨S_, .f32⟩ : BufTy).Contents (Elt F) → (⟨S256, .f32⟩ : BufTy).Contents (Elt F)),
    StableHlo.binary main_v84 main_v85 main_v86 (Host.divf : (⟨S256, .f32⟩ : BufTy).Contents (Elt F) → (⟨S256, .f32⟩ : BufTy).Contents (Elt F) → (⟨S256, .f32⟩ : BufTy).Contents (Elt F)),
    StableHlo.nullary main_c_20 (constantI S_ 32 0#32) ]

/-- The references that stretch writes, in order. -/
abbrev wA1 : List (Ref sig .tc) :=
  [ main_c_10, main_v52, main_v53, main_c_11, main_v54, main_v55, main_v56, main_v57,
    main_v58, main_cst_12, main_v59, main_v60, main_v61, main_cst_13, main_v62, main_cst_14,
    main_v63, main_v64, main_v65, main_cst_15, main_v66, main_v67, main_v68, main_v69,
    main_v70, main_c_16, main_v71, main_v72, main_c_17, main_v73, main_v74, main_v75,
    main_v76, main_v77, main_v78, main_v79, main_v80, main_v81, main_v82, main_v83,
    main_cst_18, main_v84, main_cst_19, main_v85, main_v86, main_c_20 ]

theorem writes_sub_A1 : (sA1 : List (HloOp τ sig (Elt F))).Forall fun op => op.writes ⊆ ((wA1).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl), single_sub_written (List.mem_of_getElem? (i := 22) rfl), single_sub_written (List.mem_of_getElem? (i := 23) rfl),
    single_sub_written (List.mem_of_getElem? (i := 24) rfl), single_sub_written (List.mem_of_getElem? (i := 25) rfl), single_sub_written (List.mem_of_getElem? (i := 26) rfl),
    single_sub_written (List.mem_of_getElem? (i := 27) rfl), single_sub_written (List.mem_of_getElem? (i := 28) rfl), single_sub_written (List.mem_of_getElem? (i := 29) rfl),
    single_sub_written (List.mem_of_getElem? (i := 30) rfl), single_sub_written (List.mem_of_getElem? (i := 31) rfl), single_sub_written (List.mem_of_getElem? (i := 32) rfl),
    single_sub_written (List.mem_of_getElem? (i := 33) rfl), single_sub_written (List.mem_of_getElem? (i := 34) rfl), single_sub_written (List.mem_of_getElem? (i := 35) rfl),
    single_sub_written (List.mem_of_getElem? (i := 36) rfl), single_sub_written (List.mem_of_getElem? (i := 37) rfl), single_sub_written (List.mem_of_getElem? (i := 38) rfl),
    single_sub_written (List.mem_of_getElem? (i := 39) rfl), single_sub_written (List.mem_of_getElem? (i := 40) rfl), single_sub_written (List.mem_of_getElem? (i := 41) rfl),
    single_sub_written (List.mem_of_getElem? (i := 42) rfl), single_sub_written (List.mem_of_getElem? (i := 43) rfl), single_sub_written (List.mem_of_getElem? (i := 44) rfl),
    single_sub_written (List.mem_of_getElem? (i := 45) rfl)⟩

/-- A reference that stretch does not write keeps its contents over it. -/
theorem keptA1 (V : Valuation τ sig (Elt F)) {r : Ref sig .tc} (hr : r ∉ wA1) :
    after sA1 V (Proc.devRef .tc r) = V (Proc.devRef .tc r) :=
  after_of_writes_sub sA1 V writes_sub_A1 hr

/-- Layer 1, second stretch: the column variances (a called function's operations over its call's buffers). -/
abbrev sB1 : List (HloOp τ sig (Elt F)) :=
  [ StableHlo.TRef.nullary main_call2.cst (constant S_ .f32 0x00000000#32),
    StableHlo.TRef.binary (.of main_v83) main_call2.cst main_call2.v0 (fun x v => Host.reduceAdd x v reducesTo_S5632x256_S256_d0 h_S_),
    StableHlo.TRef.unary main_call2.v0 main_call2.v1 (broadcastInDim S1x256 ![1] bcast_S256_S1x256_1),
    StableHlo.TRef.nullary main_call2.cst_0 (constant S_ .f32 0x45B00000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S5632x256 ![0, 1] bcast_S1x256_S5632x256_0_1),
    StableHlo.TRef.binary (.of main_v83) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x45B00000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S5632x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- The references that stretch writes, in order. -/
abbrev wB1 : List (Ref sig .tc) :=
  [ main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11,
    main_call2_cst_3, main_call2_v12, main_call2_cst_4, main_call2_call0_v0, main_call2_call0_v1, main_v87 ]

theorem writes_sub_B1 : (sB1 : List (HloOp τ sig (Elt F))).Forall fun op => op.writes ⊆ ((wB1).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl)⟩

/-- A reference that stretch does not write keeps its contents over it. -/
theorem keptB1 (V : Valuation τ sig (Elt F)) {r : Ref sig .tc} (hr : r ∉ wB1) :
    after sB1 V (Proc.devRef .tc r) = V (Proc.devRef .tc r) :=
  after_of_writes_sub sB1 V writes_sub_B1 hr

/-- Layer 1, third stretch: centring, scaling by the reciprocal root, the two parameter rows. -/
abbrev sC1 : List (HloOp τ sig (Elt F)) :=
  [ StableHlo.unary main_v86 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S5632x256 ![0, 1] bcast_S1x256_S5632x256_0_1 : (⟨S1x256, .f32⟩ : BufTy).Contents (Elt F) → (⟨S5632x256, .f32⟩ : BufTy).Contents (Elt F)),
    StableHlo.binary main_v83 main_v89 main_v90 (subf : (⟨S5632x256, .f32⟩ : BufTy).Contents (Elt F) → (⟨S5632x256, .f32⟩ : BufTy).Contents (Elt F) → (⟨S5632x256, .f32⟩ : BufTy).Contents (Elt F)),
    StableHlo.nullary main_cst_21 (constant S_ .f32 0x3727C5AC#32),
    StableHlo.unary main_cst_21 main_v91 (broadcastInDim S256 ![] bcast_S_S256 : (⟨S_, .f32⟩ : BufTy).Contents (Elt F) → (⟨S256, .f32⟩ : BufTy).Contents (Elt F)),
    StableHlo.binary main_v87 main_v91 main_v92 (addf : (⟨S256, .f32⟩ : BufTy).Contents (Elt F) → (⟨S256, .f32⟩ : BufTy).Contents (Elt F) → (⟨S256, .f32⟩ : BufTy).Contents (Elt F)),
    StableHlo.unary main_v92 main_v93 (Host.rsqrt : (⟨S256, .f32⟩ : BufTy).Contents (Elt F) → (⟨S256, .f32⟩ : BufTy).Contents (Elt F)),
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S5632x256 ![0, 1] bcast_S1x256_S5632x256_0_1 : (⟨S1x256, .f32⟩ : BufTy).Contents (Elt F) → (⟨S5632x256, .f32⟩ : BufTy).Contents (Elt F)),
    StableHlo.binary main_v90 main_v95 main_v96 (mulf : (⟨S5632x256, .f32⟩ : BufTy).Contents (Elt F) → (⟨S5632x256, .f32⟩ : BufTy).Contents (Elt F) → (⟨S5632x256, .f32⟩ : BufTy).Contents (Elt F)),
    StableHlo.unary main_arg18 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S5632x256 ![0, 1] bcast_S1x256_S5632x256_0_1 : (⟨S1x256, .f32⟩ : BufTy).Contents (Elt F) → (⟨S5632x256, .f32⟩ : BufTy).Contents (Elt F)),
    StableHlo.binary main_v96 main_v98 main_v99 (mulf : (⟨S5632x256, .f32⟩ : BufTy).Contents (Elt F) → (⟨S5632x256, .f32⟩ : BufTy).Contents (Elt F) → (⟨S5632x256, .f32⟩ : BufTy).Contents (Elt F)),
    StableHlo.unary main_arg19 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S5632x256 ![0, 1] bcast_S1x256_S5632x256_0_1 : (⟨S1x256, .f32⟩ : BufTy).Contents (Elt F) → (⟨S5632x256, .f32⟩ : BufTy).Contents (Elt F)),
    StableHlo.binary main_v99 main_v101 main_v102 (addf : (⟨S5632x256, .f32⟩ : BufTy).Contents (Elt F) → (⟨S5632x256, .f32⟩ : BufTy).Contents (Elt F) → (⟨S5632x256, .f32⟩ : BufTy).Contents (Elt F)) ]

/-- The references that stretch writes, in order. -/
abbrev wC1 : List (Ref sig .tc) :=
  [ main_v88, main_v89, main_v90, main_cst_21, main_v91, main_v92, main_v93, main_v94,
    main_v95, main_v96, main_v97, main_v98, main_v99, main_v100, main_v101, main_v102 ]

theorem writes_sub_C1 : (sC1 : List (HloOp τ sig (Elt F))).Forall fun op => op.writes ⊆ ((wC1).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl)⟩

/-- A reference that stretch does not write keeps its contents over it. -/
theorem keptC1 (V : Valuation τ sig (Elt F)) {r : Ref sig .tc} (hr : r ∉ wC1) :
    after sC1 V (Proc.devRef .tc r) = V (Proc.devRef .tc r) :=
  after_of_writes_sub sC1 V writes_sub_C1 hr

/-- Layer 1, fourth stretch: the rectifier (a called function's operations over its call's buffers). -/
abbrev sD1 : List (HloOp τ sig (Elt F)) :=
  [ StableHlo.TRef.nullary main_call3.cst (constant S_ .f32 0x00000000#32),
    StableHlo.TRef.unary main_call3.cst main_call3.v0 (broadcastInDim S5632x256 ![] bcast_S_S5632x256),
    StableHlo.TRef.binary (.of main_v102) main_call3.v0 main_call3.v1 maximumf ]

/-- The references that stretch writes, in order. -/
abbrev wD1 : List (Ref sig .tc) :=
  [ main_call3_cst, main_call3_v0, main_v103 ]

theorem writes_sub_D1 : (sD1 : List (HloOp τ sig (Elt F))).Forall fun op => op.writes ⊆ ((wD1).map (Proc.devRef (τ := τ) .tc)).toFinset :=
  ⟨single_sub_written (List.mem_of_getElem? (i := 0) rfl), single_sub_written (List.mem_of_getElem? (i := 1) rfl), single_sub_written (List.mem_of_getElem? (i := 2) rfl)⟩

/-- A reference that stretch does not write keeps its contents over it. -/
theorem keptD1 (V : Valuation τ sig (Elt F)) {r : Ref sig .tc} (hr : r ∉ wD1) :
    after sD1 V (Proc.devRef .tc r) = V (Proc.devRef .tc r) :=
  after_of_writes_sub sD1 V writes_sub_D1 hr

/-- After the first stretch the linear map's buffer holds the linear map of the neighbour mean and the target rows. -/
theorem A1_h (V : Valuation τ sig (Elt F)) :
    after sA1 V (Proc.devRef .tc main_v83) = (linR1 (aggR1 (V (Proc.devRef .tc main_v51)) (V (Proc.devRef .tc main_arg4)) (V (Proc.devRef .tc main_arg5))) (tgtR1 (V (Proc.devRef .tc main_v51)) (V (Proc.devRef .tc main_arg6))) (V (Proc.devRef .tc main_arg15)) (V (Proc.devRef .tc main_arg16)) (V (Proc.devRef .tc main_arg17))) := by
  after_results_simp
  rfl

/-- After the first stretch the mean's buffer holds the column means of that. -/
theorem A1_m (V : Valuation τ sig (Elt F)) :
    after sA1 V (Proc.devRef .tc main_v86) = ((Host.divf : (⟨S256, .f32⟩ : BufTy).Contents (Elt F) → (⟨S256, .f32⟩ : BufTy).Contents (Elt F) → (⟨S256, .f32⟩ : BufTy).Contents (Elt F)) (((fun x v => Host.reduceAdd x v reducesTo_S5632x256_S256_d0 h_S_) : (⟨S5632x256, .f32⟩ : BufTy).Contents (Elt F) → (⟨S_, .f32⟩ : BufTy).Contents (Elt F) → (⟨S256, .f32⟩ : BufTy).Contents (Elt F)) (linR1 (aggR1 (V (Proc.devRef .tc main_v51)) (V (Proc.devRef .tc main_arg4)) (V (Proc.devRef .tc main_arg5))) (tgtR1 (V (Proc.devRef .tc main_v51)) (V (Proc.devRef .tc main_arg6))) (V (Proc.devRef .tc main_arg15)) (V (Proc.devRef .tc main_arg16)) (V (Proc.devRef .tc main_arg17))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x45B00000#32 : (⟨S_, .f32⟩ : BufTy).Contents (Elt F)))) := by
  after_results_simp
  rfl

/-- After the first stretch the correction constant's buffer holds zero. -/
theorem A1_c (V : Valuation τ sig (Elt F)) :
    after sA1 V (Proc.devRef .tc main_c_20) = (constantI S_ 32 0#32 : (⟨S_, .i32⟩ : BufTy).Contents (Elt F)) := by
  after_results_simp

attribute [local irreducible] Host.reduceAdd in
set_option maxHeartbeats 2000000 in -- the transports are cleared by unfolding, one per operand of each of the twenty-two operations
/-- After the second stretch the variance's buffer holds the column variances of the linear map's buffer (the transports between a
    typed reference's contents and its buffer's are identities at these literal references). -/
theorem B1_v (V : Valuation τ sig (Elt F)) :
    after sB1 V (Proc.devRef .tc main_v87) = ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45B00000#32 : (⟨S_, .f32⟩ : BufTy).Contents (Elt F)) ((sitofp .f32 : (⟨S_, .i32⟩ : BufTy).Contents (Elt F) → (⟨S_, .f32⟩ : BufTy).Contents (Elt F)) (V (Proc.devRef .tc main_c_20)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((subf : (⟨S5632x256, .f32⟩ : BufTy).Contents (Elt F) → (⟨S5632x256, .f32⟩ : BufTy).Contents (Elt F) → (⟨S5632x256, .f32⟩ : BufTy).Contents (Elt F)) (V (Proc.devRef .tc main_v83)) ((broadcastInDim S5632x256 ![0, 1] bcast_S1x256_S5632x256_0_1 : (⟨S1x256, .f32⟩ : BufTy).Contents (Elt F) → (⟨S5632x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) (V (Proc.devRef .tc main_v83)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x45B00000#32 : (⟨S_, .f32⟩ : BufTy).Contents (Elt F)))))) ((subf : (⟨S5632x256, .f32⟩ : BufTy).Contents (Elt F) → (⟨S5632x256, .f32⟩ : BufTy).Contents (Elt F) → (⟨S5632x256, .f32⟩ : BufTy).Contents (Elt F)) (V (Proc.devRef .tc main_v83)) ((broadcastInDim S5632x256 ![0, 1] bcast_S1x256_S5632x256_0_1 : (⟨S1x256, .f32⟩ : BufTy).Contents (Elt F) → (⟨S5632x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S5632x256_S256_d0 h_S_ : (⟨S5632x256, .f32⟩ : BufTy).Contents (Elt F) → (⟨S_, .f32⟩ : BufTy).Contents (Elt F) → (⟨S256, .f32⟩ : BufTy).Contents (Elt F)) (V (Proc.devRef .tc main_v83)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x45B00000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45B00000#32 : (⟨S_, .f32⟩ : BufTy).Contents (Elt F)) ((sitofp .f32 : (⟨S_, .i32⟩ : BufTy).Contents (Elt F) → (⟨S_, .f32⟩ : BufTy).Contents (Elt F)) (V (Proc.devRef .tc main_c_20)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) := by
  after_results
  rfl

/-- After the third stretch the last buffer holds the normalised, scaled and shifted columns. -/
theorem C1_o (V : Valuation τ sig (Elt F)) :
    after sC1 V (Proc.devRef .tc main_v102) = ((addf : (⟨S5632x256, .f32⟩ : BufTy).Contents (Elt F) → (⟨S5632x256, .f32⟩ : BufTy).Contents (Elt F) → (⟨S5632x256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((mulf : (⟨S5632x256, .f32⟩ : BufTy).Contents (Elt F) → (⟨S5632x256, .f32⟩ : BufTy).Contents (Elt F) → (⟨S5632x256, .f32⟩ : BufTy).Contents (Elt F)) ((subf : (⟨S5632x256, .f32⟩ : BufTy).Contents (Elt F) → (⟨S5632x256, .f32⟩ : BufTy).Contents (Elt F) → (⟨S5632x256, .f32⟩ : BufTy).Contents (Elt F)) (V (Proc.devRef .tc main_v83)) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_v86))))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (V (Proc.devRef .tc main_v87)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg18))))) ((broadcastInDim S5632x256 ![0, 1] bcast_S1x256_S5632x256_0_1 : (⟨S1x256, .f32⟩ : BufTy).Contents (Elt F) → (⟨S5632x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg19))))) := by
  after_results_simp

/-- After the fourth stretch the layer's result buffer holds the positive part. -/
theorem D1_o (V : Valuation τ sig (Elt F)) :
    after sD1 V (Proc.devRef .tc main_v103) = ((maximumf : (⟨S5632x256, .f32⟩ : BufTy).Contents (Elt F) → (⟨S5632x256, .f32⟩ : BufTy).Contents (Elt F) → (⟨S5632x256, .f32⟩ : BufTy).Contents (Elt F)) (V (Proc.devRef .tc main_v102)) ((broadcastInDim S5632x256 ![] bcast_S_S5632x256 : (⟨S_, .f32⟩ : BufTy).Contents (Elt F) → (⟨S5632x256, .f32⟩ : BufTy).Contents (Elt F)) (constant S_ .f32 0x00000000#32 : (⟨S_, .f32⟩ : BufTy).Contents (Elt F)))) := by
  after_results
  rfl

/-- Layer 1's operations, the four stretches in order. -/
abbrev lay1 : List (HloOp τ sig (Elt F)) := sA1 ++ (sB1 ++ (sC1 ++ sD1))

/-- A reference none of the four stretches writes keeps its contents over the layer. -/
theorem keptL1 (V : Valuation τ sig (Elt F)) {r : Ref sig .tc} (hA : r ∉ wA1) (hB : r ∉ wB1) (hC : r ∉ wC1) (hD : r ∉ wD1) :
    after lay1 V (Proc.devRef .tc r) = V (Proc.devRef .tc r) := by
  show after (sA1 ++ (sB1 ++ (sC1 ++ sD1))) V _ = _
  rw [after_append, after_append, after_append, keptD1 _ hD, keptC1 _ hC, keptB1 _ hB, keptA1 _ hA]

/-- Over the layer, from any contents: the layer's result buffer holds the normalised rectified linear map of the neighbour mean and
    the target rows of the layer's input. -/
theorem L1_out (V : Valuation τ sig (Elt F)) :
    after lay1 V (Proc.devRef .tc main_v103)
      = bnR1 (linR1 (aggR1 (V (Proc.devRef .tc main_v51)) (V (Proc.devRef .tc main_arg4)) (V (Proc.devRef .tc main_arg5))) (tgtR1 (V (Proc.devRef .tc main_v51)) (V (Proc.devRef .tc main_arg6))) (V (Proc.devRef .tc main_arg15)) (V (Proc.devRef .tc main_arg16)) (V (Proc.devRef .tc main_arg17))) (V (Proc.devRef .tc main_arg18)) (V (Proc.devRef .tc main_arg19)) := by
  show after (sA1 ++ (sB1 ++ (sC1 ++ sD1))) V _ = _
  rw [after_append, after_append, after_append, D1_o, C1_o, B1_v,
    keptB1 _ (r := main_v83) (by decide), keptB1 _ (r := main_v86) (by decide), keptB1 _ (r := main_arg18) (by decide), keptB1 _ (r := main_arg19) (by decide),
    A1_h, A1_m, A1_c, keptA1 _ (r := main_arg18) (by decide), keptA1 _ (r := main_arg19) (by decide)]
  rfl

/-! ## Layer 2 -/

/-- Layer 2, first stretch: the neighbour mean, the target rows, the linear map, the column means. -/
abbrev sA2 : List (HloOp τ sig (Elt F)) :=
  [ StableHlo.nullary main_c_22 (constantI S_ 32 0#32),
    StableHlo.unary main_c_22 main_v104 (broadcastInDim S5120 ![] bcast_S_S5120 : (⟨S_, .i32⟩ : BufTy).Contents (Elt F) → (⟨S5120, .i32⟩ : BufTy).Contents (Elt F)),
    StableHlo.binary main_arg7 main_v104 main_v105 (cmpi .slt : (⟨S5120, .i32⟩ : BufTy).Contents (Elt F) → (⟨S5120, .i32⟩ : BufTy).Contents (Elt F) → (⟨S5120, .i1⟩ : BufTy).Contents (Elt F)),
    StableHlo.nullary main_c_23 (constantI S_ 32 5632#32),
    StableHlo.unary main_c_23 main_v106 (broadcastInDim S5120 ![] bcast_S_S5120 : (⟨S_, .i32⟩ : BufTy).Contents (Elt F) → (⟨S5120, .i32⟩ : BufTy).Contents (Elt F)),
    StableHlo.binary main_arg7 main_v106 main_v107 (addi : (⟨S5120, .i32⟩ : BufTy).Contents (Elt F) → (⟨S5120, .i32⟩ : BufTy).Contents (Elt F) → (⟨S5120, .i32⟩ : BufTy).Contents (Elt F)),
    StableHlo.ternary main_v105 main_v107 main_arg7 main_v108 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    StableHlo.unary main_v108 main_v109 (broadcastInDim S5120x1 ![0] bcast_S5120_S5120x1_0 : (⟨S5120, .i32⟩ : BufTy).Contents (Elt F) → (⟨S5120x1, .i32⟩ : BufTy).Contents (Elt F)),
    StableHlo.binary main_v103 main_v109 main_v110 ((fun x i => Host.gather gather_S5632x256_S5120x1_S5120x256_1_0_n_n_0_1_1256 x i) : (⟨S5632x256, .f32⟩ : BufTy).Contents (Elt F) → (⟨S5120x1, .i32⟩ : BufTy).Contents (Elt F) → (⟨S5120x256, .f32⟩ : BufTy).Contents (Elt F)),
    StableHlo.nullary main_cst_24 (constant S_ .f32 0x00000000#32),
    StableHlo.unary main_cst_24 main_v111 (broadcastInDim S512x256 ![] bcast_S_S512x256 : (⟨S_, .f32⟩ : BufTy).Contents (Elt F) → (⟨S512x256, .f32⟩ : BufTy).Contents (Elt F)),
    StableHlo.unary main_arg8 main_v112 (broadcastInDim S5120x1 ![0] bcast_S5120_S5120x1_0 : (⟨S5120, .i32⟩ : BufTy).Contents (Elt F) → (⟨S5120x1, .i32⟩ : BufTy).Contents (Elt F)),
    StableHlo.ternary main_v111 main_v112 main_v110 main_v113 ((fun x i u => Host.scatterAdd scatter_S512x256_S5120x1_S5120x256_1_0_0_1 x i u) : (⟨S512x256, .f32⟩ : BufTy).Contents (Elt F) → (⟨S5120x1, .i32⟩ : BufTy).Contents (Elt F) → (⟨S5120x256, .f32⟩ : BufTy).Contents (Elt F) → (⟨S512x256, .f32⟩ : BufTy).Contents (Elt F)),
    StableHlo.nullary main_cst_25 (constant S_ .f32 0x3F800000#32),
    StableHlo.unary main_cst_25 main_v114 (broadcastInDim S5120 ![] bcast_S_S5120 : (⟨S_, .f32⟩ : BufTy).Contents (Elt F) → (⟨S5120, .f32⟩ : BufTy).Contents (Elt F)),
    StableHlo.nullary main_cst_26 (constant S_ .f32 0x00000000#32),
    StableHlo.unary main_cst_26 main_v115 (broadcastInDim S512 ![] bcast_S_S512 : (⟨S_, .f32⟩ : BufTy).Contents (Elt F) → (⟨S512, .f32⟩ : BufTy).Contents (Elt F)),
    StableHlo.unary main_arg8 main_v116 (broadcastInDim S5120x1 ![0] bcast_S5120_S5120x1_0 : (⟨S5120, .i32⟩ : BufTy).Contents (Elt F) → (⟨S5120x1, .i32⟩ : BufTy).Contents (Elt F)),
    StableHlo.ternary main_v115 main_v116 main_v114 main_v117 ((fun x i u => Host.scatterAdd scatter_S512_S5120x1_S5120_n_0_0_1 x i u) : (⟨S512, .f32⟩ : BufTy).Contents (Elt F) → (⟨S5120x1, .i32⟩ : BufTy).Contents (Elt F) → (⟨S5120, .f32⟩ : BufTy).Contents (Elt F) → (⟨S512, .f32⟩ : BufTy).Contents (Elt F)),
    StableHlo.nullary main_cst_27 (constant S_ .f32 0x3F800000#32),
    StableHlo.unary main_cst_27 main_v118 (broadcastInDim S512 ![] bcast_S_S512 : (⟨S_, .f32⟩ : BufTy).Contents (Elt F) → (⟨S512, .f32⟩ : BufTy).Contents (Elt F)),
    StableHlo.binary main_v117 main_v118 main_v119 (maximumf : (⟨S512, .f32⟩ : BufTy).Contents (Elt F) → (⟨S512, .f32⟩ : BufTy).Contents (Elt F) → (⟨S512, .f32⟩ : BufTy).Contents (Elt F)),
    StableHlo.unary main_v119 main_v120 (broadcastInDim S512x1 ![0] bcast_S512_S512x1_0 : (⟨S512, .f32⟩ : BufTy).Contents (Elt F) → (⟨S512x1, .f32⟩ : BufTy).Contents (Elt F)),
    StableHlo.unary main_v120 main_v121 (broadcastInDim S512x256 ![0, 1] bcast_S512x1_S512x256_0_1 : (⟨S512x1, .f32⟩ : BufTy).Contents (Elt F) → (⟨S512x256, .f32⟩ : BufTy).Contents (Elt F)),
    StableHlo.binary main_v113 main_v121 main_v122 (Host.divf : (⟨S512x256, .f32⟩ : BufTy).Contents (Elt F) → (⟨S512x256, .f32⟩ : BufTy).Contents (Elt F) → (⟨S512x256, .f32⟩ : BufTy).Contents (Elt F)),
    StableHlo.nullary main_c_28 (constantI S_ 32 0#32),
    StableHlo.unary main_c_28 main_v123 (broadcastInDim S512 ![] bcast_S_S512 : (⟨S_, .i32⟩ : BufTy).Contents (Elt F) → (⟨S512, .i32⟩ : BufTy).Contents (Elt F)),
    StableHlo.binary main_arg9 main_v123 main_v124 (cmpi .slt : (⟨S512, .i32⟩ : BufTy).Contents (Elt F) → (⟨S512, .i32⟩ : BufTy).Contents (Elt F) → (⟨S512, .i1⟩ : BufTy).Contents (Elt F)),
    StableHlo.nullary main_c_29 (constantI S_ 32 5632#32),
    StableHlo.unary main_c_29 main_v125 (broadcastInDim S512 ![] bcast_S_S512 : (⟨S_, .i32⟩ : BufTy).Contents (Elt F) → (⟨S512, .i32⟩ : BufTy).Contents (Elt F)),
    StableHlo.binary main_arg9 main_v125 main_v126 (addi : (⟨S512, .i32⟩ : BufTy).Contents (Elt F) → (⟨S512, .i32⟩ : BufTy).Contents (Elt F) → (⟨S512, .i32⟩ : BufTy).Contents (Elt F)),
    StableHlo.ternary main_v124 main_v126 main_arg9 main_v127 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v127 main_v128 (broadcastInDim S512x1 ![0] bcast_S512_S512x1_0 : (⟨S512, .i32⟩ : BufTy).Contents (Elt F) → (⟨S512x1, .i32⟩ : BufTy).Contents (Elt F)),
    StableHlo.binary main_v103 main_v128 main_v129 ((fun x i => Host.gather gather_S5632x256_S512x1_S512x256_1_0_n_n_0_1_1256 x i) : (⟨S5632x256, .f32⟩ : BufTy).Contents (Elt F) → (⟨S512x1, .i32⟩ : BufTy).Contents (Elt F) → (⟨S512x256, .f32⟩ : BufTy).Contents (Elt F)),
    StableHlo.binary main_v122 main_arg20 main_v130 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v129 main_arg21 main_v131 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.binary main_v130 main_v131 main_v132 (addf : (⟨S512x256, .f32⟩ : BufTy).Contents (Elt F) → (⟨S512x256, .f32⟩ : BufTy).Contents (Elt F) → (⟨S512x256, .f32⟩ : BufTy).Contents (Elt F)),
    StableHlo.unary main_arg22 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S512x256 ![0, 1] bcast_S1x256_S512x256_0_1 : (⟨S1x256, .f32⟩ : BufTy).Contents (Elt F) → (⟨S512x256, .f32⟩ : BufTy).Contents (Elt F)),
    StableHlo.binary main_v132 main_v134 main_v135 (addf : (⟨S512x256, .f32⟩ : BufTy).Contents (Elt F) → (⟨S512x256, .f32⟩ : BufTy).Contents (Elt F) → (⟨S512x256, .f32⟩ : BufTy).Contents (Elt F)),
    StableHlo.nullary main_cst_30 (constant S_ .f32 0x00000000#32),
    StableHlo.binary main_v135 main_cst_30 main_v136 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    StableHlo.nullary main_cst_31 (constant S_ .f32 0x44000000#32),
    StableHlo.unary main_cst_31 main_v137 (broadcastInDim S256 ![] bcast_S_S256 : (⟨S_, .f32⟩ : BufTy).Contents (Elt F) → (⟨S256, .f32⟩ : BufTy).Contents (Elt F)),
    StableHlo.binary main_v136 main_v137 main_v138 (Host.divf : (⟨S256, .f32⟩ : BufTy).Contents (Elt F) → (⟨S256, .f32⟩ : BufTy).Contents (Elt F) → (⟨S256, .f32⟩ : BufTy).Contents (Elt F)),
    StableHlo.nullary main_c_32 (constantI S_ 32 0#32) ]

/-- The references that stretch writes, in order. -/
abbrev wA2 : List (Ref sig .tc) :=
  [ main_c_22, main_v104, main_v105, main_c_23, main_v106, main_v107, main_v108, main_v109,
    main_v110, main_cst_24, main_v111, main_v112, main_v113, main_cst_25, main_v114, main_cst_26,
    main_v115, main_v116, main_v117, main_cst_27, main_v118, main_v119, main_v120, main_v121,
    main_v122, main_c_28, main_v123, main_v124, main_c_29, main_v125, main_v126, main_v127,
    main_v128, main_v129, main_v130, main_v131, main_v132, main_v133, main_v134, main_v135,
    main_cst_30, main_v136, main_cst_31, main_v137, main_v138, main_c_32 ]

theorem writes_sub_A2 : (sA2 : List (HloOp τ sig (Elt F))).Forall fun op => op.writes ⊆ ((wA2).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl), single_sub_written (List.mem_of_getElem? (i := 22) rfl), single_sub_written (List.mem_of_getElem? (i := 23) rfl),
    single_sub_written (List.mem_of_getElem? (i := 24) rfl), single_sub_written (List.mem_of_getElem? (i := 25) rfl), single_sub_written (List.mem_of_getElem? (i := 26) rfl),
    single_sub_written (List.mem_of_getElem? (i := 27) rfl), single_sub_written (List.mem_of_getElem? (i := 28) rfl), single_sub_written (List.mem_of_getElem? (i := 29) rfl),
    single_sub_written (List.mem_of_getElem? (i := 30) rfl), single_sub_written (List.mem_of_getElem? (i := 31) rfl), single_sub_written (List.mem_of_getElem? (i := 32) rfl),
    single_sub_written (List.mem_of_getElem? (i := 33) rfl), single_sub_written (List.mem_of_getElem? (i := 34) rfl), single_sub_written (List.mem_of_getElem? (i := 35) rfl),
    single_sub_written (List.mem_of_getElem? (i := 36) rfl), single_sub_written (List.mem_of_getElem? (i := 37) rfl), single_sub_written (List.mem_of_getElem? (i := 38) rfl),
    single_sub_written (List.mem_of_getElem? (i := 39) rfl), single_sub_written (List.mem_of_getElem? (i := 40) rfl), single_sub_written (List.mem_of_getElem? (i := 41) rfl),
    single_sub_written (List.mem_of_getElem? (i := 42) rfl), single_sub_written (List.mem_of_getElem? (i := 43) rfl), single_sub_written (List.mem_of_getElem? (i := 44) rfl),
    single_sub_written (List.mem_of_getElem? (i := 45) rfl)⟩

/-- A reference that stretch does not write keeps its contents over it. -/
theorem keptA2 (V : Valuation τ sig (Elt F)) {r : Ref sig .tc} (hr : r ∉ wA2) :
    after sA2 V (Proc.devRef .tc r) = V (Proc.devRef .tc r) :=
  after_of_writes_sub sA2 V writes_sub_A2 hr

/-- Layer 2, second stretch: the column variances (a called function's operations over its call's buffers). -/
abbrev sB2 : List (HloOp τ sig (Elt F)) :=
  [ StableHlo.TRef.nullary main_call4.cst (constant S_ .f32 0x00000000#32),
    StableHlo.TRef.binary (.of main_v135) main_call4.cst main_call4.v0 (fun x v => Host.reduceAdd x v reducesTo_S512x256_S256_d0 h_S_),
    StableHlo.TRef.unary main_call4.v0 main_call4.v1 (broadcastInDim S1x256 ![1] bcast_S256_S1x256_1),
    StableHlo.TRef.nullary main_call4.cst_0 (constant S_ .f32 0x44000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S512x256 ![0, 1] bcast_S1x256_S512x256_0_1),
    StableHlo.TRef.binary (.of main_v135) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x44000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b) ]

/-- The references that stretch writes, in order. -/
abbrev wB2 : List (Ref sig .tc) :=
  [ main_call4_cst, main_call4_v0, main_call4_v1, main_call4_cst_0, main_call4_v2, main_call4_v3, main_call4_v4, main_call4_v5,
    main_call4_v6, main_call4_v7, main_call4_cst_1, main_call4_v8, main_call4_cst_2, main_call4_v9, main_call4_v10, main_call4_v11,
    main_call4_cst_3, main_call4_v12, main_call4_cst_4, main_call4_call0_v0, main_call4_call0_v1, main_v139 ]

theorem writes_sub_B2 : (sB2 : List (HloOp τ sig (Elt F))).Forall fun op => op.writes ⊆ ((wB2).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl), single_sub_written (List.mem_of_getElem? (i := 16) rfl), single_sub_written (List.mem_of_getElem? (i := 17) rfl),
    single_sub_written (List.mem_of_getElem? (i := 18) rfl), single_sub_written (List.mem_of_getElem? (i := 19) rfl), single_sub_written (List.mem_of_getElem? (i := 20) rfl),
    single_sub_written (List.mem_of_getElem? (i := 21) rfl)⟩

/-- A reference that stretch does not write keeps its contents over it. -/
theorem keptB2 (V : Valuation τ sig (Elt F)) {r : Ref sig .tc} (hr : r ∉ wB2) :
    after sB2 V (Proc.devRef .tc r) = V (Proc.devRef .tc r) :=
  after_of_writes_sub sB2 V writes_sub_B2 hr

/-- Layer 2, third stretch: centring, scaling by the reciprocal root, the two parameter rows. -/
abbrev sC2 : List (HloOp τ sig (Elt F)) :=
  [ StableHlo.unary main_v138 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S512x256 ![0, 1] bcast_S1x256_S512x256_0_1 : (⟨S1x256, .f32⟩ : BufTy).Contents (Elt F) → (⟨S512x256, .f32⟩ : BufTy).Contents (Elt F)),
    StableHlo.binary main_v135 main_v141 main_v142 (subf : (⟨S512x256, .f32⟩ : BufTy).Contents (Elt F) → (⟨S512x256, .f32⟩ : BufTy).Contents (Elt F) → (⟨S512x256, .f32⟩ : BufTy).Contents (Elt F)),
    StableHlo.nullary main_cst_33 (constant S_ .f32 0x3727C5AC#32),
    StableHlo.unary main_cst_33 main_v143 (broadcastInDim S256 ![] bcast_S_S256 : (⟨S_, .f32⟩ : BufTy).Contents (Elt F) → (⟨S256, .f32⟩ : BufTy).Contents (Elt F)),
    StableHlo.binary main_v139 main_v143 main_v144 (addf : (⟨S256, .f32⟩ : BufTy).Contents (Elt F) → (⟨S256, .f32⟩ : BufTy).Contents (Elt F) → (⟨S256, .f32⟩ : BufTy).Contents (Elt F)),
    StableHlo.unary main_v144 main_v145 (Host.rsqrt : (⟨S256, .f32⟩ : BufTy).Contents (Elt F) → (⟨S256, .f32⟩ : BufTy).Contents (Elt F)),
    StableHlo.unary main_v145 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S512x256 ![0, 1] bcast_S1x256_S512x256_0_1 : (⟨S1x256, .f32⟩ : BufTy).Contents (Elt F) → (⟨S512x256, .f32⟩ : BufTy).Contents (Elt F)),
    StableHlo.binary main_v142 main_v147 main_v148 (mulf : (⟨S512x256, .f32⟩ : BufTy).Contents (Elt F) → (⟨S512x256, .f32⟩ : BufTy).Contents (Elt F) → (⟨S512x256, .f32⟩ : BufTy).Contents (Elt F)),
    StableHlo.unary main_arg23 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S512x256 ![0, 1] bcast_S1x256_S512x256_0_1 : (⟨S1x256, .f32⟩ : BufTy).Contents (Elt F) → (⟨S512x256, .f32⟩ : BufTy).Contents (Elt F)),
    StableHlo.binary main_v148 main_v150 main_v151 (mulf : (⟨S512x256, .f32⟩ : BufTy).Contents (Elt F) → (⟨S512x256, .f32⟩ : BufTy).Contents (Elt F) → (⟨S512x256, .f32⟩ : BufTy).Contents (Elt F)),
    StableHlo.unary main_arg24 main_v152 (broadcastInDim S1x256 ![1] bcast_S256_S1x256_1 : (⟨S256, .f32⟩ : BufTy).Contents (Elt F) → (⟨S1x256, .f32⟩ : BufTy).Contents (Elt F)),
    StableHlo.unary main_v152 main_v153 (broadcastInDim S512x256 ![0, 1] bcast_S1x256_S512x256_0_1 : (⟨S1x256, .f32⟩ : BufTy).Contents (Elt F) → (⟨S512x256, .f32⟩ : BufTy).Contents (Elt F)),
    StableHlo.binary main_v151 main_v153 main_v154 (addf : (⟨S512x256, .f32⟩ : BufTy).Contents (Elt F) → (⟨S512x256, .f32⟩ : BufTy).Contents (Elt F) → (⟨S512x256, .f32⟩ : BufTy).Contents (Elt F)) ]

/-- The references that stretch writes, in order. -/
abbrev wC2 : List (Ref sig .tc) :=
  [ main_v140, main_v141, main_v142, main_cst_33, main_v143, main_v144, main_v145, main_v146,
    main_v147, main_v148, main_v149, main_v150, main_v151, main_v152, main_v153, main_v154 ]

theorem writes_sub_C2 : (sC2 : List (HloOp τ sig (Elt F))).Forall fun op => op.writes ⊆ ((wC2).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl), single_sub_written (List.mem_of_getElem? (i := 4) rfl), single_sub_written (List.mem_of_getElem? (i := 5) rfl),
    single_sub_written (List.mem_of_getElem? (i := 6) rfl), single_sub_written (List.mem_of_getElem? (i := 7) rfl), single_sub_written (List.mem_of_getElem? (i := 8) rfl),
    single_sub_written (List.mem_of_getElem? (i := 9) rfl), single_sub_written (List.mem_of_getElem? (i := 10) rfl), single_sub_written (List.mem_of_getElem? (i := 11) rfl),
    single_sub_written (List.mem_of_getElem? (i := 12) rfl), single_sub_written (List.mem_of_getElem? (i := 13) rfl), single_sub_written (List.mem_of_getElem? (i := 14) rfl),
    single_sub_written (List.mem_of_getElem? (i := 15) rfl)⟩

/-- A reference that stretch does not write keeps its contents over it. -/
theorem keptC2 (V : Valuation τ sig (Elt F)) {r : Ref sig .tc} (hr : r ∉ wC2) :
    after sC2 V (Proc.devRef .tc r) = V (Proc.devRef .tc r) :=
  after_of_writes_sub sC2 V writes_sub_C2 hr

/-- Layer 2, fourth stretch: the rectifier (a called function's operations over its call's buffers). -/
abbrev sD2 : List (HloOp τ sig (Elt F)) :=
  [ StableHlo.TRef.nullary main_call5.cst (constant S_ .f32 0x00000000#32),
    StableHlo.TRef.unary main_call5.cst main_call5.v0 (broadcastInDim S512x256 ![] bcast_S_S512x256),
    StableHlo.TRef.binary (.of main_v154) main_call5.v0 main_call5.v1 maximumf ]

/-- The references that stretch writes, in order. -/
abbrev wD2 : List (Ref sig .tc) :=
  [ main_call5_cst, main_call5_v0, main_v155 ]

theorem writes_sub_D2 : (sD2 : List (HloOp τ sig (Elt F))).Forall fun op => op.writes ⊆ ((wD2).map (Proc.devRef (τ := τ) .tc)).toFinset :=
  ⟨single_sub_written (List.mem_of_getElem? (i := 0) rfl), single_sub_written (List.mem_of_getElem? (i := 1) rfl), single_sub_written (List.mem_of_getElem? (i := 2) rfl)⟩

/-- A reference that stretch does not write keeps its contents over it. -/
theorem keptD2 (V : Valuation τ sig (Elt F)) {r : Ref sig .tc} (hr : r ∉ wD2) :
    after sD2 V (Proc.devRef .tc r) = V (Proc.devRef .tc r) :=
  after_of_writes_sub sD2 V writes_sub_D2 hr

/-- After the first stretch the linear map's buffer holds the linear map of the neighbour mean and the target rows. -/
theorem A2_h (V : Valuation τ sig (Elt F)) :
    after sA2 V (Proc.devRef .tc main_v135) = (linR2 (aggR2 (V (Proc.devRef .tc main_v103)) (V (Proc.devRef .tc main_arg7)) (V (Proc.devRef .tc main_arg8))) (tgtR2 (V (Proc.devRef .tc main_v103)) (V (Proc.devRef .tc main_arg9))) (V (Proc.devRef .tc main_arg20)) (V (Proc.devRef .tc main_arg21)) (V (Proc.devRef .tc main_arg22))) := by
  after_results_simp
  rfl

/-- After the first stretch the mean's buffer holds the column means of that. -/
theorem A2_m (V : Valuation τ sig (Elt F)) :
    after sA2 V (Proc.devRef .tc main_v138) = ((Host.divf : (⟨S256, .f32⟩ : BufTy).Contents (Elt F) → (⟨S256, .f32⟩ : BufTy).Contents (Elt F) → (⟨S256, .f32⟩ : BufTy).Contents (Elt F)) (((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)) (linR2 (aggR2 (V (Proc.devRef .tc main_v103)) (V (Proc.devRef .tc main_arg7)) (V (Proc.devRef .tc main_arg8))) (tgtR2 (V (Proc.devRef .tc main_v103)) (V (Proc.devRef .tc main_arg9))) (V (Proc.devRef .tc main_arg20)) (V (Proc.devRef .tc main_arg21)) (V (Proc.devRef .tc main_arg22))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) (constant S_ .f32 0x44000000#32 : (⟨S_, .f32⟩ : BufTy).Contents (Elt F)))) := by
  after_results_simp
  rfl

/-- After the first stretch the correction constant's buffer holds zero. -/
theorem A2_c (V : Valuation τ sig (Elt F)) :
    after sA2 V (Proc.devRef .tc main_c_32) = (constantI S_ 32 0#32 : (⟨S_, .i32⟩ : BufTy).Contents (Elt F)) := by
  after_results_simp

attribute [local irreducible] Host.reduceAdd in
set_option maxHeartbeats 2000000 in -- the transports are cleared by unfolding, one per operand of each of the twenty-two operations
/-- After the second stretch the variance's buffer holds the column variances of the linear map's buffer (the transports between a
    typed reference's contents and its buffer's are identities at these literal references). -/
theorem B2_v (V : Valuation τ sig (Elt F)) :
    after sB2 V (Proc.devRef .tc main_v139) = ((fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x44000000#32 : (⟨S_, .f32⟩ : BufTy).Contents (Elt F)) ((sitofp .f32 : (⟨S_, .i32⟩ : BufTy).Contents (Elt F) → (⟨S_, .f32⟩ : BufTy).Contents (Elt F)) (V (Proc.devRef .tc main_c_32)))) (constant S_ .f32 0x00000000#32 : (⟨S_, .f32⟩ : BufTy).Contents (Elt F))) ((Host.divf : (⟨S256, .f32⟩ : BufTy).Contents (Elt F) → (⟨S256, .f32⟩ : BufTy).Contents (Elt F) → (⟨S256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((subf : (⟨S512x256, .f32⟩ : BufTy).Contents (Elt F) → (⟨S512x256, .f32⟩ : BufTy).Contents (Elt F) → (⟨S512x256, .f32⟩ : BufTy).Contents (Elt F)) (V (Proc.devRef .tc main_v135)) ((broadcastInDim S512x256 ![0, 1] bcast_S1x256_S512x256_0_1 : (⟨S1x256, .f32⟩ : BufTy).Contents (Elt F) → (⟨S512x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) (V (Proc.devRef .tc main_v135)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x44000000#32 : (⟨S_, .f32⟩ : BufTy).Contents (Elt F)))))) ((subf : (⟨S512x256, .f32⟩ : BufTy).Contents (Elt F) → (⟨S512x256, .f32⟩ : BufTy).Contents (Elt F) → (⟨S512x256, .f32⟩ : BufTy).Contents (Elt F)) (V (Proc.devRef .tc main_v135)) ((broadcastInDim S512x256 ![0, 1] bcast_S1x256_S512x256_0_1 : (⟨S1x256, .f32⟩ : BufTy).Contents (Elt F) → (⟨S512x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) ((fun x v => Host.reduceAdd x v reducesTo_S512x256_S256_d0 h_S_ : (⟨S512x256, .f32⟩ : BufTy).Contents (Elt F) → (⟨S_, .f32⟩ : BufTy).Contents (Elt F) → (⟨S256, .f32⟩ : BufTy).Contents (Elt F)) (V (Proc.devRef .tc main_v135)) (constant S_ .f32 0x00000000#32 : (⟨S_, .f32⟩ : BufTy).Contents (Elt F)))) ((broadcastInDim S1x256 ![] bcast_S_S1x256 : (⟨S_, .f32⟩ : BufTy).Contents (Elt F) → (⟨S1x256, .f32⟩ : BufTy).Contents (Elt F)) (constant S_ .f32 0x44000000#32 : (⟨S_, .f32⟩ : BufTy).Contents (Elt F))))))) (constant S_ .f32 0x00000000#32 : (⟨S_, .f32⟩ : BufTy).Contents (Elt F))) ((broadcastInDim S256 ![] bcast_S_S256 : (⟨S_, .f32⟩ : BufTy).Contents (Elt F) → (⟨S256, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x44000000#32 : (⟨S_, .f32⟩ : BufTy).Contents (Elt F)) ((sitofp .f32 : (⟨S_, .i32⟩ : BufTy).Contents (Elt F) → (⟨S_, .f32⟩ : BufTy).Contents (Elt F)) (V (Proc.devRef .tc main_c_32)))))) ((broadcastInDim S256 ![] bcast_S_S256 : (⟨S_, .f32⟩ : BufTy).Contents (Elt F) → (⟨S256, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))) := by
  after_results
  rfl

/-- After the third stretch the last buffer holds the normalised, scaled and shifted columns. -/
theorem C2_o (V : Valuation τ sig (Elt F)) :
    after sC2 V (Proc.devRef .tc main_v154) = ((addf : (⟨S512x256, .f32⟩ : BufTy).Contents (Elt F) → (⟨S512x256, .f32⟩ : BufTy).Contents (Elt F) → (⟨S512x256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((mulf : (⟨S512x256, .f32⟩ : BufTy).Contents (Elt F) → (⟨S512x256, .f32⟩ : BufTy).Contents (Elt F) → (⟨S512x256, .f32⟩ : BufTy).Contents (Elt F)) ((subf : (⟨S512x256, .f32⟩ : BufTy).Contents (Elt F) → (⟨S512x256, .f32⟩ : BufTy).Contents (Elt F) → (⟨S512x256, .f32⟩ : BufTy).Contents (Elt F)) (V (Proc.devRef .tc main_v135)) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_v138))))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (V (Proc.devRef .tc main_v139)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)))))))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg23))))) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg24))))) := by
  after_results_simp

/-- After the fourth stretch the layer's result buffer holds the positive part. -/
theorem D2_o (V : Valuation τ sig (Elt F)) :
    after sD2 V (Proc.devRef .tc main_v155) = ((maximumf : (⟨S512x256, .f32⟩ : BufTy).Contents (Elt F) → (⟨S512x256, .f32⟩ : BufTy).Contents (Elt F) → (⟨S512x256, .f32⟩ : BufTy).Contents (Elt F)) (V (Proc.devRef .tc main_v154)) ((broadcastInDim S512x256 ![] bcast_S_S512x256 : (⟨S_, .f32⟩ : BufTy).Contents (Elt F) → (⟨S512x256, .f32⟩ : BufTy).Contents (Elt F)) (constant S_ .f32 0x00000000#32 : (⟨S_, .f32⟩ : BufTy).Contents (Elt F)))) := by
  after_results
  rfl

/-- Layer 2's operations, the four stretches in order. -/
abbrev lay2 : List (HloOp τ sig (Elt F)) := sA2 ++ (sB2 ++ (sC2 ++ sD2))

/-- A reference none of the four stretches writes keeps its contents over the layer. -/
theorem keptL2 (V : Valuation τ sig (Elt F)) {r : Ref sig .tc} (hA : r ∉ wA2) (hB : r ∉ wB2) (hC : r ∉ wC2) (hD : r ∉ wD2) :
    after lay2 V (Proc.devRef .tc r) = V (Proc.devRef .tc r) := by
  show after (sA2 ++ (sB2 ++ (sC2 ++ sD2))) V _ = _
  rw [after_append, after_append, after_append, keptD2 _ hD, keptC2 _ hC, keptB2 _ hB, keptA2 _ hA]

/-- Over the layer, from any contents: the layer's result buffer holds the normalised rectified linear map of the neighbour mean and
    the target rows of the layer's input. -/
theorem L2_out (V : Valuation τ sig (Elt F)) :
    after lay2 V (Proc.devRef .tc main_v155)
      = bnR2 (linR2 (aggR2 (V (Proc.devRef .tc main_v103)) (V (Proc.devRef .tc main_arg7)) (V (Proc.devRef .tc main_arg8))) (tgtR2 (V (Proc.devRef .tc main_v103)) (V (Proc.devRef .tc main_arg9))) (V (Proc.devRef .tc main_arg20)) (V (Proc.devRef .tc main_arg21)) (V (Proc.devRef .tc main_arg22))) (V (Proc.devRef .tc main_arg23)) (V (Proc.devRef .tc main_arg24)) := by
  show after (sA2 ++ (sB2 ++ (sC2 ++ sD2))) V _ = _
  rw [after_append, after_append, after_append, D2_o, C2_o, B2_v,
    keptB2 _ (r := main_v135) (by decide), keptB2 _ (r := main_v138) (by decide), keptB2 _ (r := main_arg23) (by decide), keptB2 _ (r := main_arg24) (by decide),
    A2_h, A2_m, A2_c, keptA2 _ (r := main_arg23) (by decide), keptA2 _ (r := main_arg24) (by decide)]
  rfl

/-! ## The last stretch and the whole line -/

/-- The final linear map's four operations. -/
abbrev sF : List (HloOp τ sig (Elt F)) :=
  [ StableHlo.binary main_v155 main_arg25 main_v156 ((fun l r => Host.dotGeneral dot_S512x256_S256x47_S512x47_1_0_0_1_n_n none l r) : (⟨S512x256, .f32⟩ : BufTy).Contents (Elt F) → (⟨S256x47, .f32⟩ : BufTy).Contents (Elt F) → (⟨S512x47, .f32⟩ : BufTy).Contents (Elt F)),
    StableHlo.unary main_arg26 main_v157 (broadcastInDim S1x47 ![1] bcast_S47_S1x47_1 : (⟨S47, .f32⟩ : BufTy).Contents (Elt F) → (⟨S1x47, .f32⟩ : BufTy).Contents (Elt F)),
    StableHlo.unary main_v157 main_v158 (broadcastInDim S512x47 ![0, 1] bcast_S1x47_S512x47_0_1 : (⟨S1x47, .f32⟩ : BufTy).Contents (Elt F) → (⟨S512x47, .f32⟩ : BufTy).Contents (Elt F)),
    StableHlo.binary main_v156 main_v158 main_v159 (addf : (⟨S512x47, .f32⟩ : BufTy).Contents (Elt F) → (⟨S512x47, .f32⟩ : BufTy).Contents (Elt F) → (⟨S512x47, .f32⟩ : BufTy).Contents (Elt F)) ]

/-- The references that stretch writes, in order. -/
abbrev wF : List (Ref sig .tc) :=
  [ main_v156, main_v157, main_v158, main_v159 ]

theorem writes_sub_F : (sF : List (HloOp τ sig (Elt F))).Forall fun op => op.writes ⊆ ((wF).map (Proc.devRef (τ := τ) .tc)).toFinset :=
  ⟨single_sub_written (List.mem_of_getElem? (i := 0) rfl), single_sub_written (List.mem_of_getElem? (i := 1) rfl), single_sub_written (List.mem_of_getElem? (i := 2) rfl),
    single_sub_written (List.mem_of_getElem? (i := 3) rfl)⟩

/-- A reference that stretch does not write keeps its contents over it. -/
theorem keptF (V : Valuation τ sig (Elt F)) {r : Ref sig .tc} (hr : r ∉ wF) :
    after sF V (Proc.devRef .tc r) = V (Proc.devRef .tc r) :=
  after_of_writes_sub sF V writes_sub_F hr

/-- After the last stretch the result buffer holds the final linear map of the third layer's result. -/
theorem F_o (V : Valuation τ sig (Elt F)) :
    after sF V (Proc.devRef .tc main_v159) = fcR (V (Proc.devRef .tc main_v155)) (V (Proc.devRef .tc main_arg25)) (V (Proc.devRef .tc main_arg26)) := by
  after_results
  rfl

/-- The first layer's result, of the launch contents. -/
def x1 (W : Valuation τ sig (Elt F)) : (⟨S61952x256, .f32⟩ : BufTy).Contents (Elt F) :=
  (bnR0 (linR0 (aggR0 (W (Proc.devRef .tc main_arg0)) (W (Proc.devRef .tc main_arg1)) (W (Proc.devRef .tc main_arg2))) (tgtR0 (W (Proc.devRef .tc main_arg0)) (W (Proc.devRef .tc main_arg3))) (W (Proc.devRef .tc main_arg10)) (W (Proc.devRef .tc main_arg11)) (W (Proc.devRef .tc main_arg12))) (W (Proc.devRef .tc main_arg13)) (W (Proc.devRef .tc main_arg14)))

/-- The second layer's result, of the launch contents. -/
def x2 (W : Valuation τ sig (Elt F)) : (⟨S5632x256, .f32⟩ : BufTy).Contents (Elt F) :=
  (bnR1 (linR1 (aggR1 (x1 W) (W (Proc.devRef .tc main_arg4)) (W (Proc.devRef .tc main_arg5))) (tgtR1 (x1 W) (W (Proc.devRef .tc main_arg6))) (W (Proc.devRef .tc main_arg15)) (W (Proc.devRef .tc main_arg16)) (W (Proc.devRef .tc main_arg17))) (W (Proc.devRef .tc main_arg18)) (W (Proc.devRef .tc main_arg19)))

/-- The third layer's result, of the launch contents. -/
def x3 (W : Valuation τ sig (Elt F)) : (⟨S512x256, .f32⟩ : BufTy).Contents (Elt F) :=
  (bnR2 (linR2 (aggR2 (x2 W) (W (Proc.devRef .tc main_arg7)) (W (Proc.devRef .tc main_arg8))) (tgtR2 (x2 W) (W (Proc.devRef .tc main_arg9))) (W (Proc.devRef .tc main_arg20)) (W (Proc.devRef .tc main_arg21)) (W (Proc.devRef .tc main_arg22))) (W (Proc.devRef .tc main_arg23)) (W (Proc.devRef .tc main_arg24)))

/-- The three layers and the last stretch, run in order from any contents, leave the result buffer at the final linear map of the
    third layer's result: each layer read from the contents the layers before it leave, the arguments unchanged by all. -/
theorem line_eq (W : Valuation τ sig (Elt F)) :
    after (lay0 ++ (lay1 ++ (lay2 ++ sF))) W (Proc.devRef .tc main_v159)
      = fcR (x3 W) (W (Proc.devRef .tc main_arg25)) (W (Proc.devRef .tc main_arg26)) := by
  rw [after_append, after_append, after_append, F_o, L2_out,
    keptL2 _ (r := main_arg25) (by decide) (by decide) (by decide) (by decide),
    keptL2 _ (r := main_arg26) (by decide) (by decide) (by decide) (by decide),
    L1_out,
    keptL1 _ (r := main_arg7) (by decide) (by decide) (by decide) (by decide),
    keptL1 _ (r := main_arg8) (by decide) (by decide) (by decide) (by decide),
    keptL1 _ (r := main_arg9) (by decide) (by decide) (by decide) (by decide),
    keptL1 _ (r := main_arg20) (by decide) (by decide) (by decide) (by decide),
    keptL1 _ (r := main_arg21) (by decide) (by decide) (by decide) (by decide),
    keptL1 _ (r := main_arg22) (by decide) (by decide) (by decide) (by decide),
    keptL1 _ (r := main_arg23) (by decide) (by decide) (by decide) (by decide),
    keptL1 _ (r := main_arg24) (by decide) (by decide) (by decide) (by decide),
    keptL1 _ (r := main_arg25) (by decide) (by decide) (by decide) (by decide),
    keptL1 _ (r := main_arg26) (by decide) (by decide) (by decide) (by decide),
    L0_out,
    keptL0 _ (r := main_arg4) (by decide) (by decide) (by decide) (by decide),
    keptL0 _ (r := main_arg5) (by decide) (by decide) (by decide) (by decide),
    keptL0 _ (r := main_arg6) (by decide) (by decide) (by decide) (by decide),
    keptL0 _ (r := main_arg15) (by decide) (by decide) (by decide) (by decide),
    keptL0 _ (r := main_arg16) (by decide) (by decide) (by decide) (by decide),
    keptL0 _ (r := main_arg17) (by decide) (by decide) (by decide) (by decide),
    keptL0 _ (r := main_arg18) (by decide) (by decide) (by decide) (by decide),
    keptL0 _ (r := main_arg19) (by decide) (by decide) (by decide) (by decide),
    keptL0 _ (r := main_arg7) (by decide) (by decide) (by decide) (by decide),
    keptL0 _ (r := main_arg8) (by decide) (by decide) (by decide) (by decide),
    keptL0 _ (r := main_arg9) (by decide) (by decide) (by decide) (by decide),
    keptL0 _ (r := main_arg20) (by decide) (by decide) (by decide) (by decide),
    keptL0 _ (r := main_arg21) (by decide) (by decide) (by decide) (by decide),
    keptL0 _ (r := main_arg22) (by decide) (by decide) (by decide) (by decide),
    keptL0 _ (r := main_arg23) (by decide) (by decide) (by decide) (by decide),
    keptL0 _ (r := main_arg24) (by decide) (by decide) (by decide) (by decide),
    keptL0 _ (r := main_arg25) (by decide) (by decide) (by decide) (by decide),
    keptL0 _ (r := main_arg26) (by decide) (by decide) (by decide) (by decide)]
  rfl

/-- The reference's whole line of operations is the three layers and the last stretch, in order. -/
theorem ops_split : (RefRun.ops (F := F)) = lay0 ++ (lay1 ++ (lay2 ++ sF)) := rfl

/-- The reference's result, of the launch contents: the final linear map of the third layer's result, each layer the normalised
    rectified linear map of the neighbour mean and the target rows of the layer before. -/
theorem result_eq (W : Valuation τ sig (Elt F)) :
    after (RefRun.ops (F := F)) W (Proc.devRef .tc main_v159)
      = fcR (x3 W) (W (Proc.devRef .tc main_arg25)) (W (Proc.devRef .tc main_arg26)) := by
  rw [ops_split]
  exact line_eq W

end Cert.ReferenceIdeal.RefRead

end
-- ==== Proof.KGlue.lean ====
/-
  The glue stretches of the two programs are the same host operations: the neighbour gather, the two segment sums, the
  clamped count, the division, and the target gather. Read off the kernel program's boundaries, the aggregated rows and the
  target rows of each layer are the reference's glue functions of the layer's input array and of the launched index vectors.
-/
import proofs.«168550_j58342835749309_1_alg».proof.Proof.Gen.KernelIdeal.Frame
import proofs.«168550_j58342835749309_1_alg».proof.Proof.RefRead
import proofs.«168550_j58342835749309_1_alg».proof.Proof.KKept
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 4000000 in
/-- Layer 0's aggregated rows. -/
theorem agg0_eq : W1 m ρ c (Proc.devRef .tc main_v18) = Cert.ReferenceIdeal.RefRead.aggR0 (F := Ideal) (m ((c : Thread nD τ).loc main_arg0)) (m ((c : Thread nD τ).loc main_arg1)) (m ((c : Thread nD τ).loc main_arg2)) := by
  have e : StableHlo.after hostOps0 (W0 m ρ c) (Proc.devRef .tc main_v18)
      = Cert.ReferenceIdeal.RefRead.aggR0 (F := Ideal) (W0 m ρ c (Proc.devRef .tc main_arg0)) (W0 m ρ c (Proc.devRef .tc main_arg1)) (W0 m ρ c (Proc.devRef .tc main_arg2)) := by
    after_results_simp
    rfl
  show StableHlo.after hostOps0 (W0 m ρ c) (Proc.devRef .tc main_v18) = _
  rw [e, (rfl : W0 m ρ c (Proc.devRef .tc main_arg0) = (m ((c : Thread nD τ).loc main_arg0))), (rfl : W0 m ρ c (Proc.devRef .tc main_arg1) = (m ((c : Thread nD τ).loc main_arg1))), (rfl : W0 m ρ c (Proc.devRef .tc main_arg2) = (m ((c : Thread nD τ).loc main_arg2)))]

set_option maxHeartbeats 4000000 in
/-- Layer 0's target rows. -/
theorem tgt0_eq : W1 m ρ c (Proc.devRef .tc main_v25) = Cert.ReferenceIdeal.RefRead.tgtR0 (F := Ideal) (m ((c : Thread nD τ).loc main_arg0)) (m ((c : Thread nD τ).loc main_arg3)) := by
  have e : StableHlo.after hostOps0 (W0 m ρ c) (Proc.devRef .tc main_v25)
      = Cert.ReferenceIdeal.RefRead.tgtR0 (F := Ideal) (W0 m ρ c (Proc.devRef .tc main_arg0)) (W0 m ρ c (Proc.devRef .tc main_arg3)) := by
    after_results_simp
    rfl
  show StableHlo.after hostOps0 (W0 m ρ c) (Proc.devRef .tc main_v25) = _
  rw [e, (rfl : W0 m ρ c (Proc.devRef .tc main_arg0) = (m ((c : Thread nD τ).loc main_arg0))), (rfl : W0 m ρ c (Proc.devRef .tc main_arg3) = (m ((c : Thread nD τ).loc main_arg3)))]

set_option maxHeartbeats 4000000 in
/-- Layer 1's aggregated rows. -/
theorem agg1_eq : W5 m ρ c (Proc.devRef .tc main_v55) = Cert.ReferenceIdeal.RefRead.aggR1 (F := Ideal) (W4 m ρ c (Proc.devRef .tc main_v36)) (m ((c : Thread nD τ).loc main_arg4)) (m ((c : Thread nD τ).loc main_arg5)) := by
  have e : StableHlo.after hostOps2 (W4 m ρ c) (Proc.devRef .tc main_v55)
      = Cert.ReferenceIdeal.RefRead.aggR1 (F := Ideal) (W4 m ρ c (Proc.devRef .tc main_v36)) (W4 m ρ c (Proc.devRef .tc main_arg4)) (W4 m ρ c (Proc.devRef .tc main_arg5)) := by
    after_results_simp
    rfl
  show StableHlo.after hostOps2 (W4 m ρ c) (Proc.devRef .tc main_v55) = _
  rw [e, Cert.KernelIdeal.Kept.w4_main_arg4 m ρ c, Cert.KernelIdeal.Kept.w4_main_arg5 m ρ c]

set_option maxHeartbeats 4000000 in
/-- Layer 1's target rows. -/
theorem tgt1_eq : W5 m ρ c (Proc.devRef .tc main_v62) = Cert.ReferenceIdeal.RefRead.tgtR1 (F := Ideal) (W4 m ρ c (Proc.devRef .tc main_v36)) (m ((c : Thread nD τ).loc main_arg6)) := by
  have e : StableHlo.after hostOps2 (W4 m ρ c) (Proc.devRef .tc main_v62)
      = Cert.ReferenceIdeal.RefRead.tgtR1 (F := Ideal) (W4 m ρ c (Proc.devRef .tc main_v36)) (W4 m ρ c (Proc.devRef .tc main_arg6)) := by
    after_results_simp
    rfl
  show StableHlo.after hostOps2 (W4 m ρ c) (Proc.devRef .tc main_v62) = _
  rw [e, Cert.KernelIdeal.Kept.w4_main_arg6 m ρ c]

set_option maxHeartbeats 4000000 in
/-- Layer 2's aggregated rows. -/
theorem agg2_eq : W9 m ρ c (Proc.devRef .tc main_v92) = Cert.ReferenceIdeal.RefRead.aggR2 (F := Ideal) (W8 m ρ c (Proc.devRef .tc main_v73)) (m ((c : Thread nD τ).loc main_arg7)) (m ((c : Thread nD τ).loc main_arg8)) := by
  have e : StableHlo.after hostOps4 (W8 m ρ c) (Proc.devRef .tc main_v92)
      = Cert.ReferenceIdeal.RefRead.aggR2 (F := Ideal) (W8 m ρ c (Proc.devRef .tc main_v73)) (W8 m ρ c (Proc.devRef .tc main_arg7)) (W8 m ρ c (Proc.devRef .tc main_arg8)) := by
    after_results_simp
    rfl
  show StableHlo.after hostOps4 (W8 m ρ c) (Proc.devRef .tc main_v92) = _
  rw [e, Cert.KernelIdeal.Kept.w8_main_arg7 m ρ c, Cert.KernelIdeal.Kept.w8_main_arg8 m ρ c]

set_option maxHeartbeats 4000000 in
/-- Layer 2's target rows. -/
theorem tgt2_eq : W9 m ρ c (Proc.devRef .tc main_v99) = Cert.ReferenceIdeal.RefRead.tgtR2 (F := Ideal) (W8 m ρ c (Proc.devRef .tc main_v73)) (m ((c : Thread nD τ).loc main_arg9)) := by
  have e : StableHlo.after hostOps4 (W8 m ρ c) (Proc.devRef .tc main_v99)
      = Cert.ReferenceIdeal.RefRead.tgtR2 (F := Ideal) (W8 m ρ c (Proc.devRef .tc main_v73)) (W8 m ρ c (Proc.devRef .tc main_arg9)) := by
    after_results_simp
    rfl
  show StableHlo.after hostOps4 (W8 m ρ c) (Proc.devRef .tc main_v99) = _
  rw [e, Cert.KernelIdeal.Kept.w8_main_arg9 m ρ c]

end Cert.KernelIdeal.Glue

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibRealOps.lean ====
/-
  "Is a real number at every index" is kept by the host's layout operations, a gather and a matrix product.

  A transpose, a shape cast and a gather only re-index their operand: every entry of the result is an entry of
  the operand. Narrowing to a smaller float format is the identity at the ideal values. A host matrix product,
  at the ideal values, is at each output index the finite sum over the contraction index of products of an entry
  of the left operand and an entry of the right one, and finite sums and products of reals are reals.
-/
import Idealize.ShloMosaic.Lib.ValueIdx
import Idealize.ShloMosaic.Lib.Pipeline.Value
import Idealize.ShloMosaic.PureOps.Ideal.Laws
import proofs.«168550_j58342835749309_1_alg».proof.Proof.LibReals
import proofs.«168550_j58342835749309_1_alg».proof.Proof.LibRowGather

noncomputable section

namespace Cert.RealOps

open Idealize.ShloMosaic Cert.Reals
open scoped BigOperators

/-- A transposed real family is real: each entry is the operand's at the permuted index. -/
theorem isReal_transpose {s t : Shape} (perm : List (Fin s.rank)) (x : s.Idx → EReal) (h : s.Transposes perm t)
    (hx : IsReal x) : IsReal (transpose t perm x h) :=
  fun j => hx (h.src j)

/-- A shape-cast real family is real: each entry is the operand's at the index with the same row-major position. -/
theorem isReal_shapeCast {s t : Shape} (x : s.Idx → EReal) (h : s.ShapeCasts t) (hx : IsReal x) :
    IsReal (shapeCast t x h) :=
  fun j => hx (Shape.reshapeEquiv h j)

/-- Narrowing to a smaller float format is the identity at the ideal values, so it keeps a real family real. -/
theorem isReal_truncf {s : Shape} {φ ψ : FTy} (x : FVec Ideal s φ) (h : ψ.bits < φ.bits) (hx : IsReal x) :
    IsReal (truncf ψ x h : FVec Ideal s ψ) :=
  fun i => hx i

/-- A host matrix product of real families is real: at each output index it is a finite sum of products of
    entries of the two operands. -/
theorem isReal_dotGeneral {sl sr so : Shape} {φ₁ φ₂ : FTy} (d : DotDims sl sr so) (prec : Option ContractPrecision)
    (l : FVec Ideal sl φ₁) (r : FVec Ideal sr φ₂) (hl : IsReal l) (hr : IsReal r) :
    IsReal (Host.dotGeneral (F := Ideal) d prec l r) := fun j => by
  show IsRealS (FloatOps.dotGeneral d prec .single l r j)
  rw [Ideal.dotGeneral_apply]
  exact isRealS_sum Finset.univ _ fun k _ => (hl.apply _).mul (hr.apply _)

/-- A gather from a real family is real, whatever the dimension numbers and the index words: each entry is the
    operand's at the index the gather computes. -/
theorem isReal_gather {s si t : Shape} {w : Nat} (d : GatherDims s si t) (x : s.Idx → EReal) (idx : IVec si w)
    (hx : IsReal x) : IsReal (Host.gather d x idx) :=
  fun j => hx (d.operandIdx j idx)

/-- A row gather from a real table [N, C] at start indices [E, 1] is real, for any index words. -/
theorem isReal_rowGather {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : IsReal x) :
    IsReal (Host.gather (RowGather.rowDims N E C wf) x idx) :=
  isReal_gather _ x idx hx

end Cert.RealOps

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibBatchNormHost.lean ====
/-
  Batch normalisation as a host program spells it, read entry by entry at the ideal values, for any extents.

  A host program normalises an [N, C] array h column by column: the column mean is the column's sum (a reduction from
  the zero word) divided by the word of N; the column variance is written in the deviation form — every entry minus the
  broadcast mean, squared, summed from the zero word, divided by (the word of N minus the converted integer degrees of
  freedom, 0), and kept only where that divisor is positive (else a not-a-number word); the entry is then centred at
  the mean, multiplied by the reciprocal square root of the variance plus the epsilon word, by the gain and shifted, and
  clamped below at the zero word. This module writes that program as one term built from the host's operations, generic
  in the extents and in the shape facts each operation carries, and shows that for a real array over N > 0 rows, whose
  row-count word denotes N, the term read at (r, q) is the normalised entry of the specification with the column
  statistics in MOMENT form (mean of the squares minus the squared mean): the deviation form and the moment form of the
  variance of reals agree, the converted integer 0 is 0, and the comparison of N with 0 selects the value branch.
-/
import Idealize.ShloMosaic.Lib.ValueIdx
import Idealize.ShloMosaic.Lib.IdealHost
import Idealize.ShloMosaic.Lib.Pipeline.Value
import Idealize.ShloMosaic.PureOps.Ideal.Laws
import proofs.«168550_j58342835749309_1_alg».proof.Proof.LibReals
import proofs.«168550_j58342835749309_1_alg».proof.Proof.LibRowBroadcast
import proofs.«168550_j58342835749309_1_alg».proof.Proof.LibSageReal

noncomputable section

namespace Cert.Sage.BnHost

open Idealize.ShloMosaic Idealize.ShloMosaic.ValueIdx Cert.Reals Cert.Sage
open scoped BigOperators

/-! ## The program as one term -/

section Term

variable {F : FTy → Type} [FloatOps F] {N C : ℕ}

/-- The column means: the column sums from the zero word, divided by the broadcast row-count word. -/
def hostMean (nW : BitVec 32)
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (h : FVec F ⟨2, ![N, C]⟩ .f32) : FVec F ⟨1, ![C]⟩ .f32 :=
  Host.divf (Host.reduceAdd h (constant ⟨0, ![]⟩ .f32 0x00000000#32) red h0)
    (broadcastInDim ⟨1, ![C]⟩ (![] : Fin 0 → Fin 1) bSC (constant ⟨0, ![]⟩ .f32 nW))

/-- Every entry minus its column's mean, the mean spelled through a row [1, C]: the column sums broadcast to a row,
    divided by the row-count word broadcast to a row, broadcast over the rows. -/
def hostDev (nW : BitVec 32)
    (red : (⟨2, ![N, C]⟩ : Shape).ReducesTo [0] ⟨1, ![C]⟩) (h0 : 0 < (⟨0, ![]⟩ : Shape).numel)
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (h : FVec F ⟨2, ![N, C]⟩ .f32) : FVec F ⟨2, ![N, C]⟩ .f32 :=
  subf h (broadcastInDim ⟨2, ![N, C]⟩ (![0, 1] : Fin 2 → Fin 2) b1N
    (Host.divf
      (broadcastInDim ⟨2, ![1, C]⟩ (![1] : Fin 1 → Fin 2) bC1
        (Host.reduceAdd h (constant ⟨0, ![]⟩ .f32 0x00000000#32) red h0))
      (broadcastInDim ⟨2, ![1, C]⟩ (![] : Fin 0 → Fin 2) bS1 (constant ⟨0, ![]⟩ .f32 nW))))

/-- The divisor of the variance: the row-count word minus the converted integer degrees of freedom. -/
def hostDen (nW : BitVec 32) (ddof : IVec ⟨0, ![]⟩ 32) : FVec F ⟨0, ![]⟩ .f32 :=
  subf (constant ⟨0, ![]⟩ .f32 nW) (sitofp .f32 ddof)

/-- The column variances with `ddof` degrees of freedom, in the deviation form: the sums of the squared deviations
    divided by the broadcast divisor, kept where the divisor is positive, else the not-a-number word. -/
def hostVar (nW : BitVec 32)
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (h : FVec F ⟨2, ![N, C]⟩ .f32) (ddof : IVec ⟨0, ![]⟩ 32) : FVec F ⟨1, ![C]⟩ .f32 :=
  select
    (broadcastInDim ⟨1, ![C]⟩ (![] : Fin 0 → Fin 1) bSC
      (cmpf .ogt (hostDen nW ddof : FVec F ⟨0, ![]⟩ .f32) (constant ⟨0, ![]⟩ .f32 0x00000000#32)))
    (Host.divf
      (Host.reduceAdd (mulf (hostDev nW red h0 bS1 bC1 b1N h) (hostDev nW red h0 bS1 bC1 b1N h))
        (constant ⟨0, ![]⟩ .f32 0x00000000#32) red h0)
      (broadcastInDim ⟨1, ![C]⟩ (![] : Fin 0 → Fin 1) bSC (hostDen nW ddof)))
    (broadcastInDim ⟨1, ![C]⟩ (![] : Fin 0 → Fin 1) bSC (id (constant ⟨0, ![]⟩ .f32 0x7FC00000#32)))

/-- A vector [C] as a row [1, C] and then over the N rows. -/
def hostRows
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (v : FVec F ⟨1, ![C]⟩ .f32) : FVec F ⟨2, ![N, C]⟩ .f32 :=
  broadcastInDim ⟨2, ![N, C]⟩ (![0, 1] : Fin 2 → Fin 2) b1N (broadcastInDim ⟨2, ![1, C]⟩ (![1] : Fin 1 → Fin 2) bC1 v)

/-- The whole normalisation of `h` with gain `g` and shift `be`, clamped below at the zero word: the entry minus the
    mean, times the reciprocal square root of (variance with 0 degrees of freedom plus the epsilon word), times the gain,
    plus the shift, and the maximum with zero. -/
def hostBn (nW : BitVec 32)
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (bSN : (⟨0, ![]⟩ : Shape).BroadcastsInDim ⟨2, ![N, C]⟩ (![] : Fin 0 → Fin 2))
    (h : FVec F ⟨2, ![N, C]⟩ .f32) (g be : FVec F ⟨1, ![C]⟩ .f32) : FVec F ⟨2, ![N, C]⟩ .f32 :=
  maximumf
    (addf
      (mulf
        (mulf (subf h (hostRows bC1 b1N (hostMean nW red h0 bSC h)))
          (hostRows bC1 b1N
            (Host.rsqrt (addf (hostVar nW red h0 bSC bS1 bC1 b1N h (constantI ⟨0, ![]⟩ 32 0#32))
              (broadcastInDim ⟨1, ![C]⟩ (![] : Fin 0 → Fin 1) bSC (constant ⟨0, ![]⟩ .f32 0x3727C5AC#32))))))
        (hostRows bC1 b1N g))
      (hostRows bC1 b1N be))
    (broadcastInDim ⟨2, ![N, C]⟩ (![] : Fin 0 → Fin 2) bSN (constant ⟨0, ![]⟩ .f32 0x00000000#32))

end Term

/-! ## Reading the pieces at an index -/

variable {N C : ℕ}

/-- A shape fact of the host's column reduction gives the one the index-by-index reading needs. -/
theorem reduces_of_reducesTo (red : (⟨2, ![N, C]⟩ : Shape).ReducesTo [0] ⟨1, ![C]⟩) :
    (⟨2, ![N, C]⟩ : Shape).Reduces [0] ⟨1, ![C]⟩ := by
  obtain ⟨a, b⟩ := red
  exact ⟨a, Nat.one_pos, b⟩

/-- The host's sum over the rows of an [N, C] array from an initial scalar, read at column q: the scalar plus the sum
    down the column. -/
theorem hostColSum_apply {φ : FTy} (x : FVec Ideal ⟨2, ![N, C]⟩ φ) (init : (⟨0, ![]⟩ : Shape).Idx → Ideal φ)
    (red : (⟨2, ![N, C]⟩ : Shape).ReducesTo [0] ⟨1, ![C]⟩) (h0 : 0 < (⟨0, ![]⟩ : Shape).numel) (q : Fin C) :
    Host.reduceAdd x init red h0 (ix1 q) = init (Shape.Idx.first h0) + ∑ k : Fin N, x (ix2 k q) :=
  (Ideal.hostReduceAdd_single red (reduces_of_reducesTo red) x _ (ix1 q)).trans
    (congrArg (fun t => init (Shape.Idx.first h0) + t)
      (Finset.sum_congr rfl fun k _ => congrArg x (funext fun ax => Fin.ext (by
        match ax with
        | ⟨0, _⟩ => rfl
        | ⟨1, _⟩ => rfl))))

/-- From the zero word the initial scalar vanishes. -/
theorem hostColSum_zero_apply (x : FVec Ideal ⟨2, ![N, C]⟩ .f32)
    (red : (⟨2, ![N, C]⟩ : Shape).ReducesTo [0] ⟨1, ![C]⟩) (h0 : 0 < (⟨0, ![]⟩ : Shape).numel) (q : Fin C) :
    Host.reduceAdd x (constant ⟨0, ![]⟩ .f32 0x00000000#32) red h0 (ix1 q) = 0 + ∑ k : Fin N, x (ix2 k q) := by
  rw [hostColSum_apply, constant_apply, Ideal.ofBits_zero_f32]

/-- A vector [C] broadcast onto axis 1 of the row [1, C], read at (0, q), is the vector at q. -/
theorem bcast_vec_row_apply {α : Type} (x : (⟨1, ![C]⟩ : Shape).Idx → α)
    (hb : (⟨1, ![C]⟩ : Shape).BroadcastsInDim ⟨2, ![1, C]⟩ (![1] : Fin 1 → Fin 2)) (q : Fin C) :
    broadcastInDim ⟨2, ![1, C]⟩ (![1] : Fin 1 → Fin 2) hb x (ix2 0 q) = x (ix1 q) :=
  broadcastInDim_apply (![1] : Fin 1 → Fin 2) hb x (ix2 0 q) (ix1 q) (fun a => by
    match a with
    | ⟨0, _⟩ =>
      show q.val = if C = 1 then 0 else q.val
      by_cases hC : C = 1
      · rw [if_pos hC]; have := q.isLt; omega
      · rw [if_neg hC])

/-- A vector [C] broadcast to a row and then over the rows of [N, C], read at (r, q), is the vector at q. -/
theorem bcast_vec_rows_apply {α : Type} (x : (⟨1, ![C]⟩ : Shape).Idx → α)
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2)) (r : Fin N) (q : Fin C) :
    broadcastInDim ⟨2, ![N, C]⟩ (![0, 1] : Fin 2 → Fin 2) b1N
      (broadcastInDim ⟨2, ![1, C]⟩ (![1] : Fin 1 → Fin 2) bC1 x) (ix2 r q) = x (ix1 q) := by
  rw [Cert.Lib.RowBroadcast.broadcastInDim_row_apply, bcast_vec_row_apply]

/-- The host's reciprocal square root at an index. -/
theorem hostRsqrt_apply {s : Shape} {φ : FTy} (x : FVec Ideal s φ) (i : s.Idx) :
    Host.rsqrt x i = Ideal.rsqrt (x i) := rfl

/-- The column mean at column q: the ideal quotient of the column's sum by the value of the row-count word. -/
theorem hostMean_apply (nW : BitVec 32)
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (h : FVec Ideal ⟨2, ![N, C]⟩ .f32) (q : Fin C) :
    hostMean nW red h0 bSC h (ix1 q) = Ideal.div (∑ k : Fin N, h (ix2 k q)) (Ideal.ofBits .f32 nW) := by
  unfold hostMean
  rw [hostDivf_apply, hostColSum_zero_apply, zero_add, broadcastInDim_scalar_apply, constant_apply]

/-- The divisor of the variance at 0 degrees of freedom is the number of rows: the converted integer 0 is 0. -/
theorem hostDen_apply (nW : BitVec 32) (hnW : Ideal.ofBits .f32 nW = ((N : ℝ) : EReal)) (j : (⟨0, ![]⟩ : Shape).Idx) :
    (hostDen nW (constantI ⟨0, ![]⟩ 32 0#32) : FVec Ideal ⟨0, ![]⟩ .f32) j = ((N : ℝ) : EReal) := by
  unfold hostDen
  rw [subf_apply, constant_apply, sitofp_apply, hnW]
  show ((N : ℝ) : EReal) - (((0#32 : BitVec 32).toInt : ℝ) : EReal) = ((N : ℝ) : EReal)
  simp

/-- With N > 0 rows the divisor is positive, so the guard's bit is set at every column. -/
theorem hostGuard_apply (hN : 0 < N) (nW : BitVec 32) (hnW : Ideal.ofBits .f32 nW = ((N : ℝ) : EReal))
    (bSC : (⟨0, ![]⟩ : Shape).BroadcastsInDim ⟨1, ![C]⟩ (![] : Fin 0 → Fin 1)) (j : (⟨1, ![C]⟩ : Shape).Idx) :
    broadcastInDim ⟨1, ![C]⟩ (![] : Fin 0 → Fin 1) bSC
      (cmpf .ogt (hostDen nW (constantI ⟨0, ![]⟩ 32 0#32) : FVec Ideal ⟨0, ![]⟩ .f32)
        (constant ⟨0, ![]⟩ .f32 0x00000000#32)) j = 1#1 := by
  rw [broadcastInDim_scalar_apply, cmpf_apply, hostDen_apply nW hnW, constant_apply, Ideal.ofBits_zero_f32]
  have hpos : (0 : EReal) < ((N : ℝ) : EReal) := EReal.coe_pos.mpr (Nat.cast_pos.mpr hN)
  show BitVec.ofBool (decide ((0 : EReal) < ((N : ℝ) : EReal))) = 1#1
  rw [decide_eq_true hpos]
  rfl

/-- The deviation of the entry (k, q) from its column's mean. -/
theorem hostDev_apply (nW : BitVec 32)
    (red : (⟨2, ![N, C]⟩ : Shape).ReducesTo [0] ⟨1, ![C]⟩) (h0 : 0 < (⟨0, ![]⟩ : Shape).numel)
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (h : FVec Ideal ⟨2, ![N, C]⟩ .f32) (k : Fin N) (q : Fin C) :
    hostDev nW red h0 bS1 bC1 b1N h (ix2 k q)
      = h (ix2 k q) - Ideal.div (0 + ∑ j : Fin N, h (ix2 j q)) (Ideal.ofBits .f32 nW) := by
  unfold hostDev
  rw [subf_apply, Cert.Lib.RowBroadcast.broadcastInDim_row_apply, hostDivf_apply, bcast_vec_row_apply,
    hostColSum_zero_apply, broadcastInDim_scalar_apply, constant_apply]

/-- THE VARIANCE: for a real array over N > 0 rows whose row-count word denotes N, the host's guarded deviation-form
    variance with 0 degrees of freedom, read at column q, is the moment-form variance of the column. -/
theorem hostVar_apply (hN : 0 < N) (nW : BitVec 32) (hnW : Ideal.ofBits .f32 nW = ((N : ℝ) : EReal))
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (h : FVec Ideal ⟨2, ![N, C]⟩ .f32) (hh : IsReal h) (q : Fin C) :
    hostVar nW red h0 bSC bS1 bC1 b1N h (constantI ⟨0, ![]⟩ 32 0#32) (ix1 q)
      = momVar h (Ideal.ofBits .f32 nW) (ix2 0 q) := by
  unfold hostVar
  rw [select_apply, hostGuard_apply hN nW hnW bSC, select_one, hostDivf_apply, broadcastInDim_scalar_apply,
    hostDen_apply nW hnW, hostColSum_zero_apply]
  simp only [mulf_apply, hostDev_apply]
  rw [momVar_apply, hnW]
  exact variance_ereal_zero_add_left (fun k : Fin N => h (ix2 k q)) (fun _ => hh _) (by simp)
    (Nat.cast_ne_zero.mpr hN.ne')

/-- THE NORMALISED ENTRY: for a real array `h` over N > 0 rows whose row-count word denotes N, the host's batch
    normalisation read at (r, q) is the specification's normalised entry with the column statistics of `h` in moment
    form, the gain and the shift read as rows. -/
theorem hostBn_apply (hN : 0 < N) (nW : BitVec 32) (hnW : Ideal.ofBits .f32 nW = ((N : ℝ) : EReal))
    (red : (⟨2, ![N, C]⟩ : Shape).ReducesTo [0] ⟨1, ![C]⟩) (h0 : 0 < (⟨0, ![]⟩ : Shape).numel)
    (bSC : (⟨0, ![]⟩ : Shape).BroadcastsInDim ⟨1, ![C]⟩ (![] : Fin 0 → Fin 1))
    (bS1 : (⟨0, ![]⟩ : Shape).BroadcastsInDim ⟨2, ![1, C]⟩ (![] : Fin 0 → Fin 2))
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (bSN : (⟨0, ![]⟩ : Shape).BroadcastsInDim ⟨2, ![N, C]⟩ (![] : Fin 0 → Fin 2))
    (h : FVec Ideal ⟨2, ![N, C]⟩ .f32) (g be : FVec Ideal ⟨1, ![C]⟩ .f32) (hh : IsReal h) (r : Fin N) (q : Fin C) :
    hostBn nW red h0 bSC bS1 bC1 b1N bSN h g be (ix2 r q)
      = bnS h (momMean h (Ideal.ofBits .f32 nW)) (momVar h (Ideal.ofBits .f32 nW))
          (fun i => g (ix1 (i 1))) (fun i => be (ix1 (i 1))) r q := by
  unfold hostBn hostRows bnS
  rw [maximumf_apply, addf_apply, mulf_apply, mulf_apply, subf_apply, bcast_vec_rows_apply, bcast_vec_rows_apply,
    bcast_vec_rows_apply, bcast_vec_rows_apply, hostRsqrt_apply, addf_apply, hostMean_apply,
    hostVar_apply hN nW hnW red h0 bSC bS1 bC1 b1N h hh, broadcastInDim_scalar_apply, broadcastInDim_scalar_apply,
    constant_apply, constant_apply, momMean_apply]
  rfl

end Cert.Sage.BnHost

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«168550_j58342835749309_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibSageHost.lean ====
/-
  The linear part of a GraphSAGE layer and the final affine map as a host program spells them, read entry by entry at
  the ideal values, for any extents.

  A host program writes the linear part of a layer as two plain matrix products (the aggregated rows by the left weights,
  the target rows by the right weights), their sum, and the bias vector broadcast to a row and then over the rows, added;
  the final affine map is one matrix product plus the broadcast bias. At the ideal values a plain matrix product read at
  (r, q) is the finite sum over the contraction index, and the two broadcasts read the vector at q, so each term read at
  (r, q) is the specification's scalar function. The column statistics in moment form depend only on the entries of the
  array, so two arrays that agree at every index have the same statistics.
-/
import Idealize.ShloMosaic.Lib.ValueIdx
import Idealize.ShloMosaic.Lib.IdealHost
import proofs.«168550_j58342835749309_1_alg».proof.Proof.LibRowBlocks
import proofs.«168550_j58342835749309_1_alg».proof.Proof.LibBatchNormHost
import proofs.«168550_j58342835749309_1_alg».proof.Proof.LibSageReal

noncomputable section

namespace Cert.Sage.Host

open Idealize.ShloMosaic Idealize.ShloMosaic.ValueIdx Cert.Sage Cert.Sage.BnHost
open scoped BigOperators

section Term

variable {F : FTy → Type} [FloatOps F] {N K C : ℕ}

/-- The linear part of a layer: the two matrix products, their sum, and the bias broadcast to a row and over the rows. -/
def hostLin (d : DotDims ⟨2, ![N, K]⟩ ⟨2, ![K, C]⟩ ⟨2, ![N, C]⟩) (prec : Option ContractPrecision)
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (a x : FVec F ⟨2, ![N, K]⟩ .f32) (wl wr : FVec F ⟨2, ![K, C]⟩ .f32) (b : FVec F ⟨1, ![C]⟩ .f32) :
    FVec F ⟨2, ![N, C]⟩ .f32 :=
  addf (addf (Host.dotGeneral d prec a wl) (Host.dotGeneral d prec x wr))
    (broadcastInDim ⟨2, ![N, C]⟩ (![0, 1] : Fin 2 → Fin 2) b1N
      (broadcastInDim ⟨2, ![1, C]⟩ (![1] : Fin 1 → Fin 2) bC1 b))

/-- The final affine map: one matrix product plus the bias broadcast to a row and over the rows. -/
def hostFc (d : DotDims ⟨2, ![N, K]⟩ ⟨2, ![K, C]⟩ ⟨2, ![N, C]⟩) (prec : Option ContractPrecision)
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (x : FVec F ⟨2, ![N, K]⟩ .f32) (w : FVec F ⟨2, ![K, C]⟩ .f32) (b : FVec F ⟨1, ![C]⟩ .f32) :
    FVec F ⟨2, ![N, C]⟩ .f32 :=
  addf (Host.dotGeneral d prec x w)
    (broadcastInDim ⟨2, ![N, C]⟩ (![0, 1] : Fin 2 → Fin 2) b1N
      (broadcastInDim ⟨2, ![1, C]⟩ (![1] : Fin 1 → Fin 2) bC1 b))

end Term

variable {N K C : ℕ}

/-- The host's linear part with the plain dimension numbers, read at (r, q), is the specification's linear part, the
    bias read as a row. -/
theorem hostLin_apply (d : DotDims ⟨2, ![N, K]⟩ ⟨2, ![K, C]⟩ ⟨2, ![N, C]⟩) (hd : d = DotDims.plain N K C)
    (prec : Option ContractPrecision)
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (a x : FVec Ideal ⟨2, ![N, K]⟩ .f32) (wl wr : FVec Ideal ⟨2, ![K, C]⟩ .f32) (b : FVec Ideal ⟨1, ![C]⟩ .f32)
    (r : Fin N) (q : Fin C) :
    hostLin d prec bC1 b1N a x wl wr b (ix2 r q) = linS a x wl wr (fun i => b (ix1 (i 1))) r q := by
  subst hd
  unfold hostLin linS
  rw [addf_apply, addf_apply, Cert.Lib.RowBlocks.dotGeneral_plain_apply, Cert.Lib.RowBlocks.dotGeneral_plain_apply,
    bcast_vec_rows_apply]
  rfl

/-- The host's final affine map with the plain dimension numbers, read at (r, q), is the specification's, the bias read
    as a row. -/
theorem hostFc_apply (d : DotDims ⟨2, ![N, K]⟩ ⟨2, ![K, C]⟩ ⟨2, ![N, C]⟩) (hd : d = DotDims.plain N K C)
    (prec : Option ContractPrecision)
    (bC1 : (⟨1, ![C]⟩ : Shape).BroadcastsInDim ⟨2, ![1, C]⟩ (![1] : Fin 1 → Fin 2))
    (b1N : (⟨2, ![1, C]⟩ : Shape).BroadcastsInDim ⟨2, ![N, C]⟩ (![0, 1] : Fin 2 → Fin 2))
    (x : FVec Ideal ⟨2, ![N, K]⟩ .f32) (w : FVec Ideal ⟨2, ![K, C]⟩ .f32) (b : FVec Ideal ⟨1, ![C]⟩ .f32)
    (r : Fin N) (q : Fin C) :
    hostFc d prec bC1 b1N x w b (ix2 r q) = fcS x w (fun i => b (ix1 (i 1))) r q := by
  subst hd
  unfold hostFc fcS
  rw [addf_apply, Cert.Lib.RowBlocks.dotGeneral_plain_apply, bcast_vec_rows_apply]
  rfl

/-! ## The moment statistics depend only on the entries -/

/-- Arrays that agree at every index have the same column means. -/
theorem momMean_congr {h h' : (⟨2, ![N, C]⟩ : Shape).Idx → EReal} (hEq : ∀ i, h i = h' i) (n : EReal) :
    momMean h n = momMean h' n := by
  rw [funext hEq]

/-- Arrays that agree at every index have the same moment-form column variances. -/
theorem momVar_congr {h h' : (⟨2, ![N, C]⟩ : Shape).Idx → EReal} (hEq : ∀ i, h i = h' i) (n : EReal) :
    momVar h n = momVar h' n := by
  rw [funext hEq]

/-- The column mean at column q depends only on column q. -/
theorem momMean_congr_col {h h' : (⟨2, ![N, C]⟩ : Shape).Idx → EReal} (q : Fin C)
    (hEq : ∀ k : Fin N, h (ix2 k q) = h' (ix2 k q)) (n : EReal) :
    momMean h n (ix2 0 q) = momMean h' n (ix2 0 q) := by
  rw [momMean_apply, momMean_apply]
  exact congrArg (fun s => Ideal.div s n) (Finset.sum_congr rfl fun k _ => hEq k)

/-- The moment-form column variance at column q depends only on column q. -/
theorem momVar_congr_col {h h' : (⟨2, ![N, C]⟩ : Shape).Idx → EReal} (q : Fin C)
    (hEq : ∀ k : Fin N, h (ix2 k q) = h' (ix2 k q)) (n : EReal) :
    momVar h n (ix2 0 q) = momVar h' n (ix2 0 q) := by
  rw [momVar_apply, momVar_apply]
  simp only [hEq]

end Cert.Sage.Host

end
-- ==== Proof.RefLayers.lean ====
import proofs.«168550_j58342835749309_1_alg».proof.Proof.RefRead
import proofs.«168550_j58342835749309_1_alg».proof.Proof.Spec
import proofs.«168550_j58342835749309_1_alg».proof.Proof.LibReals
import proofs.«168550_j58342835749309_1_alg».proof.Proof.LibRealOps
import proofs.«168550_j58342835749309_1_alg».proof.Proof.LibSageReal
import proofs.«168550_j58342835749309_1_alg».proof.Proof.LibBatchNormHost
import proofs.«168550_j58342835749309_1_alg».proof.Proof.LibSageHost
import Idealize.ShloMosaic.PureOps.Ideal
import Idealize.ShloMosaic.Lib.ValueIdx

noncomputable section

namespace Cert.ReferenceIdeal.RefLayers

open Cert.ReferenceIdeal Cert.ReferenceIdeal.Gen Idealize.ShloMosaic Idealize.ShloMosaic.ValueIdx
open Cert.Reals Cert.RealOps Cert.Sage Cert.Sage.BnHost Cert.Sage.Host

/-! # The reference's per-layer functions at the ideal values, read index by index

Each layer's linear map is the host's two plain matrix products plus the broadcast bias, and each layer's normalisation and
rectifier is the host's batch normalisation over the layer's rows, both by unfolding; the general readings of those two host
programs then give every entry as the specification's scalar function. The neighbour mean, the gathered rows, the linear map and
the normalisation each keep real arrays real. -/

/-! ## Layer 0 (61952 rows) -/

/-- The layer's linear map is the two plain matrix products, their sum, and the bias broadcast to a row and over the rows. -/
theorem linR0_eq_hostLin (a xt : FVec Ideal S61952x256 .f32) (wl wr : FVec Ideal S256x256 .f32) (b : FVec Ideal S256 .f32) :
    RefRead.linR0 (F := Ideal) a xt wl wr b
      = hostLin dot_S61952x256_S256x256_S61952x256_1_0_0_1_n_n none bcast_S256_S1x256_1 bcast_S1x256_S61952x256_0_1 a xt wl wr b := rfl

/-- Read at row r, column q, it is the specification's linear part, the bias read as a row. -/
theorem linR0_apply (a xt : FVec Ideal S61952x256 .f32) (wl wr : FVec Ideal S256x256 .f32) (b : FVec Ideal S256 .f32)
    (r : Fin 61952) (q : Fin 256) :
    RefRead.linR0 (F := Ideal) a xt wl wr b (ix2 r q) = linS a xt wl wr (fun i => b (ix1 (i 1))) r q := by
  rw [linR0_eq_hostLin]
  exact hostLin_apply _ rfl none _ _ a xt wl wr b r q

/-- The layer's normalisation and rectifier is the host batch normalisation over 61952 rows at the row-count word 0x47720000. -/
theorem bnR0_eq_hostBn (h : FVec Ideal S61952x256 .f32) (g be : FVec Ideal S256 .f32) :
    RefRead.bnR0 (F := Ideal) h g be
      = hostBn 0x47720000#32 reducesTo_S61952x256_S256_d0 h_S_ bcast_S_S256 bcast_S_S1x256 bcast_S256_S1x256_1 bcast_S1x256_S61952x256_0_1 bcast_S_S61952x256 h g be := rfl

/-- Read at row r, column q, for a real array it is the specification's normalised entry at the moment-form column statistics. -/
theorem bnR0_apply (h : FVec Ideal S61952x256 .f32) (g be : FVec Ideal S256 .f32) (hh : IsReal h) (r : Fin 61952) (q : Fin 256) :
    RefRead.bnR0 (F := Ideal) h g be (ix2 r q)
      = bnS h (momMean h (Ideal.ofBits .f32 0x47720000#32)) (momVar h (Ideal.ofBits .f32 0x47720000#32))
          (fun i => g (ix1 (i 1))) (fun i => be (ix1 (i 1))) r q := by
  rw [bnR0_eq_hostBn]
  exact hostBn_apply (by decide) _ ofBits_61952_nat _ _ _ _ _ _ _ h g be hh r q

/-- The neighbour mean of a real array is real. -/
theorem isReal_aggR0 (x : FVec Ideal S681472x256 .f32) (src dst : IVec S619520 32) (hx : IsReal x) :
    IsReal (RefRead.aggR0 (F := Ideal) x src dst) := by
  unfold RefRead.aggR0
  exact isReal_meanAgg _ _ _ _ _ _ _ _ _ _ _ x _ _ _ hx

/-- The gathered target rows of a real array are real. -/
theorem isReal_tgtR0 (x : FVec Ideal S681472x256 .f32) (tlid : IVec S61952 32) (hx : IsReal x) :
    IsReal (RefRead.tgtR0 (F := Ideal) x tlid) := by
  unfold RefRead.tgtR0
  exact isReal_gather _ x _ hx

/-- The linear map of real arrays is real. -/
theorem isReal_linR0 (a xt : FVec Ideal S61952x256 .f32) (wl wr : FVec Ideal S256x256 .f32) (b : FVec Ideal S256 .f32)
    (ha : IsReal a) (hxt : IsReal xt) (hwl : IsReal wl) (hwr : IsReal wr) (hb : IsReal b) :
    IsReal (RefRead.linR0 (F := Ideal) a xt wl wr b) := fun j => by
  have e : RefRead.linR0 (F := Ideal) a xt wl wr b j = linS a xt wl wr (fun i => b (ix1 (i 1))) (j 0) (j 1) :=
    (congrArg (RefRead.linR0 (F := Ideal) a xt wl wr b) (eq_ix2 (n0 := 61952) (n1 := 256) j)).trans
      (linR0_apply a xt wl wr b (j 0) (j 1))
  obtain ⟨v, hv⟩ := isRealS_linS a xt wl wr _ ha hxt hwl hwr (fun i => hb (ix1 (i 1))) (j 0) (j 1)
  exact ⟨v, e.trans hv⟩

/-- The normalisation and rectifier of a real array with real gain and shift is real. -/
theorem isReal_bnR0 (h : FVec Ideal S61952x256 .f32) (g be : FVec Ideal S256 .f32) (hh : IsReal h) (hg : IsReal g) (hbe : IsReal be) :
    IsReal (RefRead.bnR0 (F := Ideal) h g be) := fun j => by
  have e := (congrArg (RefRead.bnR0 (F := Ideal) h g be) (eq_ix2 (n0 := 61952) (n1 := 256) j)).trans
    (bnR0_apply h g be hh (j 0) (j 1))
  obtain ⟨v, hv⟩ := isRealS_bnS_mom (by decide) _ ofBits_61952_nat h _ _ hh (fun i => hg (ix1 (i 1))) (fun i => hbe (ix1 (i 1))) (j 0) (j 1)
  exact ⟨v, e.trans hv⟩

/-! ## Layer 1 (5632 rows) -/

/-- The layer's linear map is the two plain matrix products, their sum, and the bias broadcast to a row and over the rows. -/
theorem linR1_eq_hostLin (a xt : FVec Ideal S5632x256 .f32) (wl wr : FVec Ideal S256x256 .f32) (b : FVec Ideal S256 .f32) :
    RefRead.linR1 (F := Ideal) a xt wl wr b
      = hostLin dot_S5632x256_S256x256_S5632x256_1_0_0_1_n_n none bcast_S256_S1x256_1 bcast_S1x256_S5632x256_0_1 a xt wl wr b := rfl

/-- Read at row r, column q, it is the specification's linear part, the bias read as a row. -/
theorem linR1_apply (a xt : FVec Ideal S5632x256 .f32) (wl wr : FVec Ideal S256x256 .f32) (b : FVec Ideal S256 .f32)
    (r : Fin 5632) (q : Fin 256) :
    RefRead.linR1 (F := Ideal) a xt wl wr b (ix2 r q) = linS a xt wl wr (fun i => b (ix1 (i 1))) r q := by
  rw [linR1_eq_hostLin]
  exact hostLin_apply _ rfl none _ _ a xt wl wr b r q

/-- The layer's normalisation and rectifier is the host batch normalisation over 5632 rows at the row-count word 0x45B00000. -/
theorem bnR1_eq_hostBn (h : FVec Ideal S5632x256 .f32) (g be : FVec Ideal S256 .f32) :
    RefRead.bnR1 (F := Ideal) h g be
      = hostBn 0x45B00000#32 reducesTo_S5632x256_S256_d0 h_S_ bcast_S_S256 bcast_S_S1x256 bcast_S256_S1x256_1 bcast_S1x256_S5632x256_0_1 bcast_S_S5632x256 h g be := rfl

/-- Read at row r, column q, for a real array it is the specification's normalised entry at the moment-form column statistics. -/
theorem bnR1_apply (h : FVec Ideal S5632x256 .f32) (g be : FVec Ideal S256 .f32) (hh : IsReal h) (r : Fin 5632) (q : Fin 256) :
    RefRead.bnR1 (F := Ideal) h g be (ix2 r q)
      = bnS h (momMean h (Ideal.ofBits .f32 0x45B00000#32)) (momVar h (Ideal.ofBits .f32 0x45B00000#32))
          (fun i => g (ix1 (i 1))) (fun i => be (ix1 (i 1))) r q := by
  rw [bnR1_eq_hostBn]
  exact hostBn_apply (by decide) _ ofBits_5632_nat _ _ _ _ _ _ _ h g be hh r q

/-- The neighbour mean of a real array is real. -/
theorem isReal_aggR1 (x : FVec Ideal S61952x256 .f32) (src dst : IVec S56320 32) (hx : IsReal x) :
    IsReal (RefRead.aggR1 (F := Ideal) x src dst) := by
  unfold RefRead.aggR1
  exact isReal_meanAgg _ _ _ _ _ _ _ _ _ _ _ x _ _ _ hx

/-- The gathered target rows of a real array are real. -/
theorem isReal_tgtR1 (x : FVec Ideal S61952x256 .f32) (tlid : IVec S5632 32) (hx : IsReal x) :
    IsReal (RefRead.tgtR1 (F := Ideal) x tlid) := by
  unfold RefRead.tgtR1
  exact isReal_gather _ x _ hx

/-- The linear map of real arrays is real. -/
theorem isReal_linR1 (a xt : FVec Ideal S5632x256 .f32) (wl wr : FVec Ideal S256x256 .f32) (b : FVec Ideal S256 .f32)
    (ha : IsReal a) (hxt : IsReal xt) (hwl : IsReal wl) (hwr : IsReal wr) (hb : IsReal b) :
    IsReal (RefRead.linR1 (F := Ideal) a xt wl wr b) := fun j => by
  have e : RefRead.linR1 (F := Ideal) a xt wl wr b j = linS a xt wl wr (fun i => b (ix1 (i 1))) (j 0) (j 1) :=
    (congrArg (RefRead.linR1 (F := Ideal) a xt wl wr b) (eq_ix2 (n0 := 5632) (n1 := 256) j)).trans
      (linR1_apply a xt wl wr b (j 0) (j 1))
  obtain ⟨v, hv⟩ := isRealS_linS a xt wl wr _ ha hxt hwl hwr (fun i => hb (ix1 (i 1))) (j 0) (j 1)
  exact ⟨v, e.trans hv⟩

/-- The normalisation and rectifier of a real array with real gain and shift is real. -/
theorem isReal_bnR1 (h : FVec Ideal S5632x256 .f32) (g be : FVec Ideal S256 .f32) (hh : IsReal h) (hg : IsReal g) (hbe : IsReal be) :
    IsReal (RefRead.bnR1 (F := Ideal) h g be) := fun j => by
  have e := (congrArg (RefRead.bnR1 (F := Ideal) h g be) (eq_ix2 (n0 := 5632) (n1 := 256) j)).trans
    (bnR1_apply h g be hh (j 0) (j 1))
  obtain ⟨v, hv⟩ := isRealS_bnS_mom (by decide) _ ofBits_5632_nat h _ _ hh (fun i => hg (ix1 (i 1))) (fun i => hbe (ix1 (i 1))) (j 0) (j 1)
  exact ⟨v, e.trans hv⟩

/-! ## Layer 2 (512 rows) -/

/-- The layer's linear map is the two plain matrix products, their sum, and the bias broadcast to a row and over the rows. -/
theorem linR2_eq_hostLin (a xt : FVec Ideal S512x256 .f32) (wl wr : FVec Ideal S256x256 .f32) (b : FVec Ideal S256 .f32) :
    RefRead.linR2 (F := Ideal) a xt wl wr b
      = hostLin dot_S512x256_S256x256_S512x256_1_0_0_1_n_n none bcast_S256_S1x256_1 bcast_S1x256_S512x256_0_1 a xt wl wr b := rfl

/-- Read at row r, column q, it is the specification's linear part, the bias read as a row. -/
theorem linR2_apply (a xt : FVec Ideal S512x256 .f32) (wl wr : FVec Ideal S256x256 .f32) (b : FVec Ideal S256 .f32)
    (r : Fin 512) (q : Fin 256) :
    RefRead.linR2 (F := Ideal) a xt wl wr b (ix2 r q) = linS a xt wl wr (fun i => b (ix1 (i 1))) r q := by
  rw [linR2_eq_hostLin]
  exact hostLin_apply _ rfl none _ _ a xt wl wr b r q

/-- The layer's normalisation and rectifier is the host batch normalisation over 512 rows at the row-count word 0x44000000. -/
theorem bnR2_eq_hostBn (h : FVec Ideal S512x256 .f32) (g be : FVec Ideal S256 .f32) :
    RefRead.bnR2 (F := Ideal) h g be
      = hostBn 0x44000000#32 reducesTo_S512x256_S256_d0 h_S_ bcast_S_S256 bcast_S_S1x256 bcast_S256_S1x256_1 bcast_S1x256_S512x256_0_1 bcast_S_S512x256 h g be := rfl

/-- Read at row r, column q, for a real array it is the specification's normalised entry at the moment-form column statistics. -/
theorem bnR2_apply (h : FVec Ideal S512x256 .f32) (g be : FVec Ideal S256 .f32) (hh : IsReal h) (r : Fin 512) (q : Fin 256) :
    RefRead.bnR2 (F := Ideal) h g be (ix2 r q)
      = bnS h (momMean h (Ideal.ofBits .f32 0x44000000#32)) (momVar h (Ideal.ofBits .f32 0x44000000#32))
          (fun i => g (ix1 (i 1))) (fun i => be (ix1 (i 1))) r q := by
  rw [bnR2_eq_hostBn]
  exact hostBn_apply (by decide) _ ofBits_512_nat _ _ _ _ _ _ _ h g be hh r q

/-- The neighbour mean of a real array is real. -/
theorem isReal_aggR2 (x : FVec Ideal S5632x256 .f32) (src dst : IVec S5120 32) (hx : IsReal x) :
    IsReal (RefRead.aggR2 (F := Ideal) x src dst) := by
  unfold RefRead.aggR2
  exact isReal_meanAgg _ _ _ _ _ _ _ _ _ _ _ x _ _ _ hx

/-- The gathered target rows of a real array are real. -/
theorem isReal_tgtR2 (x : FVec Ideal S5632x256 .f32) (tlid : IVec S512 32) (hx : IsReal x) :
    IsReal (RefRead.tgtR2 (F := Ideal) x tlid) := by
  unfold RefRead.tgtR2
  exact isReal_gather _ x _ hx

/-- The linear map of real arrays is real. -/
theorem isReal_linR2 (a xt : FVec Ideal S512x256 .f32) (wl wr : FVec Ideal S256x256 .f32) (b : FVec Ideal S256 .f32)
    (ha : IsReal a) (hxt : IsReal xt) (hwl : IsReal wl) (hwr : IsReal wr) (hb : IsReal b) :
    IsReal (RefRead.linR2 (F := Ideal) a xt wl wr b) := fun j => by
  have e : RefRead.linR2 (F := Ideal) a xt wl wr b j = linS a xt wl wr (fun i => b (ix1 (i 1))) (j 0) (j 1) :=
    (congrArg (RefRead.linR2 (F := Ideal) a xt wl wr b) (eq_ix2 (n0 := 512) (n1 := 256) j)).trans
      (linR2_apply a xt wl wr b (j 0) (j 1))
  obtain ⟨v, hv⟩ := isRealS_linS a xt wl wr _ ha hxt hwl hwr (fun i => hb (ix1 (i 1))) (j 0) (j 1)
  exact ⟨v, e.trans hv⟩

/-- The normalisation and rectifier of a real array with real gain and shift is real. -/
theorem isReal_bnR2 (h : FVec Ideal S512x256 .f32) (g be : FVec Ideal S256 .f32) (hh : IsReal h) (hg : IsReal g) (hbe : IsReal be) :
    IsReal (RefRead.bnR2 (F := Ideal) h g be) := fun j => by
  have e := (congrArg (RefRead.bnR2 (F := Ideal) h g be) (eq_ix2 (n0 := 512) (n1 := 256) j)).trans
    (bnR2_apply h g be hh (j 0) (j 1))
  obtain ⟨v, hv⟩ := isRealS_bnS_mom (by decide) _ ofBits_512_nat h _ _ hh (fun i => hg (ix1 (i 1))) (fun i => hbe (ix1 (i 1))) (j 0) (j 1)
  exact ⟨v, e.trans hv⟩

/-! ## The final linear map -/

/-- The final linear map is one plain matrix product plus the bias broadcast to a row and over the rows. -/
theorem fcR_eq_hostFc (x : FVec Ideal S512x256 .f32) (w : FVec Ideal S256x47 .f32) (b : FVec Ideal S47 .f32) :
    RefRead.fcR (F := Ideal) x w b
      = hostFc dot_S512x256_S256x47_S512x47_1_0_0_1_n_n none bcast_S47_S1x47_1 bcast_S1x47_S512x47_0_1 x w b := rfl

/-- Read at row r, column q, it is the specification's final affine map, the bias read as a row. -/
theorem fcR_apply (x : FVec Ideal S512x256 .f32) (w : FVec Ideal S256x47 .f32) (b : FVec Ideal S47 .f32) (r : Fin 512) (q : Fin 47) :
    RefRead.fcR (F := Ideal) x w b (ix2 r q) = fcS x w (fun i => b (ix1 (i 1))) r q := by
  rw [fcR_eq_hostFc]
  exact hostFc_apply _ rfl none _ _ x w b r q

end Cert.ReferenceIdeal.RefLayers

end
-- ==== Proof.PreReal.lean ====
/-
  Finiteness of the float arguments, read off the precondition.

  The precondition is one bit: for each float argument, "every entry's absolute value is below the word of plus
  infinity", all these bits joined by "and".  At the ideal values the word of plus infinity is the top of the extended
  reals and the absolute value of x is max x (−x), so an entry whose bit is set is neither top nor bottom: it is a real
  number.  A reduction by "and" over all axes that comes out 1 had a 1 at every entry, and a conjunction of bits that is
  1 has every bit 1.  So under the precondition every entry of every float argument is a real.
-/
import proofs.«168550_j58342835749309_1_alg».proof.Defs
import proofs.«168550_j58342835749309_1_alg».proof.Proof.LibReals
import proofs.«168550_j58342835749309_1_alg».proof.Proof.LibRowBroadcast
import Idealize.ShloMosaic.Lib.ReduceAll
import Idealize.ShloMosaic.Lib.ValueIdx

set_option maxRecDepth 16384

noncomputable section

namespace Cert.KernelIdeal.PreReal

open Idealize.ShloMosaic Idealize.ShloMosaic.ValueIdx

/-- The word of plus infinity denotes the top of the extended reals. -/
theorem inf_word : (Ideal.ofBits .f32 0x7F800000#32 : EReal) = ⊤ := by
  simp [Ideal.ofBits, Ideal.ieee]

/-- An extended real whose absolute value compares below the word of plus infinity is a real number. -/
theorem abs_below_inf_isReal (x : EReal)
    (h : Ideal.cmp .olt (max x (-x)) (Ideal.ofBits .f32 0x7F800000#32) = 1#1) : Cert.Reals.IsRealS x := by
  rw [inf_word] at h
  have hlt : max x (-x) < ⊤ := by
    by_contra hn
    simp [Ideal.cmp, hn] at h
  refine Cert.Reals.isRealS_of_ne (fun e => ?_) (fun e => ?_)
  · subst e; simp at hlt
  · subst e; simp at hlt

instance : Subsingleton (⟨0, ![]⟩ : Shape).Idx := ⟨fun a b => funext fun d => d.elim0⟩

/-- An array of any shape whose "every absolute value is below plus infinity" bit is 1 has only real entries: the
    reduction by "and" over all axes gives the bit of each entry, the scalar word broadcast reads the same word at every
    index, and the comparison at an entry is the comparison of extended reals. -/
theorem all_below_inf_isReal {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x)
        (broadcastInDim s (![] : Fin 0 → Fin s.rank) hb (constant (F := Ideal) ⟨0, ![]⟩ .f32 0x7F800000#32))) init hr hu ix0 = 1#1) :
    Cert.Reals.IsReal x := by
  intro i
  have h := Host.reduce_andi_all _ init hr hu ix0 e i
  rw [cmpf_apply, Cert.Lib.RowBroadcast.broadcastInDim_scalar_apply _ hb i ix0] at h
  exact abs_below_inf_isReal (x i) h

/-- Under the precondition every entry of each of the eighteen float arguments is a real number. -/
theorem pre_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Reals.IsReal (m ((c.tc : Thread Cert.KernelIdeal.nD Cert.KernelIdeal.τ).loc Cert.KernelIdeal.main_arg0))
      ∧ Cert.Reals.IsReal (m ((c.tc : Thread Cert.KernelIdeal.nD Cert.KernelIdeal.τ).loc Cert.KernelIdeal.main_arg10))
      ∧ Cert.Reals.IsReal (m ((c.tc : Thread Cert.KernelIdeal.nD Cert.KernelIdeal.τ).loc Cert.KernelIdeal.main_arg11))
      ∧ Cert.Reals.IsReal (m ((c.tc : Thread Cert.KernelIdeal.nD Cert.KernelIdeal.τ).loc Cert.KernelIdeal.main_arg12))
      ∧ Cert.Reals.IsReal (m ((c.tc : Thread Cert.KernelIdeal.nD Cert.KernelIdeal.τ).loc Cert.KernelIdeal.main_arg13))
      ∧ Cert.Reals.IsReal (m ((c.tc : Thread Cert.KernelIdeal.nD Cert.KernelIdeal.τ).loc Cert.KernelIdeal.main_arg14))
      ∧ Cert.Reals.IsReal (m ((c.tc : Thread Cert.KernelIdeal.nD Cert.KernelIdeal.τ).loc Cert.KernelIdeal.main_arg15))
      ∧ Cert.Reals.IsReal (m ((c.tc : Thread Cert.KernelIdeal.nD Cert.KernelIdeal.τ).loc Cert.KernelIdeal.main_arg16))
      ∧ Cert.Reals.IsReal (m ((c.tc : Thread Cert.KernelIdeal.nD Cert.KernelIdeal.τ).loc Cert.KernelIdeal.main_arg17))
      ∧ Cert.Reals.IsReal (m ((c.tc : Thread Cert.KernelIdeal.nD Cert.KernelIdeal.τ).loc Cert.KernelIdeal.main_arg18))
      ∧ Cert.Reals.IsReal (m ((c.tc : Thread Cert.KernelIdeal.nD Cert.KernelIdeal.τ).loc Cert.KernelIdeal.main_arg19))
      ∧ Cert.Reals.IsReal (m ((c.tc : Thread Cert.KernelIdeal.nD Cert.KernelIdeal.τ).loc Cert.KernelIdeal.main_arg20))
      ∧ Cert.Reals.IsReal (m ((c.tc : Thread Cert.KernelIdeal.nD Cert.KernelIdeal.τ).loc Cert.KernelIdeal.main_arg21))
      ∧ Cert.Reals.IsReal (m ((c.tc : Thread Cert.KernelIdeal.nD Cert.KernelIdeal.τ).loc Cert.KernelIdeal.main_arg22))
      ∧ Cert.Reals.IsReal (m ((c.tc : Thread Cert.KernelIdeal.nD Cert.KernelIdeal.τ).loc Cert.KernelIdeal.main_arg23))
      ∧ Cert.Reals.IsReal (m ((c.tc : Thread Cert.KernelIdeal.nD Cert.KernelIdeal.τ).loc Cert.KernelIdeal.main_arg24))
      ∧ Cert.Reals.IsReal (m ((c.tc : Thread Cert.KernelIdeal.nD Cert.KernelIdeal.τ).loc Cert.KernelIdeal.main_arg25))
      ∧ Cert.Reals.IsReal (m ((c.tc : Thread Cert.KernelIdeal.nD Cert.KernelIdeal.τ).loc Cert.KernelIdeal.main_arg26)) := by
  have e := congrFun (hpre c) ix0
  unfold Cert.Pre_finite_inputs.fn at e
  unfold Cert.Pre_finite_inputs.fn_part1 at e
  unfold Cert.Pre_finite_inputs.fn_part2 at e
  unfold Cert.Pre_finite_inputs.fn_part3 at e
  unfold Cert.Pre_finite_inputs.fn_part4 at e
  unfold Cert.Pre_finite_inputs.fn_part5 at e
  simp only [andi, IntOp.andi_eq_one] at e
  obtain ⟨⟨⟨⟨⟨⟨⟨⟨⟨⟨⟨⟨⟨⟨⟨⟨⟨h0, h10⟩, h11⟩, h12⟩, h13⟩, h14⟩, h15⟩, h16⟩, h17⟩, h18⟩, h19⟩, h20⟩, h21⟩, h22⟩, h23⟩, h24⟩, h25⟩, h26⟩ := e
  exact ⟨all_below_inf_isReal _ _ _ _ _ h0,
    all_below_inf_isReal _ _ _ _ _ h10,
    all_below_inf_isReal _ _ _ _ _ h11,
    all_below_inf_isReal _ _ _ _ _ h12,
    all_below_inf_isReal _ _ _ _ _ h13,
    all_below_inf_isReal _ _ _ _ _ h14,
    all_below_inf_isReal _ _ _ _ _ h15,
    all_below_inf_isReal _ _ _ _ _ h16,
    all_below_inf_isReal _ _ _ _ _ h17,
    all_below_inf_isReal _ _ _ _ _ h18,
    all_below_inf_isReal _ _ _ _ _ h19,
    all_below_inf_isReal _ _ _ _ _ h20,
    all_below_inf_isReal _ _ _ _ _ h21,
    all_below_inf_isReal _ _ _ _ _ h22,
    all_below_inf_isReal _ _ _ _ _ h23,
    all_below_inf_isReal _ _ _ _ _ h24,
    all_below_inf_isReal _ _ _ _ _ h25,
    all_below_inf_isReal _ _ _ _ _ h26⟩

end Cert.KernelIdeal.PreReal

end
-- ==== Proof.Assemble.lean ====
/-
  The two idealized programs compute one function. Layer by layer: the kernel program's layer output, read off its boundaries
  as the normalised linear part with the moment statistics, equals the reference's layer function of the same input array,
  because the glue stretches are the same operations, the linear parts are the same sums, and on real entries the variance
  as a mean of squared deviations is the mean of squares minus the squared mean; each layer's output is again real (the
  variance is not negative and the epsilon is positive), which is what the next layer's identity needs. The final affine map
  is the same sum on both sides.
-/
import proofs.«168550_j58342835749309_1_alg».proof.Defs
import proofs.«168550_j58342835749309_1_alg».proof.Proof.KRun
import proofs.«168550_j58342835749309_1_alg».proof.Proof.KLayer0
import proofs.«168550_j58342835749309_1_alg».proof.Proof.KLayer1
import proofs.«168550_j58342835749309_1_alg».proof.Proof.KLayer2
import proofs.«168550_j58342835749309_1_alg».proof.Proof.KFc
import proofs.«168550_j58342835749309_1_alg».proof.Proof.KGlue
import proofs.«168550_j58342835749309_1_alg».proof.Proof.RefRun
import proofs.«168550_j58342835749309_1_alg».proof.Proof.RefRead
import proofs.«168550_j58342835749309_1_alg».proof.Proof.RefLayers
import proofs.«168550_j58342835749309_1_alg».proof.Proof.PreReal
import proofs.«168550_j58342835749309_1_alg».proof.Proof.LibSageReal
import Idealize.ShloMosaic.PureOps.Ideal

set_option maxRecDepth 16384

noncomputable section

namespace Cert.Proof.Assemble

open Idealize.ShloMosaic Idealize.ShloMosaic.TcCoe Idealize.SL.Sem Idealize.ShloMosaic.ValueIdx
open Cert.Reals Cert.Sage

/-- Float and index array contents at the ideal values. -/
abbrev CF (S : Shape) := (⟨S, .f32⟩ : BufTy).Contents (Elt Ideal)
abbrev CI (S : Shape) := (⟨S, .i32⟩ : BufTy).Contents (Elt Ideal)

/-- One layer of the reference as a function of its input array, index vectors and parameters. -/
def lay0 (x : CF Cert.ReferenceIdeal.S681472x256) (s d : CI Cert.ReferenceIdeal.S619520) (t : CI Cert.ReferenceIdeal.S61952) (wl wr : CF Cert.ReferenceIdeal.S256x256) (b g be : CF Cert.ReferenceIdeal.S256) :
    CF Cert.ReferenceIdeal.S61952x256 :=
  Cert.ReferenceIdeal.RefRead.bnR0 (F := Ideal) (Cert.ReferenceIdeal.RefRead.linR0 (F := Ideal) (Cert.ReferenceIdeal.RefRead.aggR0 (F := Ideal) x s d) (Cert.ReferenceIdeal.RefRead.tgtR0 (F := Ideal) x t) wl wr b) g be

def lay1 (x : CF Cert.ReferenceIdeal.S61952x256) (s d : CI Cert.ReferenceIdeal.S56320) (t : CI Cert.ReferenceIdeal.S5632) (wl wr : CF Cert.ReferenceIdeal.S256x256) (b g be : CF Cert.ReferenceIdeal.S256) :
    CF Cert.ReferenceIdeal.S5632x256 :=
  Cert.ReferenceIdeal.RefRead.bnR1 (F := Ideal) (Cert.ReferenceIdeal.RefRead.linR1 (F := Ideal) (Cert.ReferenceIdeal.RefRead.aggR1 (F := Ideal) x s d) (Cert.ReferenceIdeal.RefRead.tgtR1 (F := Ideal) x t) wl wr b) g be

def lay2 (x : CF Cert.ReferenceIdeal.S5632x256) (s d : CI Cert.ReferenceIdeal.S5120) (t : CI Cert.ReferenceIdeal.S512) (wl wr : CF Cert.ReferenceIdeal.S256x256) (b g be : CF Cert.ReferenceIdeal.S256) :
    CF Cert.ReferenceIdeal.S512x256 :=
  Cert.ReferenceIdeal.RefRead.bnR2 (F := Ideal) (Cert.ReferenceIdeal.RefRead.linR2 (F := Ideal) (Cert.ReferenceIdeal.RefRead.aggR2 (F := Ideal) x s d) (Cert.ReferenceIdeal.RefRead.tgtR2 (F := Ideal) x t) wl wr b) g be

/-- A layer's output is real when its input array and parameters are. -/
theorem isReal_lay0 (x : CF Cert.ReferenceIdeal.S681472x256) (s d : CI Cert.ReferenceIdeal.S619520) (t : CI Cert.ReferenceIdeal.S61952) (wl wr : CF Cert.ReferenceIdeal.S256x256) (b g be : CF Cert.ReferenceIdeal.S256)
    (hx : IsReal x) (hwl : IsReal wl) (hwr : IsReal wr) (hb : IsReal b) (hg : IsReal g) (hbe : IsReal be) : IsReal (lay0 x s d t wl wr b g be) :=
  Cert.ReferenceIdeal.RefLayers.isReal_bnR0 _ g be
    (Cert.ReferenceIdeal.RefLayers.isReal_linR0 _ _ wl wr b (Cert.ReferenceIdeal.RefLayers.isReal_aggR0 x s d hx) (Cert.ReferenceIdeal.RefLayers.isReal_tgtR0 x t hx) hwl hwr hb) hg hbe

/-- A layer's output is real when its input array and parameters are. -/
theorem isReal_lay1 (x : CF Cert.ReferenceIdeal.S61952x256) (s d : CI Cert.ReferenceIdeal.S56320) (t : CI Cert.ReferenceIdeal.S5632) (wl wr : CF Cert.ReferenceIdeal.S256x256) (b g be : CF Cert.ReferenceIdeal.S256)
    (hx : IsReal x) (hwl : IsReal wl) (hwr : IsReal wr) (hb : IsReal b) (hg : IsReal g) (hbe : IsReal be) : IsReal (lay1 x s d t wl wr b g be) :=
  Cert.ReferenceIdeal.RefLayers.isReal_bnR1 _ g be
    (Cert.ReferenceIdeal.RefLayers.isReal_linR1 _ _ wl wr b (Cert.ReferenceIdeal.RefLayers.isReal_aggR1 x s d hx) (Cert.ReferenceIdeal.RefLayers.isReal_tgtR1 x t hx) hwl hwr hb) hg hbe

/-- A layer's output is real when its input array and parameters are. -/
theorem isReal_lay2 (x : CF Cert.ReferenceIdeal.S5632x256) (s d : CI Cert.ReferenceIdeal.S5120) (t : CI Cert.ReferenceIdeal.S512) (wl wr : CF Cert.ReferenceIdeal.S256x256) (b g be : CF Cert.ReferenceIdeal.S256)
    (hx : IsReal x) (hwl : IsReal wl) (hwr : IsReal wr) (hb : IsReal b) (hg : IsReal g) (hbe : IsReal be) : IsReal (lay2 x s d t wl wr b g be) :=
  Cert.ReferenceIdeal.RefLayers.isReal_bnR2 _ g be
    (Cert.ReferenceIdeal.RefLayers.isReal_linR2 _ _ wl wr b (Cert.ReferenceIdeal.RefLayers.isReal_aggR2 x s d hx) (Cert.ReferenceIdeal.RefLayers.isReal_tgtR2 x t hx) hwl hwr hb) hg hbe

section Kernel
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Layer 0 of the kernel program is the reference's layer function of the layer's input array. -/
theorem layer0_eq (x : CF Cert.ReferenceIdeal.S681472x256) (hx : ((m ((c : Thread Cert.KernelIdeal.nD Cert.KernelIdeal.τ).loc Cert.KernelIdeal.main_arg0)) : CF Cert.ReferenceIdeal.S681472x256) = x) (hxr : IsReal x)
    (hwl : IsReal (m ((c : Thread Cert.KernelIdeal.nD Cert.KernelIdeal.τ).loc Cert.KernelIdeal.main_arg10))) (hwr : IsReal (m ((c : Thread Cert.KernelIdeal.nD Cert.KernelIdeal.τ).loc Cert.KernelIdeal.main_arg11))) (hb : IsReal (m ((c : Thread Cert.KernelIdeal.nD Cert.KernelIdeal.τ).loc Cert.KernelIdeal.main_arg12))) :
    (Cert.KernelIdeal.Gen.W4 m ρ c (Proc.devRef .tc Cert.KernelIdeal.main_v36) : CF Cert.ReferenceIdeal.S61952x256)
      = lay0 x (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  have hH : Cert.KernelIdeal.Layer0.Hk m ρ c = Cert.ReferenceIdeal.RefRead.linR0 (F := Ideal) (Cert.ReferenceIdeal.RefRead.aggR0 (F := Ideal) x (m ((c : Thread Cert.KernelIdeal.nD Cert.KernelIdeal.τ).loc Cert.KernelIdeal.main_arg1)) (m ((c : Thread Cert.KernelIdeal.nD Cert.KernelIdeal.τ).loc Cert.KernelIdeal.main_arg2)))
      (Cert.ReferenceIdeal.RefRead.tgtR0 (F := Ideal) x (m ((c : Thread Cert.KernelIdeal.nD Cert.KernelIdeal.τ).loc Cert.KernelIdeal.main_arg3))) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
    funext i
    obtain ⟨r, q, rfl⟩ : ∃ (r : Fin 61952) (q : Fin 256), i = ix2 r q := ⟨i 0, i 1, eq_ix2 i⟩
    rw [Cert.KernelIdeal.Layer0.Hk_apply m ρ c r q, Cert.KernelIdeal.Glue.agg0_eq m ρ c, Cert.KernelIdeal.Glue.tgt0_eq m ρ c, hx, Cert.ReferenceIdeal.RefLayers.linR0_apply]
  have hhr : IsReal (Cert.ReferenceIdeal.RefRead.linR0 (F := Ideal) (Cert.ReferenceIdeal.RefRead.aggR0 (F := Ideal) x (m ((c : Thread Cert.KernelIdeal.nD Cert.KernelIdeal.τ).loc Cert.KernelIdeal.main_arg1)) (m ((c : Thread Cert.KernelIdeal.nD Cert.KernelIdeal.τ).loc Cert.KernelIdeal.main_arg2)))
      (Cert.ReferenceIdeal.RefRead.tgtR0 (F := Ideal) x (m ((c : Thread Cert.KernelIdeal.nD Cert.KernelIdeal.τ).loc Cert.KernelIdeal.main_arg3))) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))) :=
    Cert.ReferenceIdeal.RefLayers.isReal_linR0 _ _ _ _ _ (Cert.ReferenceIdeal.RefLayers.isReal_aggR0 x _ _ hxr) (Cert.ReferenceIdeal.RefLayers.isReal_tgtR0 x _ hxr) hwl hwr hb
  funext i
  obtain ⟨r, q, rfl⟩ : ∃ (r : Fin 61952) (q : Fin 256), i = ix2 r q := ⟨i 0, i 1, eq_ix2 i⟩
  rw [Cert.KernelIdeal.Layer0.out_apply m ρ c r q, hH]
  unfold lay0
  rw [Cert.ReferenceIdeal.RefLayers.bnR0_apply _ _ _ hhr r q]

/-- Layer 1 of the kernel program is the reference's layer function of the layer's input array. -/
theorem layer1_eq (x : CF Cert.ReferenceIdeal.S61952x256) (hx : ((Cert.KernelIdeal.Gen.W4 m ρ c (Proc.devRef .tc Cert.KernelIdeal.main_v36)) : CF Cert.ReferenceIdeal.S61952x256) = x) (hxr : IsReal x)
    (hwl : IsReal (m ((c : Thread Cert.KernelIdeal.nD Cert.KernelIdeal.τ).loc Cert.KernelIdeal.main_arg15))) (hwr : IsReal (m ((c : Thread Cert.KernelIdeal.nD Cert.KernelIdeal.τ).loc Cert.KernelIdeal.main_arg16))) (hb : IsReal (m ((c : Thread Cert.KernelIdeal.nD Cert.KernelIdeal.τ).loc Cert.KernelIdeal.main_arg17))) :
    (Cert.KernelIdeal.Gen.W8 m ρ c (Proc.devRef .tc Cert.KernelIdeal.main_v73) : CF Cert.ReferenceIdeal.S5632x256)
      = lay1 x (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) := by
  have hH : Cert.KernelIdeal.Layer1.Hk m ρ c = Cert.ReferenceIdeal.RefRead.linR1 (F := Ideal) (Cert.ReferenceIdeal.RefRead.aggR1 (F := Ideal) x (m ((c : Thread Cert.KernelIdeal.nD Cert.KernelIdeal.τ).loc Cert.KernelIdeal.main_arg4)) (m ((c : Thread Cert.KernelIdeal.nD Cert.KernelIdeal.τ).loc Cert.KernelIdeal.main_arg5)))
      (Cert.ReferenceIdeal.RefRead.tgtR1 (F := Ideal) x (m ((c : Thread Cert.KernelIdeal.nD Cert.KernelIdeal.τ).loc Cert.KernelIdeal.main_arg6))) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) := by
    funext i
    obtain ⟨r, q, rfl⟩ : ∃ (r : Fin 5632) (q : Fin 256), i = ix2 r q := ⟨i 0, i 1, eq_ix2 i⟩
    rw [Cert.KernelIdeal.Layer1.Hk_apply m ρ c r q, Cert.KernelIdeal.Glue.agg1_eq m ρ c, Cert.KernelIdeal.Glue.tgt1_eq m ρ c, hx, Cert.ReferenceIdeal.RefLayers.linR1_apply]
  have hhr : IsReal (Cert.ReferenceIdeal.RefRead.linR1 (F := Ideal) (Cert.ReferenceIdeal.RefRead.aggR1 (F := Ideal) x (m ((c : Thread Cert.KernelIdeal.nD Cert.KernelIdeal.τ).loc Cert.KernelIdeal.main_arg4)) (m ((c : Thread Cert.KernelIdeal.nD Cert.KernelIdeal.τ).loc Cert.KernelIdeal.main_arg5)))
      (Cert.ReferenceIdeal.RefRead.tgtR1 (F := Ideal) x (m ((c : Thread Cert.KernelIdeal.nD Cert.KernelIdeal.τ).loc Cert.KernelIdeal.main_arg6))) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17))) :=
    Cert.ReferenceIdeal.RefLayers.isReal_linR1 _ _ _ _ _ (Cert.ReferenceIdeal.RefLayers.isReal_aggR1 x _ _ hxr) (Cert.ReferenceIdeal.RefLayers.isReal_tgtR1 x _ hxr) hwl hwr hb
  funext i
  obtain ⟨r, q, rfl⟩ : ∃ (r : Fin 5632) (q : Fin 256), i = ix2 r q := ⟨i 0, i 1, eq_ix2 i⟩
  rw [Cert.KernelIdeal.Layer1.out_apply m ρ c r q, hH]
  unfold lay1
  rw [Cert.ReferenceIdeal.RefLayers.bnR1_apply _ _ _ hhr r q]

/-- Layer 2 of the kernel program is the reference's layer function of the layer's input array. -/
theorem layer2_eq (x : CF Cert.ReferenceIdeal.S5632x256) (hx : ((Cert.KernelIdeal.Gen.W8 m ρ c (Proc.devRef .tc Cert.KernelIdeal.main_v73)) : CF Cert.ReferenceIdeal.S5632x256) = x) (hxr : IsReal x)
    (hwl : IsReal (m ((c : Thread Cert.KernelIdeal.nD Cert.KernelIdeal.τ).loc Cert.KernelIdeal.main_arg20))) (hwr : IsReal (m ((c : Thread Cert.KernelIdeal.nD Cert.KernelIdeal.τ).loc Cert.KernelIdeal.main_arg21))) (hb : IsReal (m ((c : Thread Cert.KernelIdeal.nD Cert.KernelIdeal.τ).loc Cert.KernelIdeal.main_arg22))) :
    (Cert.KernelIdeal.Gen.W12 m ρ c (Proc.devRef .tc Cert.KernelIdeal.main_v110) : CF Cert.ReferenceIdeal.S512x256)
      = lay2 x (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)) := by
  have hH : Cert.KernelIdeal.Layer2.Hk m ρ c = Cert.ReferenceIdeal.RefRead.linR2 (F := Ideal) (Cert.ReferenceIdeal.RefRead.aggR2 (F := Ideal) x (m ((c : Thread Cert.KernelIdeal.nD Cert.KernelIdeal.τ).loc Cert.KernelIdeal.main_arg7)) (m ((c : Thread Cert.KernelIdeal.nD Cert.KernelIdeal.τ).loc Cert.KernelIdeal.main_arg8)))
      (Cert.ReferenceIdeal.RefRead.tgtR2 (F := Ideal) x (m ((c : Thread Cert.KernelIdeal.nD Cert.KernelIdeal.τ).loc Cert.KernelIdeal.main_arg9))) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) := by
    funext i
    obtain ⟨r, q, rfl⟩ : ∃ (r : Fin 512) (q : Fin 256), i = ix2 r q := ⟨i 0, i 1, eq_ix2 i⟩
    rw [Cert.KernelIdeal.Layer2.Hk_apply m ρ c r q, Cert.KernelIdeal.Glue.agg2_eq m ρ c, Cert.KernelIdeal.Glue.tgt2_eq m ρ c, hx, Cert.ReferenceIdeal.RefLayers.linR2_apply]
  have hhr : IsReal (Cert.ReferenceIdeal.RefRead.linR2 (F := Ideal) (Cert.ReferenceIdeal.RefRead.aggR2 (F := Ideal) x (m ((c : Thread Cert.KernelIdeal.nD Cert.KernelIdeal.τ).loc Cert.KernelIdeal.main_arg7)) (m ((c : Thread Cert.KernelIdeal.nD Cert.KernelIdeal.τ).loc Cert.KernelIdeal.main_arg8)))
      (Cert.ReferenceIdeal.RefRead.tgtR2 (F := Ideal) x (m ((c : Thread Cert.KernelIdeal.nD Cert.KernelIdeal.τ).loc Cert.KernelIdeal.main_arg9))) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22))) :=
    Cert.ReferenceIdeal.RefLayers.isReal_linR2 _ _ _ _ _ (Cert.ReferenceIdeal.RefLayers.isReal_aggR2 x _ _ hxr) (Cert.ReferenceIdeal.RefLayers.isReal_tgtR2 x _ hxr) hwl hwr hb
  funext i
  obtain ⟨r, q, rfl⟩ : ∃ (r : Fin 512) (q : Fin 256), i = ix2 r q := ⟨i 0, i 1, eq_ix2 i⟩
  rw [Cert.KernelIdeal.Layer2.out_apply m ρ c r q, hH]
  unfold lay2
  rw [Cert.ReferenceIdeal.RefLayers.bnR2_apply _ _ _ hhr r q]

/-- THE KERNEL PROGRAM'S RESULT is the reference's composition of its three layers and final affine map, of the launched
    arrays, when the launched float arrays are real. -/
theorem result_eq (hr : IsReal (m ((c : Thread Cert.KernelIdeal.nD Cert.KernelIdeal.τ).loc Cert.KernelIdeal.main_arg0)) ∧ IsReal (m ((c : Thread Cert.KernelIdeal.nD Cert.KernelIdeal.τ).loc Cert.KernelIdeal.main_arg10)) ∧ IsReal (m ((c : Thread Cert.KernelIdeal.nD Cert.KernelIdeal.τ).loc Cert.KernelIdeal.main_arg11)) ∧ IsReal (m ((c : Thread Cert.KernelIdeal.nD Cert.KernelIdeal.τ).loc Cert.KernelIdeal.main_arg12)) ∧ IsReal (m ((c : Thread Cert.KernelIdeal.nD Cert.KernelIdeal.τ).loc Cert.KernelIdeal.main_arg13)) ∧ IsReal (m ((c : Thread Cert.KernelIdeal.nD Cert.KernelIdeal.τ).loc Cert.KernelIdeal.main_arg14)) ∧ IsReal (m ((c : Thread Cert.KernelIdeal.nD Cert.KernelIdeal.τ).loc Cert.KernelIdeal.main_arg15)) ∧ IsReal (m ((c : Thread Cert.KernelIdeal.nD Cert.KernelIdeal.τ).loc Cert.KernelIdeal.main_arg16)) ∧ IsReal (m ((c : Thread Cert.KernelIdeal.nD Cert.KernelIdeal.τ).loc Cert.KernelIdeal.main_arg17)) ∧ IsReal (m ((c : Thread Cert.KernelIdeal.nD Cert.KernelIdeal.τ).loc Cert.KernelIdeal.main_arg18)) ∧ IsReal (m ((c : Thread Cert.KernelIdeal.nD Cert.KernelIdeal.τ).loc Cert.KernelIdeal.main_arg19)) ∧ IsReal (m ((c : Thread Cert.KernelIdeal.nD Cert.KernelIdeal.τ).loc Cert.KernelIdeal.main_arg20)) ∧ IsReal (m ((c : Thread Cert.KernelIdeal.nD Cert.KernelIdeal.τ).loc Cert.KernelIdeal.main_arg21)) ∧ IsReal (m ((c : Thread Cert.KernelIdeal.nD Cert.KernelIdeal.τ).loc Cert.KernelIdeal.main_arg22)) ∧ IsReal (m ((c : Thread Cert.KernelIdeal.nD Cert.KernelIdeal.τ).loc Cert.KernelIdeal.main_arg23)) ∧ IsReal (m ((c : Thread Cert.KernelIdeal.nD Cert.KernelIdeal.τ).loc Cert.KernelIdeal.main_arg24)) ∧ IsReal (m ((c : Thread Cert.KernelIdeal.nD Cert.KernelIdeal.τ).loc Cert.KernelIdeal.main_arg25)) ∧ IsReal (m ((c : Thread Cert.KernelIdeal.nD Cert.KernelIdeal.τ).loc Cert.KernelIdeal.main_arg26))) :
    (Cert.KernelIdeal.Gen.W14 m ρ c (Proc.devRef .tc Cert.KernelIdeal.main_v112) : CF Cert.ReferenceIdeal.S512x47)
      = Cert.ReferenceIdeal.RefRead.fcR (F := Ideal)
          (lay2 (lay1 (lay0 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)))
              (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)))
            (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)))
          (m ((c : Thread Cert.KernelIdeal.nD Cert.KernelIdeal.τ).loc Cert.KernelIdeal.main_arg25)) (m ((c : Thread Cert.KernelIdeal.nD Cert.KernelIdeal.τ).loc Cert.KernelIdeal.main_arg26)) := by
  obtain ⟨h0, h10, h11, h12, h13, h14, h15, h16, h17, h18, h19, h20, h21, h22, h23, h24, h25, h26⟩ := hr
  have e1 := layer0_eq m ρ c _ rfl h0 h10 h11 h12
  have r1 := isReal_lay0 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) h0 h10 h11 h12 h13 h14
  have e2 := layer1_eq m ρ c _ e1 r1 h15 h16 h17
  have r2 := isReal_lay1 _ (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) r1 h15 h16 h17 h18 h19
  have e3 := layer2_eq m ρ c _ e2 r2 h20 h21 h22
  funext i
  obtain ⟨r, q, rfl⟩ : ∃ (r : Fin 512) (q : Fin 47), i = ix2 r q := ⟨i 0, i 1, eq_ix2 i⟩
  rw [Cert.KernelIdeal.FcChain.out_apply m ρ c r q, e3, Cert.ReferenceIdeal.RefLayers.fcR_apply]

end Kernel

end Cert.Proof.Assemble

end
-- ==== Proof.lean ====
/-
  The certificate of a three-layer GraphSAGE network with batch normalisation and a final affine map, the kernel program
  against its reference, at the ideal values.

  Each layer takes the mean of sampled neighbours' rows (a gather, two segment sums, a division by the clamped count), adds
  the aggregated rows times one weight matrix to the target rows times another and a bias, normalises every column by its
  batch mean and variance, rescales, shifts and clamps at zero. The kernel program computes the linear part on blocks of 512
  rows on the matrix unit, accumulating the column sums of it and of its squares across the grid, takes mean = sum / n and
  variance = sum of squares / n − mean² on the host, and normalises in a second kernel; the reference computes the arithmetic mean
  and the variance as the mean of squared deviations. The two agree entry by entry on the extended reals because every entry of
  the linear part is a real number when the inputs are: sums over blocks are re-associations of one sum, and on reals the
  two variance formulas are one. Realness is carried from layer to layer (a variance is not negative, the epsilon is
  positive, so the inverse square root is a real).

  The three frames are the generated frame certificates (the reference's is its run with the result dropped); the
  kernel program and its idealization differ by no rewrite, so the preservation claim is the true proposition.
-/
import proofs.«168550_j58342835749309_1_alg».proof.Defs
import proofs.«168550_j58342835749309_1_alg».proof.Proof.Gen.Kernel
import proofs.«168550_j58342835749309_1_alg».proof.Proof.Gen.Kernel.Frame
import proofs.«168550_j58342835749309_1_alg».proof.Proof.Gen.KernelIdeal
import proofs.«168550_j58342835749309_1_alg».proof.Proof.Gen.KernelIdeal.Frame
import proofs.«168550_j58342835749309_1_alg».proof.Proof.Gen.ReferenceIdeal
import proofs.«168550_j58342835749309_1_alg».proof.Proof.Gen.Pre_finite_inputs
import proofs.«168550_j58342835749309_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The reference's result is the composition of its three layer functions and its final affine map, of its launched arrays. -/
theorem ref_result (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.RefRun.ops (F := Ideal)) (StableHlo.launchContents m' c) (Proc.devRef .tc Cert.ReferenceIdeal.main_v159)
      = Cert.ReferenceIdeal.RefRead.fcR (F := Ideal)
      (Assemble.lay2 (Assemble.lay1 (Assemble.lay0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)))
        (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)))
      (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) :=
  (Cert.ReferenceIdeal.RefRead.result_eq (F := Ideal) _).trans rfl

theorem algebraic : Cert.algebraic_KernelIdeal_ReferenceIdeal := by
  intro m ρ m' ρ' hpre hagree
  refine ⟨fun c => Cert.ReferenceIdeal.RefRead.fcR (F := Ideal)
      (Assemble.lay2 (Assemble.lay1 (Assemble.lay0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)))
      (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run Cert.KernelIdeal.defs _ _).mono (fun r h c =>
      ⟨(h c).1.trans (Assemble.result_eq m ρ c (Cert.KernelIdeal.PreReal.pre_real m hpre c)), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20, h21, h22, h23, h24, h25, h26⟩ := hagree c
    rw [ref_result m' c, h0, h1, h2, h3, h4, h5, h6, h7, h8, h9, h10, h11, h12, h13, h14, h15, h16, h17, h18, h19, h20, h21, h22, h23, h24, h25, h26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
